-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v96)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v96) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v133) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x50176 : Shape := ⟨2, ![256, 50176]⟩
abbrev S1024x50176 : Shape := ⟨2, ![1024, 50176]⟩
abbrev S1024x200704 : Shape := ⟨2, ![1024, 200704]⟩
abbrev S1024 : Shape := ⟨1, ![1024]⟩
abbrev S128x1024 : Shape := ⟨2, ![128, 1024]⟩
abbrev S128x4096 : Shape := ⟨2, ![128, 4096]⟩
abbrev S128 : Shape := ⟨1, ![128]⟩
abbrev S2x128 : Shape := ⟨2, ![2, 128]⟩
abbrev S2 : Shape := ⟨1, ![2]⟩
abbrev S_ : Shape := ⟨0, ![]⟩

class Facts : Prop where
  bcast_S_S256x50176 : S_.BroadcastsInDim S256x50176 (![] : Fin 0 → Fin S256x50176.rank)
  reducesTo_S256x50176_S_d0_1 : S256x50176.ReducesTo [0, 1] S_
  h_S_ : 0 < S_.numel
  bcast_S_S1024x50176 : S_.BroadcastsInDim S1024x50176 (![] : Fin 0 → Fin S1024x50176.rank)
  reducesTo_S1024x50176_S_d0_1 : S1024x50176.ReducesTo [0, 1] S_
  bcast_S_S1024x200704 : S_.BroadcastsInDim S1024x200704 (![] : Fin 0 → Fin S1024x200704.rank)
  reducesTo_S1024x200704_S_d0_1 : S1024x200704.ReducesTo [0, 1] S_
  bcast_S_S1024 : S_.BroadcastsInDim S1024 (![] : Fin 0 → Fin S1024.rank)
  reducesTo_S1024_S_d0 : S1024.ReducesTo [0] S_
  bcast_S_S128x1024 : S_.BroadcastsInDim S128x1024 (![] : Fin 0 → Fin S128x1024.rank)
  reducesTo_S128x1024_S_d0_1 : S128x1024.ReducesTo [0, 1] S_
  bcast_S_S128x4096 : S_.BroadcastsInDim S128x4096 (![] : Fin 0 → Fin S128x4096.rank)
  reducesTo_S128x4096_S_d0_1 : S128x4096.ReducesTo [0, 1] S_
  bcast_S_S128 : S_.BroadcastsInDim S128 (![] : Fin 0 → Fin S128.rank)
  reducesTo_S128_S_d0 : S128.ReducesTo [0] S_
  bcast_S_S2x128 : S_.BroadcastsInDim S2x128 (![] : Fin 0 → Fin S2x128.rank)
  reducesTo_S2x128_S_d0_1 : S2x128.ReducesTo [0, 1] S_
  bcast_S_S2 : S_.BroadcastsInDim S2 (![] : Fin 0 → Fin S2.rank)
  reducesTo_S2_S_d0 : S2.ReducesTo [0] S_

variable [Facts]

def fn_part3 {F : FTy → Type} [FloatOps F] (main_v48 : IVec S_ 1) (main_v49 : FVec F S2 .f32) (main_v50 : FVec F S2 .f32) : IVec S_ 1 :=
  let main_v51 : IVec S2 1 := cmpf .olt main_v49 main_v50
  let main_c_19 : IVec S_ 1 := constantI S_ 1 1#1
  let main_v52 : IVec S_ 1 := (fun x v => Host.reduce IntOp.andi x v reducesTo_S2_S_d0 h_S_) main_v51 main_c_19
  let main_v53 : IVec S_ 1 := andi main_v48 main_v52
  main_v53

def fn_part2 {F : FTy → Type} [FloatOps F] (main_arg7 : FVec F S128 .f32) (main_arg8 : FVec F S128 .f32) (main_arg9 : FVec F S2x128 .f32) (main_arg10 : FVec F S2 .f32) (main_v33 : IVec S_ 1) : IVec S_ 1 :=
  let main_v34 : FVec F S128 .f32 := Host.absf main_arg7
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128 .f32 := Host.absf main_arg8
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S2x128 .f32 := Host.absf main_arg9
  let main_cst_16 : FVec F S_ .f32 := constant S_ .f32 0x7F800000#32
  let main_v45 : FVec F S2x128 .f32 := broadcastInDim S2x128 ![] bcast_S_S2x128 main_cst_16
  let main_v46 : IVec S2x128 1 := cmpf .olt main_v44 main_v45
  let main_c_17 : IVec S_ 1 := constantI S_ 1 1#1
  let main_v47 : IVec S_ 1 := (fun x v => Host.reduce IntOp.andi x v reducesTo_S2x128_S_d0_1 h_S_) main_v46 main_c_17
  let main_v48 : IVec S_ 1 := andi main_v43 main_v47
  let main_v49 : FVec F S2 .f32 := Host.absf main_arg10
  let main_cst_18 : FVec F S_ .f32 := constant S_ .f32 0x7F800000#32
  let main_v50 : FVec F S2 .f32 := broadcastInDim S2 ![] bcast_S_S2 main_cst_18
  fn_part3 (F := F) main_v48 main_v49 main_v50

def fn_part1 {F : FTy → Type} [FloatOps F] (main_arg4 : FVec F S1024 .f32) (main_arg5 : FVec F S128x1024 .f32) (main_arg6 : FVec F S128x4096 .f32) (main_arg7 : FVec F S128 .f32) (main_arg8 : FVec F S128 .f32) (main_arg9 : FVec F S2x128 .f32) (main_arg10 : FVec F S2 .f32) (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S128x1024 .f32 := Host.absf main_arg5
  let main_cst_8 : FVec F S_ .f32 := constant S_ .f32 0x7F800000#32
  let main_v25 : FVec F S128x1024 .f32 := broadcastInDim S128x1024 ![] bcast_S_S128x1024 main_cst_8
  let main_v26 : IVec S128x1024 1 := cmpf .olt main_v24 main_v25
  let main_c_9 : IVec S_ 1 := constantI S_ 1 1#1
  let main_v27 : IVec S_ 1 := (fun x v => Host.reduce IntOp.andi x v reducesTo_S128x1024_S_d0_1 h_S_) main_v26 main_c_9
  let main_v28 : IVec S_ 1 := andi main_v23 main_v27
  let main_v29 : FVec F S128x4096 .f32 := Host.absf main_arg6
  let main_cst_10 : FVec F S_ .f32 := constant S_ .f32 0x7F800000#32
  let main_v30 : FVec F S128x4096 .f32 := broadcastInDim S128x4096 ![] bcast_S_S128x4096 main_cst_10
  let main_v31 : IVec S128x4096 1 := cmpf .olt main_v29 main_v30
  let main_c_11 : IVec S_ 1 := constantI S_ 1 1#1
  let main_v32 : IVec S_ 1 := (fun x v => Host.reduce IntOp.andi x v reducesTo_S128x4096_S_d0_1 h_S_) main_v31 main_c_11
  let main_v33 : IVec S_ 1 := andi main_v28 main_v32
  fn_part2 (F := F) main_arg7 main_arg8 main_arg9 main_arg10 main_v33

def fn {F : FTy → Type} [FloatOps F] (main_arg0 : FVec F S256x50176 .f32) (main_arg1 : FVec F S1024x50176 .f32) (main_arg2 : FVec F S1024x200704 .f32) (main_arg3 : FVec F S1024 .f32) (main_arg4 : FVec F S1024 .f32) (main_arg5 : FVec F S128x1024 .f32) (main_arg6 : FVec F S128x4096 .f32) (main_arg7 : FVec F S128 .f32) (main_arg8 : FVec F S128 .f32) (main_arg9 : FVec F S2x128 .f32) (main_arg10 : FVec F S2 .f32) : IVec S_ 1 :=
  let main_v0 : FVec F S256x50176 .f32 := Host.absf main_arg0
  let main_cst : FVec F S_ .f32 := constant S_ .f32 0x7F800000#32
  let main_v1 : FVec F S256x50176 .f32 := broadcastInDim S256x50176 ![] bcast_S_S256x50176 main_cst
  let main_v2 : IVec S256x50176 1 := cmpf .olt main_v0 main_v1
  let main_c : IVec S_ 1 := constantI S_ 1 1#1
  let main_v3 : IVec S_ 1 := (fun x v => Host.reduce IntOp.andi x v reducesTo_S256x50176_S_d0_1 h_S_) main_v2 main_c
  let main_v4 : FVec F S1024x50176 .f32 := Host.absf main_arg1
  let main_cst_0 : FVec F S_ .f32 := constant S_ .f32 0x7F800000#32
  let main_v5 : FVec F S1024x50176 .f32 := broadcastInDim S1024x50176 ![] bcast_S_S1024x50176 main_cst_0
  let main_v6 : IVec S1024x50176 1 := cmpf .olt main_v4 main_v5
  let main_c_1 : IVec S_ 1 := constantI S_ 1 1#1
  let main_v7 : IVec S_ 1 := (fun x v => Host.reduce IntOp.andi x v reducesTo_S1024x50176_S_d0_1 h_S_) main_v6 main_c_1
  let main_v8 : IVec S_ 1 := andi main_v3 main_v7
  let main_v9 : FVec F S1024x200704 .f32 := Host.absf main_arg2
  let main_cst_2 : FVec F S_ .f32 := constant S_ .f32 0x7F800000#32
  let main_v10 : FVec F S1024x200704 .f32 := broadcastInDim S1024x200704 ![] bcast_S_S1024x200704 main_cst_2
  let main_v11 : IVec S1024x200704 1 := cmpf .olt main_v9 main_v10
  let main_c_3 : IVec S_ 1 := constantI S_ 1 1#1
  let main_v12 : IVec S_ 1 := (fun x v => Host.reduce IntOp.andi x v reducesTo_S1024x200704_S_d0_1 h_S_) main_v11 main_c_3
  let main_v13 : IVec S_ 1 := andi main_v8 main_v12
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_arg4 main_arg5 main_arg6 main_arg7 main_arg8 main_arg9 main_arg10 main_v13 main_v16
-- ==== Kernel.lean ====
abbrev S256x50176 : Shape := ⟨2, ![256, 50176]⟩
abbrev S1024x50176 : Shape := ⟨2, ![1024, 50176]⟩
abbrev S1024x200704 : Shape := ⟨2, ![1024, 200704]⟩
abbrev S1024 : Shape := ⟨1, ![1024]⟩
abbrev S128x1024 : Shape := ⟨2, ![128, 1024]⟩
abbrev S128x4096 : Shape := ⟨2, ![128, 4096]⟩
abbrev S128 : Shape := ⟨1, ![128]⟩
abbrev S2x128 : Shape := ⟨2, ![2, 128]⟩
abbrev S2 : Shape := ⟨1, ![2]⟩
abbrev S_ : Shape := ⟨0, ![]⟩
abbrev S256x50176x1 : Shape := ⟨3, ![256, 50176, 1]⟩
abbrev S256x50176x4 : Shape := ⟨3, ![256, 50176, 4]⟩
abbrev S256x200704 : Shape := ⟨2, ![256, 200704]⟩
abbrev S256x1024 : Shape := ⟨2, ![256, 1024]⟩
abbrev S256x512 : Shape := ⟨2, ![256, 512]⟩
abbrev S256x2048 : Shape := ⟨2, ![256, 2048]⟩
abbrev S512x512 : Shape := ⟨2, ![512, 512]⟩
abbrev S512x2048 : Shape := ⟨2, ![512, 2048]⟩
abbrev S256 : Shape := ⟨1, ![256]⟩
abbrev S256x1 : Shape := ⟨2, ![256, 1]⟩
abbrev S1x1024 : Shape := ⟨2, ![1, 1024]⟩
abbrev S256x1024x1 : Shape := ⟨3, ![256, 1024, 1]⟩
abbrev S256x1024x4 : Shape := ⟨3, ![256, 1024, 4]⟩
abbrev S256x4096 : Shape := ⟨2, ![256, 4096]⟩
abbrev S256x2 : Shape := ⟨2, ![256, 2]⟩
abbrev S256x128 : Shape := ⟨2, ![256, 128]⟩
abbrev S1x128 : Shape := ⟨2, ![1, 128]⟩
abbrev S1x2 : Shape := ⟨2, ![1, 2]⟩

abbrev nBuf : Space → Nat
  | .hbm => 143
  | .vmem => 20
  | .smem => 0
  | _ => 0

abbrev hbmTy0_0 (i : Nat) : BufTy := match i % 128 with
  | 0 => ⟨S256x50176, .f32⟩
  | 1 => ⟨S1024x50176, .f32⟩
  | 2 => ⟨S1024x200704, .f32⟩
  | 3 => ⟨S1024, .f32⟩
  | 4 => ⟨S1024, .f32⟩
  | 5 => ⟨S128x1024, .f32⟩
  | 6 => ⟨S128x4096, .f32⟩
  | 7 => ⟨S128, .f32⟩
  | 8 => ⟨S128, .f32⟩
  | 9 => ⟨S2x128, .f32⟩
  | 10 => ⟨S2, .f32⟩
  | 11 => ⟨S_, .f32⟩
  | 12 => ⟨S_, .f32⟩
  | 13 => ⟨S_, .f32⟩
  | 14 => ⟨S_, .f32⟩
  | 15 => ⟨S256x50176, .f32⟩
  | 16 => ⟨S256x50176, .f32⟩
  | 17 => ⟨S_, .f32⟩
  | 18 => ⟨S256x50176, .f32⟩
  | 19 => ⟨S256x50176, .f32⟩
  | 20 => ⟨S_, .f32⟩
  | 21 => ⟨S256x50176, .f32⟩
  | 22 => ⟨S256x50176, .f32⟩
  | 23 => ⟨S_, .f32⟩
  | 24 => ⟨S256x50176, .f32⟩
  | 25 => ⟨S256x50176, .f32⟩
  | 26 => ⟨S_, .f32⟩
  | 27 => ⟨S256x50176, .f32⟩
  | 28 => ⟨S_, .f32⟩
  | 29 => ⟨S256x50176, .f32⟩
  | 30 => ⟨S256x50176, .f32⟩
  | 31 => ⟨S256x50176, .f32⟩
  | 32 => ⟨S_, .f32⟩
  | 33 => ⟨S256x50176, .f32⟩
  | 34 => ⟨S256x50176, .f32⟩
  | 35 => ⟨S256x50176, .f32⟩
  | 36 => ⟨S_, .f32⟩
  | 37 => ⟨S256x50176, .f32⟩
  | 38 => ⟨S256x50176, .f32⟩
  | 39 => ⟨S_, .f32⟩
  | 40 => ⟨S256x50176, .f32⟩
  | 41 => ⟨S256x50176, .f32⟩
  | 42 => ⟨S256x50176, .f32⟩
  | 43 => ⟨S_, .f32⟩
  | 44 => ⟨S256x50176, .f32⟩
  | 45 => ⟨S256x50176, .f32⟩
  | 46 => ⟨S256x50176, .f32⟩
  | 47 => ⟨S_, .f32⟩
  | 48 => ⟨S256x50176, .f32⟩
  | 49 => ⟨S256x50176, .f32⟩
  | 50 => ⟨S256x50176x1, .f32⟩
  | 51 => ⟨S256x50176x1, .f32⟩
  | 52 => ⟨S256x50176x1, .f32⟩
  | 53 => ⟨S256x50176x1, .f32⟩
  | 54 => ⟨S256x50176x4, .f32⟩
  | 55 => ⟨S256x200704, .f32⟩
  | 56 => ⟨S256x200704, .bf16⟩
  | 57 => ⟨S256x1024, .f32⟩
  | 58 => ⟨S_, .f32⟩
  | 59 => ⟨S256, .f32⟩
  | 60 => ⟨S256x1, .f32⟩
  | 61 => ⟨S_, .f32⟩
  | 62 => ⟨S256x1, .f32⟩
  | 63 => ⟨S256x1, .f32⟩
  | 64 => ⟨S256x1024, .f32⟩
  | 65 => ⟨S256x1024, .f32⟩
  | 66 => ⟨S256x1024, .f32⟩
  | 67 => ⟨S_, .f32⟩
  | 68 => ⟨S256, .f32⟩
  | 69 => ⟨S256x1, .f32⟩
  | 70 => ⟨S_, .f32⟩
  | 71 => ⟨S256x1, .f32⟩
  | 72 => ⟨S256x1, .f32⟩
  | 73 => ⟨S256x1024, .f32⟩
  | 74 => ⟨S256x1024, .f32⟩
  | 75 => ⟨S_, .f32⟩
  | 76 => ⟨S256x1, .f32⟩
  | 77 => ⟨S256x1, .f32⟩
  | 78 => ⟨S256x1, .f32⟩
  | 79 => ⟨S256x1024, .f32⟩
  | 80 => ⟨S256x1024, .f32⟩
  | 81 => ⟨S1x1024, .f32⟩
  | 82 => ⟨S256x1024, .f32⟩
  | 83 => ⟨S256x1024, .f32⟩
  | 84 => ⟨S1x1024, .f32⟩
  | 85 => ⟨S256x1024, .f32⟩
  | 86 => ⟨S256x1024, .f32⟩
  | 87 => ⟨S256x1024, .f32⟩
  | 88 => ⟨S256x1024, .f32⟩
  | 89 => ⟨S_, .f32⟩
  | 90 => ⟨S256x1024, .f32⟩
  | 91 => ⟨S256x1024, .f32⟩
  | 92 => ⟨S_, .f32⟩
  | 93 => ⟨S256x1024, .f32⟩
  | 94 => ⟨S256x1024, .f32⟩
  | 95 => ⟨S256x1024, .f32⟩
  | 96 => ⟨S_, .f32⟩
  | 97 => ⟨S_, .f32⟩
  | 98 => ⟨S_, .f32⟩
  | 99 => ⟨S_, .f32⟩
  | 100 => ⟨S256x1024, .f32⟩
  | 101 => ⟨S256x1024, .f32⟩
  | 102 => ⟨S_, .f32⟩
  | 103 => ⟨S256x1024, .f32⟩
  | 104 => ⟨S256x1024, .f32⟩
  | 105 => ⟨S_, .f32⟩
  | 106 => ⟨S256x1024, .f32⟩
  | 107 => ⟨S256x1024, .f32⟩
  | 108 => ⟨S_, .f32⟩
  | 109 => ⟨S256x1024, .f32⟩
  | 110 => ⟨S256x1024, .f32⟩
  | 111 => ⟨S_, .f32⟩
  | 112 => ⟨S256x1024, .f32⟩
  | 113 => ⟨S_, .f32⟩
  | 114 => ⟨S256x1024, .f32⟩
  | 115 => ⟨S256x1024, .f32⟩
  | 116 => ⟨S256x1024, .f32⟩
  | 117 => ⟨S_, .f32⟩
  | 118 => ⟨S256x1024, .f32⟩
  | 119 => ⟨S256x1024, .f32⟩
  | 120 => ⟨S256x1024, .f32⟩
  | 121 => ⟨S_, .f32⟩
  | 122 => ⟨S256x1024, .f32⟩
  | 123 => ⟨S256x1024, .f32⟩
  | 124 => ⟨S_, .f32⟩
  | 125 => ⟨S256x1024, .f32⟩
  | 126 => ⟨S256x1024, .f32⟩
  | 127 => ⟨S256x1024, .f32⟩
  | _ => ⟨S256x50176, .f32⟩

abbrev hbmTy0_1 (i : Nat) : BufTy := match i % 128 with
  | 0 => ⟨S_, .f32⟩
  | 1 => ⟨S256x1024, .f32⟩
  | 2 => ⟨S256x1024, .f32⟩
  | 3 => ⟨S256x1024, .f32⟩
  | 4 => ⟨S_, .f32⟩
  | 5 => ⟨S256x1024, .f32⟩
  | 6 => ⟨S256x1024, .f32⟩
  | 7 => ⟨S256x1024x1, .f32⟩
  | 8 => ⟨S256x1024x1, .f32⟩
  | 9 => ⟨S256x1024x1, .f32⟩
  | 10 => ⟨S256x1024x1, .f32⟩
  | 11 => ⟨S256x1024x4, .f32⟩
  | 12 => ⟨S256x4096, .f32⟩
  | 13 => ⟨S256x4096, .bf16⟩
  | 14 => ⟨S256x2, .f32⟩
  | _ => ⟨S256x50176, .f32⟩

abbrev hbmTy (i : Nat) : BufTy := match i / 128 with
  | 0 => hbmTy0_0 i
  | 1 => hbmTy0_1 i
  | _ => ⟨S256x50176, .f32⟩

abbrev bufTy : (tb : Table) → Fin (tcTables nBuf tb) → BufTy
  | .hbm, ⟨i, _⟩ => hbmTy i
  | .local _ .vmem, ⟨0, _⟩ => ⟨S256x512, .f32⟩
  | .local _ .vmem, ⟨1, _⟩ => ⟨S256x512, .f32⟩
  | .local _ .vmem, ⟨2, _⟩ => ⟨S256x2048, .bf16⟩
  | .local _ .vmem, ⟨3, _⟩ => ⟨S256x2048, .bf16⟩
  | .local _ .vmem, ⟨4, _⟩ => ⟨S512x512, .f32⟩
  | .local _ .vmem, ⟨5, _⟩ => ⟨S512x512, .f32⟩
  | .local _ .vmem, ⟨6, _⟩ => ⟨S512x2048, .f32⟩
  | .local _ .vmem, ⟨7, _⟩ => ⟨S512x2048, .f32⟩
  | .local _ .vmem, ⟨8, _⟩ => ⟨S256x512, .f32⟩
  | .local _ .vmem, ⟨9, _⟩ => ⟨S256x512, .f32⟩
  | .local _ .vmem, ⟨10, _⟩ => ⟨S256x512, .f32⟩
  | .local _ .vmem, ⟨11, _⟩ => ⟨S256x1024, .f32⟩
  | .local _ .vmem, ⟨12, _⟩ => ⟨S256x4096, .bf16⟩
  | .local _ .vmem, ⟨13, _⟩ => ⟨S128x1024, .f32⟩
  | .local _ .vmem, ⟨14, _⟩ => ⟨S128x4096, .f32⟩
  | .local _ .vmem, ⟨15, _⟩ => ⟨S128, .f32⟩
  | .local _ .vmem, ⟨16, _⟩ => ⟨S128, .f32⟩
  | .local _ .vmem, ⟨17, _⟩ => ⟨S2x128, .f32⟩
  | .local _ .vmem, ⟨18, _⟩ => ⟨S2, .f32⟩
  | .local _ .vmem, ⟨19, _⟩ => ⟨S256x2, .f32⟩
  | _, _ => ⟨S256x50176, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_v0 : Ref sig .tc := ⟨.hbm, 12, rfl⟩
abbrev main_cst_0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_cst_1 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_cst_2 : Ref sig .tc := ⟨.hbm, 23, rfl⟩
abbrev main_v9 : Ref sig .tc := ⟨.hbm, 24, rfl⟩
abbrev main_v10 : Ref sig .tc := ⟨.hbm, 25, rfl⟩
abbrev main_cst_3 : Ref sig .tc := ⟨.hbm, 26, rfl⟩
abbrev main_v11 : Ref sig .tc := ⟨.hbm, 27, rfl⟩
abbrev main_cst_4 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_cst_5 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_cst_6 : Ref sig .tc := ⟨.hbm, 36, rfl⟩
abbrev main_v18 : Ref sig .tc := ⟨.hbm, 37, rfl⟩
abbrev main_v19 : Ref sig .tc := ⟨.hbm, 38, rfl⟩
abbrev main_cst_7 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_cst_8 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_cst_9 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_cst_10 : Ref sig .tc := ⟨.hbm, 58, rfl⟩
abbrev main_v36 : Ref sig .tc := ⟨.hbm, 59, rfl⟩
abbrev main_v37 : Ref sig .tc := ⟨.hbm, 60, rfl⟩
abbrev main_cst_11 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_cst_12 : Ref sig .tc := ⟨.hbm, 67, rfl⟩
abbrev main_v43 : Ref sig .tc := ⟨.hbm, 68, rfl⟩
abbrev main_v44 : Ref sig .tc := ⟨.hbm, 69, rfl⟩
abbrev main_cst_13 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_cst_14 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_call0_v0 : Ref sig .tc := ⟨.hbm, 87, rfl⟩
abbrev main_call0_v1 : Ref sig .tc := ⟨.hbm, 88, rfl⟩
abbrev main_call0_cst : Ref sig .tc := ⟨.hbm, 89, rfl⟩
abbrev main_call0_v2 : Ref sig .tc := ⟨.hbm, 90, rfl⟩
abbrev main_call0_v3 : Ref sig .tc := ⟨.hbm, 91, rfl⟩
abbrev main_call0_cst_0 : Ref sig .tc := ⟨.hbm, 92, rfl⟩
abbrev main_call0_v4 : Ref sig .tc := ⟨.hbm, 93, rfl⟩
abbrev main_call0_v5 : Ref sig .tc := ⟨.hbm, 94, rfl⟩
abbrev main_v60 : Ref sig .tc := ⟨.hbm, 95, rfl⟩
abbrev main_cst_15 : Ref sig .tc := ⟨.hbm, 96, rfl⟩
abbrev main_v61 : Ref sig .tc := ⟨.hbm, 97, rfl⟩
abbrev main_cst_16 : Ref sig .tc := ⟨.hbm, 98, rfl⟩
abbrev main_v62 : Ref sig .tc := ⟨.hbm, 99, rfl⟩
abbrev main_v63 : Ref sig .tc := ⟨.hbm, 100, rfl⟩
abbrev main_v64 : Ref sig .tc := ⟨.hbm, 101, rfl⟩
abbrev main_cst_17 : Ref sig .tc := ⟨.hbm, 102, rfl⟩
abbrev main_v65 : Ref sig .tc := ⟨.hbm, 103, rfl⟩
abbrev main_v66 : Ref sig .tc := ⟨.hbm, 104, rfl⟩
abbrev main_v67 : Ref sig .tc := ⟨.hbm, 105, rfl⟩
abbrev main_v68 : Ref sig .tc := ⟨.hbm, 106, rfl⟩
abbrev main_v69 : Ref sig .tc := ⟨.hbm, 107, rfl⟩
abbrev main_cst_18 : Ref sig .tc := ⟨.hbm, 108, rfl⟩
abbrev main_v70 : Ref sig .tc := ⟨.hbm, 109, rfl⟩
abbrev main_v71 : Ref sig .tc := ⟨.hbm, 110, rfl⟩
abbrev main_cst_19 : Ref sig .tc := ⟨.hbm, 111, rfl⟩
abbrev main_v72 : Ref sig .tc := ⟨.hbm, 112, rfl⟩
abbrev main_cst_20 : Ref sig .tc := ⟨.hbm, 113, rfl⟩
abbrev main_v73 : Ref sig .tc := ⟨.hbm, 114, rfl⟩
abbrev main_v74 : Ref sig .tc := ⟨.hbm, 115, rfl⟩
abbrev main_v75 : Ref sig .tc := ⟨.hbm, 116, rfl⟩
abbrev main_cst_21 : Ref sig .tc := ⟨.hbm, 117, rfl⟩
abbrev main_v76 : Ref sig .tc := ⟨.hbm, 118, rfl⟩
abbrev main_v77 : Ref sig .tc := ⟨.hbm, 119, rfl⟩
abbrev main_v78 : Ref sig .tc := ⟨.hbm, 120, rfl⟩
abbrev main_cst_22 : Ref sig .tc := ⟨.hbm, 121, rfl⟩
abbrev main_v79 : Ref sig .tc := ⟨.hbm, 122, rfl⟩
abbrev main_v80 : Ref sig .tc := ⟨.hbm, 123, rfl⟩
abbrev main_cst_23 : Ref sig .tc := ⟨.hbm, 124, rfl⟩
abbrev main_v81 : Ref sig .tc := ⟨.hbm, 125, rfl⟩
abbrev main_v82 : Ref sig .tc := ⟨.hbm, 126, rfl⟩
abbrev main_v83 : Ref sig .tc := ⟨.hbm, 127, rfl⟩
abbrev main_cst_24 : Ref sig .tc := ⟨.hbm, 128, rfl⟩
abbrev main_v84 : Ref sig .tc := ⟨.hbm, 129, rfl⟩
abbrev main_v85 : Ref sig .tc := ⟨.hbm, 130, rfl⟩
abbrev main_v86 : Ref sig .tc := ⟨.hbm, 131, rfl⟩
abbrev main_cst_25 : Ref sig .tc := ⟨.hbm, 132, rfl⟩
abbrev main_v87 : Ref sig .tc := ⟨.hbm, 133, rfl⟩
abbrev main_v88 : Ref sig .tc := ⟨.hbm, 134, rfl⟩
abbrev main_v89 : Ref sig .tc := ⟨.hbm, 135, rfl⟩
abbrev main_v90 : Ref sig .tc := ⟨.hbm, 136, rfl⟩
abbrev main_v91 : Ref sig .tc := ⟨.hbm, 137, rfl⟩
abbrev main_v92 : Ref sig .tc := ⟨.hbm, 138, rfl⟩
abbrev main_v93 : Ref sig .tc := ⟨.hbm, 139, rfl⟩
abbrev main_v94 : Ref sig .tc := ⟨.hbm, 140, rfl⟩
abbrev main_v95 : Ref sig .tc := ⟨.hbm, 141, rfl⟩
abbrev main_v96 : Ref sig .tc := ⟨.hbm, 142, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc1_stg0_0 : Ref sig .tc := ⟨.vmem, 11, rfl⟩
abbrev cc1_stg1_0 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg6_0 : Ref sig .tc := ⟨.vmem, 17, rfl⟩
abbrev cc1_stg7_0 : Ref sig .tc := ⟨.vmem, 18, rfl⟩
abbrev cc1_stg8_0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc1_sem0_0 : DmaSem sig := 10
abbrev cc1_sem1_0 : DmaSem sig := 11
abbrev cc1_sem2_0 : DmaSem sig := 12
abbrev cc1_sem3_0 : DmaSem sig := 13
abbrev cc1_sem4_0 : DmaSem sig := 14
abbrev cc1_sem5_0 : DmaSem sig := 15
abbrev cc1_sem6_0 : DmaSem sig := 16
abbrev cc1_sem7_0 : DmaSem sig := 17
abbrev cc1_sem8_0 : DmaSem sig := 18

abbrev nD : Nat := 1
abbrev τ : Topo := Topo.v7x

variable {F : FTy → Type} [FloatOps F]

abbrev grid0 : Pipeline.Grid := ⟨2, ![2, 98], ![false, false]⟩

def k0_cond2 (i : grid0.Coords) : BitVec 1 :=
  let arg1 : BitVec 32 := BitVec.ofNat 32 (i 1).val
  let c97_i32 : BitVec 32 := 97#32
  let v21 : BitVec 1 := Scalar.cmpi .eq arg1 c97_i32
  let v22 : BitVec 32 := Scalar.extui v21
  let c0_i32_13 : BitVec 32 := 0#32
  let v23 : BitVec 1 := Scalar.cmpi .ne v22 c0_i32_13
  v23

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev grid1 : Pipeline.Grid := ⟨1, ![1], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .vmem S256x1024 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S256x4096 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128x1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x4096 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S2x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S2 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S256x2 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

class Facts₀ : Prop where
  reducesTo_S256x50176_S_d0_1 : S256x50176.ReducesTo [0, 1] S_
  h_S_ : 0 < S_.numel
  bcast_S_S256x50176 : S_.BroadcastsInDim S256x50176 (![] : Fin 0 → Fin S256x50176.rank)
  bcast_S256x50176_S256x50176x1_0_1 : S256x50176.BroadcastsInDim S256x50176x1 (![0, 1] : Fin 2 → Fin S256x50176x1.rank)
  concatenates_S256x50176x1_S256x50176x1_S256x50176x1_S256x50176x1_S256x50176x4_d2 : Shape.Concatenates [S256x50176x1, S256x50176x1, S256x50176x1, S256x50176x1] S256x50176x4 2
  shapeCasts_S256x50176x4_S256x200704 : S256x50176x4.ShapeCasts S256x200704
  bitsLt_bf16_f32 : FTy.bits .bf16 < FTy.bits .f32
  inb_S256x512_S256x512_0_0 : ∀ a, (![0, 0] : Fin 2 → Nat) a + S256x512.size a ≤ S256x512.size a
  h_S256x512 : 0 < S256x512.numel
  shapeCasts_S256x512_S256x512 : S256x512.ShapeCasts S256x512
  inb_S512x512_S512x512_0_0 : ∀ a, (![0, 0] : Fin 2 → Nat) a + S512x512.size a ≤ S512x512.size a
  h_S512x512 : 0 < S512x512.numel
  inb_S256x2048_S256x2048_0_0 : ∀ a, (![0, 0] : Fin 2 → Nat) a + S256x2048.size a ≤ S256x2048.size a
  h_S256x2048 : 0 < S256x2048.numel
  shapeCasts_S256x2048_S256x2048 : S256x2048.ShapeCasts S256x2048
  inb_S512x2048_S512x2048_0_0 : ∀ a, (![0, 0] : Fin 2 → Nat) a + S512x2048.size a ≤ S512x2048.size a
  h_S512x2048 : 0 < S512x2048.numel
  reducesTo_S256x1024_S256_d1 : S256x1024.ReducesTo [1] S256
  bcast_S256_S256x1_0 : S256.BroadcastsInDim S256x1 (![0] : Fin 1 → Fin S256x1.rank)
  bcast_S_S256x1 : S_.BroadcastsInDim S256x1 (![] : Fin 0 → Fin S256x1.rank)
  bcast_S256x1_S256x1024_0_1 : S256x1.BroadcastsInDim S256x1024 (![0, 1] : Fin 2 → Fin S256x1024.rank)
  bcast_S1024_S1x1024_1 : S1024.BroadcastsInDim S1x1024 (![1] : Fin 1 → Fin S1x1024.rank)
  bcast_S1x1024_S256x1024_0_1 : S1x1024.BroadcastsInDim S256x1024 (![0, 1] : Fin 2 → Fin S256x1024.rank)
  bcast_S_S256x1024 : S_.BroadcastsInDim S256x1024 (![] : Fin 0 → Fin S256x1024.rank)
  reducesTo_S256x1024_S_d0_1 : S256x1024.ReducesTo [0, 1] S_
  bcast_S256x1024_S256x1024x1_0_1 : S256x1024.BroadcastsInDim S256x1024x1 (![0, 1] : Fin 2 → Fin S256x1024x1.rank)
  concatenates_S256x1024x1_S256x1024x1_S256x1024x1_S256x1024x1_S256x1024x4_d2 : Shape.Concatenates [S256x1024x1, S256x1024x1, S256x1024x1, S256x1024x1] S256x1024x4 2
  shapeCasts_S256x1024x4_S256x4096 : S256x1024x4.ShapeCasts S256x4096
  inb_S256x1024_S256x1024_0_0 : ∀ a, (![0, 0] : Fin 2 → Nat) a + S256x1024.size a ≤ S256x1024.size a
  h_S256x1024 : 0 < S256x1024.numel
  shapeCasts_S256x1024_S256x1024 : S256x1024.ShapeCasts S256x1024
  inb_S128x1024_S128x1024_0_0 : ∀ a, (![0, 0] : Fin 2 → Nat) a + S128x1024.size a ≤ S128x1024.size a
  h_S128x1024 : 0 < S128x1024.numel
  inb_S256x4096_S256x4096_0_0 : ∀ a, (![0, 0] : Fin 2 → Nat) a + S256x4096.size a ≤ S256x4096.size a
  h_S256x4096 : 0 < S256x4096.numel
  shapeCasts_S256x4096_S256x4096 : S256x4096.ShapeCasts S256x4096
  inb_S128x4096_S128x4096_0_0 : ∀ a, (![0, 0] : Fin 2 → Nat) a + S128x4096.size a ≤ S128x4096.size a
  h_S128x4096 : 0 < S128x4096.numel
  reduces_S256x128_S256 : S256x128.Reduces [1] S256
  shapeCasts_S256_S256x1 : S256.ShapeCasts S256x1
  broadcasts_S256x1_S256x128 : S256x1.Broadcasts S256x128
  inb_S128_S128_0 : ∀ a, (![0] : Fin 1 → Nat) a + S128.size a ≤ S128.size a
  h_S128 : 0 < S128.numel
  shapeCasts_S128_S1x128 : S128.ShapeCasts S1x128
  broadcasts_S1x128_S256x128 : S1x128.Broadcasts S256x128
  inb_S2x128_S2x128_0_0 : ∀ a, (![0, 0] : Fin 2 → Nat) a + S2x128.size a ≤ S2x128.size a
  h_S2x128 : 0 < S2x128.numel
  inb_S2_S2_0 : ∀ a, (![0] : Fin 1 → Nat) a + S2.size a ≤ S2.size a
  h_S2 : 0 < S2.numel
  shapeCasts_S2_S1x2 : S2.ShapeCasts S1x2
  broadcasts_S1x2_S256x2 : S1x2.Broadcasts S256x2
  reduces_S256x2_S256 : S256x2.Reduces [1] S256
  broadcasts_S256x1_S256x2 : S256x1.Broadcasts S256x2
  inb_S256x2_S256x2_0_0 : ∀ a, (![0, 0] : Fin 2 → Nat) a + S256x2.size a ≤ S256x2.size a
  h_S256x2 : 0 < S256x2.numel
  dot_S256x512_S512x512_S256x512_1_1_0_0_n_n_wf : DotDims.WF S256x512 S512x512 S256x512 [1] [1] [0] [0] [] []
  dot_S256x2048_S512x2048_S256x512_1_1_0_0_n_n_wf : DotDims.WF S256x2048 S512x2048 S256x512 [1] [1] [0] [0] [] []
  dot_S256x1024_S128x1024_S256x128_1_1_0_0_n_n_wf : DotDims.WF S256x1024 S128x1024 S256x128 [1] [1] [0] [0] [] []
  dot_S256x4096_S128x4096_S256x128_1_1_0_0_n_n_wf : DotDims.WF S256x4096 S128x4096 S256x128 [1] [1] [0] [0] [] []
  dot_S256x128_S2x128_S256x2_1_1_0_0_n_n_wf : DotDims.WF S256x128 S2x128 S256x2 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x512.size a ≤ S256x50176.size a
  hwx0_0 : ∀ i : grid0.Coords, EltTy.bits .f32 = 32 ∨ (Rect.block (s := S256x50176) S256x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x2048.size a ≤ S256x200704.size a
  hwx0_1 : ∀ i : grid0.Coords, EltTy.bits .bf16 = 32 ∨ (Rect.block (s := S256x200704) S256x2048.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S1024x50176.size a
  hwx0_2 : ∀ i : grid0.Coords, EltTy.bits .f32 = 32 ∨ (Rect.block (s := S1024x50176) S512x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x2048.size a ≤ S1024x200704.size a
  hwx0_3 : ∀ i : grid0.Coords, EltTy.bits .f32 = 32 ∨ (Rect.block (s := S1024x200704) S512x2048.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256x512.size a ≤ S256x1024.size a
  hwx0_4 : ∀ i : grid0.Coords, EltTy.bits .f32 = 32 ∨ (Rect.block (s := S256x1024) S256x512.size (cc0_transform_4 i) (hinb0_4 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S256x1024.size a ≤ S256x1024.size a
  hwx1_0 : ∀ i : grid1.Coords, EltTy.bits .f32 = 32 ∨ (Rect.block (s := S256x1024) S256x1024.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x4096.size a ≤ S256x4096.size a
  hwx1_1 : ∀ i : grid1.Coords, EltTy.bits .bf16 = 32 ∨ (Rect.block (s := S256x4096) S256x4096.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x1024.size a ≤ S128x1024.size a
  hwx1_2 : ∀ i : grid1.Coords, EltTy.bits .f32 = 32 ∨ (Rect.block (s := S128x1024) S128x1024.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x4096.size a ≤ S128x4096.size a
  hwx1_3 : ∀ i : grid1.Coords, EltTy.bits .f32 = 32 ∨ (Rect.block (s := S128x4096) S128x4096.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128.size a ≤ S128.size a
  hwx1_4 : ∀ i : grid1.Coords, EltTy.bits .f32 = 32 ∨ (Rect.block (s := S128) S128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128.size a ≤ S128.size a
  hwx1_5 : ∀ i : grid1.Coords, EltTy.bits .f32 = 32 ∨ (Rect.block (s := S128) S128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S2x128.size a ≤ S2x128.size a
  hwx1_6 : ∀ i : grid1.Coords, EltTy.bits .f32 = 32 ∨ (Rect.block (s := S2x128) S2x128.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S2.size a ≤ S2.size a
  hwx1_7 : ∀ i : grid1.Coords, EltTy.bits .f32 = 32 ∨ (Rect.block (s := S2) S2.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S256x2.size a ≤ S256x2.size a
  hwx1_8 : ∀ i : grid1.Coords, EltTy.bits .f32 = 32 ∨ (Rect.block (s := S256x2) S256x2.size (cc1_transform_8 i) (hinb1_8 i)).WholeWords (EltTy.packing .f32)

variable [Facts₀]

def dot_S256x512_S512x512_S256x512_1_1_0_0_n_n : DotDims S256x512 S512x512 S256x512 where
  lhsContracting := [1]
  rhsContracting := [1]
  lhsNonContracting := [0]
  rhsNonContracting := [0]
  lhsBatch := []
  rhsBatch := []
  wf := dot_S256x512_S512x512_S256x512_1_1_0_0_n_n_wf
def dot_S256x2048_S512x2048_S256x512_1_1_0_0_n_n : DotDims S256x2048 S512x2048 S256x512 where
  lhsContracting := [1]
  rhsContracting := [1]
  lhsNonContracting := [0]
  rhsNonContracting := [0]
  lhsBatch := []
  rhsBatch := []
  wf := dot_S256x2048_S512x2048_S256x512_1_1_0_0_n_n_wf
def dot_S256x1024_S128x1024_S256x128_1_1_0_0_n_n : DotDims S256x1024 S128x1024 S256x128 where
  lhsContracting := [1]
  rhsContracting := [1]
  lhsNonContracting := [0]
  rhsNonContracting := [0]
  lhsBatch := []
  rhsBatch := []
  wf := dot_S256x1024_S128x1024_S256x128_1_1_0_0_n_n_wf
def dot_S256x4096_S128x4096_S256x128_1_1_0_0_n_n : DotDims S256x4096 S128x4096 S256x128 where
  lhsContracting := [1]
  rhsContracting := [1]
  lhsNonContracting := [0]
  rhsNonContracting := [0]
  lhsBatch := []
  rhsBatch := []
  wf := dot_S256x4096_S128x4096_S256x128_1_1_0_0_n_n_wf
def dot_S256x128_S2x128_S256x2_1_1_0_0_n_n : DotDims S256x128 S2x128 S256x2 where
  lhsContracting := [1]
  rhsContracting := [1]
  lhsNonContracting := [0]
  rhsNonContracting := [0]
  lhsBatch := []
  rhsBatch := []
  wf := dot_S256x128_S2x128_S256x2_1_1_0_0_n_n_wf

abbrev win0_0 : Pipeline.Window sig grid0 :=
  Pipeline.Window.ofSpec (Memref.whole main_arg0) S256x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v34) S256x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S512x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S512x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v35) S256x512.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

abbrev win1_0 : Pipeline.Window sig grid1 :=
  Pipeline.Window.ofSpec (Memref.whole main_v60) S256x1024.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_v95) S256x4096.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S128x1024.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg6) S128x4096.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg7) S128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg8) S128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg9) S2x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_arg10) S2.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v96) S256x2.size cc1_transform_8 reads1_8 true true 1 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

class Facts : Prop extends Facts₀ where

variable [Facts]
-- ==== ReferenceIdeal.lean ====
abbrev S256x50176 : Shape := ⟨2, ![256, 50176]⟩
abbrev S1024x50176 : Shape := ⟨2, ![1024, 50176]⟩
abbrev S1024x200704 : Shape := ⟨2, ![1024, 200704]⟩
abbrev S1024 : Shape := ⟨1, ![1024]⟩
abbrev S128x1024 : Shape := ⟨2, ![128, 1024]⟩
abbrev S128x4096 : Shape := ⟨2, ![128, 4096]⟩
abbrev S128 : Shape := ⟨1, ![128]⟩
abbrev S2x128 : Shape := ⟨2, ![2, 128]⟩
abbrev S2 : Shape := ⟨1, ![2]⟩
abbrev S_ : Shape := ⟨0, ![]⟩
abbrev S50176x1024 : Shape := ⟨2, ![50176, 1024]⟩
abbrev S256x1024 : Shape := ⟨2, ![256, 1024]⟩
abbrev S256x50176x1 : Shape := ⟨3, ![256, 50176, 1]⟩
abbrev S256x50176x4 : Shape := ⟨3, ![256, 50176, 4]⟩
abbrev S256x200704 : Shape := ⟨2, ![256, 200704]⟩
abbrev S200704x1024 : Shape := ⟨2, ![200704, 1024]⟩
abbrev S256 : Shape := ⟨1, ![256]⟩
abbrev S256x1 : Shape := ⟨2, ![256, 1]⟩
abbrev S1x1024 : Shape := ⟨2, ![1, 1024]⟩
abbrev S1024x128 : Shape := ⟨2, ![1024, 128]⟩
abbrev S256x128 : Shape := ⟨2, ![256, 128]⟩
abbrev S256x1024x1 : Shape := ⟨3, ![256, 1024, 1]⟩
abbrev S256x1024x4 : Shape := ⟨3, ![256, 1024, 4]⟩
abbrev S256x4096 : Shape := ⟨2, ![256, 4096]⟩
abbrev S4096x128 : Shape := ⟨2, ![4096, 128]⟩
abbrev S1x128 : Shape := ⟨2, ![1, 128]⟩
abbrev S128x2 : Shape := ⟨2, ![128, 2]⟩
abbrev S256x2 : Shape := ⟨2, ![256, 2]⟩
abbrev S1x2 : Shape := ⟨2, ![1, 2]⟩

abbrev nBuf : Space → Nat
  | .hbm => 254
  | .vmem => 0
  | .smem => 0
  | _ => 0

abbrev hbmTy0_0 (i : Nat) : BufTy := match i % 128 with
  | 0 => ⟨S256x50176, .f32⟩
  | 1 => ⟨S1024x50176, .f32⟩
  | 2 => ⟨S1024x200704, .f32⟩
  | 3 => ⟨S1024, .f32⟩
  | 4 => ⟨S1024, .f32⟩
  | 5 => ⟨S128x1024, .f32⟩
  | 6 => ⟨S128x4096, .f32⟩
  | 7 => ⟨S128, .f32⟩
  | 8 => ⟨S128, .f32⟩
  | 9 => ⟨S2x128, .f32⟩
  | 10 => ⟨S2, .f32⟩
  | 11 => ⟨S256x50176, .f32⟩
  | 12 => ⟨S256x50176, .f32⟩
  | 13 => ⟨S_, .f32⟩
  | 14 => ⟨S256x50176, .f32⟩
  | 15 => ⟨S256x50176, .f32⟩
  | 16 => ⟨S_, .f32⟩
  | 17 => ⟨S256x50176, .f32⟩
  | 18 => ⟨S256x50176, .f32⟩
  | 19 => ⟨S256x50176, .f32⟩
  | 20 => ⟨S50176x1024, .f32⟩
  | 21 => ⟨S256x1024, .f32⟩
  | 22 => ⟨S_, .f32⟩
  | 23 => ⟨S_, .f32⟩
  | 24 => ⟨S_, .f32⟩
  | 25 => ⟨S_, .f32⟩
  | 26 => ⟨S256x50176, .f32⟩
  | 27 => ⟨S256x50176, .f32⟩
  | 28 => ⟨S_, .f32⟩
  | 29 => ⟨S256x50176, .f32⟩
  | 30 => ⟨S256x50176, .f32⟩
  | 31 => ⟨S_, .f32⟩
  | 32 => ⟨S256x50176, .f32⟩
  | 33 => ⟨S256x50176, .f32⟩
  | 34 => ⟨S_, .f32⟩
  | 35 => ⟨S256x50176, .f32⟩
  | 36 => ⟨S256x50176, .f32⟩
  | 37 => ⟨S_, .f32⟩
  | 38 => ⟨S256x50176, .f32⟩
  | 39 => ⟨S_, .f32⟩
  | 40 => ⟨S256x50176, .f32⟩
  | 41 => ⟨S256x50176, .f32⟩
  | 42 => ⟨S256x50176, .f32⟩
  | 43 => ⟨S_, .f32⟩
  | 44 => ⟨S256x50176, .f32⟩
  | 45 => ⟨S256x50176, .f32⟩
  | 46 => ⟨S256x50176, .f32⟩
  | 47 => ⟨S_, .f32⟩
  | 48 => ⟨S256x50176, .f32⟩
  | 49 => ⟨S256x50176, .f32⟩
  | 50 => ⟨S_, .f32⟩
  | 51 => ⟨S256x50176, .f32⟩
  | 52 => ⟨S256x50176, .f32⟩
  | 53 => ⟨S256x50176, .f32⟩
  | 54 => ⟨S_, .f32⟩
  | 55 => ⟨S256x50176, .f32⟩
  | 56 => ⟨S256x50176, .f32⟩
  | 57 => ⟨S256x50176, .f32⟩
  | 58 => ⟨S_, .f32⟩
  | 59 => ⟨S256x50176, .f32⟩
  | 60 => ⟨S256x50176, .f32⟩
  | 61 => ⟨S256x50176x1, .f32⟩
  | 62 => ⟨S256x50176x1, .f32⟩
  | 63 => ⟨S256x50176x1, .f32⟩
  | 64 => ⟨S256x50176x1, .f32⟩
  | 65 => ⟨S256x50176x4, .f32⟩
  | 66 => ⟨S256x200704, .f32⟩
  | 67 => ⟨S200704x1024, .f32⟩
  | 68 => ⟨S256x1024, .f32⟩
  | 69 => ⟨S256x1024, .f32⟩
  | 70 => ⟨S_, .f32⟩
  | 71 => ⟨S256, .f32⟩
  | 72 => ⟨S256x1, .f32⟩
  | 73 => ⟨S_, .f32⟩
  | 74 => ⟨S256x1, .f32⟩
  | 75 => ⟨S256x1, .f32⟩
  | 76 => ⟨S_, .i32⟩
  | 77 => ⟨S_, .f32⟩
  | 78 => ⟨S256, .f32⟩
  | 79 => ⟨S256x1, .f32⟩
  | 80 => ⟨S_, .f32⟩
  | 81 => ⟨S256x1, .f32⟩
  | 82 => ⟨S256x1, .f32⟩
  | 83 => ⟨S256x1024, .f32⟩
  | 84 => ⟨S256x1024, .f32⟩
  | 85 => ⟨S256x1024, .f32⟩
  | 86 => ⟨S_, .f32⟩
  | 87 => ⟨S_, .f32⟩
  | 88 => ⟨S_, .f32⟩
  | 89 => ⟨S_, .f32⟩
  | 90 => ⟨S256, .f32⟩
  | 91 => ⟨S256x1, .f32⟩
  | 92 => ⟨S256x1, .f32⟩
  | 93 => ⟨S256x1, .f32⟩
  | 94 => ⟨S_, .f32⟩
  | 95 => ⟨S_, .i1⟩
  | 96 => ⟨S_, .f32⟩
  | 97 => ⟨S_, .f32⟩
  | 98 => ⟨S256x1, .f32⟩
  | 99 => ⟨S256x1, .f32⟩
  | 100 => ⟨S256x1024, .f32⟩
  | 101 => ⟨S256x1024, .f32⟩
  | 102 => ⟨S_, .f32⟩
  | 103 => ⟨S256x1, .f32⟩
  | 104 => ⟨S256x1, .f32⟩
  | 105 => ⟨S256x1, .f32⟩
  | 106 => ⟨S256x1024, .f32⟩
  | 107 => ⟨S256x1024, .f32⟩
  | 108 => ⟨S1x1024, .f32⟩
  | 109 => ⟨S256x1024, .f32⟩
  | 110 => ⟨S256x1024, .f32⟩
  | 111 => ⟨S1x1024, .f32⟩
  | 112 => ⟨S256x1024, .f32⟩
  | 113 => ⟨S256x1024, .f32⟩
  | 114 => ⟨S256x1024, .f32⟩
  | 115 => ⟨S256x1024, .f32⟩
  | 116 => ⟨S_, .f32⟩
  | 117 => ⟨S256x1024, .f32⟩
  | 118 => ⟨S256x1024, .f32⟩
  | 119 => ⟨S_, .f32⟩
  | 120 => ⟨S256x1024, .f32⟩
  | 121 => ⟨S256x1024, .f32⟩
  | 122 => ⟨S256x1024, .f32⟩
  | 123 => ⟨S256x1024, .f32⟩
  | 124 => ⟨S256x1024, .f32⟩
  | 125 => ⟨S_, .f32⟩
  | 126 => ⟨S256x1024, .f32⟩
  | 127 => ⟨S256x1024, .f32⟩
  | _ => ⟨S256x50176, .f32⟩

abbrev hbmTy0_1 (i : Nat) : BufTy := match i % 128 with
  | 0 => ⟨S_, .f32⟩
  | 1 => ⟨S256x1024, .f32⟩
  | 2 => ⟨S256x1024, .f32⟩
  | 3 => ⟨S256x1024, .f32⟩
  | 4 => ⟨S1024x128, .f32⟩
  | 5 => ⟨S256x128, .f32⟩
  | 6 => ⟨S_, .f32⟩
  | 7 => ⟨S_, .f32⟩
  | 8 => ⟨S_, .f32⟩
  | 9 => ⟨S_, .f32⟩
  | 10 => ⟨S256x1024, .f32⟩
  | 11 => ⟨S256x1024, .f32⟩
  | 12 => ⟨S_, .f32⟩
  | 13 => ⟨S256x1024, .f32⟩
  | 14 => ⟨S256x1024, .f32⟩
  | 15 => ⟨S_, .f32⟩
  | 16 => ⟨S256x1024, .f32⟩
  | 17 => ⟨S256x1024, .f32⟩
  | 18 => ⟨S_, .f32⟩
  | 19 => ⟨S256x1024, .f32⟩
  | 20 => ⟨S256x1024, .f32⟩
  | 21 => ⟨S_, .f32⟩
  | 22 => ⟨S256x1024, .f32⟩
  | 23 => ⟨S_, .f32⟩
  | 24 => ⟨S256x1024, .f32⟩
  | 25 => ⟨S256x1024, .f32⟩
  | 26 => ⟨S256x1024, .f32⟩
  | 27 => ⟨S_, .f32⟩
  | 28 => ⟨S256x1024, .f32⟩
  | 29 => ⟨S256x1024, .f32⟩
  | 30 => ⟨S256x1024, .f32⟩
  | 31 => ⟨S_, .f32⟩
  | 32 => ⟨S256x1024, .f32⟩
  | 33 => ⟨S256x1024, .f32⟩
  | 34 => ⟨S_, .f32⟩
  | 35 => ⟨S256x1024, .f32⟩
  | 36 => ⟨S256x1024, .f32⟩
  | 37 => ⟨S256x1024, .f32⟩
  | 38 => ⟨S_, .f32⟩
  | 39 => ⟨S256x1024, .f32⟩
  | 40 => ⟨S256x1024, .f32⟩
  | 41 => ⟨S256x1024, .f32⟩
  | 42 => ⟨S_, .f32⟩
  | 43 => ⟨S256x1024, .f32⟩
  | 44 => ⟨S256x1024, .f32⟩
  | 45 => ⟨S256x1024x1, .f32⟩
  | 46 => ⟨S256x1024x1, .f32⟩
  | 47 => ⟨S256x1024x1, .f32⟩
  | 48 => ⟨S256x1024x1, .f32⟩
  | 49 => ⟨S256x1024x4, .f32⟩
  | 50 => ⟨S256x4096, .f32⟩
  | 51 => ⟨S4096x128, .f32⟩
  | 52 => ⟨S256x128, .f32⟩
  | 53 => ⟨S256x128, .f32⟩
  | 54 => ⟨S_, .f32⟩
  | 55 => ⟨S256, .f32⟩
  | 56 => ⟨S256x1, .f32⟩
  | 57 => ⟨S_, .f32⟩
  | 58 => ⟨S256x1, .f32⟩
  | 59 => ⟨S256x1, .f32⟩
  | 60 => ⟨S_, .i32⟩
  | 61 => ⟨S_, .f32⟩
  | 62 => ⟨S256, .f32⟩
  | 63 => ⟨S256x1, .f32⟩
  | 64 => ⟨S_, .f32⟩
  | 65 => ⟨S256x1, .f32⟩
  | 66 => ⟨S256x1, .f32⟩
  | 67 => ⟨S256x128, .f32⟩
  | 68 => ⟨S256x128, .f32⟩
  | 69 => ⟨S256x128, .f32⟩
  | 70 => ⟨S_, .f32⟩
  | 71 => ⟨S_, .f32⟩
  | 72 => ⟨S_, .f32⟩
  | 73 => ⟨S_, .f32⟩
  | 74 => ⟨S256, .f32⟩
  | 75 => ⟨S256x1, .f32⟩
  | 76 => ⟨S256x1, .f32⟩
  | 77 => ⟨S256x1, .f32⟩
  | 78 => ⟨S_, .f32⟩
  | 79 => ⟨S_, .i1⟩
  | 80 => ⟨S_, .f32⟩
  | 81 => ⟨S_, .f32⟩
  | 82 => ⟨S256x1, .f32⟩
  | 83 => ⟨S256x1, .f32⟩
  | 84 => ⟨S256x128, .f32⟩
  | 85 => ⟨S256x128, .f32⟩
  | 86 => ⟨S_, .f32⟩
  | 87 => ⟨S256x1, .f32⟩
  | 88 => ⟨S256x1, .f32⟩
  | 89 => ⟨S256x1, .f32⟩
  | 90 => ⟨S256x128, .f32⟩
  | 91 => ⟨S256x128, .f32⟩
  | 92 => ⟨S1x128, .f32⟩
  | 93 => ⟨S256x128, .f32⟩
  | 94 => ⟨S256x128, .f32⟩
  | 95 => ⟨S1x128, .f32⟩
  | 96 => ⟨S256x128, .f32⟩
  | 97 => ⟨S256x128, .f32⟩
  | 98 => ⟨S256x128, .f32⟩
  | 99 => ⟨S256x128, .f32⟩
  | 100 => ⟨S_, .f32⟩
  | 101 => ⟨S256x128, .f32⟩
  | 102 => ⟨S256x128, .f32⟩
  | 103 => ⟨S_, .f32⟩
  | 104 => ⟨S256x128, .f32⟩
  | 105 => ⟨S256x128, .f32⟩
  | 106 => ⟨S256x128, .f32⟩
  | 107 => ⟨S128x2, .f32⟩
  | 108 => ⟨S256x2, .f32⟩
  | 109 => ⟨S1x2, .f32⟩
  | 110 => ⟨S256x2, .f32⟩
  | 111 => ⟨S256x2, .f32⟩
  | 112 => ⟨S_, .f32⟩
  | 113 => ⟨S256, .f32⟩
  | 114 => ⟨S_, .f32⟩
  | 115 => ⟨S256, .f32⟩
  | 116 => ⟨S256, .f32⟩
  | 117 => ⟨S256x1, .f32⟩
  | 118 => ⟨S256x2, .f32⟩
  | 119 => ⟨S256x2, .f32⟩
  | 120 => ⟨S256x2, .f32⟩
  | 121 => ⟨S_, .f32⟩
  | 122 => ⟨S256, .f32⟩
  | 123 => ⟨S256x1, .f32⟩
  | 124 => ⟨S256x2, .f32⟩
  | 125 => ⟨S256x2, .f32⟩
  | _ => ⟨S256x50176, .f32⟩

abbrev hbmTy (i : Nat) : BufTy := match i / 128 with
  | 0 => hbmTy0_0 i
  | 1 => hbmTy0_1 i
  | _ => ⟨S256x50176, .f32⟩

abbrev bufTy : (tb : Table) → Fin (tcTables nBuf tb) → BufTy
  | .hbm, ⟨i, _⟩ => hbmTy i
  | _, _ => ⟨S256x50176, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_call0_v0 : Ref sig .tc := ⟨.hbm, 11, rfl⟩
abbrev main_call0_v1 : Ref sig .tc := ⟨.hbm, 12, rfl⟩
abbrev main_call0_cst : Ref sig .tc := ⟨.hbm, 13, rfl⟩
abbrev main_call0_v2 : Ref sig .tc := ⟨.hbm, 14, rfl⟩
abbrev main_call0_v3 : Ref sig .tc := ⟨.hbm, 15, rfl⟩
abbrev main_call0_cst_0 : Ref sig .tc := ⟨.hbm, 16, rfl⟩
abbrev main_call0_v4 : Ref sig .tc := ⟨.hbm, 17, rfl⟩
abbrev main_call0_v5 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_cst : Ref sig .tc := ⟨.hbm, 22, rfl⟩
abbrev main_v3 : Ref sig .tc := ⟨.hbm, 23, rfl⟩
abbrev main_cst_0 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_cst_1 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_cst_2 : Ref sig .tc := ⟨.hbm, 34, rfl⟩
abbrev main_v12 : Ref sig .tc := ⟨.hbm, 35, rfl⟩
abbrev main_v13 : Ref sig .tc := ⟨.hbm, 36, rfl⟩
abbrev main_cst_3 : Ref sig .tc := ⟨.hbm, 37, rfl⟩
abbrev main_v14 : Ref sig .tc := ⟨.hbm, 38, rfl⟩
abbrev main_cst_4 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_cst_5 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_cst_6 : Ref sig .tc := ⟨.hbm, 47, rfl⟩
abbrev main_v21 : Ref sig .tc := ⟨.hbm, 48, rfl⟩
abbrev main_v22 : Ref sig .tc := ⟨.hbm, 49, rfl⟩
abbrev main_cst_7 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_cst_8 : Ref sig .tc := ⟨.hbm, 54, rfl⟩
abbrev main_v26 : Ref sig .tc := ⟨.hbm, 55, rfl⟩
abbrev main_v27 : Ref sig .tc := ⟨.hbm, 56, rfl⟩
abbrev main_v28 : Ref sig .tc := ⟨.hbm, 57, rfl⟩
abbrev main_cst_9 : Ref sig .tc := ⟨.hbm, 58, rfl⟩
abbrev main_v29 : Ref sig .tc := ⟨.hbm, 59, rfl⟩
abbrev main_v30 : Ref sig .tc := ⟨.hbm, 60, rfl⟩
abbrev main_v31 : Ref sig .tc := ⟨.hbm, 61, rfl⟩
abbrev main_v32 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_cst_10 : Ref sig .tc := ⟨.hbm, 70, rfl⟩
abbrev main_v40 : Ref sig .tc := ⟨.hbm, 71, rfl⟩
abbrev main_v41 : Ref sig .tc := ⟨.hbm, 72, rfl⟩
abbrev main_cst_11 : Ref sig .tc := ⟨.hbm, 73, rfl⟩
abbrev main_v42 : Ref sig .tc := ⟨.hbm, 74, rfl⟩
abbrev main_v43 : Ref sig .tc := ⟨.hbm, 75, rfl⟩
abbrev main_c : Ref sig .tc := ⟨.hbm, 76, rfl⟩
abbrev main_call1_cst : Ref sig .tc := ⟨.hbm, 77, rfl⟩
abbrev main_call1_v0 : Ref sig .tc := ⟨.hbm, 78, rfl⟩
abbrev main_call1_v1 : Ref sig .tc := ⟨.hbm, 79, rfl⟩
abbrev main_call1_cst_0 : Ref sig .tc := ⟨.hbm, 80, rfl⟩
abbrev main_call1_v2 : Ref sig .tc := ⟨.hbm, 81, rfl⟩
abbrev main_call1_v3 : Ref sig .tc := ⟨.hbm, 82, rfl⟩
abbrev main_call1_v4 : Ref sig .tc := ⟨.hbm, 83, rfl⟩
abbrev main_call1_v5 : Ref sig .tc := ⟨.hbm, 84, rfl⟩
abbrev main_call1_v6 : Ref sig .tc := ⟨.hbm, 85, rfl⟩
abbrev main_call1_v7 : Ref sig .tc := ⟨.hbm, 86, rfl⟩
abbrev main_call1_cst_1 : Ref sig .tc := ⟨.hbm, 87, rfl⟩
abbrev main_call1_v8 : Ref sig .tc := ⟨.hbm, 88, rfl⟩
abbrev main_call1_cst_2 : Ref sig .tc := ⟨.hbm, 89, rfl⟩
abbrev main_call1_v9 : Ref sig .tc := ⟨.hbm, 90, rfl⟩
abbrev main_call1_v10 : Ref sig .tc := ⟨.hbm, 91, rfl⟩
abbrev main_call1_v11 : Ref sig .tc := ⟨.hbm, 92, rfl⟩
abbrev main_call1_v12 : Ref sig .tc := ⟨.hbm, 93, rfl⟩
abbrev main_call1_cst_3 : Ref sig .tc := ⟨.hbm, 94, rfl⟩
abbrev main_call1_v13 : Ref sig .tc := ⟨.hbm, 95, rfl⟩
abbrev main_call1_cst_4 : Ref sig .tc := ⟨.hbm, 96, rfl⟩
abbrev main_call1_call0_v0 : Ref sig .tc := ⟨.hbm, 97, rfl⟩
abbrev main_call1_call0_v1 : Ref sig .tc := ⟨.hbm, 98, rfl⟩
abbrev main_v44 : Ref sig .tc := ⟨.hbm, 99, rfl⟩
abbrev main_v45 : Ref sig .tc := ⟨.hbm, 100, rfl⟩
abbrev main_v46 : Ref sig .tc := ⟨.hbm, 101, rfl⟩
abbrev main_cst_12 : Ref sig .tc := ⟨.hbm, 102, rfl⟩
abbrev main_v47 : Ref sig .tc := ⟨.hbm, 103, rfl⟩
abbrev main_v48 : Ref sig .tc := ⟨.hbm, 104, rfl⟩
abbrev main_v49 : Ref sig .tc := ⟨.hbm, 105, rfl⟩
abbrev main_v50 : Ref sig .tc := ⟨.hbm, 106, rfl⟩
abbrev main_v51 : Ref sig .tc := ⟨.hbm, 107, rfl⟩
abbrev main_v52 : Ref sig .tc := ⟨.hbm, 108, rfl⟩
abbrev main_v53 : Ref sig .tc := ⟨.hbm, 109, rfl⟩
abbrev main_v54 : Ref sig .tc := ⟨.hbm, 110, rfl⟩
abbrev main_v55 : Ref sig .tc := ⟨.hbm, 111, rfl⟩
abbrev main_v56 : Ref sig .tc := ⟨.hbm, 112, rfl⟩
abbrev main_v57 : Ref sig .tc := ⟨.hbm, 113, rfl⟩
abbrev main_call2_v0 : Ref sig .tc := ⟨.hbm, 114, rfl⟩
abbrev main_call2_v1 : Ref sig .tc := ⟨.hbm, 115, rfl⟩
abbrev main_call2_cst : Ref sig .tc := ⟨.hbm, 116, rfl⟩
abbrev main_call2_v2 : Ref sig .tc := ⟨.hbm, 117, rfl⟩
abbrev main_call2_v3 : Ref sig .tc := ⟨.hbm, 118, rfl⟩
abbrev main_call2_cst_0 : Ref sig .tc := ⟨.hbm, 119, rfl⟩
abbrev main_call2_v4 : Ref sig .tc := ⟨.hbm, 120, rfl⟩
abbrev main_call2_v5 : Ref sig .tc := ⟨.hbm, 121, rfl⟩
abbrev main_v58 : Ref sig .tc := ⟨.hbm, 122, rfl⟩
abbrev main_call3_v0 : Ref sig .tc := ⟨.hbm, 123, rfl⟩
abbrev main_call3_v1 : Ref sig .tc := ⟨.hbm, 124, rfl⟩
abbrev main_call3_cst : Ref sig .tc := ⟨.hbm, 125, rfl⟩
abbrev main_call3_v2 : Ref sig .tc := ⟨.hbm, 126, rfl⟩
abbrev main_call3_v3 : Ref sig .tc := ⟨.hbm, 127, rfl⟩
abbrev main_call3_cst_0 : Ref sig .tc := ⟨.hbm, 128, rfl⟩
abbrev main_call3_v4 : Ref sig .tc := ⟨.hbm, 129, rfl⟩
abbrev main_call3_v5 : Ref sig .tc := ⟨.hbm, 130, rfl⟩
abbrev main_v59 : Ref sig .tc := ⟨.hbm, 131, rfl⟩
abbrev main_v60 : Ref sig .tc := ⟨.hbm, 132, rfl⟩
abbrev main_v61 : Ref sig .tc := ⟨.hbm, 133, rfl⟩
abbrev main_cst_13 : Ref sig .tc := ⟨.hbm, 134, rfl⟩
abbrev main_v62 : Ref sig .tc := ⟨.hbm, 135, rfl⟩
abbrev main_cst_14 : Ref sig .tc := ⟨.hbm, 136, rfl⟩
abbrev main_v63 : Ref sig .tc := ⟨.hbm, 137, rfl⟩
abbrev main_v64 : Ref sig .tc := ⟨.hbm, 138, rfl⟩
abbrev main_v65 : Ref sig .tc := ⟨.hbm, 139, rfl⟩
abbrev main_cst_15 : Ref sig .tc := ⟨.hbm, 140, rfl⟩
abbrev main_v66 : Ref sig .tc := ⟨.hbm, 141, rfl⟩
abbrev main_v67 : Ref sig .tc := ⟨.hbm, 142, rfl⟩
abbrev main_v68 : Ref sig .tc := ⟨.hbm, 143, rfl⟩
abbrev main_v69 : Ref sig .tc := ⟨.hbm, 144, rfl⟩
abbrev main_v70 : Ref sig .tc := ⟨.hbm, 145, rfl⟩
abbrev main_cst_16 : Ref sig .tc := ⟨.hbm, 146, rfl⟩
abbrev main_v71 : Ref sig .tc := ⟨.hbm, 147, rfl⟩
abbrev main_v72 : Ref sig .tc := ⟨.hbm, 148, rfl⟩
abbrev main_cst_17 : Ref sig .tc := ⟨.hbm, 149, rfl⟩
abbrev main_v73 : Ref sig .tc := ⟨.hbm, 150, rfl⟩
abbrev main_cst_18 : Ref sig .tc := ⟨.hbm, 151, rfl⟩
abbrev main_v74 : Ref sig .tc := ⟨.hbm, 152, rfl⟩
abbrev main_v75 : Ref sig .tc := ⟨.hbm, 153, rfl⟩
abbrev main_v76 : Ref sig .tc := ⟨.hbm, 154, rfl⟩
abbrev main_cst_19 : Ref sig .tc := ⟨.hbm, 155, rfl⟩
abbrev main_v77 : Ref sig .tc := ⟨.hbm, 156, rfl⟩
abbrev main_v78 : Ref sig .tc := ⟨.hbm, 157, rfl⟩
abbrev main_v79 : Ref sig .tc := ⟨.hbm, 158, rfl⟩
abbrev main_cst_20 : Ref sig .tc := ⟨.hbm, 159, rfl⟩
abbrev main_v80 : Ref sig .tc := ⟨.hbm, 160, rfl⟩
abbrev main_v81 : Ref sig .tc := ⟨.hbm, 161, rfl⟩
abbrev main_cst_21 : Ref sig .tc := ⟨.hbm, 162, rfl⟩
abbrev main_v82 : Ref sig .tc := ⟨.hbm, 163, rfl⟩
abbrev main_v83 : Ref sig .tc := ⟨.hbm, 164, rfl⟩
abbrev main_v84 : Ref sig .tc := ⟨.hbm, 165, rfl⟩
abbrev main_cst_22 : Ref sig .tc := ⟨.hbm, 166, rfl⟩
abbrev main_v85 : Ref sig .tc := ⟨.hbm, 167, rfl⟩
abbrev main_v86 : Ref sig .tc := ⟨.hbm, 168, rfl⟩
abbrev main_v87 : Ref sig .tc := ⟨.hbm, 169, rfl⟩
abbrev main_cst_23 : Ref sig .tc := ⟨.hbm, 170, rfl⟩
abbrev main_v88 : Ref sig .tc := ⟨.hbm, 171, rfl⟩
abbrev main_v89 : Ref sig .tc := ⟨.hbm, 172, rfl⟩
abbrev main_v90 : Ref sig .tc := ⟨.hbm, 173, rfl⟩
abbrev main_v91 : Ref sig .tc := ⟨.hbm, 174, rfl⟩
abbrev main_v92 : Ref sig .tc := ⟨.hbm, 175, rfl⟩
abbrev main_v93 : Ref sig .tc := ⟨.hbm, 176, rfl⟩
abbrev main_v94 : Ref sig .tc := ⟨.hbm, 177, rfl⟩
abbrev main_v95 : Ref sig .tc := ⟨.hbm, 178, rfl⟩
abbrev main_v96 : Ref sig .tc := ⟨.hbm, 179, rfl⟩
abbrev main_v97 : Ref sig .tc := ⟨.hbm, 180, rfl⟩
abbrev main_v98 : Ref sig .tc := ⟨.hbm, 181, rfl⟩
abbrev main_cst_24 : Ref sig .tc := ⟨.hbm, 182, rfl⟩
abbrev main_v99 : Ref sig .tc := ⟨.hbm, 183, rfl⟩
abbrev main_v100 : Ref sig .tc := ⟨.hbm, 184, rfl⟩
abbrev main_cst_25 : Ref sig .tc := ⟨.hbm, 185, rfl⟩
abbrev main_v101 : Ref sig .tc := ⟨.hbm, 186, rfl⟩
abbrev main_v102 : Ref sig .tc := ⟨.hbm, 187, rfl⟩
abbrev main_c_26 : Ref sig .tc := ⟨.hbm, 188, rfl⟩
abbrev main_call4_cst : Ref sig .tc := ⟨.hbm, 189, rfl⟩
abbrev main_call4_v0 : Ref sig .tc := ⟨.hbm, 190, rfl⟩
abbrev main_call4_v1 : Ref sig .tc := ⟨.hbm, 191, rfl⟩
abbrev main_call4_cst_0 : Ref sig .tc := ⟨.hbm, 192, rfl⟩
abbrev main_call4_v2 : Ref sig .tc := ⟨.hbm, 193, rfl⟩
abbrev main_call4_v3 : Ref sig .tc := ⟨.hbm, 194, rfl⟩
abbrev main_call4_v4 : Ref sig .tc := ⟨.hbm, 195, rfl⟩
abbrev main_call4_v5 : Ref sig .tc := ⟨.hbm, 196, rfl⟩
abbrev main_call4_v6 : Ref sig .tc := ⟨.hbm, 197, rfl⟩
abbrev main_call4_v7 : Ref sig .tc := ⟨.hbm, 198, rfl⟩
abbrev main_call4_cst_1 : Ref sig .tc := ⟨.hbm, 199, rfl⟩
abbrev main_call4_v8 : Ref sig .tc := ⟨.hbm, 200, rfl⟩
abbrev main_call4_cst_2 : Ref sig .tc := ⟨.hbm, 201, rfl⟩
abbrev main_call4_v9 : Ref sig .tc := ⟨.hbm, 202, rfl⟩
abbrev main_call4_v10 : Ref sig .tc := ⟨.hbm, 203, rfl⟩
abbrev main_call4_v11 : Ref sig .tc := ⟨.hbm, 204, rfl⟩
abbrev main_call4_v12 : Ref sig .tc := ⟨.hbm, 205, rfl⟩
abbrev main_call4_cst_3 : Ref sig .tc := ⟨.hbm, 206, rfl⟩
abbrev main_call4_v13 : Ref sig .tc := ⟨.hbm, 207, rfl⟩
abbrev main_call4_cst_4 : Ref sig .tc := ⟨.hbm, 208, rfl⟩
abbrev main_call4_call0_v0 : Ref sig .tc := ⟨.hbm, 209, rfl⟩
abbrev main_call4_call0_v1 : Ref sig .tc := ⟨.hbm, 210, rfl⟩
abbrev main_v103 : Ref sig .tc := ⟨.hbm, 211, rfl⟩
abbrev main_v104 : Ref sig .tc := ⟨.hbm, 212, rfl⟩
abbrev main_v105 : Ref sig .tc := ⟨.hbm, 213, rfl⟩
abbrev main_cst_27 : Ref sig .tc := ⟨.hbm, 214, rfl⟩
abbrev main_v106 : Ref sig .tc := ⟨.hbm, 215, rfl⟩
abbrev main_v107 : Ref sig .tc := ⟨.hbm, 216, rfl⟩
abbrev main_v108 : Ref sig .tc := ⟨.hbm, 217, rfl⟩
abbrev main_v109 : Ref sig .tc := ⟨.hbm, 218, rfl⟩
abbrev main_v110 : Ref sig .tc := ⟨.hbm, 219, rfl⟩
abbrev main_v111 : Ref sig .tc := ⟨.hbm, 220, rfl⟩
abbrev main_v112 : Ref sig .tc := ⟨.hbm, 221, rfl⟩
abbrev main_v113 : Ref sig .tc := ⟨.hbm, 222, rfl⟩
abbrev main_v114 : Ref sig .tc := ⟨.hbm, 223, rfl⟩
abbrev main_v115 : Ref sig .tc := ⟨.hbm, 224, rfl⟩
abbrev main_v116 : Ref sig .tc := ⟨.hbm, 225, rfl⟩
abbrev main_call5_v0 : Ref sig .tc := ⟨.hbm, 226, rfl⟩
abbrev main_call5_v1 : Ref sig .tc := ⟨.hbm, 227, rfl⟩
abbrev main_call5_cst : Ref sig .tc := ⟨.hbm, 228, rfl⟩
abbrev main_call5_v2 : Ref sig .tc := ⟨.hbm, 229, rfl⟩
abbrev main_call5_v3 : Ref sig .tc := ⟨.hbm, 230, rfl⟩
abbrev main_call5_cst_0 : Ref sig .tc := ⟨.hbm, 231, rfl⟩
abbrev main_call5_v4 : Ref sig .tc := ⟨.hbm, 232, rfl⟩
abbrev main_call5_v5 : Ref sig .tc := ⟨.hbm, 233, rfl⟩
abbrev main_v117 : Ref sig .tc := ⟨.hbm, 234, rfl⟩
abbrev main_v118 : Ref sig .tc := ⟨.hbm, 235, rfl⟩
abbrev main_v119 : Ref sig .tc := ⟨.hbm, 236, rfl⟩
abbrev main_v120 : Ref sig .tc := ⟨.hbm, 237, rfl⟩
abbrev main_v121 : Ref sig .tc := ⟨.hbm, 238, rfl⟩
abbrev main_v122 : Ref sig .tc := ⟨.hbm, 239, rfl⟩
abbrev main_cst_28 : Ref sig .tc := ⟨.hbm, 240, rfl⟩
abbrev main_v123 : Ref sig .tc := ⟨.hbm, 241, rfl⟩
abbrev main_cst_29 : Ref sig .tc := ⟨.hbm, 242, rfl⟩
abbrev main_v124 : Ref sig .tc := ⟨.hbm, 243, rfl⟩
abbrev main_v125 : Ref sig .tc := ⟨.hbm, 244, rfl⟩
abbrev main_v126 : Ref sig .tc := ⟨.hbm, 245, rfl⟩
abbrev main_v127 : Ref sig .tc := ⟨.hbm, 246, rfl⟩
abbrev main_v128 : Ref sig .tc := ⟨.hbm, 247, rfl⟩
abbrev main_v129 : Ref sig .tc := ⟨.hbm, 248, rfl⟩
abbrev main_cst_30 : Ref sig .tc := ⟨.hbm, 249, rfl⟩
abbrev main_v130 : Ref sig .tc := ⟨.hbm, 250, rfl⟩
abbrev main_v131 : Ref sig .tc := ⟨.hbm, 251, rfl⟩
abbrev main_v132 : Ref sig .tc := ⟨.hbm, 252, rfl⟩
abbrev main_v133 : Ref sig .tc := ⟨.hbm, 253, rfl⟩

abbrev nD : Nat := 1
abbrev τ : Topo := Topo.v7x

variable {F : FTy → Type} [FloatOps F]

class Facts₀ : Prop where
  bcast_S_S256x50176 : S_.BroadcastsInDim S256x50176 (![] : Fin 0 → Fin S256x50176.rank)
  transposes_S1024x50176_S50176x1024_1_0 : S1024x50176.Transposes [1, 0] S50176x1024
  reducesTo_S256x50176_S_d0_1 : S256x50176.ReducesTo [0, 1] S_
  h_S_ : 0 < S_.numel
  bcast_S256x50176_S256x50176x1_0_1 : S256x50176.BroadcastsInDim S256x50176x1 (![0, 1] : Fin 2 → Fin S256x50176x1.rank)
  concatenates_S256x50176x1_S256x50176x1_S256x50176x1_S256x50176x1_S256x50176x4_d2 : Shape.Concatenates [S256x50176x1, S256x50176x1, S256x50176x1, S256x50176x1] S256x50176x4 2
  shapeCasts_S256x50176x4_S256x200704 : S256x50176x4.ShapeCasts S256x200704
  transposes_S1024x200704_S200704x1024_1_0 : S1024x200704.Transposes [1, 0] S200704x1024
  reducesTo_S256x1024_S256_d1 : S256x1024.ReducesTo [1] S256
  bcast_S256_S256x1_0 : S256.BroadcastsInDim S256x1 (![0] : Fin 1 → Fin S256x1.rank)
  bcast_S_S256x1 : S_.BroadcastsInDim S256x1 (![] : Fin 0 → Fin S256x1.rank)
  bcast_S256x1_S256x1024_0_1 : S256x1.BroadcastsInDim S256x1024 (![0, 1] : Fin 2 → Fin S256x1024.rank)
  bcast_S1024_S1x1024_1 : S1024.BroadcastsInDim S1x1024 (![1] : Fin 1 → Fin S1x1024.rank)
  bcast_S1x1024_S256x1024_0_1 : S1x1024.BroadcastsInDim S256x1024 (![0, 1] : Fin 2 → Fin S256x1024.rank)
  bcast_S_S256x1024 : S_.BroadcastsInDim S256x1024 (![] : Fin 0 → Fin S256x1024.rank)
  transposes_S128x1024_S1024x128_1_0 : S128x1024.Transposes [1, 0] S1024x128
  reducesTo_S256x1024_S_d0_1 : S256x1024.ReducesTo [0, 1] S_
  bcast_S256x1024_S256x1024x1_0_1 : S256x1024.BroadcastsInDim S256x1024x1 (![0, 1] : Fin 2 → Fin S256x1024x1.rank)
  concatenates_S256x1024x1_S256x1024x1_S256x1024x1_S256x1024x1_S256x1024x4_d2 : Shape.Concatenates [S256x1024x1, S256x1024x1, S256x1024x1, S256x1024x1] S256x1024x4 2
  shapeCasts_S256x1024x4_S256x4096 : S256x1024x4.ShapeCasts S256x4096
  transposes_S128x4096_S4096x128_1_0 : S128x4096.Transposes [1, 0] S4096x128
  reducesTo_S256x128_S256_d1 : S256x128.ReducesTo [1] S256
  bcast_S256x1_S256x128_0_1 : S256x1.BroadcastsInDim S256x128 (![0, 1] : Fin 2 → Fin S256x128.rank)
  bcast_S128_S1x128_1 : S128.BroadcastsInDim S1x128 (![1] : Fin 1 → Fin S1x128.rank)
  bcast_S1x128_S256x128_0_1 : S1x128.BroadcastsInDim S256x128 (![0, 1] : Fin 2 → Fin S256x128.rank)
  bcast_S_S256x128 : S_.BroadcastsInDim S256x128 (![] : Fin 0 → Fin S256x128.rank)
  transposes_S2x128_S128x2_1_0 : S2x128.Transposes [1, 0] S128x2
  bcast_S2_S1x2_1 : S2.BroadcastsInDim S1x2 (![1] : Fin 1 → Fin S1x2.rank)
  bcast_S1x2_S256x2_0_1 : S1x2.BroadcastsInDim S256x2 (![0, 1] : Fin 2 → Fin S256x2.rank)
  reducesTo_S256x2_S256_d1 : S256x2.ReducesTo [1] S256
  bcast_S_S256 : S_.BroadcastsInDim S256 (![] : Fin 0 → Fin S256.rank)
  bcast_S256x1_S256x2_0_1 : S256x1.BroadcastsInDim S256x2 (![0, 1] : Fin 2 → Fin S256x2.rank)
  dot_S256x50176_S50176x1024_S256x1024_1_0_0_1_n_n_wf : DotDims.WF S256x50176 S50176x1024 S256x1024 [1] [0] [0] [1] [] []
  dot_S256x200704_S200704x1024_S256x1024_1_0_0_1_n_n_wf : DotDims.WF S256x200704 S200704x1024 S256x1024 [1] [0] [0] [1] [] []
  dot_S256x1024_S1024x128_S256x128_1_0_0_1_n_n_wf : DotDims.WF S256x1024 S1024x128 S256x128 [1] [0] [0] [1] [] []
  dot_S256x4096_S4096x128_S256x128_1_0_0_1_n_n_wf : DotDims.WF S256x4096 S4096x128 S256x128 [1] [0] [0] [1] [] []
  dot_S256x128_S128x2_S256x2_1_0_0_1_n_n_wf : DotDims.WF S256x128 S128x2 S256x2 [1] [0] [0] [1] [] []

variable [Facts₀]

def dot_S256x50176_S50176x1024_S256x1024_1_0_0_1_n_n : DotDims S256x50176 S50176x1024 S256x1024 where
  lhsContracting := [1]
  rhsContracting := [0]
  lhsNonContracting := [0]
  rhsNonContracting := [1]
  lhsBatch := []
  rhsBatch := []
  wf := dot_S256x50176_S50176x1024_S256x1024_1_0_0_1_n_n_wf
def dot_S256x200704_S200704x1024_S256x1024_1_0_0_1_n_n : DotDims S256x200704 S200704x1024 S256x1024 where
  lhsContracting := [1]
  rhsContracting := [0]
  lhsNonContracting := [0]
  rhsNonContracting := [1]
  lhsBatch := []
  rhsBatch := []
  wf := dot_S256x200704_S200704x1024_S256x1024_1_0_0_1_n_n_wf
def dot_S256x1024_S1024x128_S256x128_1_0_0_1_n_n : DotDims S256x1024 S1024x128 S256x128 where
  lhsContracting := [1]
  rhsContracting := [0]
  lhsNonContracting := [0]
  rhsNonContracting := [1]
  lhsBatch := []
  rhsBatch := []
  wf := dot_S256x1024_S1024x128_S256x128_1_0_0_1_n_n_wf
def dot_S256x4096_S4096x128_S256x128_1_0_0_1_n_n : DotDims S256x4096 S4096x128 S256x128 where
  lhsContracting := [1]
  rhsContracting := [0]
  lhsNonContracting := [0]
  rhsNonContracting := [1]
  lhsBatch := []
  rhsBatch := []
  wf := dot_S256x4096_S4096x128_S256x128_1_0_0_1_n_n_wf
def dot_S256x128_S128x2_S256x2_1_0_0_1_n_n : DotDims S256x128 S128x2 S256x2 where
  lhsContracting := [1]
  rhsContracting := [0]
  lhsNonContracting := [0]
  rhsNonContracting := [1]
  lhsBatch := []
  rhsBatch := []
  wf := dot_S256x128_S128x2_S256x2_1_0_0_1_n_n_wf

class Facts : Prop extends Facts₀ where

variable [Facts]
-- ==== Proof.Region0K.Base.lean ====
/-
  Region 0 (the first layer's pre-normalisation sums): what its three control cases share.
  The grid is 2 × 98: the first coordinate picks a block of 512 output columns, the second walks the 98 blocks of
  the contracted axis. The body adds one block's two products to a running sum kept in a scratch buffer: at the first
  block of a sweep the sum restarts from zero, at the last it is copied into the output window, which is written back
  only there. Stated here: each window's block at a grid point, the two branch conditions decided over the grid, where
  the output window is idle, the memrefs the body is called with, and the shape of the region's invariant.
-/
import proofs.«114522_j54279796687469_2_alg».proof.Proof.Gen.Kernel.Launch
import proofs.«114522_j54279796687469_2_alg».proof.Proof.Gen.Kernel.Skeleton
import proofs.«114522_j54279796687469_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at grid point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, for any proof data over `V` whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, for any proof data over `V` whose body leaves the block in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, for any proof data over `V` whose body leaves the block in place. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, for any proof data over `V` whose body leaves the block in place. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
end

/-! ## The two branch conditions, decided over the grid -/

/-- "This is the first block of the contracted axis": the running sum restarts. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 98 = 0 :=
  (by decide +kernel : ∀ t : Fin grid0.N, cond0_0 (grid0.coords t) ↔ t.val % 98 = 0)

/-- "This is the last block of the contracted axis": the running sum is copied out. -/
abbrev cond0_1 (i : grid0.Coords) : Prop := k0_cond2 i = 1#1
theorem hcond0_1 : ∀ t : Fin cfg0.N, cond0_1 (grid0.coords t) ↔ t.val % 98 = 97 :=
  (by decide +kernel : ∀ t : Fin grid0.N, cond0_1 (grid0.coords t) ↔ t.val % 98 = 97)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
/-- Away from the last block the body stores nothing into the output window, and its block is not written back. -/
theorem idleAt0_4_A : ∀ t : Fin cfg0.N, cond0_0 (grid0.coords t) → ¬cond0_1 (grid0.coords t) → cfg0.idle 4 (grid0.coords t) = true := by decide +kernel
theorem noFlush0_4_A : ∀ t : Fin cfg0.N, cond0_0 (grid0.coords t) → ¬cond0_1 (grid0.coords t) → (cfg0.win 4).flush t = false := by decide +kernel
theorem idleAt0_4_B : ∀ t : Fin cfg0.N, ¬cond0_0 (grid0.coords t) → ¬cond0_1 (grid0.coords t) → cfg0.idle 4 (grid0.coords t) = true := by decide +kernel
theorem noFlush0_4_B : ∀ t : Fin cfg0.N, ¬cond0_0 (grid0.coords t) → ¬cond0_1 (grid0.coords t) → (cfg0.win 4).flush t = false := by decide +kernel
theorem liveAt0_4_C : ∀ t : Fin cfg0.N, ¬cond0_0 (grid0.coords t) → cond0_1 (grid0.coords t) → cfg0.idle 4 (grid0.coords t) = false := by decide +kernel

/-! ## The memrefs the body is called with -/

/-- One staging buffer of the output window, through which its contents are stated. -/
abbrev VO0_4 : View sig .tc .vmem S256x512 .f32 := (Memref.whole cc0_stg4_0 : Memref sig .tc .vmem S256x512 .f32).view
abbrev ms0_0 (t : Fin cfg0.N) : Memref sig .tc .vmem S256x512 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S256x2048 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x512 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S512x2048 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S256x512 .f32 := win0_4.stage (cfg0.slots t 4)
abbrev hs0_4 (t : Fin cfg0.N) : (ms0_4 t).IsWhole := hstage0_4 ((cfg0.slots t 4).cast nbuf0_4)
/-- The scratch buffer holding the running sum, whole. -/
abbrev scM0_0 : Memref sig .tc .vmem S256x512 .f32 := Memref.whole cc0_scratch0
abbrev VS0_0 : View sig .tc .vmem S256x512 .f32 := scM0_0.view

/-! ## The invariant's shape -/

/-- The scoped buffers of the core that region 0 never touches (the second region's staging buffers), each whole at some contents. -/
def Rest0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg6_0), ((c : Thread nD τ).loc cc1_stg6_0) ↦{fullShare} f) ∗ (∃ f : Buf (Elt F) ((c : Thread nD τ).loc cc1_stg7_0), ((c : Thread nD τ).loc cc1_stg7_0) ↦{fullShare} f) ∗ (∃ f : Buf (Elt F) ((c : Thread nD τ).loc cc1_stg8_0), ((c : Thread nD τ).loc cc1_stg8_0) ↦{fullShare} f))

/-- What the launch hands a region as its scoped rest, with the scratch split off as a memref owned at some contents. -/
theorem PhiA0_eq (c : Dev nD) :
    (Pipeline.ΦA spec0 c : sProp 𝕄)
      = iprop(iprop((∃ d, owns (c : Thread nD τ) scM0_0 fullShare d) ∗ Rest0 c) ∗ (∃ r, prngReg c r)) := by
  unfold Pipeline.ΦA Rest0; rw [scopedRest0_eq]; simp only [scM0_0, owns_whole]; try rfl

end Cert.Kernel.Hand

end
-- ==== Proof.Region0K.RunA.lean ====
/-
  Region 0's body in the case of the first block of a sweep: the running sum restarts from zero and takes this block's two products; the output window is left alone.
  The body is run once on whole staging memrefs; the pieces it leaves in the scratch (and, at the last block, in the
  output window) are found by the run itself.
-/
import proofs.«114522_j54279796687469_2_alg».proof.Proof.Region0K.Base

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body's triple in this case, with the pieces each written buffer ends with as its witness. -/
noncomputable def kernelRun0_A (c : Dev nD) (i : grid0.Coords) (arg2 : Memref sig .tc .vmem S256x512 .f32) (harg2 : arg2.IsWhole) (arg3 : Memref sig .tc .vmem S256x2048 .bf16) (harg3 : arg3.IsWhole) (arg4 : Memref sig .tc .vmem S512x512 .f32) (harg4 : arg4.IsWhole) (arg5 : Memref sig .tc .vmem S512x2048 .f32) (harg5 : arg5.IsWhole) (arg6 : Memref sig .tc .vmem S256x512 .f32) (harg6 : arg6.IsWhole) (arg7 : Memref sig .tc .vmem S256x512 .f32) (harg7 : arg7.IsWhole) (hc0 : cond0_0 i) (hc1 : ¬cond0_1 i)
    (x0 : Vec F S256x512 .f32) (x1 : Vec F S256x2048 .bf16) (x2 : Vec F S512x512 .f32) (x3 : Vec F S512x2048 .f32) :
    Σ' (L4 : List (View.Piece (Elt F) S256x512 .f32)), { LS0 : List (View.Piece (Elt F) S256x512 .f32) //
      ∀ (xi4 : Vec F S256x512 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc0__kal_layer0_kernel i arg2 harg2 arg3 harg3 arg4 harg4 arg5 harg5 arg6 harg6 arg7 harg7) K } := by
  refine ⟨[], ?_, fun xi4 E K => ?run⟩
  case run =>
    simp only [cc0__kal_layer0_kernel_eq_skeleton]; unfold cc0__kal_layer0_kernel_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

end Cert.Kernel.Hand

end
-- ==== Proof.Region0K.RunB.lean ====
/-
  Region 0's body in the case of a middle block: the running sum takes this block's two products; the output window is left alone.
  The body is run once on whole staging memrefs; the pieces it leaves in the scratch (and, at the last block, in the
  output window) are found by the run itself.
-/
import proofs.«114522_j54279796687469_2_alg».proof.Proof.Region0K.RunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body's triple in this case, with the pieces each written buffer ends with as its witness. -/
noncomputable def kernelRun0_B (c : Dev nD) (i : grid0.Coords) (arg2 : Memref sig .tc .vmem S256x512 .f32) (harg2 : arg2.IsWhole) (arg3 : Memref sig .tc .vmem S256x2048 .bf16) (harg3 : arg3.IsWhole) (arg4 : Memref sig .tc .vmem S512x512 .f32) (harg4 : arg4.IsWhole) (arg5 : Memref sig .tc .vmem S512x2048 .f32) (harg5 : arg5.IsWhole) (arg6 : Memref sig .tc .vmem S256x512 .f32) (harg6 : arg6.IsWhole) (arg7 : Memref sig .tc .vmem S256x512 .f32) (harg7 : arg7.IsWhole) (hc0 : ¬cond0_0 i) (hc1 : ¬cond0_1 i)
    (x0 : Vec F S256x512 .f32) (x1 : Vec F S256x2048 .bf16) (x2 : Vec F S512x512 .f32) (x3 : Vec F S512x2048 .f32) (xs0 : Vec F S256x512 .f32) :
    Σ' (L4 : List (View.Piece (Elt F) S256x512 .f32)), { LS0 : List (View.Piece (Elt F) S256x512 .f32) //
      ∀ (xi4 : Vec F S256x512 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc0__kal_layer0_kernel i arg2 harg2 arg3 harg3 arg4 harg4 arg5 harg5 arg6 harg6 arg7 harg7) K } := by
  refine ⟨[], ?_, fun xi4 E K => ?run⟩
  case run =>
    simp only [cc0__kal_layer0_kernel_eq_skeleton]; unfold cc0__kal_layer0_kernel_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

end Cert.Kernel.Hand

end
-- ==== Proof.Region0K.RunC.lean ====
/-
  Region 0's body in the case of the last block of a sweep: the running sum takes this block's two products and is copied into the output window.
  The body is run once on whole staging memrefs; the pieces it leaves in the scratch (and, at the last block, in the
  output window) are found by the run itself.
-/
import proofs.«114522_j54279796687469_2_alg».proof.Proof.Region0K.RunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body's triple in this case, with the pieces each written buffer ends with as its witness. -/
noncomputable def kernelRun0_C (c : Dev nD) (i : grid0.Coords) (arg2 : Memref sig .tc .vmem S256x512 .f32) (harg2 : arg2.IsWhole) (arg3 : Memref sig .tc .vmem S256x2048 .bf16) (harg3 : arg3.IsWhole) (arg4 : Memref sig .tc .vmem S512x512 .f32) (harg4 : arg4.IsWhole) (arg5 : Memref sig .tc .vmem S512x2048 .f32) (harg5 : arg5.IsWhole) (arg6 : Memref sig .tc .vmem S256x512 .f32) (harg6 : arg6.IsWhole) (arg7 : Memref sig .tc .vmem S256x512 .f32) (harg7 : arg7.IsWhole) (hc0 : ¬cond0_0 i) (hc1 : cond0_1 i)
    (x0 : Vec F S256x512 .f32) (x1 : Vec F S256x2048 .bf16) (x2 : Vec F S512x512 .f32) (x3 : Vec F S512x2048 .f32) (xs0 : Vec F S256x512 .f32) :
    Σ' (L4 : List (View.Piece (Elt F) S256x512 .f32)), { LS0 : List (View.Piece (Elt F) S256x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS0)) -∗ K ⟨⟩))
          ⊢ wp frame (wpE (defs₀ (F := F)) Variants.none c none) E (cc0__kal_layer0_kernel i arg2 harg2 arg3 harg3 arg4 harg4 arg5 harg5 arg6 harg6 arg7 harg7) K } := by
  refine ⟨?_, ?_, fun E K => ?run⟩
  case run =>
    simp only [cc0__kal_layer0_kernel_eq_skeleton]; unfold cc0__kal_layer0_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, Hk⟩
    obtain rfl := harg2.eq_unread hf0; obtain rfl := harg3.eq_unread hf1; obtain rfl := harg4.eq_unread hf2; obtain rfl := harg5.eq_unread hf3; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; iexact HS0

end Cert.Kernel.Hand

end
-- ==== Proof.Region0K.lean ====
/-
  Region 0 (the first layer's pre-normalisation sums), as one half of the program's run: for any contents `V` of the
  core's buffers when the region is entered — what the running sum holds after every grid point (`outsAt0`, by
  recursion on the point: restarted at the first block of a sweep, extended at every later one, copied into the
  output window at the last), the region's invariant carrying that sum in the scratch buffer between points
  (`PhiS`), the pipeline's proof data (`dat0`) and the body obligation at every point (`body_obligation0`).
-/
import proofs.«114522_j54279796687469_2_alg».proof.Proof.Region0K.RunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- What this case leaves in the output window's staging buffer: its pieces read back (none: a placeholder nothing consults, the window being idle and not written back). -/
def out0_A_4 (c : Dev nD) (i : grid0.Coords) (arg2 : Memref sig .tc .vmem S256x512 .f32) (harg2 : arg2.IsWhole) (arg3 : Memref sig .tc .vmem S256x2048 .bf16) (harg3 : arg3.IsWhole) (arg4 : Memref sig .tc .vmem S512x512 .f32) (harg4 : arg4.IsWhole) (arg5 : Memref sig .tc .vmem S512x2048 .f32) (harg5 : arg5.IsWhole) (arg6 : Memref sig .tc .vmem S256x512 .f32) (harg6 : arg6.IsWhole) (arg7 : Memref sig .tc .vmem S256x512 .f32) (harg7 : arg7.IsWhole) (hc0 : cond0_0 i) (hc1 : ¬cond0_1 i)
    (x0 : Vec F S256x512 .f32) (x1 : Vec F S256x2048 .bf16) (x2 : Vec F S512x512 .f32) (x3 : Vec F S512x2048 .f32) : Vec F S256x512 .f32 :=
  VO0_4.read (Elt F) (VO0_4.writes (Elt F) VO0_4.junk (kernelRun0_A c i arg2 harg2 arg3 harg3 arg4 harg4 arg5 harg5 arg6 harg6 arg7 harg7 hc0 hc1 x0 x1 x2 x3).1)

/-- The scratch's pieces in this case tile it, so they cover it. -/
theorem scover0_A_0 (c : Dev nD) (i : grid0.Coords) (arg2 : Memref sig .tc .vmem S256x512 .f32) (harg2 : arg2.IsWhole) (arg3 : Memref sig .tc .vmem S256x2048 .bf16) (harg3 : arg3.IsWhole) (arg4 : Memref sig .tc .vmem S512x512 .f32) (harg4 : arg4.IsWhole) (arg5 : Memref sig .tc .vmem S512x2048 .f32) (harg5 : arg5.IsWhole) (arg6 : Memref sig .tc .vmem S256x512 .f32) (harg6 : arg6.IsWhole) (arg7 : Memref sig .tc .vmem S256x512 .f32) (harg7 : arg7.IsWhole) (hc0 : cond0_0 i) (hc1 : ¬cond0_1 i)
    (x0 : Vec F S256x512 .f32) (x1 : Vec F S256x2048 .bf16) (x2 : Vec F S512x512 .f32) (x3 : Vec F S512x2048 .f32) (y : S256x512.Idx) :
    ∃ pc ∈ (kernelRun0_A c i arg2 harg2 arg3 harg3 arg4 harg4 arg5 harg5 arg6 harg6 arg7 harg7 hc0 hc1 x0 x1 x2 x3).2.1, y ∈ pc.1.set :=
  View.cover_of_tiledL (kernelRun0_A c i arg2 harg2 arg3 harg3 arg4 harg4 arg5 harg5 arg6 harg6 arg7 harg7 hc0 hc1 x0 x1 x2 x3).2.1 S256x512.size (by sl_kernel_rfl) y

/-- What this case leaves in the scratch: the running sum after this block. -/
def sout0_A_0 (c : Dev nD) (i : grid0.Coords) (arg2 : Memref sig .tc .vmem S256x512 .f32) (harg2 : arg2.IsWhole) (arg3 : Memref sig .tc .vmem S256x2048 .bf16) (harg3 : arg3.IsWhole) (arg4 : Memref sig .tc .vmem S512x512 .f32) (harg4 : arg4.IsWhole) (arg5 : Memref sig .tc .vmem S512x2048 .f32) (harg5 : arg5.IsWhole) (arg6 : Memref sig .tc .vmem S256x512 .f32) (harg6 : arg6.IsWhole) (arg7 : Memref sig .tc .vmem S256x512 .f32) (harg7 : arg7.IsWhole) (hc0 : cond0_0 i) (hc1 : ¬cond0_1 i)
    (x0 : Vec F S256x512 .f32) (x1 : Vec F S256x2048 .bf16) (x2 : Vec F S512x512 .f32) (x3 : Vec F S512x2048 .f32) : Vec F S256x512 .f32 :=
  VS0_0.read (Elt F) (VS0_0.writes (Elt F) VS0_0.junk (kernelRun0_A c i arg2 harg2 arg3 harg3 arg4 harg4 arg5 harg5 arg6 harg6 arg7 harg7 hc0 hc1 x0 x1 x2 x3).2.1)

/-- What this case leaves in the output window's staging buffer: its pieces read back (none: a placeholder nothing consults, the window being idle and not written back). -/
def out0_B_4 (c : Dev nD) (i : grid0.Coords) (arg2 : Memref sig .tc .vmem S256x512 .f32) (harg2 : arg2.IsWhole) (arg3 : Memref sig .tc .vmem S256x2048 .bf16) (harg3 : arg3.IsWhole) (arg4 : Memref sig .tc .vmem S512x512 .f32) (harg4 : arg4.IsWhole) (arg5 : Memref sig .tc .vmem S512x2048 .f32) (harg5 : arg5.IsWhole) (arg6 : Memref sig .tc .vmem S256x512 .f32) (harg6 : arg6.IsWhole) (arg7 : Memref sig .tc .vmem S256x512 .f32) (harg7 : arg7.IsWhole) (hc0 : ¬cond0_0 i) (hc1 : ¬cond0_1 i)
    (x0 : Vec F S256x512 .f32) (x1 : Vec F S256x2048 .bf16) (x2 : Vec F S512x512 .f32) (x3 : Vec F S512x2048 .f32) (xs0 : Vec F S256x512 .f32) : Vec F S256x512 .f32 :=
  VO0_4.read (Elt F) (VO0_4.writes (Elt F) VO0_4.junk (kernelRun0_B c i arg2 harg2 arg3 harg3 arg4 harg4 arg5 harg5 arg6 harg6 arg7 harg7 hc0 hc1 x0 x1 x2 x3 xs0).1)

/-- The scratch's pieces in this case tile it, so they cover it. -/
theorem scover0_B_0 (c : Dev nD) (i : grid0.Coords) (arg2 : Memref sig .tc .vmem S256x512 .f32) (harg2 : arg2.IsWhole) (arg3 : Memref sig .tc .vmem S256x2048 .bf16) (harg3 : arg3.IsWhole) (arg4 : Memref sig .tc .vmem S512x512 .f32) (harg4 : arg4.IsWhole) (arg5 : Memref sig .tc .vmem S512x2048 .f32) (harg5 : arg5.IsWhole) (arg6 : Memref sig .tc .vmem S256x512 .f32) (harg6 : arg6.IsWhole) (arg7 : Memref sig .tc .vmem S256x512 .f32) (harg7 : arg7.IsWhole) (hc0 : ¬cond0_0 i) (hc1 : ¬cond0_1 i)
    (x0 : Vec F S256x512 .f32) (x1 : Vec F S256x2048 .bf16) (x2 : Vec F S512x512 .f32) (x3 : Vec F S512x2048 .f32) (xs0 : Vec F S256x512 .f32) (y : S256x512.Idx) :
    ∃ pc ∈ (kernelRun0_B c i arg2 harg2 arg3 harg3 arg4 harg4 arg5 harg5 arg6 harg6 arg7 harg7 hc0 hc1 x0 x1 x2 x3 xs0).2.1, y ∈ pc.1.set :=
  View.cover_of_tiledL (kernelRun0_B c i arg2 harg2 arg3 harg3 arg4 harg4 arg5 harg5 arg6 harg6 arg7 harg7 hc0 hc1 x0 x1 x2 x3 xs0).2.1 S256x512.size (by sl_kernel_rfl) y

/-- What this case leaves in the scratch: the running sum after this block. -/
def sout0_B_0 (c : Dev nD) (i : grid0.Coords) (arg2 : Memref sig .tc .vmem S256x512 .f32) (harg2 : arg2.IsWhole) (arg3 : Memref sig .tc .vmem S256x2048 .bf16) (harg3 : arg3.IsWhole) (arg4 : Memref sig .tc .vmem S512x512 .f32) (harg4 : arg4.IsWhole) (arg5 : Memref sig .tc .vmem S512x2048 .f32) (harg5 : arg5.IsWhole) (arg6 : Memref sig .tc .vmem S256x512 .f32) (harg6 : arg6.IsWhole) (arg7 : Memref sig .tc .vmem S256x512 .f32) (harg7 : arg7.IsWhole) (hc0 : ¬cond0_0 i) (hc1 : ¬cond0_1 i)
    (x0 : Vec F S256x512 .f32) (x1 : Vec F S256x2048 .bf16) (x2 : Vec F S512x512 .f32) (x3 : Vec F S512x2048 .f32) (xs0 : Vec F S256x512 .f32) : Vec F S256x512 .f32 :=
  VS0_0.read (Elt F) (VS0_0.writes (Elt F) VS0_0.junk (kernelRun0_B c i arg2 harg2 arg3 harg3 arg4 harg4 arg5 harg5 arg6 harg6 arg7 harg7 hc0 hc1 x0 x1 x2 x3 xs0).2.1)

/-- At the last block the output window's pieces tile its block, so they cover it. -/
theorem cover0_C_4 (c : Dev nD) (i : grid0.Coords) (arg2 : Memref sig .tc .vmem S256x512 .f32) (harg2 : arg2.IsWhole) (arg3 : Memref sig .tc .vmem S256x2048 .bf16) (harg3 : arg3.IsWhole) (arg4 : Memref sig .tc .vmem S512x512 .f32) (harg4 : arg4.IsWhole) (arg5 : Memref sig .tc .vmem S512x2048 .f32) (harg5 : arg5.IsWhole) (arg6 : Memref sig .tc .vmem S256x512 .f32) (harg6 : arg6.IsWhole) (arg7 : Memref sig .tc .vmem S256x512 .f32) (harg7 : arg7.IsWhole) (hc0 : ¬cond0_0 i) (hc1 : cond0_1 i)
    (x0 : Vec F S256x512 .f32) (x1 : Vec F S256x2048 .bf16) (x2 : Vec F S512x512 .f32) (x3 : Vec F S512x2048 .f32) (xs0 : Vec F S256x512 .f32) (y : S256x512.Idx) :
    ∃ pc ∈ (kernelRun0_C c i arg2 harg2 arg3 harg3 arg4 harg4 arg5 harg5 arg6 harg6 arg7 harg7 hc0 hc1 x0 x1 x2 x3 xs0).1, y ∈ pc.1.set :=
  View.cover_of_tiledL (kernelRun0_C c i arg2 harg2 arg3 harg3 arg4 harg4 arg5 harg5 arg6 harg6 arg7 harg7 hc0 hc1 x0 x1 x2 x3 xs0).1 S256x512.size (by sl_kernel_rfl) y

/-- What this case leaves in the output window's staging buffer: its pieces read back (the running sum, copied out). -/
def out0_C_4 (c : Dev nD) (i : grid0.Coords) (arg2 : Memref sig .tc .vmem S256x512 .f32) (harg2 : arg2.IsWhole) (arg3 : Memref sig .tc .vmem S256x2048 .bf16) (harg3 : arg3.IsWhole) (arg4 : Memref sig .tc .vmem S512x512 .f32) (harg4 : arg4.IsWhole) (arg5 : Memref sig .tc .vmem S512x2048 .f32) (harg5 : arg5.IsWhole) (arg6 : Memref sig .tc .vmem S256x512 .f32) (harg6 : arg6.IsWhole) (arg7 : Memref sig .tc .vmem S256x512 .f32) (harg7 : arg7.IsWhole) (hc0 : ¬cond0_0 i) (hc1 : cond0_1 i)
    (x0 : Vec F S256x512 .f32) (x1 : Vec F S256x2048 .bf16) (x2 : Vec F S512x512 .f32) (x3 : Vec F S512x2048 .f32) (xs0 : Vec F S256x512 .f32) : Vec F S256x512 .f32 :=
  VO0_4.read (Elt F) (VO0_4.writes (Elt F) VO0_4.junk (kernelRun0_C c i arg2 harg2 arg3 harg3 arg4 harg4 arg5 harg5 arg6 harg6 arg7 harg7 hc0 hc1 x0 x1 x2 x3 xs0).1)

/-- The scratch's pieces in this case tile it, so they cover it. -/
theorem scover0_C_0 (c : Dev nD) (i : grid0.Coords) (arg2 : Memref sig .tc .vmem S256x512 .f32) (harg2 : arg2.IsWhole) (arg3 : Memref sig .tc .vmem S256x2048 .bf16) (harg3 : arg3.IsWhole) (arg4 : Memref sig .tc .vmem S512x512 .f32) (harg4 : arg4.IsWhole) (arg5 : Memref sig .tc .vmem S512x2048 .f32) (harg5 : arg5.IsWhole) (arg6 : Memref sig .tc .vmem S256x512 .f32) (harg6 : arg6.IsWhole) (arg7 : Memref sig .tc .vmem S256x512 .f32) (harg7 : arg7.IsWhole) (hc0 : ¬cond0_0 i) (hc1 : cond0_1 i)
    (x0 : Vec F S256x512 .f32) (x1 : Vec F S256x2048 .bf16) (x2 : Vec F S512x512 .f32) (x3 : Vec F S512x2048 .f32) (xs0 : Vec F S256x512 .f32) (y : S256x512.Idx) :
    ∃ pc ∈ (kernelRun0_C c i arg2 harg2 arg3 harg3 arg4 harg4 arg5 harg5 arg6 harg6 arg7 harg7 hc0 hc1 x0 x1 x2 x3 xs0).2.1, y ∈ pc.1.set :=
  View.cover_of_tiledL (kernelRun0_C c i arg2 harg2 arg3 harg3 arg4 harg4 arg5 harg5 arg6 harg6 arg7 harg7 hc0 hc1 x0 x1 x2 x3 xs0).2.1 S256x512.size (by sl_kernel_rfl) y

/-- What this case leaves in the scratch: the running sum after this block. -/
def sout0_C_0 (c : Dev nD) (i : grid0.Coords) (arg2 : Memref sig .tc .vmem S256x512 .f32) (harg2 : arg2.IsWhole) (arg3 : Memref sig .tc .vmem S256x2048 .bf16) (harg3 : arg3.IsWhole) (arg4 : Memref sig .tc .vmem S512x512 .f32) (harg4 : arg4.IsWhole) (arg5 : Memref sig .tc .vmem S512x2048 .f32) (harg5 : arg5.IsWhole) (arg6 : Memref sig .tc .vmem S256x512 .f32) (harg6 : arg6.IsWhole) (arg7 : Memref sig .tc .vmem S256x512 .f32) (harg7 : arg7.IsWhole) (hc0 : ¬cond0_0 i) (hc1 : cond0_1 i)
    (x0 : Vec F S256x512 .f32) (x1 : Vec F S256x2048 .bf16) (x2 : Vec F S512x512 .f32) (x3 : Vec F S512x2048 .f32) (xs0 : Vec F S256x512 .f32) : Vec F S256x512 .f32 :=
  VS0_0.read (Elt F) (VS0_0.writes (Elt F) VS0_0.junk (kernelRun0_C c i arg2 harg2 arg3 harg3 arg4 harg4 arg5 harg5 arg6 harg6 arg7 harg7 hc0 hc1 x0 x1 x2 x3 xs0).2.1)

variable (V : (c : Dev nD) → (b : Ref sig .tc) → Buf (Elt F) ((c : Thread nD τ).loc b))

/-! ## What the output window's buffer and the scratch hold after each point -/

/-- After the body at position `n`: (the output window's staging buffer, the running sum in the scratch). The case is the
    one the closed forms select at `n`; the running sum continues from what position `n - 1` left. -/
def outsAt0 (c : Dev nD) : (n : ℕ) → n < cfg0.N → Vec F S256x512 .f32 × Vec F S256x512 .f32
  | 0, hn => (out0_A_4 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩))
  | n + 1, hn =>
    if h0 : (n + 1) % 98 = 0 then
      if h1 : (n + 1) % 98 = 97 then
        False.elim (by omega)
      else
        (out0_A_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩))
    else
      if h1 : (n + 1) % 98 = 97 then
        (out0_C_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2)
      else
        (out0_B_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2)

theorem outsAt0_A (c : Dev nD) (t : Fin cfg0.N) (h0 : t.val % 98 = 0) (h1 : ¬t.val % 98 = 97) :
    outsAt0 V c t.val t.isLt = (out0_A_4 c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (fun h => h1 ((hcond0_1 t).mp h)) (iblk0 V c 0 t) (iblk0 V c 1 t) (iblk0 V c 2 t) (iblk0 V c 3 t), sout0_A_0 c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (fun h => h1 ((hcond0_1 t).mp h)) (iblk0 V c 0 t) (iblk0 V c 1 t) (iblk0 V c 2 t) (iblk0 V c 3 t)) := by
  obtain ⟨n, hn⟩ := t
  cases n with
  | zero => exact rfl
  | succ n => exact (dif_pos h0).trans ((dif_neg h1).trans rfl)

theorem outsAt0_B (c : Dev nD) (t : Fin cfg0.N) (h0 : ¬t.val % 98 = 0) (h1 : ¬t.val % 98 = 97) :
    outsAt0 V c t.val t.isLt = (out0_B_4 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (fun h => h1 ((hcond0_1 t).mp h)) (iblk0 V c 0 t) (iblk0 V c 1 t) (iblk0 V c 2 t) (iblk0 V c 3 t) (outsAt0 V c (t.val - 1) (Nat.lt_of_le_of_lt (Nat.sub_le _ _) t.isLt)).2, sout0_B_0 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (fun h => h1 ((hcond0_1 t).mp h)) (iblk0 V c 0 t) (iblk0 V c 1 t) (iblk0 V c 2 t) (iblk0 V c 3 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 98 = 0) (h1 : t.val % 98 = 97) :
    outsAt0 V c t.val t.isLt = (out0_C_4 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk0 V c 0 t) (iblk0 V c 1 t) (iblk0 V c 2 t) (iblk0 V c 3 t) (outsAt0 V c (t.val - 1) (Nat.lt_of_le_of_lt (Nat.sub_le _ _) t.isLt)).2, sout0_C_0 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk0 V c 0 t) (iblk0 V c 1 t) (iblk0 V c 2 t) (iblk0 V c 3 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The invariant: the running sum is carried in the scratch -/

/-- Before position `n`: before the first point what the launch hands over (the scratch at anything); afterwards the
    scratch at the running sum the point before left, the untouched scoped buffers, the generator register. -/
def PhiS (c : Dev nD) : (n : ℕ) → n ≤ cfg0.N → sProp 𝕄
  | 0, _ => Pipeline.ΦA spec0 c
  | n + 1, hn => iprop(iprop(owns (c : Thread nD τ) scM0_0 fullShare ((outsAt0 V c n hn).2) ∗ Rest0 c) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(owns (c : Thread nD τ) scM0_0 fullShare ((outsAt0 V c n hn).2) ∗ Rest0 c) ∗ (∃ r, prngReg c r)) := rfl

theorem PhiS_pos (c : Dev nD) (n : ℕ) (h : n ≤ cfg0.N) (hz : n ≠ 0) :
    PhiS V c n h = iprop(iprop(owns (c : Thread nD τ) scM0_0 fullShare ((outsAt0 V c (n - 1) (by omega)).2) ∗ Rest0 c) ∗ (∃ r, prngReg c r)) := by
  cases n with
  | zero => exact absurd rfl hz
  | succ n => rfl

/-! ## The pipeline's proof data -/

/-- The arrays as the region finds them; after the body each input's buffer at its block and the output's at `outsAt0`;
    the invariant `PhiS`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => (outsAt0 V c t.val t.isLt).1
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS_castSucc (c : Dev nD) (t : Fin cfg0.N) :
    (dat0 V c).Φ t.castSucc = PhiS V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = (outsAt0 V c t.val t.isLt).1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t)

set_option maxHeartbeats 4800000 in
/-- The body at any point: the closed forms say which case the point is in; the inputs' buffers hold their blocks; the
    invariant hands over the scratch at the running sum so far (at anything at the very first point) and takes it back
    at this point's. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).owesAt () t.succ = (dat0 V c).owesAt () t.castSucc from rfl]
  rw [show (dat0 V c).Φ t.succ = PhiS V c (t.val + 1) t.isLt from rfl, PhiS_succ]
  have hN : t.val < 196 := lt_of_lt_of_eq t.isLt (show cfg0.N = 196 from N_0)
  by_cases h0 : t.val % 98 = 0
  · by_cases h1 : t.val % 98 = 97
    · exfalso; omega
    · rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3 t], after0_3]
      rw [Dat.leavesExact_idle (dat0 V c) 4 t (idleAt0_4_A t ((hcond0_0 t).mpr h0) (fun h => h1 ((hcond0_1 t).mp h))) (noFlush0_4_A t ((hcond0_0 t).mpr h0) (fun h => h1 ((hcond0_1 t).mp h)))]
      rw [outsAt0_A V c t h0 h1]
      unfold sout0_A_0; (try dsimp only)
      by_cases hz : t.val = 0
      · rw [PhiS_castSucc V c t, PhiS_zero V c _ _ hz, PhiA0_eq]
        iintro ⟨⟨⟨HS0, HR⟩, Hg⟩, Ho, ⟨%d0, H0⟩, ⟨%d1, H1⟩, ⟨%d2, H2⟩, ⟨%d3, H3⟩, ⟨%d4, H4⟩⟩
        iapply ((kernelRun0_A c (grid0.coords t) _ _ _ _ _ _ _ _ _ _ _ _ ((hcond0_0 t).mpr h0) (fun h => h1 ((hcond0_1 t).mp h)) (iblk0 V c 0 t) (iblk0 V c 1 t) (iblk0 V c 2 t) (iblk0 V c 3 t)).2.2 _ Set.univ _)
        isplitl [H0]; · iexact H0
        isplitl [H1]; · iexact H1
        isplitl [H2]; · iexact H2
        isplitl [H3]; · iexact H3
        isplitl [H4]; · iexact H4
        isplitl [HS0]; · iexact HS0
        iintro ⟨H0, H1, H2, H3, H4, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover0_A_0 c _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        iexists _; iexact H4
      · rw [PhiS_castSucc V c t, PhiS_pos V c _ _ hz]
        iintro ⟨⟨⟨HS0, HR⟩, Hg⟩, Ho, ⟨%d0, H0⟩, ⟨%d1, H1⟩, ⟨%d2, H2⟩, ⟨%d3, H3⟩, ⟨%d4, H4⟩⟩
        iapply ((kernelRun0_A c (grid0.coords t) _ _ _ _ _ _ _ _ _ _ _ _ ((hcond0_0 t).mpr h0) (fun h => h1 ((hcond0_1 t).mp h)) (iblk0 V c 0 t) (iblk0 V c 1 t) (iblk0 V c 2 t) (iblk0 V c 3 t)).2.2 _ Set.univ _)
        isplitl [H0]; · iexact H0
        isplitl [H1]; · iexact H1
        isplitl [H2]; · iexact H2
        isplitl [H3]; · iexact H3
        isplitl [H4]; · iexact H4
        isplitl [HS0]; · iexists _; iexact HS0
        iintro ⟨H0, H1, H2, H3, H4, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover0_A_0 c _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        iexists _; iexact H4
  · by_cases h1 : t.val % 98 = 97
    · rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3 t], after0_3]
      rw [show (dat0 V c).leavesExact 4 t = owns (c : Thread nD τ) (ms0_4 t) fullShare ((dat0 V c).after 4 t) from by
        unfold Dat.leavesExact; rw [liveAt0_4_C t (fun h => h0 ((hcond0_0 t).mp h)) ((hcond0_1 t).mpr h1)], after0_4]
      rw [outsAt0_C V c t h0 h1]
      unfold out0_C_4 sout0_C_0; (try dsimp only)
      by_cases hz : t.val = 0
      · exfalso; omega
      · rw [PhiS_castSucc V c t, PhiS_pos V c _ _ hz]
        iintro ⟨⟨⟨HS0, HR⟩, Hg⟩, Ho, ⟨%d0, H0⟩, ⟨%d1, H1⟩, ⟨%d2, H2⟩, ⟨%d3, H3⟩, ⟨%d4, H4⟩⟩
        iapply ((kernelRun0_C c (grid0.coords t) _ _ _ _ _ _ _ _ _ _ _ _ (fun h => h0 ((hcond0_0 t).mp h)) ((hcond0_1 t).mpr h1) (iblk0 V c 0 t) (iblk0 V c 1 t) (iblk0 V c 2 t) (iblk0 V c 3 t) _).2.2 Set.univ _)
        isplitl [H0]; · iexact H0
        isplitl [H1]; · iexact H1
        isplitl [H2]; · iexact H2
        isplitl [H3]; · iexact H3
        isplitl [H4]; · iexists _; iexact H4
        isplitl [HS0]; · iexact HS0
        iintro ⟨H0, H1, H2, H3, ⟨%e4, H4⟩, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover0_C_0 c _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        unfold owns; iexists _; isplitr
        swap; · iexact H4
        ipureintro; exact View.read_writes_of_cover _ _ _ _ _ (cover0_C_4 c _ _ _ _ _ _ _ _ _ _ _ _ _ _ _ _ _ _ _ _)
    · rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3 t], after0_3]
      rw [Dat.leavesExact_idle (dat0 V c) 4 t (idleAt0_4_B t (fun h => h0 ((hcond0_0 t).mp h)) (fun h => h1 ((hcond0_1 t).mp h))) (noFlush0_4_B t (fun h => h0 ((hcond0_0 t).mp h)) (fun h => h1 ((hcond0_1 t).mp h)))]
      rw [outsAt0_B V c t h0 h1]
      unfold sout0_B_0; (try dsimp only)
      by_cases hz : t.val = 0
      · exfalso; omega
      · rw [PhiS_castSucc V c t, PhiS_pos V c _ _ hz]
        iintro ⟨⟨⟨HS0, HR⟩, Hg⟩, Ho, ⟨%d0, H0⟩, ⟨%d1, H1⟩, ⟨%d2, H2⟩, ⟨%d3, H3⟩, ⟨%d4, H4⟩⟩
        iapply ((kernelRun0_B c (grid0.coords t) _ _ _ _ _ _ _ _ _ _ _ _ (fun h => h0 ((hcond0_0 t).mp h)) (fun h => h1 ((hcond0_1 t).mp h)) (iblk0 V c 0 t) (iblk0 V c 1 t) (iblk0 V c 2 t) (iblk0 V c 3 t) _).2.2 _ Set.univ _)
        isplitl [H0]; · iexact H0
        isplitl [H1]; · iexact H1
        isplitl [H2]; · iexact H2
        isplitl [H3]; · iexact H3
        isplitl [H4]; · iexact H4
        isplitl [HS0]; · iexact HS0
        iintro ⟨H0, H1, H2, H3, H4, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover0_B_0 c _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        iexists _; iexact H4

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After the last point the invariant gives the launch's form back: the running sum's value is forgotten. -/
theorem hout0 (c : Dev nD) : (dat0 V c).Φ (Fin.last cfg0.N) ⊢ Pipeline.ΦA spec0 c := by
  have ht : (Fin.last cfg0.N).val ≠ 0 := by rw [Fin.val_last]; have : cfg0.N = 196 := N_0; omega
  rw [show (dat0 V c).Φ (Fin.last cfg0.N) = PhiS V c (Fin.last cfg0.N).val (Nat.le_of_lt_succ (Fin.last cfg0.N).isLt) from rfl, PhiS_pos V c _ _ ht, PhiA0_eq]
  iintro ⟨⟨HS0, HR⟩, Hg⟩
  isplitl [HS0 HR]
  · isplitl [HS0]
    · iexists _; iexact HS0
    iexact HR
  iexact Hg

end Cert.Kernel.Hand

end
-- ==== Proof.Region1K.lean ====
/- Region 1 of @main — the call of `cc1__kal_layer1_final_kernel` (pipeline 1, a grid of one point, eight input
   windows and one output window, each window's block its whole array) — at a PARAMETER `V`: the TensorCore's buffer
   contents when the region is entered. Each window's block at a point (`iblk1`), what the body leaves in the output
   window's buffer as a function of the input blocks (`out1_8`), the body's triple (`sound_kernel1`), the pipeline's
   proof data (`dat1`) and the body obligation (`body_obligation1`). Everything is generic in the float model `F`. -/
import proofs.«114522_j54279796687469_2_alg».proof.Proof.Gen.Kernel.Launch
import proofs.«114522_j54279796687469_2_alg».proof.Proof.Gen.Kernel.Skeleton
import proofs.«114522_j54279796687469_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for any proof
    data whose array is `V`'s and whose body leaves the block in place: the window is uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not, for any proof
    data whose array is `V`'s and whose body leaves the block in place: the window is uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not, for any proof
    data whose array is `V`'s and whose body leaves the block in place: the window is uncut and never idle. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not, for any proof
    data whose array is `V`'s and whose body leaves the block in place: the window is uncut and never idle. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds its block at every point, fetched there or not, for any proof
    data whose array is `V`'s and whose body leaves the block in place: the window is uncut and never idle. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Input window 5's current staging buffer holds its block at every point, fetched there or not, for any proof
    data whose array is `V`'s and whose body leaves the block in place: the window is uncut and never idle. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-- Input window 6's current staging buffer holds its block at every point, fetched there or not, for any proof
    data whose array is `V`'s and whose body leaves the block in place: the window is uncut and never idle. -/
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

/-- Input window 7's current staging buffer holds its block at every point, fetched there or not, for any proof
    data whose array is `V`'s and whose body leaves the block in place: the window is uncut and never idle. -/
theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: every load and the one store take the whole buffer -/

abbrev r1_0 : Rect S256x1024 := Rect.unit (s := S256x1024) ![0, 0] S256x1024.size inb_S256x1024_S256x1024_0_0
abbrev r1_1 : Rect S256x4096 := Rect.unit (s := S256x4096) ![0, 0] S256x4096.size inb_S256x4096_S256x4096_0_0
abbrev r1_2 : Rect S128x1024 := Rect.unit (s := S128x1024) ![0, 0] S128x1024.size inb_S128x1024_S128x1024_0_0
abbrev r1_3 : Rect S128x4096 := Rect.unit (s := S128x4096) ![0, 0] S128x4096.size inb_S128x4096_S128x4096_0_0
abbrev r1_4 : Rect S128 := Rect.unit (s := S128) ![0] S128.size inb_S128_S128_0
abbrev r1_5 : Rect S128 := Rect.unit (s := S128) ![0] S128.size inb_S128_S128_0
abbrev r1_6 : Rect S2x128 := Rect.unit (s := S2x128) ![0, 0] S2x128.size inb_S2x128_S2x128_0_0
abbrev r1_7 : Rect S2 := Rect.unit (s := S2) ![0] S2.size inb_S2_S2_0
abbrev r1_8 : Rect S256x2 := Rect.unit (s := S256x2) ![0, 0] S256x2.size inb_S256x2_S256x2_0_0

/-! ## What the body leaves in the output window's buffer -/

/-- Window 8's staging buffer after the body, from the input windows' blocks: its one store, of the payload
    `k1_pay1` over the hidden activation `k1_pay2` (read off windows 0–5) and windows 6 and 7. -/
def out1_8 (x0 : Vec F S256x1024 .f32) (x1 : Vec F S256x4096 .bf16) (x2 : Vec F S128x1024 .f32) (x3 : Vec F S128x4096 .f32)
    (x4 x5 : Vec F S128 .f32) (x6 : Vec F S2x128 .f32) (x7 : Vec F S2 .f32) : Vec F S256x2 .f32 :=
  View.canon [⟨r1_8, k1_pay1 (k1_pay2 (View.ld x0 r1_0) (View.ld x2 r1_2) (View.ld x1 r1_1) (View.ld x3 r1_3) (View.ld x4 r1_4) (View.ld x5 r1_5))
    (View.ld x6 r1_6) (View.ld x7 r1_7)⟩]

/-- The one store takes the whole buffer, so it covers it. -/
theorem cover1_8 (p0 : Vec F S256x2 .f32) (y : S256x2.Idx) :
    ∃ pc ∈ ([⟨r1_8, p0⟩] : List (View.Piece (Elt F) S256x2 .f32)), y ∈ pc.1.set :=
  View.cover_of_tiled [⟨r1_8, p0⟩] S256x2.size (by rfl) y

/-! ## The body's triple -/

set_option maxHeartbeats 1000000 in
/-- The kernel body on whole staging memrefs, the inputs' at read contents `xW` and the output's at anything, runs to
    the continuation holding the inputs' as they were and the output's at `out1_8` of the inputs'. -/
theorem sound_kernel1 (c : Dev nD) (E : Set ℕ) (i : grid1.Coords)
    (arg1 : Memref sig .tc .vmem S256x1024 .f32) (harg1 : arg1.IsWhole)
    (arg2 : Memref sig .tc .vmem S256x4096 .bf16) (harg2 : arg2.IsWhole)
    (arg3 : Memref sig .tc .vmem S128x1024 .f32) (harg3 : arg3.IsWhole)
    (arg4 : Memref sig .tc .vmem S128x4096 .f32) (harg4 : arg4.IsWhole)
    (arg5 : Memref sig .tc .vmem S128 .f32) (harg5 : arg5.IsWhole)
    (arg6 : Memref sig .tc .vmem S128 .f32) (harg6 : arg6.IsWhole)
    (arg7 : Memref sig .tc .vmem S2x128 .f32) (harg7 : arg7.IsWhole)
    (arg8 : Memref sig .tc .vmem S2 .f32) (harg8 : arg8.IsWhole)
    (arg9 : Memref sig .tc .vmem S256x2 .f32) (harg9 : arg9.IsWhole)
    (x0 : Vec F S256x1024 .f32)    (x1 : Vec F S256x4096 .bf16)
    (x2 : Vec F S128x1024 .f32)    (x3 : Vec F S128x4096 .f32)
    (x4 : Vec F S128 .f32)    (x5 : Vec F S128 .f32)
    (x6 : Vec F S2x128 .f32)    (x7 : Vec F S2 .f32)
    (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7
        ∗ (∃ d, owns (c : Thread nD τ) arg9 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7
            ∗ owns (c : Thread nD τ) arg9 fullShare (out1_8 x0 x1 x2 x3 x4 x5 x6 x7)) -∗ K ⟨⟩))
      ⊢ wp frame (wpE (defs₀ (F := F)) Variants.none c none) E
          (cc1__kal_layer1_final_kernel i arg1 harg1 arg2 harg2 arg3 harg3 arg4 harg4 arg5 harg5 arg6 harg6 arg7 harg7 arg8 harg8 arg9 harg9) K := by
  simp only [cc1__kal_layer1_final_kernel_eq_skeleton]; unfold cc1__kal_layer1_final_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, Hk⟩
  subst hf0; subst hf1; subst hf2; subst hf3; subst hf4; subst hf5; subst hf6; subst hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  iexists _; isplitr
  swap; · iexact H8
  ipureintro
  exact View.read_writes_eq_canon _ _ _ (cover1_8 _)

/-! ## The pipeline's proof data -/

/-- The proof data of pipeline 1 on core `c`: the arrays as the region finds them (`V`); after the body at
    point `t` each input's buffer at its block and the output's at `out1_8` of the input blocks; the invariant the
    scoped rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => out1_8 (iblk1 V c 0 t) (iblk1 V c 1 t) (iblk1 V c 2 t) (iblk1 V c 3 t) (iblk1 V c 4 t) (iblk1 V c 5 t) (iblk1 V c 6 t) (iblk1 V c 7 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = out1_8 (iblk1 V c 0 t) (iblk1 V c 1 t) (iblk1 V c 2 t) (iblk1 V c 3 t) (iblk1 V c 4 t) (iblk1 V c 5 t) (iblk1 V c 6 t) (iblk1 V c 7 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t))

/-- The body at any point: the inputs' memrefs hold their blocks (`before1_W`), so `sound_kernel1` applies; the
    invariant and the core's `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel1 c Set.univ _ _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) (iblk1 V c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.RunK.lean ====
/-
  The whole program's run: @main is six segments — the host operations that normalise the input and build its
  polynomial basis, region 0 (the first layer's sums), three stretches of host operations (the first layer's
  normalisation over whole rows, its activation, the second basis), region 1 (the second layer, the output layer and the
  softmax). The contents of every unscoped buffer at each segment boundary are a fold from the launch memory: a host
  stretch applies its operations; a region replaces its windows' arrays by what its write-backs leave. Every weakly
  fair execution terminates with each unscoped buffer at the last boundary's contents (`run_all`); read at an argument
  that is the launch contents, and at the result buffer it is what region 1 wrote.
-/
import proofs.«114522_j54279796687469_2_alg».proof.Proof.Region0K
import proofs.«114522_j54279796687469_2_alg».proof.Proof.Region1K
import proofs.«114522_j54279796687469_2_alg».proof.Proof.Gen.Kernel.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary -/

abbrev W0 : Dev nD → Valuation τ sig (Elt F) := fun c b => (s₀ m ρ).mem ((c : Dev nD), b)
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At region 0's exit: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

abbrev W3 : Dev nD → Valuation τ sig (Elt F) := fun c => StableHlo.after hostOps1 (W2 m ρ c)
abbrev W4 : Dev nD → Valuation τ sig (Elt F) := fun c => StableHlo.after hostOps1_1 (W3 m ρ c)
abbrev W5 : Dev nD → Valuation τ sig (Elt F) := fun c => StableHlo.after hostOps1_2 (W4 m ρ c)
abbrev V5 : (c : Dev nD) → (b : Ref sig .tc) → Buf (Elt F) ((c : Thread nD τ).loc b) := fun c b => W5 m ρ c b
/-- At region 1's exit: its arrays at what the pipeline leaves, every other buffer as entered. -/
def W6 (c : Dev nD) : Valuation τ sig (Elt F) :=
  Pipeline.withArrays spec1 c (W5 m ρ c) fun w => (dat1 (V5 m ρ) c).arrAt w cfg1.N
theorem W6_arr (c : Dev nD) (w : Fin cfg1.W) :
    W6 m ρ c (Proc.devRef .tc (Pipeline.arrRef spec1 w)) = (dat1 (V5 m ρ) c).arrAt w cfg1.N := by
  unfold W6; exact Pipeline.withArrays_arr spec1 launch1.win.arr_inj c _ _ w
theorem W6_of_ne (c : Dev nD) (b : Ref sig .tc) (hb : ∀ w, Pipeline.arrRef spec1 w ≠ b) :
    W6 m ρ c (Proc.devRef .tc b) = W5 m ρ c (Proc.devRef .tc b) := by
  unfold W6; exact Pipeline.withArrays_of_ne spec1 c _ _ b hb
abbrev V6 : (c : Dev nD) → (b : Ref sig .tc) → Buf (Elt F) ((c : Thread nD τ).loc b) := fun c b => W6 m ρ c b
theorem hF1 (c : Dev nD) (w : Fin cfg1.W) : (dat1 (V5 m ρ) c).arrAt w cfg1.N = V6 m ρ c (Pipeline.arrRef spec1 w) :=
  (W6_arr m ρ c w).symm
theorem hrest1 (c : Dev nD) : ∀ b, b ∉ Finset.univ.image (Pipeline.arrRef spec1) → V6 m ρ c b = V5 m ρ c b :=
  fun b hb => W6_of_ne m ρ c b fun w e => hb (Finset.mem_image.mpr ⟨w, Finset.mem_univ _, e⟩)

/-! ### The arguments end as launched: no host operation writes one, and a region only reads one -/

theorem W6_main_arg0 (c : Dev nD) : W6 m ρ c (Proc.devRef .tc main_arg0) = m ((c : Thread nD τ).loc main_arg0) :=
  calc W6 m ρ c (Proc.devRef .tc main_arg0)
    _ = W5 m ρ c (Proc.devRef .tc main_arg0) := W6_of_ne m ρ c main_arg0 (by decide)
    _ = W4 m ρ c (Proc.devRef .tc main_arg0) := StableHlo.after_of_writes_sub hostOps1_2 _ hostOps1_2_writes (by decide)
    _ = W3 m ρ c (Proc.devRef .tc main_arg0) := StableHlo.after_of_writes_sub hostOps1_1 _ hostOps1_1_writes (by decide)
    _ = W2 m ρ c (Proc.devRef .tc main_arg0) := StableHlo.after_of_writes_sub hostOps1 _ hostOps1_writes (by decide)
    _ = W1 m ρ c (Proc.devRef .tc main_arg0) := (W2_arr m ρ c 0).trans (((dat0 (V1 m ρ) c).arrAt_in 0 rfl _).trans (A_eq0 (V1 m ρ) c 0))
    _ = W0 m ρ c (Proc.devRef .tc main_arg0) := StableHlo.after_of_writes_sub hostOps0 _ hostOps0_writes (by decide)
    _ = m ((c : Thread nD τ).loc main_arg0) := rfl

theorem W6_main_arg1 (c : Dev nD) : W6 m ρ c (Proc.devRef .tc main_arg1) = m ((c : Thread nD τ).loc main_arg1) :=
  calc W6 m ρ c (Proc.devRef .tc main_arg1)
    _ = W5 m ρ c (Proc.devRef .tc main_arg1) := W6_of_ne m ρ c main_arg1 (by decide)
    _ = W4 m ρ c (Proc.devRef .tc main_arg1) := StableHlo.after_of_writes_sub hostOps1_2 _ hostOps1_2_writes (by decide)
    _ = W3 m ρ c (Proc.devRef .tc main_arg1) := StableHlo.after_of_writes_sub hostOps1_1 _ hostOps1_1_writes (by decide)
    _ = W2 m ρ c (Proc.devRef .tc main_arg1) := StableHlo.after_of_writes_sub hostOps1 _ hostOps1_writes (by decide)
    _ = W1 m ρ c (Proc.devRef .tc main_arg1) := (W2_arr m ρ c 2).trans (((dat0 (V1 m ρ) c).arrAt_in 2 rfl _).trans (A_eq0 (V1 m ρ) c 2))
    _ = W0 m ρ c (Proc.devRef .tc main_arg1) := StableHlo.after_of_writes_sub hostOps0 _ hostOps0_writes (by decide)
    _ = m ((c : Thread nD τ).loc main_arg1) := rfl

theorem W6_main_arg2 (c : Dev nD) : W6 m ρ c (Proc.devRef .tc main_arg2) = m ((c : Thread nD τ).loc main_arg2) :=
  calc W6 m ρ c (Proc.devRef .tc main_arg2)
    _ = W5 m ρ c (Proc.devRef .tc main_arg2) := W6_of_ne m ρ c main_arg2 (by decide)
    _ = W4 m ρ c (Proc.devRef .tc main_arg2) := StableHlo.after_of_writes_sub hostOps1_2 _ hostOps1_2_writes (by decide)
    _ = W3 m ρ c (Proc.devRef .tc main_arg2) := StableHlo.after_of_writes_sub hostOps1_1 _ hostOps1_1_writes (by decide)
    _ = W2 m ρ c (Proc.devRef .tc main_arg2) := StableHlo.after_of_writes_sub hostOps1 _ hostOps1_writes (by decide)
    _ = W1 m ρ c (Proc.devRef .tc main_arg2) := (W2_arr m ρ c 3).trans (((dat0 (V1 m ρ) c).arrAt_in 3 rfl _).trans (A_eq0 (V1 m ρ) c 3))
    _ = W0 m ρ c (Proc.devRef .tc main_arg2) := StableHlo.after_of_writes_sub hostOps0 _ hostOps0_writes (by decide)
    _ = m ((c : Thread nD τ).loc main_arg2) := rfl

theorem W6_main_arg3 (c : Dev nD) : W6 m ρ c (Proc.devRef .tc main_arg3) = m ((c : Thread nD τ).loc main_arg3) :=
  calc W6 m ρ c (Proc.devRef .tc main_arg3)
    _ = W5 m ρ c (Proc.devRef .tc main_arg3) := W6_of_ne m ρ c main_arg3 (by decide)
    _ = W4 m ρ c (Proc.devRef .tc main_arg3) := StableHlo.after_of_writes_sub hostOps1_2 _ hostOps1_2_writes (by decide)
    _ = W3 m ρ c (Proc.devRef .tc main_arg3) := StableHlo.after_of_writes_sub hostOps1_1 _ hostOps1_1_writes (by decide)
    _ = W2 m ρ c (Proc.devRef .tc main_arg3) := StableHlo.after_of_writes_sub hostOps1 _ hostOps1_writes (by decide)
    _ = W1 m ρ c (Proc.devRef .tc main_arg3) := W2_of_ne m ρ c main_arg3 (by decide)
    _ = W0 m ρ c (Proc.devRef .tc main_arg3) := StableHlo.after_of_writes_sub hostOps0 _ hostOps0_writes (by decide)
    _ = m ((c : Thread nD τ).loc main_arg3) := rfl

theorem W6_main_arg4 (c : Dev nD) : W6 m ρ c (Proc.devRef .tc main_arg4) = m ((c : Thread nD τ).loc main_arg4) :=
  calc W6 m ρ c (Proc.devRef .tc main_arg4)
    _ = W5 m ρ c (Proc.devRef .tc main_arg4) := W6_of_ne m ρ c main_arg4 (by decide)
    _ = W4 m ρ c (Proc.devRef .tc main_arg4) := StableHlo.after_of_writes_sub hostOps1_2 _ hostOps1_2_writes (by decide)
    _ = W3 m ρ c (Proc.devRef .tc main_arg4) := StableHlo.after_of_writes_sub hostOps1_1 _ hostOps1_1_writes (by decide)
    _ = W2 m ρ c (Proc.devRef .tc main_arg4) := StableHlo.after_of_writes_sub hostOps1 _ hostOps1_writes (by decide)
    _ = W1 m ρ c (Proc.devRef .tc main_arg4) := W2_of_ne m ρ c main_arg4 (by decide)
    _ = W0 m ρ c (Proc.devRef .tc main_arg4) := StableHlo.after_of_writes_sub hostOps0 _ hostOps0_writes (by decide)
    _ = m ((c : Thread nD τ).loc main_arg4) := rfl

theorem W6_main_arg5 (c : Dev nD) : W6 m ρ c (Proc.devRef .tc main_arg5) = m ((c : Thread nD τ).loc main_arg5) :=
  calc W6 m ρ c (Proc.devRef .tc main_arg5)
    _ = W5 m ρ c (Proc.devRef .tc main_arg5) := (W6_arr m ρ c 2).trans (((dat1 (V5 m ρ) c).arrAt_in 2 rfl _).trans (A_eq1 (V5 m ρ) c 2))
    _ = W4 m ρ c (Proc.devRef .tc main_arg5) := StableHlo.after_of_writes_sub hostOps1_2 _ hostOps1_2_writes (by decide)
    _ = W3 m ρ c (Proc.devRef .tc main_arg5) := StableHlo.after_of_writes_sub hostOps1_1 _ hostOps1_1_writes (by decide)
    _ = W2 m ρ c (Proc.devRef .tc main_arg5) := StableHlo.after_of_writes_sub hostOps1 _ hostOps1_writes (by decide)
    _ = W1 m ρ c (Proc.devRef .tc main_arg5) := W2_of_ne m ρ c main_arg5 (by decide)
    _ = W0 m ρ c (Proc.devRef .tc main_arg5) := StableHlo.after_of_writes_sub hostOps0 _ hostOps0_writes (by decide)
    _ = m ((c : Thread nD τ).loc main_arg5) := rfl

theorem W6_main_arg6 (c : Dev nD) : W6 m ρ c (Proc.devRef .tc main_arg6) = m ((c : Thread nD τ).loc main_arg6) :=
  calc W6 m ρ c (Proc.devRef .tc main_arg6)
    _ = W5 m ρ c (Proc.devRef .tc main_arg6) := (W6_arr m ρ c 3).trans (((dat1 (V5 m ρ) c).arrAt_in 3 rfl _).trans (A_eq1 (V5 m ρ) c 3))
    _ = W4 m ρ c (Proc.devRef .tc main_arg6) := StableHlo.after_of_writes_sub hostOps1_2 _ hostOps1_2_writes (by decide)
    _ = W3 m ρ c (Proc.devRef .tc main_arg6) := StableHlo.after_of_writes_sub hostOps1_1 _ hostOps1_1_writes (by decide)
    _ = W2 m ρ c (Proc.devRef .tc main_arg6) := StableHlo.after_of_writes_sub hostOps1 _ hostOps1_writes (by decide)
    _ = W1 m ρ c (Proc.devRef .tc main_arg6) := W2_of_ne m ρ c main_arg6 (by decide)
    _ = W0 m ρ c (Proc.devRef .tc main_arg6) := StableHlo.after_of_writes_sub hostOps0 _ hostOps0_writes (by decide)
    _ = m ((c : Thread nD τ).loc main_arg6) := rfl

theorem W6_main_arg7 (c : Dev nD) : W6 m ρ c (Proc.devRef .tc main_arg7) = m ((c : Thread nD τ).loc main_arg7) :=
  calc W6 m ρ c (Proc.devRef .tc main_arg7)
    _ = W5 m ρ c (Proc.devRef .tc main_arg7) := (W6_arr m ρ c 4).trans (((dat1 (V5 m ρ) c).arrAt_in 4 rfl _).trans (A_eq1 (V5 m ρ) c 4))
    _ = W4 m ρ c (Proc.devRef .tc main_arg7) := StableHlo.after_of_writes_sub hostOps1_2 _ hostOps1_2_writes (by decide)
    _ = W3 m ρ c (Proc.devRef .tc main_arg7) := StableHlo.after_of_writes_sub hostOps1_1 _ hostOps1_1_writes (by decide)
    _ = W2 m ρ c (Proc.devRef .tc main_arg7) := StableHlo.after_of_writes_sub hostOps1 _ hostOps1_writes (by decide)
    _ = W1 m ρ c (Proc.devRef .tc main_arg7) := W2_of_ne m ρ c main_arg7 (by decide)
    _ = W0 m ρ c (Proc.devRef .tc main_arg7) := StableHlo.after_of_writes_sub hostOps0 _ hostOps0_writes (by decide)
    _ = m ((c : Thread nD τ).loc main_arg7) := rfl

theorem W6_main_arg8 (c : Dev nD) : W6 m ρ c (Proc.devRef .tc main_arg8) = m ((c : Thread nD τ).loc main_arg8) :=
  calc W6 m ρ c (Proc.devRef .tc main_arg8)
    _ = W5 m ρ c (Proc.devRef .tc main_arg8) := (W6_arr m ρ c 5).trans (((dat1 (V5 m ρ) c).arrAt_in 5 rfl _).trans (A_eq1 (V5 m ρ) c 5))
    _ = W4 m ρ c (Proc.devRef .tc main_arg8) := StableHlo.after_of_writes_sub hostOps1_2 _ hostOps1_2_writes (by decide)
    _ = W3 m ρ c (Proc.devRef .tc main_arg8) := StableHlo.after_of_writes_sub hostOps1_1 _ hostOps1_1_writes (by decide)
    _ = W2 m ρ c (Proc.devRef .tc main_arg8) := StableHlo.after_of_writes_sub hostOps1 _ hostOps1_writes (by decide)
    _ = W1 m ρ c (Proc.devRef .tc main_arg8) := W2_of_ne m ρ c main_arg8 (by decide)
    _ = W0 m ρ c (Proc.devRef .tc main_arg8) := StableHlo.after_of_writes_sub hostOps0 _ hostOps0_writes (by decide)
    _ = m ((c : Thread nD τ).loc main_arg8) := rfl

theorem W6_main_arg9 (c : Dev nD) : W6 m ρ c (Proc.devRef .tc main_arg9) = m ((c : Thread nD τ).loc main_arg9) :=
  calc W6 m ρ c (Proc.devRef .tc main_arg9)
    _ = W5 m ρ c (Proc.devRef .tc main_arg9) := (W6_arr m ρ c 6).trans (((dat1 (V5 m ρ) c).arrAt_in 6 rfl _).trans (A_eq1 (V5 m ρ) c 6))
    _ = W4 m ρ c (Proc.devRef .tc main_arg9) := StableHlo.after_of_writes_sub hostOps1_2 _ hostOps1_2_writes (by decide)
    _ = W3 m ρ c (Proc.devRef .tc main_arg9) := StableHlo.after_of_writes_sub hostOps1_1 _ hostOps1_1_writes (by decide)
    _ = W2 m ρ c (Proc.devRef .tc main_arg9) := StableHlo.after_of_writes_sub hostOps1 _ hostOps1_writes (by decide)
    _ = W1 m ρ c (Proc.devRef .tc main_arg9) := W2_of_ne m ρ c main_arg9 (by decide)
    _ = W0 m ρ c (Proc.devRef .tc main_arg9) := StableHlo.after_of_writes_sub hostOps0 _ hostOps0_writes (by decide)
    _ = m ((c : Thread nD τ).loc main_arg9) := rfl

theorem W6_main_arg10 (c : Dev nD) : W6 m ρ c (Proc.devRef .tc main_arg10) = m ((c : Thread nD τ).loc main_arg10) :=
  calc W6 m ρ c (Proc.devRef .tc main_arg10)
    _ = W5 m ρ c (Proc.devRef .tc main_arg10) := (W6_arr m ρ c 7).trans (((dat1 (V5 m ρ) c).arrAt_in 7 rfl _).trans (A_eq1 (V5 m ρ) c 7))
    _ = W4 m ρ c (Proc.devRef .tc main_arg10) := StableHlo.after_of_writes_sub hostOps1_2 _ hostOps1_2_writes (by decide)
    _ = W3 m ρ c (Proc.devRef .tc main_arg10) := StableHlo.after_of_writes_sub hostOps1_1 _ hostOps1_1_writes (by decide)
    _ = W2 m ρ c (Proc.devRef .tc main_arg10) := StableHlo.after_of_writes_sub hostOps1 _ hostOps1_writes (by decide)
    _ = W1 m ρ c (Proc.devRef .tc main_arg10) := W2_of_ne m ρ c main_arg10 (by decide)
    _ = W0 m ρ c (Proc.devRef .tc main_arg10) := StableHlo.after_of_writes_sub hostOps0 _ hostOps0_writes (by decide)
    _ = m ((c : Thread nD τ).loc main_arg10) := rfl

/-! ## The proof data family and the thread state -/

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V5 m ρ) c
abbrev 𝒱₀ : Variants := Variants.none
abbrev L : GSem nD τ sig → Finset Unit := fun _ => ∅
abbrev lv : GSem nD τ sig → Unit → ℕ := fun _ _ => 0
/-- What rides beside the buffers through every segment: the generator register at some state and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W6 m ρ c) ∗ ∃ r, prngReg c r)

/-! ## The regions as segments -/

set_option backward.isDefEq.respectTransparency.types false in
/-- Region 0 over the thread state: entered from every unscoped buffer at the boundary's contents, left at the next
    boundary's; its arrays split out of the unscoped buffers and put back at what the pipeline leaves; the generator
    register into the invariant and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h' : iprop(Pipeline.scopedRest spec0 c ∗ ∃ r, prngReg c r) ⊢ ((dat0 (V1 m ρ) c).Φ 0 : sProp 𝕄) := by
      have h := hin0 (V1 m ρ) c; unfold Pipeline.ΦA at h; exact h
    show _ ⊢ (dat0 (V1 m ρ) c).Φ 0
    iintro ⟨Hp, -, Hr⟩
    iapply h'
    isplitl [Hr]; · iexact Hr
    iexact Hp
  hout c := by
    have h' : ((dat0 (V1 m ρ) c).Φ (Fin.last cfg0.N) : sProp 𝕄) ⊢ iprop(Pipeline.scopedRest spec0 c ∗ ∃ r, prngReg c r) := by
      have h := hout0 (V1 m ρ) c; unfold Pipeline.ΦA at h; exact h
    rw [Pipeline.ownSems0_none]
    show (dat0 (V1 m ρ) c).Φ (Fin.last cfg0.N) ⊢ _
    iintro H
    ihave H' := h' $$ H
    icases H' with ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at the boundary's contents, left at the next
    boundary's; its arrays split out of the unscoped buffers and put back at what the pipeline leaves; the generator
    register into the invariant and out; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V5 m ρ) c).loose
  hwaits := Pipeline.hwaits_of_owed_zero _ _ _ _ L lv 1 fun _ _ => rfl
  pre c := iprop(StableHlo.held (c : Thread nD τ) (Pipeline.ucRefs τ sig) (W5 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V5 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V5 m ρ c) (V6 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the run -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .host (hseg hostOps1_1 hostOps1_1_sub hostOps1_1_fresh (W3 m ρ)),
    .host (hseg hostOps1_2 hostOps1_2_sub hostOps1_2_fresh (W4 m ρ)),
    .region (reg1 m ρ) ]

theorem main_run (c : Dev nD) : main (F := F) c = Pipeline.Seg.run (segs m ρ) := (main_chain c).trans (by chain_rfl)

set_option backward.isDefEq.respectTransparency.types false in
/-- Every weakly fair execution of @main terminates, nothing faulting, with every unscoped buffer of every core at
    the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W6 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h => h)

/-- The frame: every argument array ends holding its launch contents. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧       r.2.mem ((c.tc : Thread nD τ).loc main_arg1) = m ((c.tc : Thread nD τ).loc main_arg1)
      ∧       r.2.mem ((c.tc : Thread nD τ).loc main_arg2) = m ((c.tc : Thread nD τ).loc main_arg2)
      ∧       r.2.mem ((c.tc : Thread nD τ).loc main_arg3) = m ((c.tc : Thread nD τ).loc main_arg3)
      ∧       r.2.mem ((c.tc : Thread nD τ).loc main_arg4) = m ((c.tc : Thread nD τ).loc main_arg4)
      ∧       r.2.mem ((c.tc : Thread nD τ).loc main_arg5) = m ((c.tc : Thread nD τ).loc main_arg5)
      ∧       r.2.mem ((c.tc : Thread nD τ).loc main_arg6) = m ((c.tc : Thread nD τ).loc main_arg6)
      ∧       r.2.mem ((c.tc : Thread nD τ).loc main_arg7) = m ((c.tc : Thread nD τ).loc main_arg7)
      ∧       r.2.mem ((c.tc : Thread nD τ).loc main_arg8) = m ((c.tc : Thread nD τ).loc main_arg8)
      ∧       r.2.mem ((c.tc : Thread nD τ).loc main_arg9) = m ((c.tc : Thread nD τ).loc main_arg9)
      ∧       r.2.mem ((c.tc : Thread nD τ).loc main_arg10) = m ((c.tc : Thread nD τ).loc main_arg10)) :=
  (θ_run defs _ _).mono (fun _ h c => ⟨(h c _ (mem_uc main_arg0 (by decide))).trans (W6_main_arg0 m ρ c),
    (h c _ (mem_uc main_arg1 (by decide))).trans (W6_main_arg1 m ρ c),
    (h c _ (mem_uc main_arg2 (by decide))).trans (W6_main_arg2 m ρ c),
    (h c _ (mem_uc main_arg3 (by decide))).trans (W6_main_arg3 m ρ c),
    (h c _ (mem_uc main_arg4 (by decide))).trans (W6_main_arg4 m ρ c),
    (h c _ (mem_uc main_arg5 (by decide))).trans (W6_main_arg5 m ρ c),
    (h c _ (mem_uc main_arg6 (by decide))).trans (W6_main_arg6 m ρ c),
    (h c _ (mem_uc main_arg7 (by decide))).trans (W6_main_arg7 m ρ c),
    (h c _ (mem_uc main_arg8 (by decide))).trans (W6_main_arg8 m ρ c),
    (h c _ (mem_uc main_arg9 (by decide))).trans (W6_main_arg9 m ρ c),
    (h c _ (mem_uc main_arg10 (by decide))).trans (W6_main_arg10 m ρ c)⟩) (run_all m ρ)

/-- The run with the result named: the result buffer ends at what region 1's one write-back leaves, the arguments as launched. -/
theorem run_value : θ_run defs (onTc (τ := τ) (main (F := F))) ⟨m, fun _ => 0, ρ⟩ (fun r => ∀ c : Dev nD,
      r.2.mem ((c.tc : Thread nD τ).loc main_v96) = (dat1 (V5 m ρ) c).arrAt 8 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c => ⟨(h c _ (mem_uc main_v96 (by decide))).trans (W6_arr m ρ c 8),
    (h c _ (mem_uc main_arg0 (by decide))).trans (W6_main_arg0 m ρ c),
    (h c _ (mem_uc main_arg1 (by decide))).trans (W6_main_arg1 m ρ c),
    (h c _ (mem_uc main_arg2 (by decide))).trans (W6_main_arg2 m ρ c),
    (h c _ (mem_uc main_arg3 (by decide))).trans (W6_main_arg3 m ρ c),
    (h c _ (mem_uc main_arg4 (by decide))).trans (W6_main_arg4 m ρ c),
    (h c _ (mem_uc main_arg5 (by decide))).trans (W6_main_arg5 m ρ c),
    (h c _ (mem_uc main_arg6 (by decide))).trans (W6_main_arg6 m ρ c),
    (h c _ (mem_uc main_arg7 (by decide))).trans (W6_main_arg7 m ρ c),
    (h c _ (mem_uc main_arg8 (by decide))).trans (W6_main_arg8 m ρ c),
    (h c _ (mem_uc main_arg9 (by decide))).trans (W6_main_arg9 m ρ c),
    (h c _ (mem_uc main_arg10 (by decide))).trans (W6_main_arg10 m ρ c)⟩) (run_all m ρ)

end Cert.Kernel.Hand

end
-- ==== Proof.Region0.Base.lean ====
/-
  Region 0 (the first layer's pre-normalisation sums): what its three control cases share.
  The grid is 2 × 98: the first coordinate picks a block of 512 output columns, the second walks the 98 blocks of
  the contracted axis. The body adds one block's two products to a running sum kept in a scratch buffer: at the first
  block of a sweep the sum restarts from zero, at the last it is copied into the output window, which is written back
  only there. Stated here: each window's block at a grid point, the two branch conditions decided over the grid, where
  the output window is idle, the memrefs the body is called with, and the shape of the region's invariant.
-/
import proofs.«114522_j54279796687469_2_alg».proof.Proof.Gen.KernelIdeal.Launch
import proofs.«114522_j54279796687469_2_alg».proof.Proof.Gen.KernelIdeal.Skeleton
import proofs.«114522_j54279796687469_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at grid point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, for any proof data over `V` whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, for any proof data over `V` whose body leaves the block in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, for any proof data over `V` whose body leaves the block in place. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, for any proof data over `V` whose body leaves the block in place. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
end

/-! ## The two branch conditions, decided over the grid -/

/-- "This is the first block of the contracted axis": the running sum restarts. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 98 = 0 :=
  (by decide +kernel : ∀ t : Fin grid0.N, cond0_0 (grid0.coords t) ↔ t.val % 98 = 0)

/-- "This is the last block of the contracted axis": the running sum is copied out. -/
abbrev cond0_1 (i : grid0.Coords) : Prop := k0_cond2 i = 1#1
theorem hcond0_1 : ∀ t : Fin cfg0.N, cond0_1 (grid0.coords t) ↔ t.val % 98 = 97 :=
  (by decide +kernel : ∀ t : Fin grid0.N, cond0_1 (grid0.coords t) ↔ t.val % 98 = 97)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
/-- Away from the last block the body stores nothing into the output window, and its block is not written back. -/
theorem idleAt0_4_A : ∀ t : Fin cfg0.N, cond0_0 (grid0.coords t) → ¬cond0_1 (grid0.coords t) → cfg0.idle 4 (grid0.coords t) = true := by decide +kernel
theorem noFlush0_4_A : ∀ t : Fin cfg0.N, cond0_0 (grid0.coords t) → ¬cond0_1 (grid0.coords t) → (cfg0.win 4).flush t = false := by decide +kernel
theorem idleAt0_4_B : ∀ t : Fin cfg0.N, ¬cond0_0 (grid0.coords t) → ¬cond0_1 (grid0.coords t) → cfg0.idle 4 (grid0.coords t) = true := by decide +kernel
theorem noFlush0_4_B : ∀ t : Fin cfg0.N, ¬cond0_0 (grid0.coords t) → ¬cond0_1 (grid0.coords t) → (cfg0.win 4).flush t = false := by decide +kernel
theorem liveAt0_4_C : ∀ t : Fin cfg0.N, ¬cond0_0 (grid0.coords t) → cond0_1 (grid0.coords t) → cfg0.idle 4 (grid0.coords t) = false := by decide +kernel

/-! ## The memrefs the body is called with -/

/-- One staging buffer of the output window, through which its contents are stated. -/
abbrev VO0_4 : View sig .tc .vmem S256x512 .f32 := (Memref.whole cc0_stg4_0 : Memref sig .tc .vmem S256x512 .f32).view
abbrev ms0_0 (t : Fin cfg0.N) : Memref sig .tc .vmem S256x512 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S256x2048 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x512 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S512x2048 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S256x512 .f32 := win0_4.stage (cfg0.slots t 4)
abbrev hs0_4 (t : Fin cfg0.N) : (ms0_4 t).IsWhole := hstage0_4 ((cfg0.slots t 4).cast nbuf0_4)
/-- The scratch buffer holding the running sum, whole. -/
abbrev scM0_0 : Memref sig .tc .vmem S256x512 .f32 := Memref.whole cc0_scratch0
abbrev VS0_0 : View sig .tc .vmem S256x512 .f32 := scM0_0.view

/-! ## The invariant's shape -/

/-- The scoped buffers of the core that region 0 never touches (the second region's staging buffers), each whole at some contents. -/
def Rest0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg6_0), ((c : Thread nD τ).loc cc1_stg6_0) ↦{fullShare} f) ∗ (∃ f : Buf (Elt F) ((c : Thread nD τ).loc cc1_stg7_0), ((c : Thread nD τ).loc cc1_stg7_0) ↦{fullShare} f) ∗ (∃ f : Buf (Elt F) ((c : Thread nD τ).loc cc1_stg8_0), ((c : Thread nD τ).loc cc1_stg8_0) ↦{fullShare} f))

/-- What the launch hands a region as its scoped rest, with the scratch split off as a memref owned at some contents. -/
theorem PhiA0_eq (c : Dev nD) :
    (Pipeline.ΦA spec0 c : sProp 𝕄)
      = iprop(iprop((∃ d, owns (c : Thread nD τ) scM0_0 fullShare d) ∗ Rest0 c) ∗ (∃ r, prngReg c r)) := by
  unfold Pipeline.ΦA Rest0; rw [scopedRest0_eq]; simp only [scM0_0, owns_whole]; try rfl

end Cert.KernelIdeal.Hand

end
-- ==== Proof.Region0.RunA.lean ====
/-
  Region 0's body in the case of the first block of a sweep: the running sum restarts from zero and takes this block's two products; the output window is left alone.
  The body is run once on whole staging memrefs; the pieces it leaves in the scratch (and, at the last block, in the
  output window) are found by the run itself.
-/
import proofs.«114522_j54279796687469_2_alg».proof.Proof.Region0.Base

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body's triple in this case, with the pieces each written buffer ends with as its witness. -/
noncomputable def kernelRun0_A (c : Dev nD) (i : grid0.Coords) (arg2 : Memref sig .tc .vmem S256x512 .f32) (harg2 : arg2.IsWhole) (arg3 : Memref sig .tc .vmem S256x2048 .bf16) (harg3 : arg3.IsWhole) (arg4 : Memref sig .tc .vmem S512x512 .f32) (harg4 : arg4.IsWhole) (arg5 : Memref sig .tc .vmem S512x2048 .f32) (harg5 : arg5.IsWhole) (arg6 : Memref sig .tc .vmem S256x512 .f32) (harg6 : arg6.IsWhole) (arg7 : Memref sig .tc .vmem S256x512 .f32) (harg7 : arg7.IsWhole) (hc0 : cond0_0 i) (hc1 : ¬cond0_1 i)
    (x0 : Vec F S256x512 .f32) (x1 : Vec F S256x2048 .bf16) (x2 : Vec F S512x512 .f32) (x3 : Vec F S512x2048 .f32) :
    Σ' (L4 : List (View.Piece (Elt F) S256x512 .f32)), { LS0 : List (View.Piece (Elt F) S256x512 .f32) //
      ∀ (xi4 : Vec F S256x512 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc0__kal_layer0_kernel i arg2 harg2 arg3 harg3 arg4 harg4 arg5 harg5 arg6 harg6 arg7 harg7) K } := by
  refine ⟨[], ?_, fun xi4 E K => ?run⟩
  case run =>
    simp only [cc0__kal_layer0_kernel_eq_skeleton]; unfold cc0__kal_layer0_kernel_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

end Cert.KernelIdeal.Hand

end
-- ==== Proof.Region0.RunB.lean ====
/-
  Region 0's body in the case of a middle block: the running sum takes this block's two products; the output window is left alone.
  The body is run once on whole staging memrefs; the pieces it leaves in the scratch (and, at the last block, in the
  output window) are found by the run itself.
-/
import proofs.«114522_j54279796687469_2_alg».proof.Proof.Region0.RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body's triple in this case, with the pieces each written buffer ends with as its witness. -/
noncomputable def kernelRun0_B (c : Dev nD) (i : grid0.Coords) (arg2 : Memref sig .tc .vmem S256x512 .f32) (harg2 : arg2.IsWhole) (arg3 : Memref sig .tc .vmem S256x2048 .bf16) (harg3 : arg3.IsWhole) (arg4 : Memref sig .tc .vmem S512x512 .f32) (harg4 : arg4.IsWhole) (arg5 : Memref sig .tc .vmem S512x2048 .f32) (harg5 : arg5.IsWhole) (arg6 : Memref sig .tc .vmem S256x512 .f32) (harg6 : arg6.IsWhole) (arg7 : Memref sig .tc .vmem S256x512 .f32) (harg7 : arg7.IsWhole) (hc0 : ¬cond0_0 i) (hc1 : ¬cond0_1 i)
    (x0 : Vec F S256x512 .f32) (x1 : Vec F S256x2048 .bf16) (x2 : Vec F S512x512 .f32) (x3 : Vec F S512x2048 .f32) (xs0 : Vec F S256x512 .f32) :
    Σ' (L4 : List (View.Piece (Elt F) S256x512 .f32)), { LS0 : List (View.Piece (Elt F) S256x512 .f32) //
      ∀ (xi4 : Vec F S256x512 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc0__kal_layer0_kernel i arg2 harg2 arg3 harg3 arg4 harg4 arg5 harg5 arg6 harg6 arg7 harg7) K } := by
  refine ⟨[], ?_, fun xi4 E K => ?run⟩
  case run =>
    simp only [cc0__kal_layer0_kernel_eq_skeleton]; unfold cc0__kal_layer0_kernel_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

end Cert.KernelIdeal.Hand

end
-- ==== Proof.Region0.RunC.lean ====
/-
  Region 0's body in the case of the last block of a sweep: the running sum takes this block's two products and is copied into the output window.
  The body is run once on whole staging memrefs; the pieces it leaves in the scratch (and, at the last block, in the
  output window) are found by the run itself.
-/
import proofs.«114522_j54279796687469_2_alg».proof.Proof.Region0.RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body's triple in this case, with the pieces each written buffer ends with as its witness. -/
noncomputable def kernelRun0_C (c : Dev nD) (i : grid0.Coords) (arg2 : Memref sig .tc .vmem S256x512 .f32) (harg2 : arg2.IsWhole) (arg3 : Memref sig .tc .vmem S256x2048 .bf16) (harg3 : arg3.IsWhole) (arg4 : Memref sig .tc .vmem S512x512 .f32) (harg4 : arg4.IsWhole) (arg5 : Memref sig .tc .vmem S512x2048 .f32) (harg5 : arg5.IsWhole) (arg6 : Memref sig .tc .vmem S256x512 .f32) (harg6 : arg6.IsWhole) (arg7 : Memref sig .tc .vmem S256x512 .f32) (harg7 : arg7.IsWhole) (hc0 : ¬cond0_0 i) (hc1 : cond0_1 i)
    (x0 : Vec F S256x512 .f32) (x1 : Vec F S256x2048 .bf16) (x2 : Vec F S512x512 .f32) (x3 : Vec F S512x2048 .f32) (xs0 : Vec F S256x512 .f32) :
    Σ' (L4 : List (View.Piece (Elt F) S256x512 .f32)), { LS0 : List (View.Piece (Elt F) S256x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS0)) -∗ K ⟨⟩))
          ⊢ wp frame (wpE (defs₀ (F := F)) Variants.none c none) E (cc0__kal_layer0_kernel i arg2 harg2 arg3 harg3 arg4 harg4 arg5 harg5 arg6 harg6 arg7 harg7) K } := by
  refine ⟨?_, ?_, fun E K => ?run⟩
  case run =>
    simp only [cc0__kal_layer0_kernel_eq_skeleton]; unfold cc0__kal_layer0_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, Hk⟩
    obtain rfl := harg2.eq_unread hf0; obtain rfl := harg3.eq_unread hf1; obtain rfl := harg4.eq_unread hf2; obtain rfl := harg5.eq_unread hf3; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; iexact HS0

end Cert.KernelIdeal.Hand

end
-- ==== Proof.Region0.lean ====
/-
  Region 0 (the first layer's pre-normalisation sums), as one half of the program's run: for any contents `V` of the
  core's buffers when the region is entered — what the running sum holds after every grid point (`outsAt0`, by
  recursion on the point: restarted at the first block of a sweep, extended at every later one, copied into the
  output window at the last), the region's invariant carrying that sum in the scratch buffer between points
  (`PhiS`), the pipeline's proof data (`dat0`) and the body obligation at every point (`body_obligation0`).
-/
import proofs.«114522_j54279796687469_2_alg».proof.Proof.Region0.RunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- What this case leaves in the output window's staging buffer: its pieces read back (none: a placeholder nothing consults, the window being idle and not written back). -/
def out0_A_4 (c : Dev nD) (i : grid0.Coords) (arg2 : Memref sig .tc .vmem S256x512 .f32) (harg2 : arg2.IsWhole) (arg3 : Memref sig .tc .vmem S256x2048 .bf16) (harg3 : arg3.IsWhole) (arg4 : Memref sig .tc .vmem S512x512 .f32) (harg4 : arg4.IsWhole) (arg5 : Memref sig .tc .vmem S512x2048 .f32) (harg5 : arg5.IsWhole) (arg6 : Memref sig .tc .vmem S256x512 .f32) (harg6 : arg6.IsWhole) (arg7 : Memref sig .tc .vmem S256x512 .f32) (harg7 : arg7.IsWhole) (hc0 : cond0_0 i) (hc1 : ¬cond0_1 i)
    (x0 : Vec F S256x512 .f32) (x1 : Vec F S256x2048 .bf16) (x2 : Vec F S512x512 .f32) (x3 : Vec F S512x2048 .f32) : Vec F S256x512 .f32 :=
  VO0_4.read (Elt F) (VO0_4.writes (Elt F) VO0_4.junk (kernelRun0_A c i arg2 harg2 arg3 harg3 arg4 harg4 arg5 harg5 arg6 harg6 arg7 harg7 hc0 hc1 x0 x1 x2 x3).1)

/-- The scratch's pieces in this case tile it, so they cover it. -/
theorem scover0_A_0 (c : Dev nD) (i : grid0.Coords) (arg2 : Memref sig .tc .vmem S256x512 .f32) (harg2 : arg2.IsWhole) (arg3 : Memref sig .tc .vmem S256x2048 .bf16) (harg3 : arg3.IsWhole) (arg4 : Memref sig .tc .vmem S512x512 .f32) (harg4 : arg4.IsWhole) (arg5 : Memref sig .tc .vmem S512x2048 .f32) (harg5 : arg5.IsWhole) (arg6 : Memref sig .tc .vmem S256x512 .f32) (harg6 : arg6.IsWhole) (arg7 : Memref sig .tc .vmem S256x512 .f32) (harg7 : arg7.IsWhole) (hc0 : cond0_0 i) (hc1 : ¬cond0_1 i)
    (x0 : Vec F S256x512 .f32) (x1 : Vec F S256x2048 .bf16) (x2 : Vec F S512x512 .f32) (x3 : Vec F S512x2048 .f32) (y : S256x512.Idx) :
    ∃ pc ∈ (kernelRun0_A c i arg2 harg2 arg3 harg3 arg4 harg4 arg5 harg5 arg6 harg6 arg7 harg7 hc0 hc1 x0 x1 x2 x3).2.1, y ∈ pc.1.set :=
  View.cover_of_tiledL (kernelRun0_A c i arg2 harg2 arg3 harg3 arg4 harg4 arg5 harg5 arg6 harg6 arg7 harg7 hc0 hc1 x0 x1 x2 x3).2.1 S256x512.size (by sl_kernel_rfl) y

/-- What this case leaves in the scratch: the running sum after this block. -/
def sout0_A_0 (c : Dev nD) (i : grid0.Coords) (arg2 : Memref sig .tc .vmem S256x512 .f32) (harg2 : arg2.IsWhole) (arg3 : Memref sig .tc .vmem S256x2048 .bf16) (harg3 : arg3.IsWhole) (arg4 : Memref sig .tc .vmem S512x512 .f32) (harg4 : arg4.IsWhole) (arg5 : Memref sig .tc .vmem S512x2048 .f32) (harg5 : arg5.IsWhole) (arg6 : Memref sig .tc .vmem S256x512 .f32) (harg6 : arg6.IsWhole) (arg7 : Memref sig .tc .vmem S256x512 .f32) (harg7 : arg7.IsWhole) (hc0 : cond0_0 i) (hc1 : ¬cond0_1 i)
    (x0 : Vec F S256x512 .f32) (x1 : Vec F S256x2048 .bf16) (x2 : Vec F S512x512 .f32) (x3 : Vec F S512x2048 .f32) : Vec F S256x512 .f32 :=
  VS0_0.read (Elt F) (VS0_0.writes (Elt F) VS0_0.junk (kernelRun0_A c i arg2 harg2 arg3 harg3 arg4 harg4 arg5 harg5 arg6 harg6 arg7 harg7 hc0 hc1 x0 x1 x2 x3).2.1)

/-- What this case leaves in the output window's staging buffer: its pieces read back (none: a placeholder nothing consults, the window being idle and not written back). -/
def out0_B_4 (c : Dev nD) (i : grid0.Coords) (arg2 : Memref sig .tc .vmem S256x512 .f32) (harg2 : arg2.IsWhole) (arg3 : Memref sig .tc .vmem S256x2048 .bf16) (harg3 : arg3.IsWhole) (arg4 : Memref sig .tc .vmem S512x512 .f32) (harg4 : arg4.IsWhole) (arg5 : Memref sig .tc .vmem S512x2048 .f32) (harg5 : arg5.IsWhole) (arg6 : Memref sig .tc .vmem S256x512 .f32) (harg6 : arg6.IsWhole) (arg7 : Memref sig .tc .vmem S256x512 .f32) (harg7 : arg7.IsWhole) (hc0 : ¬cond0_0 i) (hc1 : ¬cond0_1 i)
    (x0 : Vec F S256x512 .f32) (x1 : Vec F S256x2048 .bf16) (x2 : Vec F S512x512 .f32) (x3 : Vec F S512x2048 .f32) (xs0 : Vec F S256x512 .f32) : Vec F S256x512 .f32 :=
  VO0_4.read (Elt F) (VO0_4.writes (Elt F) VO0_4.junk (kernelRun0_B c i arg2 harg2 arg3 harg3 arg4 harg4 arg5 harg5 arg6 harg6 arg7 harg7 hc0 hc1 x0 x1 x2 x3 xs0).1)

/-- The scratch's pieces in this case tile it, so they cover it. -/
theorem scover0_B_0 (c : Dev nD) (i : grid0.Coords) (arg2 : Memref sig .tc .vmem S256x512 .f32) (harg2 : arg2.IsWhole) (arg3 : Memref sig .tc .vmem S256x2048 .bf16) (harg3 : arg3.IsWhole) (arg4 : Memref sig .tc .vmem S512x512 .f32) (harg4 : arg4.IsWhole) (arg5 : Memref sig .tc .vmem S512x2048 .f32) (harg5 : arg5.IsWhole) (arg6 : Memref sig .tc .vmem S256x512 .f32) (harg6 : arg6.IsWhole) (arg7 : Memref sig .tc .vmem S256x512 .f32) (harg7 : arg7.IsWhole) (hc0 : ¬cond0_0 i) (hc1 : ¬cond0_1 i)
    (x0 : Vec F S256x512 .f32) (x1 : Vec F S256x2048 .bf16) (x2 : Vec F S512x512 .f32) (x3 : Vec F S512x2048 .f32) (xs0 : Vec F S256x512 .f32) (y : S256x512.Idx) :
    ∃ pc ∈ (kernelRun0_B c i arg2 harg2 arg3 harg3 arg4 harg4 arg5 harg5 arg6 harg6 arg7 harg7 hc0 hc1 x0 x1 x2 x3 xs0).2.1, y ∈ pc.1.set :=
  View.cover_of_tiledL (kernelRun0_B c i arg2 harg2 arg3 harg3 arg4 harg4 arg5 harg5 arg6 harg6 arg7 harg7 hc0 hc1 x0 x1 x2 x3 xs0).2.1 S256x512.size (by sl_kernel_rfl) y

/-- What this case leaves in the scratch: the running sum after this block. -/
def sout0_B_0 (c : Dev nD) (i : grid0.Coords) (arg2 : Memref sig .tc .vmem S256x512 .f32) (harg2 : arg2.IsWhole) (arg3 : Memref sig .tc .vmem S256x2048 .bf16) (harg3 : arg3.IsWhole) (arg4 : Memref sig .tc .vmem S512x512 .f32) (harg4 : arg4.IsWhole) (arg5 : Memref sig .tc .vmem S512x2048 .f32) (harg5 : arg5.IsWhole) (arg6 : Memref sig .tc .vmem S256x512 .f32) (harg6 : arg6.IsWhole) (arg7 : Memref sig .tc .vmem S256x512 .f32) (harg7 : arg7.IsWhole) (hc0 : ¬cond0_0 i) (hc1 : ¬cond0_1 i)
    (x0 : Vec F S256x512 .f32) (x1 : Vec F S256x2048 .bf16) (x2 : Vec F S512x512 .f32) (x3 : Vec F S512x2048 .f32) (xs0 : Vec F S256x512 .f32) : Vec F S256x512 .f32 :=
  VS0_0.read (Elt F) (VS0_0.writes (Elt F) VS0_0.junk (kernelRun0_B c i arg2 harg2 arg3 harg3 arg4 harg4 arg5 harg5 arg6 harg6 arg7 harg7 hc0 hc1 x0 x1 x2 x3 xs0).2.1)

/-- At the last block the output window's pieces tile its block, so they cover it. -/
theorem cover0_C_4 (c : Dev nD) (i : grid0.Coords) (arg2 : Memref sig .tc .vmem S256x512 .f32) (harg2 : arg2.IsWhole) (arg3 : Memref sig .tc .vmem S256x2048 .bf16) (harg3 : arg3.IsWhole) (arg4 : Memref sig .tc .vmem S512x512 .f32) (harg4 : arg4.IsWhole) (arg5 : Memref sig .tc .vmem S512x2048 .f32) (harg5 : arg5.IsWhole) (arg6 : Memref sig .tc .vmem S256x512 .f32) (harg6 : arg6.IsWhole) (arg7 : Memref sig .tc .vmem S256x512 .f32) (harg7 : arg7.IsWhole) (hc0 : ¬cond0_0 i) (hc1 : cond0_1 i)
    (x0 : Vec F S256x512 .f32) (x1 : Vec F S256x2048 .bf16) (x2 : Vec F S512x512 .f32) (x3 : Vec F S512x2048 .f32) (xs0 : Vec F S256x512 .f32) (y : S256x512.Idx) :
    ∃ pc ∈ (kernelRun0_C c i arg2 harg2 arg3 harg3 arg4 harg4 arg5 harg5 arg6 harg6 arg7 harg7 hc0 hc1 x0 x1 x2 x3 xs0).1, y ∈ pc.1.set :=
  View.cover_of_tiledL (kernelRun0_C c i arg2 harg2 arg3 harg3 arg4 harg4 arg5 harg5 arg6 harg6 arg7 harg7 hc0 hc1 x0 x1 x2 x3 xs0).1 S256x512.size (by sl_kernel_rfl) y

/-- What this case leaves in the output window's staging buffer: its pieces read back (the running sum, copied out). -/
def out0_C_4 (c : Dev nD) (i : grid0.Coords) (arg2 : Memref sig .tc .vmem S256x512 .f32) (harg2 : arg2.IsWhole) (arg3 : Memref sig .tc .vmem S256x2048 .bf16) (harg3 : arg3.IsWhole) (arg4 : Memref sig .tc .vmem S512x512 .f32) (harg4 : arg4.IsWhole) (arg5 : Memref sig .tc .vmem S512x2048 .f32) (harg5 : arg5.IsWhole) (arg6 : Memref sig .tc .vmem S256x512 .f32) (harg6 : arg6.IsWhole) (arg7 : Memref sig .tc .vmem S256x512 .f32) (harg7 : arg7.IsWhole) (hc0 : ¬cond0_0 i) (hc1 : cond0_1 i)
    (x0 : Vec F S256x512 .f32) (x1 : Vec F S256x2048 .bf16) (x2 : Vec F S512x512 .f32) (x3 : Vec F S512x2048 .f32) (xs0 : Vec F S256x512 .f32) : Vec F S256x512 .f32 :=
  VO0_4.read (Elt F) (VO0_4.writes (Elt F) VO0_4.junk (kernelRun0_C c i arg2 harg2 arg3 harg3 arg4 harg4 arg5 harg5 arg6 harg6 arg7 harg7 hc0 hc1 x0 x1 x2 x3 xs0).1)

/-- The scratch's pieces in this case tile it, so they cover it. -/
theorem scover0_C_0 (c : Dev nD) (i : grid0.Coords) (arg2 : Memref sig .tc .vmem S256x512 .f32) (harg2 : arg2.IsWhole) (arg3 : Memref sig .tc .vmem S256x2048 .bf16) (harg3 : arg3.IsWhole) (arg4 : Memref sig .tc .vmem S512x512 .f32) (harg4 : arg4.IsWhole) (arg5 : Memref sig .tc .vmem S512x2048 .f32) (harg5 : arg5.IsWhole) (arg6 : Memref sig .tc .vmem S256x512 .f32) (harg6 : arg6.IsWhole) (arg7 : Memref sig .tc .vmem S256x512 .f32) (harg7 : arg7.IsWhole) (hc0 : ¬cond0_0 i) (hc1 : cond0_1 i)
    (x0 : Vec F S256x512 .f32) (x1 : Vec F S256x2048 .bf16) (x2 : Vec F S512x512 .f32) (x3 : Vec F S512x2048 .f32) (xs0 : Vec F S256x512 .f32) (y : S256x512.Idx) :
    ∃ pc ∈ (kernelRun0_C c i arg2 harg2 arg3 harg3 arg4 harg4 arg5 harg5 arg6 harg6 arg7 harg7 hc0 hc1 x0 x1 x2 x3 xs0).2.1, y ∈ pc.1.set :=
  View.cover_of_tiledL (kernelRun0_C c i arg2 harg2 arg3 harg3 arg4 harg4 arg5 harg5 arg6 harg6 arg7 harg7 hc0 hc1 x0 x1 x2 x3 xs0).2.1 S256x512.size (by sl_kernel_rfl) y

/-- What this case leaves in the scratch: the running sum after this block. -/
def sout0_C_0 (c : Dev nD) (i : grid0.Coords) (arg2 : Memref sig .tc .vmem S256x512 .f32) (harg2 : arg2.IsWhole) (arg3 : Memref sig .tc .vmem S256x2048 .bf16) (harg3 : arg3.IsWhole) (arg4 : Memref sig .tc .vmem S512x512 .f32) (harg4 : arg4.IsWhole) (arg5 : Memref sig .tc .vmem S512x2048 .f32) (harg5 : arg5.IsWhole) (arg6 : Memref sig .tc .vmem S256x512 .f32) (harg6 : arg6.IsWhole) (arg7 : Memref sig .tc .vmem S256x512 .f32) (harg7 : arg7.IsWhole) (hc0 : ¬cond0_0 i) (hc1 : cond0_1 i)
    (x0 : Vec F S256x512 .f32) (x1 : Vec F S256x2048 .bf16) (x2 : Vec F S512x512 .f32) (x3 : Vec F S512x2048 .f32) (xs0 : Vec F S256x512 .f32) : Vec F S256x512 .f32 :=
  VS0_0.read (Elt F) (VS0_0.writes (Elt F) VS0_0.junk (kernelRun0_C c i arg2 harg2 arg3 harg3 arg4 harg4 arg5 harg5 arg6 harg6 arg7 harg7 hc0 hc1 x0 x1 x2 x3 xs0).2.1)

variable (V : (c : Dev nD) → (b : Ref sig .tc) → Buf (Elt F) ((c : Thread nD τ).loc b))

/-! ## What the output window's buffer and the scratch hold after each point -/

/-- After the body at position `n`: (the output window's staging buffer, the running sum in the scratch). The case is the
    one the closed forms select at `n`; the running sum continues from what position `n - 1` left. -/
def outsAt0 (c : Dev nD) : (n : ℕ) → n < cfg0.N → Vec F S256x512 .f32 × Vec F S256x512 .f32
  | 0, hn => (out0_A_4 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩))
  | n + 1, hn =>
    if h0 : (n + 1) % 98 = 0 then
      if h1 : (n + 1) % 98 = 97 then
        False.elim (by omega)
      else
        (out0_A_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩))
    else
      if h1 : (n + 1) % 98 = 97 then
        (out0_C_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2)
      else
        (out0_B_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2)

theorem outsAt0_A (c : Dev nD) (t : Fin cfg0.N) (h0 : t.val % 98 = 0) (h1 : ¬t.val % 98 = 97) :
    outsAt0 V c t.val t.isLt = (out0_A_4 c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (fun h => h1 ((hcond0_1 t).mp h)) (iblk0 V c 0 t) (iblk0 V c 1 t) (iblk0 V c 2 t) (iblk0 V c 3 t), sout0_A_0 c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (fun h => h1 ((hcond0_1 t).mp h)) (iblk0 V c 0 t) (iblk0 V c 1 t) (iblk0 V c 2 t) (iblk0 V c 3 t)) := by
  obtain ⟨n, hn⟩ := t
  cases n with
  | zero => exact rfl
  | succ n => exact (dif_pos h0).trans ((dif_neg h1).trans rfl)

theorem outsAt0_B (c : Dev nD) (t : Fin cfg0.N) (h0 : ¬t.val % 98 = 0) (h1 : ¬t.val % 98 = 97) :
    outsAt0 V c t.val t.isLt = (out0_B_4 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (fun h => h1 ((hcond0_1 t).mp h)) (iblk0 V c 0 t) (iblk0 V c 1 t) (iblk0 V c 2 t) (iblk0 V c 3 t) (outsAt0 V c (t.val - 1) (Nat.lt_of_le_of_lt (Nat.sub_le _ _) t.isLt)).2, sout0_B_0 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (fun h => h1 ((hcond0_1 t).mp h)) (iblk0 V c 0 t) (iblk0 V c 1 t) (iblk0 V c 2 t) (iblk0 V c 3 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 98 = 0) (h1 : t.val % 98 = 97) :
    outsAt0 V c t.val t.isLt = (out0_C_4 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk0 V c 0 t) (iblk0 V c 1 t) (iblk0 V c 2 t) (iblk0 V c 3 t) (outsAt0 V c (t.val - 1) (Nat.lt_of_le_of_lt (Nat.sub_le _ _) t.isLt)).2, sout0_C_0 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk0 V c 0 t) (iblk0 V c 1 t) (iblk0 V c 2 t) (iblk0 V c 3 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The invariant: the running sum is carried in the scratch -/

/-- Before position `n`: before the first point what the launch hands over (the scratch at anything); afterwards the
    scratch at the running sum the point before left, the untouched scoped buffers, the generator register. -/
def PhiS (c : Dev nD) : (n : ℕ) → n ≤ cfg0.N → sProp 𝕄
  | 0, _ => Pipeline.ΦA spec0 c
  | n + 1, hn => iprop(iprop(owns (c : Thread nD τ) scM0_0 fullShare ((outsAt0 V c n hn).2) ∗ Rest0 c) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(owns (c : Thread nD τ) scM0_0 fullShare ((outsAt0 V c n hn).2) ∗ Rest0 c) ∗ (∃ r, prngReg c r)) := rfl

theorem PhiS_pos (c : Dev nD) (n : ℕ) (h : n ≤ cfg0.N) (hz : n ≠ 0) :
    PhiS V c n h = iprop(iprop(owns (c : Thread nD τ) scM0_0 fullShare ((outsAt0 V c (n - 1) (by omega)).2) ∗ Rest0 c) ∗ (∃ r, prngReg c r)) := by
  cases n with
  | zero => exact absurd rfl hz
  | succ n => rfl

/-! ## The pipeline's proof data -/

/-- The arrays as the region finds them; after the body each input's buffer at its block and the output's at `outsAt0`;
    the invariant `PhiS`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => (outsAt0 V c t.val t.isLt).1
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS_castSucc (c : Dev nD) (t : Fin cfg0.N) :
    (dat0 V c).Φ t.castSucc = PhiS V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = (outsAt0 V c t.val t.isLt).1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t)

set_option maxHeartbeats 4800000 in
/-- The body at any point: the closed forms say which case the point is in; the inputs' buffers hold their blocks; the
    invariant hands over the scratch at the running sum so far (at anything at the very first point) and takes it back
    at this point's. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).owesAt () t.succ = (dat0 V c).owesAt () t.castSucc from rfl]
  rw [show (dat0 V c).Φ t.succ = PhiS V c (t.val + 1) t.isLt from rfl, PhiS_succ]
  have hN : t.val < 196 := lt_of_lt_of_eq t.isLt (show cfg0.N = 196 from N_0)
  by_cases h0 : t.val % 98 = 0
  · by_cases h1 : t.val % 98 = 97
    · exfalso; omega
    · rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3 t], after0_3]
      rw [Dat.leavesExact_idle (dat0 V c) 4 t (idleAt0_4_A t ((hcond0_0 t).mpr h0) (fun h => h1 ((hcond0_1 t).mp h))) (noFlush0_4_A t ((hcond0_0 t).mpr h0) (fun h => h1 ((hcond0_1 t).mp h)))]
      rw [outsAt0_A V c t h0 h1]
      unfold sout0_A_0; (try dsimp only)
      by_cases hz : t.val = 0
      · rw [PhiS_castSucc V c t, PhiS_zero V c _ _ hz, PhiA0_eq]
        iintro ⟨⟨⟨HS0, HR⟩, Hg⟩, Ho, ⟨%d0, H0⟩, ⟨%d1, H1⟩, ⟨%d2, H2⟩, ⟨%d3, H3⟩, ⟨%d4, H4⟩⟩
        iapply ((kernelRun0_A c (grid0.coords t) _ _ _ _ _ _ _ _ _ _ _ _ ((hcond0_0 t).mpr h0) (fun h => h1 ((hcond0_1 t).mp h)) (iblk0 V c 0 t) (iblk0 V c 1 t) (iblk0 V c 2 t) (iblk0 V c 3 t)).2.2 _ Set.univ _)
        isplitl [H0]; · iexact H0
        isplitl [H1]; · iexact H1
        isplitl [H2]; · iexact H2
        isplitl [H3]; · iexact H3
        isplitl [H4]; · iexact H4
        isplitl [HS0]; · iexact HS0
        iintro ⟨H0, H1, H2, H3, H4, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover0_A_0 c _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        iexists _; iexact H4
      · rw [PhiS_castSucc V c t, PhiS_pos V c _ _ hz]
        iintro ⟨⟨⟨HS0, HR⟩, Hg⟩, Ho, ⟨%d0, H0⟩, ⟨%d1, H1⟩, ⟨%d2, H2⟩, ⟨%d3, H3⟩, ⟨%d4, H4⟩⟩
        iapply ((kernelRun0_A c (grid0.coords t) _ _ _ _ _ _ _ _ _ _ _ _ ((hcond0_0 t).mpr h0) (fun h => h1 ((hcond0_1 t).mp h)) (iblk0 V c 0 t) (iblk0 V c 1 t) (iblk0 V c 2 t) (iblk0 V c 3 t)).2.2 _ Set.univ _)
        isplitl [H0]; · iexact H0
        isplitl [H1]; · iexact H1
        isplitl [H2]; · iexact H2
        isplitl [H3]; · iexact H3
        isplitl [H4]; · iexact H4
        isplitl [HS0]; · iexists _; iexact HS0
        iintro ⟨H0, H1, H2, H3, H4, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover0_A_0 c _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        iexists _; iexact H4
  · by_cases h1 : t.val % 98 = 97
    · rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3 t], after0_3]
      rw [show (dat0 V c).leavesExact 4 t = owns (c : Thread nD τ) (ms0_4 t) fullShare ((dat0 V c).after 4 t) from by
        unfold Dat.leavesExact; rw [liveAt0_4_C t (fun h => h0 ((hcond0_0 t).mp h)) ((hcond0_1 t).mpr h1)], after0_4]
      rw [outsAt0_C V c t h0 h1]
      unfold out0_C_4 sout0_C_0; (try dsimp only)
      by_cases hz : t.val = 0
      · exfalso; omega
      · rw [PhiS_castSucc V c t, PhiS_pos V c _ _ hz]
        iintro ⟨⟨⟨HS0, HR⟩, Hg⟩, Ho, ⟨%d0, H0⟩, ⟨%d1, H1⟩, ⟨%d2, H2⟩, ⟨%d3, H3⟩, ⟨%d4, H4⟩⟩
        iapply ((kernelRun0_C c (grid0.coords t) _ _ _ _ _ _ _ _ _ _ _ _ (fun h => h0 ((hcond0_0 t).mp h)) ((hcond0_1 t).mpr h1) (iblk0 V c 0 t) (iblk0 V c 1 t) (iblk0 V c 2 t) (iblk0 V c 3 t) _).2.2 Set.univ _)
        isplitl [H0]; · iexact H0
        isplitl [H1]; · iexact H1
        isplitl [H2]; · iexact H2
        isplitl [H3]; · iexact H3
        isplitl [H4]; · iexists _; iexact H4
        isplitl [HS0]; · iexact HS0
        iintro ⟨H0, H1, H2, H3, ⟨%e4, H4⟩, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover0_C_0 c _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        unfold owns; iexists _; isplitr
        swap; · iexact H4
        ipureintro; exact View.read_writes_of_cover _ _ _ _ _ (cover0_C_4 c _ _ _ _ _ _ _ _ _ _ _ _ _ _ _ _ _ _ _ _)
    · rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3 t], after0_3]
      rw [Dat.leavesExact_idle (dat0 V c) 4 t (idleAt0_4_B t (fun h => h0 ((hcond0_0 t).mp h)) (fun h => h1 ((hcond0_1 t).mp h))) (noFlush0_4_B t (fun h => h0 ((hcond0_0 t).mp h)) (fun h => h1 ((hcond0_1 t).mp h)))]
      rw [outsAt0_B V c t h0 h1]
      unfold sout0_B_0; (try dsimp only)
      by_cases hz : t.val = 0
      · exfalso; omega
      · rw [PhiS_castSucc V c t, PhiS_pos V c _ _ hz]
        iintro ⟨⟨⟨HS0, HR⟩, Hg⟩, Ho, ⟨%d0, H0⟩, ⟨%d1, H1⟩, ⟨%d2, H2⟩, ⟨%d3, H3⟩, ⟨%d4, H4⟩⟩
        iapply ((kernelRun0_B c (grid0.coords t) _ _ _ _ _ _ _ _ _ _ _ _ (fun h => h0 ((hcond0_0 t).mp h)) (fun h => h1 ((hcond0_1 t).mp h)) (iblk0 V c 0 t) (iblk0 V c 1 t) (iblk0 V c 2 t) (iblk0 V c 3 t) _).2.2 _ Set.univ _)
        isplitl [H0]; · iexact H0
        isplitl [H1]; · iexact H1
        isplitl [H2]; · iexact H2
        isplitl [H3]; · iexact H3
        isplitl [H4]; · iexact H4
        isplitl [HS0]; · iexact HS0
        iintro ⟨H0, H1, H2, H3, H4, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover0_B_0 c _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        iexists _; iexact H4

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After the last point the invariant gives the launch's form back: the running sum's value is forgotten. -/
theorem hout0 (c : Dev nD) : (dat0 V c).Φ (Fin.last cfg0.N) ⊢ Pipeline.ΦA spec0 c := by
  have ht : (Fin.last cfg0.N).val ≠ 0 := by rw [Fin.val_last]; have : cfg0.N = 196 := N_0; omega
  rw [show (dat0 V c).Φ (Fin.last cfg0.N) = PhiS V c (Fin.last cfg0.N).val (Nat.le_of_lt_succ (Fin.last cfg0.N).isLt) from rfl, PhiS_pos V c _ _ ht, PhiA0_eq]
  iintro ⟨⟨HS0, HR⟩, Hg⟩
  isplitl [HS0 HR]
  · isplitl [HS0]
    · iexists _; iexact HS0
    iexact HR
  iexact Hg

end Cert.KernelIdeal.Hand

end
-- ==== Proof.Region1.lean ====
/- Region 1 of @main — the call of `cc1__kal_layer1_final_kernel` (pipeline 1, a grid of one point, eight input
   windows and one output window, each window's block its whole array) — at a PARAMETER `V`: the TensorCore's buffer
   contents when the region is entered. Each window's block at a point (`iblk1`), what the body leaves in the output
   window's buffer as a function of the input blocks (`out1_8`), the body's triple (`sound_kernel1`), the pipeline's
   proof data (`dat1`) and the body obligation (`body_obligation1`). Everything is generic in the float model `F`. -/
import proofs.«114522_j54279796687469_2_alg».proof.Proof.Gen.KernelIdeal.Launch
import proofs.«114522_j54279796687469_2_alg».proof.Proof.Gen.KernelIdeal.Skeleton
import proofs.«114522_j54279796687469_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for any proof
    data whose array is `V`'s and whose body leaves the block in place: the window is uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not, for any proof
    data whose array is `V`'s and whose body leaves the block in place: the window is uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not, for any proof
    data whose array is `V`'s and whose body leaves the block in place: the window is uncut and never idle. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not, for any proof
    data whose array is `V`'s and whose body leaves the block in place: the window is uncut and never idle. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds its block at every point, fetched there or not, for any proof
    data whose array is `V`'s and whose body leaves the block in place: the window is uncut and never idle. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Input window 5's current staging buffer holds its block at every point, fetched there or not, for any proof
    data whose array is `V`'s and whose body leaves the block in place: the window is uncut and never idle. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-- Input window 6's current staging buffer holds its block at every point, fetched there or not, for any proof
    data whose array is `V`'s and whose body leaves the block in place: the window is uncut and never idle. -/
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

/-- Input window 7's current staging buffer holds its block at every point, fetched there or not, for any proof
    data whose array is `V`'s and whose body leaves the block in place: the window is uncut and never idle. -/
theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: every load and the one store take the whole buffer -/

abbrev r1_0 : Rect S256x1024 := Rect.unit (s := S256x1024) ![0, 0] S256x1024.size inb_S256x1024_S256x1024_0_0
abbrev r1_1 : Rect S256x4096 := Rect.unit (s := S256x4096) ![0, 0] S256x4096.size inb_S256x4096_S256x4096_0_0
abbrev r1_2 : Rect S128x1024 := Rect.unit (s := S128x1024) ![0, 0] S128x1024.size inb_S128x1024_S128x1024_0_0
abbrev r1_3 : Rect S128x4096 := Rect.unit (s := S128x4096) ![0, 0] S128x4096.size inb_S128x4096_S128x4096_0_0
abbrev r1_4 : Rect S128 := Rect.unit (s := S128) ![0] S128.size inb_S128_S128_0
abbrev r1_5 : Rect S128 := Rect.unit (s := S128) ![0] S128.size inb_S128_S128_0
abbrev r1_6 : Rect S2x128 := Rect.unit (s := S2x128) ![0, 0] S2x128.size inb_S2x128_S2x128_0_0
abbrev r1_7 : Rect S2 := Rect.unit (s := S2) ![0] S2.size inb_S2_S2_0
abbrev r1_8 : Rect S256x2 := Rect.unit (s := S256x2) ![0, 0] S256x2.size inb_S256x2_S256x2_0_0

/-! ## What the body leaves in the output window's buffer -/

/-- Window 8's staging buffer after the body, from the input windows' blocks: its one store, of the payload
    `k1_pay1` over the hidden activation `k1_pay2` (read off windows 0–5) and windows 6 and 7. -/
def out1_8 (x0 : Vec F S256x1024 .f32) (x1 : Vec F S256x4096 .bf16) (x2 : Vec F S128x1024 .f32) (x3 : Vec F S128x4096 .f32)
    (x4 x5 : Vec F S128 .f32) (x6 : Vec F S2x128 .f32) (x7 : Vec F S2 .f32) : Vec F S256x2 .f32 :=
  View.canon [⟨r1_8, k1_pay1 (k1_pay2 (View.ld x0 r1_0) (View.ld x2 r1_2) (View.ld x1 r1_1) (View.ld x3 r1_3) (View.ld x4 r1_4) (View.ld x5 r1_5))
    (View.ld x6 r1_6) (View.ld x7 r1_7)⟩]

/-- The one store takes the whole buffer, so it covers it. -/
theorem cover1_8 (p0 : Vec F S256x2 .f32) (y : S256x2.Idx) :
    ∃ pc ∈ ([⟨r1_8, p0⟩] : List (View.Piece (Elt F) S256x2 .f32)), y ∈ pc.1.set :=
  View.cover_of_tiled [⟨r1_8, p0⟩] S256x2.size (by rfl) y

/-! ## The body's triple -/

set_option maxHeartbeats 1000000 in
/-- The kernel body on whole staging memrefs, the inputs' at read contents `xW` and the output's at anything, runs to
    the continuation holding the inputs' as they were and the output's at `out1_8` of the inputs'. -/
theorem sound_kernel1 (c : Dev nD) (E : Set ℕ) (i : grid1.Coords)
    (arg1 : Memref sig .tc .vmem S256x1024 .f32) (harg1 : arg1.IsWhole)
    (arg2 : Memref sig .tc .vmem S256x4096 .bf16) (harg2 : arg2.IsWhole)
    (arg3 : Memref sig .tc .vmem S128x1024 .f32) (harg3 : arg3.IsWhole)
    (arg4 : Memref sig .tc .vmem S128x4096 .f32) (harg4 : arg4.IsWhole)
    (arg5 : Memref sig .tc .vmem S128 .f32) (harg5 : arg5.IsWhole)
    (arg6 : Memref sig .tc .vmem S128 .f32) (harg6 : arg6.IsWhole)
    (arg7 : Memref sig .tc .vmem S2x128 .f32) (harg7 : arg7.IsWhole)
    (arg8 : Memref sig .tc .vmem S2 .f32) (harg8 : arg8.IsWhole)
    (arg9 : Memref sig .tc .vmem S256x2 .f32) (harg9 : arg9.IsWhole)
    (x0 : Vec F S256x1024 .f32)    (x1 : Vec F S256x4096 .bf16)
    (x2 : Vec F S128x1024 .f32)    (x3 : Vec F S128x4096 .f32)
    (x4 : Vec F S128 .f32)    (x5 : Vec F S128 .f32)
    (x6 : Vec F S2x128 .f32)    (x7 : Vec F S2 .f32)
    (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7
        ∗ (∃ d, owns (c : Thread nD τ) arg9 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7
            ∗ owns (c : Thread nD τ) arg9 fullShare (out1_8 x0 x1 x2 x3 x4 x5 x6 x7)) -∗ K ⟨⟩))
      ⊢ wp frame (wpE (defs₀ (F := F)) Variants.none c none) E
          (cc1__kal_layer1_final_kernel i arg1 harg1 arg2 harg2 arg3 harg3 arg4 harg4 arg5 harg5 arg6 harg6 arg7 harg7 arg8 harg8 arg9 harg9) K := by
  simp only [cc1__kal_layer1_final_kernel_eq_skeleton]; unfold cc1__kal_layer1_final_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, Hk⟩
  subst hf0; subst hf1; subst hf2; subst hf3; subst hf4; subst hf5; subst hf6; subst hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  iexists _; isplitr
  swap; · iexact H8
  ipureintro
  exact View.read_writes_eq_canon _ _ _ (cover1_8 _)

/-! ## The pipeline's proof data -/

/-- The proof data of pipeline 1 on core `c`: the arrays as the region finds them (`V`); after the body at
    point `t` each input's buffer at its block and the output's at `out1_8` of the input blocks; the invariant the
    scoped rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => out1_8 (iblk1 V c 0 t) (iblk1 V c 1 t) (iblk1 V c 2 t) (iblk1 V c 3 t) (iblk1 V c 4 t) (iblk1 V c 5 t) (iblk1 V c 6 t) (iblk1 V c 7 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = out1_8 (iblk1 V c 0 t) (iblk1 V c 1 t) (iblk1 V c 2 t) (iblk1 V c 3 t) (iblk1 V c 4 t) (iblk1 V c 5 t) (iblk1 V c 6 t) (iblk1 V c 7 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t))

/-- The body at any point: the inputs' memrefs hold their blocks (`before1_W`), so `sound_kernel1` applies; the
    invariant and the core's `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel1 c Set.univ _ _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) (iblk1 V c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.Run.lean ====
/-
  The whole program's run: @main is six segments — the host operations that normalise the input and build its
  polynomial basis, region 0 (the first layer's sums), three stretches of host operations (the first layer's
  normalisation over whole rows, its activation, the second basis), region 1 (the second layer, the output layer and the
  softmax). The contents of every unscoped buffer at each segment boundary are a fold from the launch memory: a host
  stretch applies its operations; a region replaces its windows' arrays by what its write-backs leave. Every weakly
  fair execution terminates with each unscoped buffer at the last boundary's contents (`run_all`); read at an argument
  that is the launch contents, and at the result buffer it is what region 1 wrote.
-/
import proofs.«114522_j54279796687469_2_alg».proof.Proof.Region0
import proofs.«114522_j54279796687469_2_alg».proof.Proof.Region1
import proofs.«114522_j54279796687469_2_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary -/

abbrev W0 : Dev nD → Valuation τ sig (Elt F) := fun c b => (s₀ m ρ).mem ((c : Dev nD), b)
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At region 0's exit: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

abbrev W3 : Dev nD → Valuation τ sig (Elt F) := fun c => StableHlo.after hostOps1 (W2 m ρ c)
abbrev W4 : Dev nD → Valuation τ sig (Elt F) := fun c => StableHlo.after hostOps1_1 (W3 m ρ c)
abbrev W5 : Dev nD → Valuation τ sig (Elt F) := fun c => StableHlo.after hostOps1_2 (W4 m ρ c)
abbrev V5 : (c : Dev nD) → (b : Ref sig .tc) → Buf (Elt F) ((c : Thread nD τ).loc b) := fun c b => W5 m ρ c b
/-- At region 1's exit: its arrays at what the pipeline leaves, every other buffer as entered. -/
def W6 (c : Dev nD) : Valuation τ sig (Elt F) :=
  Pipeline.withArrays spec1 c (W5 m ρ c) fun w => (dat1 (V5 m ρ) c).arrAt w cfg1.N
theorem W6_arr (c : Dev nD) (w : Fin cfg1.W) :
    W6 m ρ c (Proc.devRef .tc (Pipeline.arrRef spec1 w)) = (dat1 (V5 m ρ) c).arrAt w cfg1.N := by
  unfold W6; exact Pipeline.withArrays_arr spec1 launch1.win.arr_inj c _ _ w
theorem W6_of_ne (c : Dev nD) (b : Ref sig .tc) (hb : ∀ w, Pipeline.arrRef spec1 w ≠ b) :
    W6 m ρ c (Proc.devRef .tc b) = W5 m ρ c (Proc.devRef .tc b) := by
  unfold W6; exact Pipeline.withArrays_of_ne spec1 c _ _ b hb
abbrev V6 : (c : Dev nD) → (b : Ref sig .tc) → Buf (Elt F) ((c : Thread nD τ).loc b) := fun c b => W6 m ρ c b
theorem hF1 (c : Dev nD) (w : Fin cfg1.W) : (dat1 (V5 m ρ) c).arrAt w cfg1.N = V6 m ρ c (Pipeline.arrRef spec1 w) :=
  (W6_arr m ρ c w).symm
theorem hrest1 (c : Dev nD) : ∀ b, b ∉ Finset.univ.image (Pipeline.arrRef spec1) → V6 m ρ c b = V5 m ρ c b :=
  fun b hb => W6_of_ne m ρ c b fun w e => hb (Finset.mem_image.mpr ⟨w, Finset.mem_univ _, e⟩)

/-! ### The arguments end as launched: no host operation writes one, and a region only reads one -/

theorem W6_main_arg0 (c : Dev nD) : W6 m ρ c (Proc.devRef .tc main_arg0) = m ((c : Thread nD τ).loc main_arg0) :=
  calc W6 m ρ c (Proc.devRef .tc main_arg0)
    _ = W5 m ρ c (Proc.devRef .tc main_arg0) := W6_of_ne m ρ c main_arg0 (by decide)
    _ = W4 m ρ c (Proc.devRef .tc main_arg0) := StableHlo.after_of_writes_sub hostOps1_2 _ hostOps1_2_writes (by decide)
    _ = W3 m ρ c (Proc.devRef .tc main_arg0) := StableHlo.after_of_writes_sub hostOps1_1 _ hostOps1_1_writes (by decide)
    _ = W2 m ρ c (Proc.devRef .tc main_arg0) := StableHlo.after_of_writes_sub hostOps1 _ hostOps1_writes (by decide)
    _ = W1 m ρ c (Proc.devRef .tc main_arg0) := (W2_arr m ρ c 0).trans (((dat0 (V1 m ρ) c).arrAt_in 0 rfl _).trans (A_eq0 (V1 m ρ) c 0))
    _ = W0 m ρ c (Proc.devRef .tc main_arg0) := StableHlo.after_of_writes_sub hostOps0 _ hostOps0_writes (by decide)
    _ = m ((c : Thread nD τ).loc main_arg0) := rfl

theorem W6_main_arg1 (c : Dev nD) : W6 m ρ c (Proc.devRef .tc main_arg1) = m ((c : Thread nD τ).loc main_arg1) :=
  calc W6 m ρ c (Proc.devRef .tc main_arg1)
    _ = W5 m ρ c (Proc.devRef .tc main_arg1) := W6_of_ne m ρ c main_arg1 (by decide)
    _ = W4 m ρ c (Proc.devRef .tc main_arg1) := StableHlo.after_of_writes_sub hostOps1_2 _ hostOps1_2_writes (by decide)
    _ = W3 m ρ c (Proc.devRef .tc main_arg1) := StableHlo.after_of_writes_sub hostOps1_1 _ hostOps1_1_writes (by decide)
    _ = W2 m ρ c (Proc.devRef .tc main_arg1) := StableHlo.after_of_writes_sub hostOps1 _ hostOps1_writes (by decide)
    _ = W1 m ρ c (Proc.devRef .tc main_arg1) := (W2_arr m ρ c 2).trans (((dat0 (V1 m ρ) c).arrAt_in 2 rfl _).trans (A_eq0 (V1 m ρ) c 2))
    _ = W0 m ρ c (Proc.devRef .tc main_arg1) := StableHlo.after_of_writes_sub hostOps0 _ hostOps0_writes (by decide)
    _ = m ((c : Thread nD τ).loc main_arg1) := rfl

theorem W6_main_arg2 (c : Dev nD) : W6 m ρ c (Proc.devRef .tc main_arg2) = m ((c : Thread nD τ).loc main_arg2) :=
  calc W6 m ρ c (Proc.devRef .tc main_arg2)
    _ = W5 m ρ c (Proc.devRef .tc main_arg2) := W6_of_ne m ρ c main_arg2 (by decide)
    _ = W4 m ρ c (Proc.devRef .tc main_arg2) := StableHlo.after_of_writes_sub hostOps1_2 _ hostOps1_2_writes (by decide)
    _ = W3 m ρ c (Proc.devRef .tc main_arg2) := StableHlo.after_of_writes_sub hostOps1_1 _ hostOps1_1_writes (by decide)
    _ = W2 m ρ c (Proc.devRef .tc main_arg2) := StableHlo.after_of_writes_sub hostOps1 _ hostOps1_writes (by decide)
    _ = W1 m ρ c (Proc.devRef .tc main_arg2) := (W2_arr m ρ c 3).trans (((dat0 (V1 m ρ) c).arrAt_in 3 rfl _).trans (A_eq0 (V1 m ρ) c 3))
    _ = W0 m ρ c (Proc.devRef .tc main_arg2) := StableHlo.after_of_writes_sub hostOps0 _ hostOps0_writes (by decide)
    _ = m ((c : Thread nD τ).loc main_arg2) := rfl

theorem W6_main_arg3 (c : Dev nD) : W6 m ρ c (Proc.devRef .tc main_arg3) = m ((c : Thread nD τ).loc main_arg3) :=
  calc W6 m ρ c (Proc.devRef .tc main_arg3)
    _ = W5 m ρ c (Proc.devRef .tc main_arg3) := W6_of_ne m ρ c main_arg3 (by decide)
    _ = W4 m ρ c (Proc.devRef .tc main_arg3) := StableHlo.after_of_writes_sub hostOps1_2 _ hostOps1_2_writes (by decide)
    _ = W3 m ρ c (Proc.devRef .tc main_arg3) := StableHlo.after_of_writes_sub hostOps1_1 _ hostOps1_1_writes (by decide)
    _ = W2 m ρ c (Proc.devRef .tc main_arg3) := StableHlo.after_of_writes_sub hostOps1 _ hostOps1_writes (by decide)
    _ = W1 m ρ c (Proc.devRef .tc main_arg3) := W2_of_ne m ρ c main_arg3 (by decide)
    _ = W0 m ρ c (Proc.devRef .tc main_arg3) := StableHlo.after_of_writes_sub hostOps0 _ hostOps0_writes (by decide)
    _ = m ((c : Thread nD τ).loc main_arg3) := rfl

theorem W6_main_arg4 (c : Dev nD) : W6 m ρ c (Proc.devRef .tc main_arg4) = m ((c : Thread nD τ).loc main_arg4) :=
  calc W6 m ρ c (Proc.devRef .tc main_arg4)
    _ = W5 m ρ c (Proc.devRef .tc main_arg4) := W6_of_ne m ρ c main_arg4 (by decide)
    _ = W4 m ρ c (Proc.devRef .tc main_arg4) := StableHlo.after_of_writes_sub hostOps1_2 _ hostOps1_2_writes (by decide)
    _ = W3 m ρ c (Proc.devRef .tc main_arg4) := StableHlo.after_of_writes_sub hostOps1_1 _ hostOps1_1_writes (by decide)
    _ = W2 m ρ c (Proc.devRef .tc main_arg4) := StableHlo.after_of_writes_sub hostOps1 _ hostOps1_writes (by decide)
    _ = W1 m ρ c (Proc.devRef .tc main_arg4) := W2_of_ne m ρ c main_arg4 (by decide)
    _ = W0 m ρ c (Proc.devRef .tc main_arg4) := StableHlo.after_of_writes_sub hostOps0 _ hostOps0_writes (by decide)
    _ = m ((c : Thread nD τ).loc main_arg4) := rfl

theorem W6_main_arg5 (c : Dev nD) : W6 m ρ c (Proc.devRef .tc main_arg5) = m ((c : Thread nD τ).loc main_arg5) :=
  calc W6 m ρ c (Proc.devRef .tc main_arg5)
    _ = W5 m ρ c (Proc.devRef .tc main_arg5) := (W6_arr m ρ c 2).trans (((dat1 (V5 m ρ) c).arrAt_in 2 rfl _).trans (A_eq1 (V5 m ρ) c 2))
    _ = W4 m ρ c (Proc.devRef .tc main_arg5) := StableHlo.after_of_writes_sub hostOps1_2 _ hostOps1_2_writes (by decide)
    _ = W3 m ρ c (Proc.devRef .tc main_arg5) := StableHlo.after_of_writes_sub hostOps1_1 _ hostOps1_1_writes (by decide)
    _ = W2 m ρ c (Proc.devRef .tc main_arg5) := StableHlo.after_of_writes_sub hostOps1 _ hostOps1_writes (by decide)
    _ = W1 m ρ c (Proc.devRef .tc main_arg5) := W2_of_ne m ρ c main_arg5 (by decide)
    _ = W0 m ρ c (Proc.devRef .tc main_arg5) := StableHlo.after_of_writes_sub hostOps0 _ hostOps0_writes (by decide)
    _ = m ((c : Thread nD τ).loc main_arg5) := rfl

theorem W6_main_arg6 (c : Dev nD) : W6 m ρ c (Proc.devRef .tc main_arg6) = m ((c : Thread nD τ).loc main_arg6) :=
  calc W6 m ρ c (Proc.devRef .tc main_arg6)
    _ = W5 m ρ c (Proc.devRef .tc main_arg6) := (W6_arr m ρ c 3).trans (((dat1 (V5 m ρ) c).arrAt_in 3 rfl _).trans (A_eq1 (V5 m ρ) c 3))
    _ = W4 m ρ c (Proc.devRef .tc main_arg6) := StableHlo.after_of_writes_sub hostOps1_2 _ hostOps1_2_writes (by decide)
    _ = W3 m ρ c (Proc.devRef .tc main_arg6) := StableHlo.after_of_writes_sub hostOps1_1 _ hostOps1_1_writes (by decide)
    _ = W2 m ρ c (Proc.devRef .tc main_arg6) := StableHlo.after_of_writes_sub hostOps1 _ hostOps1_writes (by decide)
    _ = W1 m ρ c (Proc.devRef .tc main_arg6) := W2_of_ne m ρ c main_arg6 (by decide)
    _ = W0 m ρ c (Proc.devRef .tc main_arg6) := StableHlo.after_of_writes_sub hostOps0 _ hostOps0_writes (by decide)
    _ = m ((c : Thread nD τ).loc main_arg6) := rfl

theorem W6_main_arg7 (c : Dev nD) : W6 m ρ c (Proc.devRef .tc main_arg7) = m ((c : Thread nD τ).loc main_arg7) :=
  calc W6 m ρ c (Proc.devRef .tc main_arg7)
    _ = W5 m ρ c (Proc.devRef .tc main_arg7) := (W6_arr m ρ c 4).trans (((dat1 (V5 m ρ) c).arrAt_in 4 rfl _).trans (A_eq1 (V5 m ρ) c 4))
    _ = W4 m ρ c (Proc.devRef .tc main_arg7) := StableHlo.after_of_writes_sub hostOps1_2 _ hostOps1_2_writes (by decide)
    _ = W3 m ρ c (Proc.devRef .tc main_arg7) := StableHlo.after_of_writes_sub hostOps1_1 _ hostOps1_1_writes (by decide)
    _ = W2 m ρ c (Proc.devRef .tc main_arg7) := StableHlo.after_of_writes_sub hostOps1 _ hostOps1_writes (by decide)
    _ = W1 m ρ c (Proc.devRef .tc main_arg7) := W2_of_ne m ρ c main_arg7 (by decide)
    _ = W0 m ρ c (Proc.devRef .tc main_arg7) := StableHlo.after_of_writes_sub hostOps0 _ hostOps0_writes (by decide)
    _ = m ((c : Thread nD τ).loc main_arg7) := rfl

theorem W6_main_arg8 (c : Dev nD) : W6 m ρ c (Proc.devRef .tc main_arg8) = m ((c : Thread nD τ).loc main_arg8) :=
  calc W6 m ρ c (Proc.devRef .tc main_arg8)
    _ = W5 m ρ c (Proc.devRef .tc main_arg8) := (W6_arr m ρ c 5).trans (((dat1 (V5 m ρ) c).arrAt_in 5 rfl _).trans (A_eq1 (V5 m ρ) c 5))
    _ = W4 m ρ c (Proc.devRef .tc main_arg8) := StableHlo.after_of_writes_sub hostOps1_2 _ hostOps1_2_writes (by decide)
    _ = W3 m ρ c (Proc.devRef .tc main_arg8) := StableHlo.after_of_writes_sub hostOps1_1 _ hostOps1_1_writes (by decide)
    _ = W2 m ρ c (Proc.devRef .tc main_arg8) := StableHlo.after_of_writes_sub hostOps1 _ hostOps1_writes (by decide)
    _ = W1 m ρ c (Proc.devRef .tc main_arg8) := W2_of_ne m ρ c main_arg8 (by decide)
    _ = W0 m ρ c (Proc.devRef .tc main_arg8) := StableHlo.after_of_writes_sub hostOps0 _ hostOps0_writes (by decide)
    _ = m ((c : Thread nD τ).loc main_arg8) := rfl

theorem W6_main_arg9 (c : Dev nD) : W6 m ρ c (Proc.devRef .tc main_arg9) = m ((c : Thread nD τ).loc main_arg9) :=
  calc W6 m ρ c (Proc.devRef .tc main_arg9)
    _ = W5 m ρ c (Proc.devRef .tc main_arg9) := (W6_arr m ρ c 6).trans (((dat1 (V5 m ρ) c).arrAt_in 6 rfl _).trans (A_eq1 (V5 m ρ) c 6))
    _ = W4 m ρ c (Proc.devRef .tc main_arg9) := StableHlo.after_of_writes_sub hostOps1_2 _ hostOps1_2_writes (by decide)
    _ = W3 m ρ c (Proc.devRef .tc main_arg9) := StableHlo.after_of_writes_sub hostOps1_1 _ hostOps1_1_writes (by decide)
    _ = W2 m ρ c (Proc.devRef .tc main_arg9) := StableHlo.after_of_writes_sub hostOps1 _ hostOps1_writes (by decide)
    _ = W1 m ρ c (Proc.devRef .tc main_arg9) := W2_of_ne m ρ c main_arg9 (by decide)
    _ = W0 m ρ c (Proc.devRef .tc main_arg9) := StableHlo.after_of_writes_sub hostOps0 _ hostOps0_writes (by decide)
    _ = m ((c : Thread nD τ).loc main_arg9) := rfl

theorem W6_main_arg10 (c : Dev nD) : W6 m ρ c (Proc.devRef .tc main_arg10) = m ((c : Thread nD τ).loc main_arg10) :=
  calc W6 m ρ c (Proc.devRef .tc main_arg10)
    _ = W5 m ρ c (Proc.devRef .tc main_arg10) := (W6_arr m ρ c 7).trans (((dat1 (V5 m ρ) c).arrAt_in 7 rfl _).trans (A_eq1 (V5 m ρ) c 7))
    _ = W4 m ρ c (Proc.devRef .tc main_arg10) := StableHlo.after_of_writes_sub hostOps1_2 _ hostOps1_2_writes (by decide)
    _ = W3 m ρ c (Proc.devRef .tc main_arg10) := StableHlo.after_of_writes_sub hostOps1_1 _ hostOps1_1_writes (by decide)
    _ = W2 m ρ c (Proc.devRef .tc main_arg10) := StableHlo.after_of_writes_sub hostOps1 _ hostOps1_writes (by decide)
    _ = W1 m ρ c (Proc.devRef .tc main_arg10) := W2_of_ne m ρ c main_arg10 (by decide)
    _ = W0 m ρ c (Proc.devRef .tc main_arg10) := StableHlo.after_of_writes_sub hostOps0 _ hostOps0_writes (by decide)
    _ = m ((c : Thread nD τ).loc main_arg10) := rfl

/-! ## The proof data family and the thread state -/

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V5 m ρ) c
abbrev 𝒱₀ : Variants := Variants.none
abbrev L : GSem nD τ sig → Finset Unit := fun _ => ∅
abbrev lv : GSem nD τ sig → Unit → ℕ := fun _ _ => 0
/-- What rides beside the buffers through every segment: the generator register at some state and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W6 m ρ c) ∗ ∃ r, prngReg c r)

/-! ## The regions as segments -/

set_option backward.isDefEq.respectTransparency.types false in
/-- Region 0 over the thread state: entered from every unscoped buffer at the boundary's contents, left at the next
    boundary's; its arrays split out of the unscoped buffers and put back at what the pipeline leaves; the generator
    register into the invariant and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h' : iprop(Pipeline.scopedRest spec0 c ∗ ∃ r, prngReg c r) ⊢ ((dat0 (V1 m ρ) c).Φ 0 : sProp 𝕄) := by
      have h := hin0 (V1 m ρ) c; unfold Pipeline.ΦA at h; exact h
    show _ ⊢ (dat0 (V1 m ρ) c).Φ 0
    iintro ⟨Hp, -, Hr⟩
    iapply h'
    isplitl [Hr]; · iexact Hr
    iexact Hp
  hout c := by
    have h' : ((dat0 (V1 m ρ) c).Φ (Fin.last cfg0.N) : sProp 𝕄) ⊢ iprop(Pipeline.scopedRest spec0 c ∗ ∃ r, prngReg c r) := by
      have h := hout0 (V1 m ρ) c; unfold Pipeline.ΦA at h; exact h
    rw [Pipeline.ownSems0_none]
    show (dat0 (V1 m ρ) c).Φ (Fin.last cfg0.N) ⊢ _
    iintro H
    ihave H' := h' $$ H
    icases H' with ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at the boundary's contents, left at the next
    boundary's; its arrays split out of the unscoped buffers and put back at what the pipeline leaves; the generator
    register into the invariant and out; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V5 m ρ) c).loose
  hwaits := Pipeline.hwaits_of_owed_zero _ _ _ _ L lv 1 fun _ _ => rfl
  pre c := iprop(StableHlo.held (c : Thread nD τ) (Pipeline.ucRefs τ sig) (W5 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V5 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V5 m ρ c) (V6 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the run -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .host (hseg hostOps1_1 hostOps1_1_sub hostOps1_1_fresh (W3 m ρ)),
    .host (hseg hostOps1_2 hostOps1_2_sub hostOps1_2_fresh (W4 m ρ)),
    .region (reg1 m ρ) ]

theorem main_run (c : Dev nD) : main (F := F) c = Pipeline.Seg.run (segs m ρ) := (main_chain c).trans (by chain_rfl)

set_option backward.isDefEq.respectTransparency.types false in
/-- Every weakly fair execution of @main terminates, nothing faulting, with every unscoped buffer of every core at
    the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W6 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h => h)

/-- The frame: every argument array ends holding its launch contents. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧       r.2.mem ((c.tc : Thread nD τ).loc main_arg1) = m ((c.tc : Thread nD τ).loc main_arg1)
      ∧       r.2.mem ((c.tc : Thread nD τ).loc main_arg2) = m ((c.tc : Thread nD τ).loc main_arg2)
      ∧       r.2.mem ((c.tc : Thread nD τ).loc main_arg3) = m ((c.tc : Thread nD τ).loc main_arg3)
      ∧       r.2.mem ((c.tc : Thread nD τ).loc main_arg4) = m ((c.tc : Thread nD τ).loc main_arg4)
      ∧       r.2.mem ((c.tc : Thread nD τ).loc main_arg5) = m ((c.tc : Thread nD τ).loc main_arg5)
      ∧       r.2.mem ((c.tc : Thread nD τ).loc main_arg6) = m ((c.tc : Thread nD τ).loc main_arg6)
      ∧       r.2.mem ((c.tc : Thread nD τ).loc main_arg7) = m ((c.tc : Thread nD τ).loc main_arg7)
      ∧       r.2.mem ((c.tc : Thread nD τ).loc main_arg8) = m ((c.tc : Thread nD τ).loc main_arg8)
      ∧       r.2.mem ((c.tc : Thread nD τ).loc main_arg9) = m ((c.tc : Thread nD τ).loc main_arg9)
      ∧       r.2.mem ((c.tc : Thread nD τ).loc main_arg10) = m ((c.tc : Thread nD τ).loc main_arg10)) :=
  (θ_run defs _ _).mono (fun _ h c => ⟨(h c _ (mem_uc main_arg0 (by decide))).trans (W6_main_arg0 m ρ c),
    (h c _ (mem_uc main_arg1 (by decide))).trans (W6_main_arg1 m ρ c),
    (h c _ (mem_uc main_arg2 (by decide))).trans (W6_main_arg2 m ρ c),
    (h c _ (mem_uc main_arg3 (by decide))).trans (W6_main_arg3 m ρ c),
    (h c _ (mem_uc main_arg4 (by decide))).trans (W6_main_arg4 m ρ c),
    (h c _ (mem_uc main_arg5 (by decide))).trans (W6_main_arg5 m ρ c),
    (h c _ (mem_uc main_arg6 (by decide))).trans (W6_main_arg6 m ρ c),
    (h c _ (mem_uc main_arg7 (by decide))).trans (W6_main_arg7 m ρ c),
    (h c _ (mem_uc main_arg8 (by decide))).trans (W6_main_arg8 m ρ c),
    (h c _ (mem_uc main_arg9 (by decide))).trans (W6_main_arg9 m ρ c),
    (h c _ (mem_uc main_arg10 (by decide))).trans (W6_main_arg10 m ρ c)⟩) (run_all m ρ)

/-- The run with the result named: the result buffer ends at what region 1's one write-back leaves, the arguments as launched. -/
theorem run_value : θ_run defs (onTc (τ := τ) (main (F := F))) ⟨m, fun _ => 0, ρ⟩ (fun r => ∀ c : Dev nD,
      r.2.mem ((c.tc : Thread nD τ).loc main_v96) = (dat1 (V5 m ρ) c).arrAt 8 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c => ⟨(h c _ (mem_uc main_v96 (by decide))).trans (W6_arr m ρ c 8),
    (h c _ (mem_uc main_arg0 (by decide))).trans (W6_main_arg0 m ρ c),
    (h c _ (mem_uc main_arg1 (by decide))).trans (W6_main_arg1 m ρ c),
    (h c _ (mem_uc main_arg2 (by decide))).trans (W6_main_arg2 m ρ c),
    (h c _ (mem_uc main_arg3 (by decide))).trans (W6_main_arg3 m ρ c),
    (h c _ (mem_uc main_arg4 (by decide))).trans (W6_main_arg4 m ρ c),
    (h c _ (mem_uc main_arg5 (by decide))).trans (W6_main_arg5 m ρ c),
    (h c _ (mem_uc main_arg6 (by decide))).trans (W6_main_arg6 m ρ c),
    (h c _ (mem_uc main_arg7 (by decide))).trans (W6_main_arg7 m ρ c),
    (h c _ (mem_uc main_arg8 (by decide))).trans (W6_main_arg8 m ρ c),
    (h c _ (mem_uc main_arg9 (by decide))).trans (W6_main_arg9 m ρ c),
    (h c _ (mem_uc main_arg10 (by decide))).trans (W6_main_arg10 m ρ c)⟩) (run_all m ρ)

end Cert.KernelIdeal.Hand

end
-- ==== Proof.RefTerm.lean ====
import proofs.«114522_j54279796687469_2_alg».proof.ReferenceIdeal

noncomputable section

namespace Cert.ReferenceIdeal.RefTerm

open Cert.ReferenceIdeal Idealize.ShloMosaic
open Cert.ReferenceIdeal.Facts₀ Cert.ReferenceIdeal.Facts

variable {F : FTy → Type} [FloatOps F] [Facts]

/-! The reference network as a pure function of its eleven arguments, one binding per
    operation of the program, in program order, cut into stages: per layer the gate
    `x · 1/(1 + exp(-x))` of the input, its product with the base weights, the
    min-max normalisation to [-1, 1] with the Legendre polynomials P₀ … P₃ interleaved
    along the feature axis, the product with the polynomial weights added to the base
    product, the row mean, the row variance, the normalisation with scale and shift,
    and the gate again; then the output layer and the row softmax. -/

/-- `x · (1 / (1 + exp(-x)))` on the input. -/
noncomputable def siluA (a0 : FVec F S256x50176 .f32) : FVec F S256x50176 .f32 :=
  have call0_v0 : FVec F S256x50176 .f32 := Host.negf a0
  have call0_v1 : FVec F S256x50176 .f32 := Host.exp call0_v0
  have call0_cst : FVec F S_ .f32 := constant S_ .f32 0x3F800000#32
  have call0_v2 : FVec F S256x50176 .f32 := broadcastInDim S256x50176 ![] bcast_S_S256x50176 call0_cst
  have call0_v3 : FVec F S256x50176 .f32 := addf call0_v2 call0_v1
  have call0_cst_0 : FVec F S_ .f32 := constant S_ .f32 0x3F800000#32
  have call0_v4 : FVec F S256x50176 .f32 := broadcastInDim S256x50176 ![] bcast_S_S256x50176 call0_cst_0
  have call0_v5 : FVec F S256x50176 .f32 := Host.divf call0_v4 call0_v3
  have v0 : FVec F S256x50176 .f32 := mulf a0 call0_v5
  v0

/-- The gated input times the transposed base weights. -/
noncomputable def baseA (a1 : FVec F S1024x50176 .f32) (v0 : FVec F S256x50176 .f32) : FVec F S256x1024 .f32 :=
  have v1 : FVec F S50176x1024 .f32 := transpose S50176x1024 [1, 0] a1 transposes_S1024x50176_S50176x1024_1_0
  have v2 : FVec F S256x1024 .f32 := Host.dotGeneral dot_S256x50176_S50176x1024_S256x1024_1_0_0_1_n_n none v0 v1
  v2

/-- The input normalised to [-1, 1] by its global minimum and maximum, `t = 2 (x - min) / (max - min) - 1`, then `P₀ = 1`, `P₁ = t`, `P₂ = (3 t·t - 1)/2`, `P₃ = (5 t·P₂ - 2 t)/3` interleaved along a new last axis and flattened. -/
noncomputable def basisA (a0 : FVec F S256x50176 .f32) : FVec F S256x200704 .f32 :=
  have cst : FVec F S_ .f32 := constant S_ .f32 0x7F800000#32
  have v3 : FVec F S_ .f32 := Host.reduce FloatOps.minimumf a0 cst reducesTo_S256x50176_S_d0_1 h_S_
  have cst_0 : FVec F S_ .f32 := constant S_ .f32 0xFF800000#32
  have v4 : FVec F S_ .f32 := Host.reduce FloatOps.maximumf a0 cst_0 reducesTo_S256x50176_S_d0_1 h_S_
  have v5 : FVec F S256x50176 .f32 := broadcastInDim S256x50176 ![] bcast_S_S256x50176 v3
  have v6 : FVec F S256x50176 .f32 := subf a0 v5
  have cst_1 : FVec F S_ .f32 := constant S_ .f32 0x40000000#32
  have v7 : FVec F S256x50176 .f32 := broadcastInDim S256x50176 ![] bcast_S_S256x50176 cst_1
  have v8 : FVec F S256x50176 .f32 := mulf v7 v6
  have v9 : FVec F S_ .f32 := subf v4 v3
  have v10 : FVec F S256x50176 .f32 := broadcastInDim S256x50176 ![] bcast_S_S256x50176 v9
  have v11 : FVec F S256x50176 .f32 := Host.divf v8 v10
  have cst_2 : FVec F S_ .f32 := constant S_ .f32 0x3F800000#32
  have v12 : FVec F S256x50176 .f32 := broadcastInDim S256x50176 ![] bcast_S_S256x50176 cst_2
  have v13 : FVec F S256x50176 .f32 := subf v11 v12
  have cst_3 : FVec F S_ .f32 := constant S_ .f32 0x3F800000#32
  have v14 : FVec F S256x50176 .f32 := broadcastInDim S256x50176 ![] bcast_S_S256x50176 cst_3
  have cst_4 : FVec F S_ .f32 := constant S_ .f32 0x40400000#32
  have v15 : FVec F S256x50176 .f32 := broadcastInDim S256x50176 ![] bcast_S_S256x50176 cst_4
  have v16 : FVec F S256x50176 .f32 := mulf v15 v13
  have v17 : FVec F S256x50176 .f32 := mulf v16 v13
  have cst_5 : FVec F S_ .f32 := constant S_ .f32 0x3F800000#32
  have v18 : FVec F S256x50176 .f32 := broadcastInDim S256x50176 ![] bcast_S_S256x50176 cst_5
  have v19 : FVec F S256x50176 .f32 := mulf v18 v14
  have v20 : FVec F S256x50176 .f32 := subf v17 v19
  have cst_6 : FVec F S_ .f32 := constant S_ .f32 0x40000000#32
  have v21 : FVec F S256x50176 .f32 := broadcastInDim S256x50176 ![] bcast_S_S256x50176 cst_6
  have v22 : FVec F S256x50176 .f32 := Host.divf v20 v21
  have cst_7 : FVec F S_ .f32 := constant S_ .f32 0x40A00000#32
  have v23 : FVec F S256x50176 .f32 := broadcastInDim S256x50176 ![] bcast_S_S256x50176 cst_7
  have v24 : FVec F S256x50176 .f32 := mulf v23 v13
  have v25 : FVec F S256x50176 .f32 := mulf v24 v22
  have cst_8 : FVec F S_ .f32 := constant S_ .f32 0x40000000#32
  have v26 : FVec F S256x50176 .f32 := broadcastInDim S256x50176 ![] bcast_S_S256x50176 cst_8
  have v27 : FVec F S256x50176 .f32 := mulf v26 v13
  have v28 : FVec F S256x50176 .f32 := subf v25 v27
  have cst_9 : FVec F S_ .f32 := constant S_ .f32 0x40400000#32
  have v29 : FVec F S256x50176 .f32 := broadcastInDim S256x50176 ![] bcast_S_S256x50176 cst_9
  have v30 : FVec F S256x50176 .f32 := Host.divf v28 v29
  have v31 : FVec F S256x50176x1 .f32 := broadcastInDim S256x50176x1 ![0, 1] bcast_S256x50176_S256x50176x1_0_1 v14
  have v32 : FVec F S256x50176x1 .f32 := broadcastInDim S256x50176x1 ![0, 1] bcast_S256x50176_S256x50176x1_0_1 v13
  have v33 : FVec F S256x50176x1 .f32 := broadcastInDim S256x50176x1 ![0, 1] bcast_S256x50176_S256x50176x1_0_1 v22
  have v34 : FVec F S256x50176x1 .f32 := broadcastInDim S256x50176x1 ![0, 1] bcast_S256x50176_S256x50176x1_0_1 v30
  have v35 : FVec F S256x50176x4 .f32 := concatenate S256x50176x4 2 [⟨S256x50176x1, v31⟩, ⟨S256x50176x1, v32⟩, ⟨S256x50176x1, v33⟩, ⟨S256x50176x1, v34⟩] concatenates_S256x50176x1_S256x50176x1_S256x50176x1_S256x50176x1_S256x50176x4_d2
  have v36 : FVec F S256x200704 .f32 := shapeCast S256x200704 v35 shapeCasts_S256x50176x4_S256x200704
  v36

/-- The basis times the transposed polynomial weights, added to the base product. -/
noncomputable def preA (a2 : FVec F S1024x200704 .f32) (v36 : FVec F S256x200704 .f32) (v2 : FVec F S256x1024 .f32) : FVec F S256x1024 .f32 :=
  have v37 : FVec F S200704x1024 .f32 := transpose S200704x1024 [1, 0] a2 transposes_S1024x200704_S200704x1024_1_0
  have v38 : FVec F S256x1024 .f32 := Host.dotGeneral dot_S256x200704_S200704x1024_S256x1024_1_0_0_1_n_n none v36 v37
  have v39 : FVec F S256x1024 .f32 := addf v2 v38
  v39

/-- The row mean: the row sum over 1024. -/
noncomputable def meanA (v39 : FVec F S256x1024 .f32) : FVec F S256x1 .f32 :=
  have cst_10 : FVec F S_ .f32 := constant S_ .f32 0x00000000#32
  have v40 : FVec F S256 .f32 := Host.reduceAdd v39 cst_10 reducesTo_S256x1024_S256_d1 h_S_
  have v41 : FVec F S256x1 .f32 := broadcastInDim S256x1 ![0] bcast_S256_S256x1_0 v40
  have cst_11 : FVec F S_ .f32 := constant S_ .f32 0x44800000#32
  have v42 : FVec F S256x1 .f32 := broadcastInDim S256x1 ![] bcast_S_S256x1 cst_11
  have v43 : FVec F S256x1 .f32 := Host.divf v41 v42
  v43

/-- The row variance: the row mean of the squared deviations from the row mean, with divisor `1024 - 0`, selected against NaN by the sign of that divisor. -/
noncomputable def varA (v39 : FVec F S256x1024 .f32) : FVec F S256x1 .f32 :=
  have c : IVec S_ 32 := constantI S_ 32 0#32
  have call1_cst : FVec F S_ .f32 := constant S_ .f32 0x00000000#32
  have call1_v0 : FVec F S256 .f32 := Host.reduceAdd v39 call1_cst reducesTo_S256x1024_S256_d1 h_S_
  have call1_v1 : FVec F S256x1 .f32 := broadcastInDim S256x1 ![0] bcast_S256_S256x1_0 call1_v0
  have call1_cst_0 : FVec F S_ .f32 := constant S_ .f32 0x44800000#32
  have call1_v2 : FVec F S256x1 .f32 := broadcastInDim S256x1 ![] bcast_S_S256x1 call1_cst_0
  have call1_v3 : FVec F S256x1 .f32 := Host.divf call1_v1 call1_v2
  have call1_v4 : FVec F S256x1024 .f32 := broadcastInDim S256x1024 ![0, 1] bcast_S256x1_S256x1024_0_1 call1_v3
  have call1_v5 : FVec F S256x1024 .f32 := subf v39 call1_v4
  have call1_v6 : FVec F S256x1024 .f32 := mulf call1_v5 call1_v5
  have call1_v7 : FVec F S_ .f32 := sitofp .f32 c
  have call1_cst_1 : FVec F S_ .f32 := constant S_ .f32 0x44800000#32
  have call1_v8 : FVec F S_ .f32 := subf call1_cst_1 call1_v7
  have call1_cst_2 : FVec F S_ .f32 := constant S_ .f32 0x00000000#32
  have call1_v9 : FVec F S256 .f32 := Host.reduceAdd call1_v6 call1_cst_2 reducesTo_S256x1024_S256_d1 h_S_
  have call1_v10 : FVec F S256x1 .f32 := broadcastInDim S256x1 ![0] bcast_S256_S256x1_0 call1_v9
  have call1_v11 : FVec F S256x1 .f32 := broadcastInDim S256x1 ![] bcast_S_S256x1 call1_v8
  have call1_v12 : FVec F S256x1 .f32 := Host.divf call1_v10 call1_v11
  have call1_cst_3 : FVec F S_ .f32 := constant S_ .f32 0x00000000#32
  have call1_v13 : IVec S_ 1 := cmpf .ogt call1_v8 call1_cst_3
  have call1_cst_4 : FVec F S_ .f32 := constant S_ .f32 0x7FC00000#32
  have call1_call0_v0 : FVec F S_ .f32 := id call1_cst_4
  have call1_call0_v1 : FVec F S256x1 .f32 := broadcastInDim S256x1 ![] bcast_S_S256x1 call1_call0_v0
  have v44 : FVec F S256x1 .f32 := select (broadcastInDim S256x1 ![] bcast_S_S256x1 call1_v13) call1_v12 call1_call0_v1
  v44

/-- `(h - mean) / sqrt(var + eps)` scaled and shifted per feature. -/
noncomputable def normA (v43 : FVec F S256x1 .f32) (v39 : FVec F S256x1024 .f32) (v44 : FVec F S256x1 .f32) (a3 : FVec F S1024 .f32) (a4 : FVec F S1024 .f32) : FVec F S256x1024 .f32 :=
  have v45 : FVec F S256x1024 .f32 := broadcastInDim S256x1024 ![0, 1] bcast_S256x1_S256x1024_0_1 v43
  have v46 : FVec F S256x1024 .f32 := subf v39 v45
  have cst_12 : FVec F S_ .f32 := constant S_ .f32 0x3727C5AC#32
  have v47 : FVec F S256x1 .f32 := broadcastInDim S256x1 ![] bcast_S_S256x1 cst_12
  have v48 : FVec F S256x1 .f32 := addf v44 v47
  have v49 : FVec F S256x1 .f32 := Host.sqrt v48
  have v50 : FVec F S256x1024 .f32 := broadcastInDim S256x1024 ![0, 1] bcast_S256x1_S256x1024_0_1 v49
  have v51 : FVec F S256x1024 .f32 := Host.divf v46 v50
  have v52 : FVec F S1x1024 .f32 := broadcastInDim S1x1024 ![1] bcast_S1024_S1x1024_1 a3
  have v53 : FVec F S256x1024 .f32 := broadcastInDim S256x1024 ![0, 1] bcast_S1x1024_S256x1024_0_1 v52
  have v54 : FVec F S256x1024 .f32 := mulf v51 v53
  have v55 : FVec F S1x1024 .f32 := broadcastInDim S1x1024 ![1] bcast_S1024_S1x1024_1 a4
  have v56 : FVec F S256x1024 .f32 := broadcastInDim S256x1024 ![0, 1] bcast_S1x1024_S256x1024_0_1 v55
  have v57 : FVec F S256x1024 .f32 := addf v54 v56
  v57

/-- The gate on the normalised rows: the first layer's output. -/
noncomputable def actA (v57 : FVec F S256x1024 .f32) : FVec F S256x1024 .f32 :=
  have call2_v0 : FVec F S256x1024 .f32 := Host.negf v57
  have call2_v1 : FVec F S256x1024 .f32 := Host.exp call2_v0
  have call2_cst : FVec F S_ .f32 := constant S_ .f32 0x3F800000#32
  have call2_v2 : FVec F S256x1024 .f32 := broadcastInDim S256x1024 ![] bcast_S_S256x1024 call2_cst
  have call2_v3 : FVec F S256x1024 .f32 := addf call2_v2 call2_v1
  have call2_cst_0 : FVec F S_ .f32 := constant S_ .f32 0x3F800000#32
  have call2_v4 : FVec F S256x1024 .f32 := broadcastInDim S256x1024 ![] bcast_S_S256x1024 call2_cst_0
  have call2_v5 : FVec F S256x1024 .f32 := Host.divf call2_v4 call2_v3
  have v58 : FVec F S256x1024 .f32 := mulf v57 call2_v5
  v58

/-- The gate on the first layer's output. -/
noncomputable def siluB (v58 : FVec F S256x1024 .f32) : FVec F S256x1024 .f32 :=
  have call3_v0 : FVec F S256x1024 .f32 := Host.negf v58
  have call3_v1 : FVec F S256x1024 .f32 := Host.exp call3_v0
  have call3_cst : FVec F S_ .f32 := constant S_ .f32 0x3F800000#32
  have call3_v2 : FVec F S256x1024 .f32 := broadcastInDim S256x1024 ![] bcast_S_S256x1024 call3_cst
  have call3_v3 : FVec F S256x1024 .f32 := addf call3_v2 call3_v1
  have call3_cst_0 : FVec F S_ .f32 := constant S_ .f32 0x3F800000#32
  have call3_v4 : FVec F S256x1024 .f32 := broadcastInDim S256x1024 ![] bcast_S_S256x1024 call3_cst_0
  have call3_v5 : FVec F S256x1024 .f32 := Host.divf call3_v4 call3_v3
  have v59 : FVec F S256x1024 .f32 := mulf v58 call3_v5
  v59

/-- The gated hidden rows times the transposed base weights. -/
noncomputable def baseB (a5 : FVec F S128x1024 .f32) (v59 : FVec F S256x1024 .f32) : FVec F S256x128 .f32 :=
  have v60 : FVec F S1024x128 .f32 := transpose S1024x128 [1, 0] a5 transposes_S128x1024_S1024x128_1_0
  have v61 : FVec F S256x128 .f32 := Host.dotGeneral dot_S256x1024_S1024x128_S256x128_1_0_0_1_n_n none v59 v60
  v61

/-- The first layer's output normalised to [-1, 1] by its global minimum and maximum, then `P₀ … P₃` interleaved and flattened. -/
noncomputable def basisB (v58 : FVec F S256x1024 .f32) : FVec F S256x4096 .f32 :=
  have cst_13 : FVec F S_ .f32 := constant S_ .f32 0x7F800000#32
  have v62 : FVec F S_ .f32 := Host.reduce FloatOps.minimumf v58 cst_13 reducesTo_S256x1024_S_d0_1 h_S_
  have cst_14 : FVec F S_ .f32 := constant S_ .f32 0xFF800000#32
  have v63 : FVec F S_ .f32 := Host.reduce FloatOps.maximumf v58 cst_14 reducesTo_S256x1024_S_d0_1 h_S_
  have v64 : FVec F S256x1024 .f32 := broadcastInDim S256x1024 ![] bcast_S_S256x1024 v62
  have v65 : FVec F S256x1024 .f32 := subf v58 v64
  have cst_15 : FVec F S_ .f32 := constant S_ .f32 0x40000000#32
  have v66 : FVec F S256x1024 .f32 := broadcastInDim S256x1024 ![] bcast_S_S256x1024 cst_15
  have v67 : FVec F S256x1024 .f32 := mulf v66 v65
  have v68 : FVec F S_ .f32 := subf v63 v62
  have v69 : FVec F S256x1024 .f32 := broadcastInDim S256x1024 ![] bcast_S_S256x1024 v68
  have v70 : FVec F S256x1024 .f32 := Host.divf v67 v69
  have cst_16 : FVec F S_ .f32 := constant S_ .f32 0x3F800000#32
  have v71 : FVec F S256x1024 .f32 := broadcastInDim S256x1024 ![] bcast_S_S256x1024 cst_16
  have v72 : FVec F S256x1024 .f32 := subf v70 v71
  have cst_17 : FVec F S_ .f32 := constant S_ .f32 0x3F800000#32
  have v73 : FVec F S256x1024 .f32 := broadcastInDim S256x1024 ![] bcast_S_S256x1024 cst_17
  have cst_18 : FVec F S_ .f32 := constant S_ .f32 0x40400000#32
  have v74 : FVec F S256x1024 .f32 := broadcastInDim S256x1024 ![] bcast_S_S256x1024 cst_18
  have v75 : FVec F S256x1024 .f32 := mulf v74 v72
  have v76 : FVec F S256x1024 .f32 := mulf v75 v72
  have cst_19 : FVec F S_ .f32 := constant S_ .f32 0x3F800000#32
  have v77 : FVec F S256x1024 .f32 := broadcastInDim S256x1024 ![] bcast_S_S256x1024 cst_19
  have v78 : FVec F S256x1024 .f32 := mulf v77 v73
  have v79 : FVec F S256x1024 .f32 := subf v76 v78
  have cst_20 : FVec F S_ .f32 := constant S_ .f32 0x40000000#32
  have v80 : FVec F S256x1024 .f32 := broadcastInDim S256x1024 ![] bcast_S_S256x1024 cst_20
  have v81 : FVec F S256x1024 .f32 := Host.divf v79 v80
  have cst_21 : FVec F S_ .f32 := constant S_ .f32 0x40A00000#32
  have v82 : FVec F S256x1024 .f32 := broadcastInDim S256x1024 ![] bcast_S_S256x1024 cst_21
  have v83 : FVec F S256x1024 .f32 := mulf v82 v72
  have v84 : FVec F S256x1024 .f32 := mulf v83 v81
  have cst_22 : FVec F S_ .f32 := constant S_ .f32 0x40000000#32
  have v85 : FVec F S256x1024 .f32 := broadcastInDim S256x1024 ![] bcast_S_S256x1024 cst_22
  have v86 : FVec F S256x1024 .f32 := mulf v85 v72
  have v87 : FVec F S256x1024 .f32 := subf v84 v86
  have cst_23 : FVec F S_ .f32 := constant S_ .f32 0x40400000#32
  have v88 : FVec F S256x1024 .f32 := broadcastInDim S256x1024 ![] bcast_S_S256x1024 cst_23
  have v89 : FVec F S256x1024 .f32 := Host.divf v87 v88
  have v90 : FVec F S256x1024x1 .f32 := broadcastInDim S256x1024x1 ![0, 1] bcast_S256x1024_S256x1024x1_0_1 v73
  have v91 : FVec F S256x1024x1 .f32 := broadcastInDim S256x1024x1 ![0, 1] bcast_S256x1024_S256x1024x1_0_1 v72
  have v92 : FVec F S256x1024x1 .f32 := broadcastInDim S256x1024x1 ![0, 1] bcast_S256x1024_S256x1024x1_0_1 v81
  have v93 : FVec F S256x1024x1 .f32 := broadcastInDim S256x1024x1 ![0, 1] bcast_S256x1024_S256x1024x1_0_1 v89
  have v94 : FVec F S256x1024x4 .f32 := concatenate S256x1024x4 2 [⟨S256x1024x1, v90⟩, ⟨S256x1024x1, v91⟩, ⟨S256x1024x1, v92⟩, ⟨S256x1024x1, v93⟩] concatenates_S256x1024x1_S256x1024x1_S256x1024x1_S256x1024x1_S256x1024x4_d2
  have v95 : FVec F S256x4096 .f32 := shapeCast S256x4096 v94 shapeCasts_S256x1024x4_S256x4096
  v95

/-- The basis times the transposed polynomial weights, added to the base product. -/
noncomputable def preB (a6 : FVec F S128x4096 .f32) (v95 : FVec F S256x4096 .f32) (v61 : FVec F S256x128 .f32) : FVec F S256x128 .f32 :=
  have v96 : FVec F S4096x128 .f32 := transpose S4096x128 [1, 0] a6 transposes_S128x4096_S4096x128_1_0
  have v97 : FVec F S256x128 .f32 := Host.dotGeneral dot_S256x4096_S4096x128_S256x128_1_0_0_1_n_n none v95 v96
  have v98 : FVec F S256x128 .f32 := addf v61 v97
  v98

/-- The row mean: the row sum over 128. -/
noncomputable def meanB (v98 : FVec F S256x128 .f32) : FVec F S256x1 .f32 :=
  have cst_24 : FVec F S_ .f32 := constant S_ .f32 0x00000000#32
  have v99 : FVec F S256 .f32 := Host.reduceAdd v98 cst_24 reducesTo_S256x128_S256_d1 h_S_
  have v100 : FVec F S256x1 .f32 := broadcastInDim S256x1 ![0] bcast_S256_S256x1_0 v99
  have cst_25 : FVec F S_ .f32 := constant S_ .f32 0x43000000#32
  have v101 : FVec F S256x1 .f32 := broadcastInDim S256x1 ![] bcast_S_S256x1 cst_25
  have v102 : FVec F S256x1 .f32 := Host.divf v100 v101
  v102

/-- The row variance with divisor `128 - 0`, selected against NaN by the sign of that divisor. -/
noncomputable def varB (v98 : FVec F S256x128 .f32) : FVec F S256x1 .f32 :=
  have c_26 : IVec S_ 32 := constantI S_ 32 0#32
  have call4_cst : FVec F S_ .f32 := constant S_ .f32 0x00000000#32
  have call4_v0 : FVec F S256 .f32 := Host.reduceAdd v98 call4_cst reducesTo_S256x128_S256_d1 h_S_
  have call4_v1 : FVec F S256x1 .f32 := broadcastInDim S256x1 ![0] bcast_S256_S256x1_0 call4_v0
  have call4_cst_0 : FVec F S_ .f32 := constant S_ .f32 0x43000000#32
  have call4_v2 : FVec F S256x1 .f32 := broadcastInDim S256x1 ![] bcast_S_S256x1 call4_cst_0
  have call4_v3 : FVec F S256x1 .f32 := Host.divf call4_v1 call4_v2
  have call4_v4 : FVec F S256x128 .f32 := broadcastInDim S256x128 ![0, 1] bcast_S256x1_S256x128_0_1 call4_v3
  have call4_v5 : FVec F S256x128 .f32 := subf v98 call4_v4
  have call4_v6 : FVec F S256x128 .f32 := mulf call4_v5 call4_v5
  have call4_v7 : FVec F S_ .f32 := sitofp .f32 c_26
  have call4_cst_1 : FVec F S_ .f32 := constant S_ .f32 0x43000000#32
  have call4_v8 : FVec F S_ .f32 := subf call4_cst_1 call4_v7
  have call4_cst_2 : FVec F S_ .f32 := constant S_ .f32 0x00000000#32
  have call4_v9 : FVec F S256 .f32 := Host.reduceAdd call4_v6 call4_cst_2 reducesTo_S256x128_S256_d1 h_S_
  have call4_v10 : FVec F S256x1 .f32 := broadcastInDim S256x1 ![0] bcast_S256_S256x1_0 call4_v9
  have call4_v11 : FVec F S256x1 .f32 := broadcastInDim S256x1 ![] bcast_S_S256x1 call4_v8
  have call4_v12 : FVec F S256x1 .f32 := Host.divf call4_v10 call4_v11
  have call4_cst_3 : FVec F S_ .f32 := constant S_ .f32 0x00000000#32
  have call4_v13 : IVec S_ 1 := cmpf .ogt call4_v8 call4_cst_3
  have call4_cst_4 : FVec F S_ .f32 := constant S_ .f32 0x7FC00000#32
  have call4_call0_v0 : FVec F S_ .f32 := id call4_cst_4
  have call4_call0_v1 : FVec F S256x1 .f32 := broadcastInDim S256x1 ![] bcast_S_S256x1 call4_call0_v0
  have v103 : FVec F S256x1 .f32 := select (broadcastInDim S256x1 ![] bcast_S_S256x1 call4_v13) call4_v12 call4_call0_v1
  v103

/-- `(h - mean) / sqrt(var + eps)` scaled and shifted per feature. -/
noncomputable def normB (v102 : FVec F S256x1 .f32) (v98 : FVec F S256x128 .f32) (v103 : FVec F S256x1 .f32) (a7 : FVec F S128 .f32) (a8 : FVec F S128 .f32) : FVec F S256x128 .f32 :=
  have v104 : FVec F S256x128 .f32 := broadcastInDim S256x128 ![0, 1] bcast_S256x1_S256x128_0_1 v102
  have v105 : FVec F S256x128 .f32 := subf v98 v104
  have cst_27 : FVec F S_ .f32 := constant S_ .f32 0x3727C5AC#32
  have v106 : FVec F S256x1 .f32 := broadcastInDim S256x1 ![] bcast_S_S256x1 cst_27
  have v107 : FVec F S256x1 .f32 := addf v103 v106
  have v108 : FVec F S256x1 .f32 := Host.sqrt v107
  have v109 : FVec F S256x128 .f32 := broadcastInDim S256x128 ![0, 1] bcast_S256x1_S256x128_0_1 v108
  have v110 : FVec F S256x128 .f32 := Host.divf v105 v109
  have v111 : FVec F S1x128 .f32 := broadcastInDim S1x128 ![1] bcast_S128_S1x128_1 a7
  have v112 : FVec F S256x128 .f32 := broadcastInDim S256x128 ![0, 1] bcast_S1x128_S256x128_0_1 v111
  have v113 : FVec F S256x128 .f32 := mulf v110 v112
  have v114 : FVec F S1x128 .f32 := broadcastInDim S1x128 ![1] bcast_S128_S1x128_1 a8
  have v115 : FVec F S256x128 .f32 := broadcastInDim S256x128 ![0, 1] bcast_S1x128_S256x128_0_1 v114
  have v116 : FVec F S256x128 .f32 := addf v113 v115
  v116

/-- The gate on the normalised rows: the second layer's output. -/
noncomputable def actB (v116 : FVec F S256x128 .f32) : FVec F S256x128 .f32 :=
  have call5_v0 : FVec F S256x128 .f32 := Host.negf v116
  have call5_v1 : FVec F S256x128 .f32 := Host.exp call5_v0
  have call5_cst : FVec F S_ .f32 := constant S_ .f32 0x3F800000#32
  have call5_v2 : FVec F S256x128 .f32 := broadcastInDim S256x128 ![] bcast_S_S256x128 call5_cst
  have call5_v3 : FVec F S256x128 .f32 := addf call5_v2 call5_v1
  have call5_cst_0 : FVec F S_ .f32 := constant S_ .f32 0x3F800000#32
  have call5_v4 : FVec F S256x128 .f32 := broadcastInDim S256x128 ![] bcast_S_S256x128 call5_cst_0
  have call5_v5 : FVec F S256x128 .f32 := Host.divf call5_v4 call5_v3
  have v117 : FVec F S256x128 .f32 := mulf v116 call5_v5
  v117

/-- The output layer and the softmax over each row: `exp(z - max z) / Σ exp(z - max z)`. -/
noncomputable def head (a9 : FVec F S2x128 .f32) (v117 : FVec F S256x128 .f32) (a10 : FVec F S2 .f32) : FVec F S256x2 .f32 :=
  have v118 : FVec F S128x2 .f32 := transpose S128x2 [1, 0] a9 transposes_S2x128_S128x2_1_0
  have v119 : FVec F S256x2 .f32 := Host.dotGeneral dot_S256x128_S128x2_S256x2_1_0_0_1_n_n none v117 v118
  have v120 : FVec F S1x2 .f32 := broadcastInDim S1x2 ![1] bcast_S2_S1x2_1 a10
  have v121 : FVec F S256x2 .f32 := broadcastInDim S256x2 ![0, 1] bcast_S1x2_S256x2_0_1 v120
  have v122 : FVec F S256x2 .f32 := addf v119 v121
  have cst_28 : FVec F S_ .f32 := constant S_ .f32 0xFF800000#32
  have v123 : FVec F S256 .f32 := Host.reduce FloatOps.maximumf v122 cst_28 reducesTo_S256x2_S256_d1 h_S_
  have cst_29 : FVec F S_ .f32 := constant S_ .f32 0xFF800000#32
  have v124 : FVec F S256 .f32 := broadcastInDim S256 ![] bcast_S_S256 cst_29
  have v125 : FVec F S256 .f32 := maximumf v124 v123
  have v126 : FVec F S256x1 .f32 := broadcastInDim S256x1 ![0] bcast_S256_S256x1_0 v125
  have v127 : FVec F S256x2 .f32 := broadcastInDim S256x2 ![0, 1] bcast_S256x1_S256x2_0_1 v126
  have v128 : FVec F S256x2 .f32 := subf v122 v127
  have v129 : FVec F S256x2 .f32 := Host.exp v128
  have cst_30 : FVec F S_ .f32 := constant S_ .f32 0x00000000#32
  have v130 : FVec F S256 .f32 := Host.reduceAdd v129 cst_30 reducesTo_S256x2_S256_d1 h_S_
  have v131 : FVec F S256x1 .f32 := broadcastInDim S256x1 ![0] bcast_S256_S256x1_0 v130
  have v132 : FVec F S256x2 .f32 := broadcastInDim S256x2 ![0, 1] bcast_S256x1_S256x2_0_1 v131
  have v133 : FVec F S256x2 .f32 := Host.divf v129 v132
  v133

/-- The whole network: the stages composed in program order. -/
noncomputable def refNet (a0 : FVec F S256x50176 .f32) (a1 : FVec F S1024x50176 .f32) (a2 : FVec F S1024x200704 .f32) (a3 : FVec F S1024 .f32) (a4 : FVec F S1024 .f32) (a5 : FVec F S128x1024 .f32) (a6 : FVec F S128x4096 .f32) (a7 : FVec F S128 .f32) (a8 : FVec F S128 .f32) (a9 : FVec F S2x128 .f32) (a10 : FVec F S2 .f32) : FVec F S256x2 .f32 :=
  have v0 : FVec F S256x50176 .f32 := siluA a0
  have v2 : FVec F S256x1024 .f32 := baseA a1 v0
  have v36 : FVec F S256x200704 .f32 := basisA a0
  have v39 : FVec F S256x1024 .f32 := preA a2 v36 v2
  have v43 : FVec F S256x1 .f32 := meanA v39
  have v44 : FVec F S256x1 .f32 := varA v39
  have v57 : FVec F S256x1024 .f32 := normA v43 v39 v44 a3 a4
  have v58 : FVec F S256x1024 .f32 := actA v57
  have v59 : FVec F S256x1024 .f32 := siluB v58
  have v61 : FVec F S256x128 .f32 := baseB a5 v59
  have v95 : FVec F S256x4096 .f32 := basisB v58
  have v98 : FVec F S256x128 .f32 := preB a6 v95 v61
  have v102 : FVec F S256x1 .f32 := meanB v98
  have v103 : FVec F S256x1 .f32 := varB v98
  have v116 : FVec F S256x128 .f32 := normB v102 v98 v103 a7 a8
  have v117 : FVec F S256x128 .f32 := actB v116
  have v133 : FVec F S256x2 .f32 := head a9 v117 a10
  v133

end Cert.ReferenceIdeal.RefTerm

end
-- ==== Proof.HostBasis.lean ====
/-
  The two stretches of host operations that build a polynomial basis (before region 0 from the input, before region 1
  from the first layer's output): the global min-max normalisation to [-1, 1], the Legendre polynomials P₀ … P₃ of the
  normalised value, each given a unit last axis, interleaved along that axis, flattened, and narrowed to the 16-bit
  format. Each stretch is cut at the interleaving: the operations before it give the four polynomials as functions
  of the stretch's input; the last three turn them into the basis. Operation for operation the result is the
  reference's basis stage.
-/
import proofs.«114522_j54279796687469_2_alg».proof.Proof.Gen.KernelIdeal.Launch
import proofs.«114522_j54279796687469_2_alg».proof.Proof.RefTerm
import proofs.«114522_j54279796687469_2_alg».proof.Proof.Gen.ReferenceIdeal
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.StableHlo
open Idealize.SL Idealize.SL.Sem

variable {F : FTy → Type} [FloatOps F]

open Idealize.ShloMosaic.StableHlo in
/-- Each operation's result at its own buffer, and any other buffer's contents unchanged, in one pass; a
    four-operand operation's operands are read at their own literal references. -/
macro "host_results" : tactic =>
  `(tactic| (simp (disch := decide) only [after_cons, after_nil,
      nullary_result', unary_result', binary_result', ternary_result', quaternary_result', reshape_result', nary4_result',
      unaryIndexed_result', binaryIndexed_result',
      nullary_result_ne', unary_result_ne', binary_result_ne', ternary_result_ne', quaternary_result_ne', reshape_result_ne',
      nary_result_ne', unaryIndexed_result_ne', binaryIndexed_result_ne',
      Fin.cons_zero, Fin.cons_one, Fin.cons_succ]))

/-- Running a list of host operations followed by another is running the second from where the first ends. -/
theorem after_append' (l₁ l₂ : List (HloOp τ sig (Elt F))) (V : Valuation τ sig (Elt F)) :
    StableHlo.after (l₁ ++ l₂) V = StableHlo.after l₂ (StableHlo.after l₁ V) := by
  induction l₁ generalizing V with
  | nil => simp only [List.nil_append, after_nil]
  | cons op ops ih => simp only [List.cons_append, after_cons, ih]

/-! ## The basis stretch `hostOps0` -/

/-- Operand 0 of the interleaving: the Legendre polynomial P0 of the normalised input, with a unit last axis. -/
noncomputable def kP0_0 (x : FVec F S256x50176 .f32) : FVec F S256x50176x1 .f32 :=
  have cst : FVec F S_ .f32 := constant S_ .f32 0x7F800000#32
  have v0 : FVec F S_ .f32 := Host.reduce FloatOps.minimumf x cst reducesTo_S256x50176_S_d0_1 h_S_
  have cst_0 : FVec F S_ .f32 := constant S_ .f32 0xFF800000#32
  have v1 : FVec F S_ .f32 := Host.reduce FloatOps.maximumf x cst_0 reducesTo_S256x50176_S_d0_1 h_S_
  have v2 : FVec F S256x50176 .f32 := broadcastInDim S256x50176 ![] bcast_S_S256x50176 v0
  have v3 : FVec F S256x50176 .f32 := subf x v2
  have cst_1 : FVec F S_ .f32 := constant S_ .f32 0x40000000#32
  have v4 : FVec F S256x50176 .f32 := broadcastInDim S256x50176 ![] bcast_S_S256x50176 cst_1
  have v5 : FVec F S256x50176 .f32 := mulf v4 v3
  have v6 : FVec F S_ .f32 := subf v1 v0
  have v7 : FVec F S256x50176 .f32 := broadcastInDim S256x50176 ![] bcast_S_S256x50176 v6
  have v8 : FVec F S256x50176 .f32 := Host.divf v5 v7
  have cst_2 : FVec F S_ .f32 := constant S_ .f32 0x3F800000#32
  have v9 : FVec F S256x50176 .f32 := broadcastInDim S256x50176 ![] bcast_S_S256x50176 cst_2
  have v10 : FVec F S256x50176 .f32 := subf v8 v9
  have cst_3 : FVec F S_ .f32 := constant S_ .f32 0x3F800000#32
  have v11 : FVec F S256x50176 .f32 := broadcastInDim S256x50176 ![] bcast_S_S256x50176 cst_3
  have cst_4 : FVec F S_ .f32 := constant S_ .f32 0x40400000#32
  have v12 : FVec F S256x50176 .f32 := broadcastInDim S256x50176 ![] bcast_S_S256x50176 cst_4
  have v13 : FVec F S256x50176 .f32 := mulf v12 v10
  have v14 : FVec F S256x50176 .f32 := mulf v13 v10
  have cst_5 : FVec F S_ .f32 := constant S_ .f32 0x3F800000#32
  have v15 : FVec F S256x50176 .f32 := broadcastInDim S256x50176 ![] bcast_S_S256x50176 cst_5
  have v16 : FVec F S256x50176 .f32 := mulf v15 v11
  have v17 : FVec F S256x50176 .f32 := subf v14 v16
  have cst_6 : FVec F S_ .f32 := constant S_ .f32 0x40000000#32
  have v18 : FVec F S256x50176 .f32 := broadcastInDim S256x50176 ![] bcast_S_S256x50176 cst_6
  have v19 : FVec F S256x50176 .f32 := Host.divf v17 v18
  have cst_7 : FVec F S_ .f32 := constant S_ .f32 0x40A00000#32
  have v20 : FVec F S256x50176 .f32 := broadcastInDim S256x50176 ![] bcast_S_S256x50176 cst_7
  have v21 : FVec F S256x50176 .f32 := mulf v20 v10
  have v22 : FVec F S256x50176 .f32 := mulf v21 v19
  have cst_8 : FVec F S_ .f32 := constant S_ .f32 0x40000000#32
  have v23 : FVec F S256x50176 .f32 := broadcastInDim S256x50176 ![] bcast_S_S256x50176 cst_8
  have v24 : FVec F S256x50176 .f32 := mulf v23 v10
  have v25 : FVec F S256x50176 .f32 := subf v22 v24
  have cst_9 : FVec F S_ .f32 := constant S_ .f32 0x40400000#32
  have v26 : FVec F S256x50176 .f32 := broadcastInDim S256x50176 ![] bcast_S_S256x50176 cst_9
  have v27 : FVec F S256x50176 .f32 := Host.divf v25 v26
  have v28 : FVec F S256x50176x1 .f32 := broadcastInDim S256x50176x1 ![0, 1] bcast_S256x50176_S256x50176x1_0_1 v11
  have v29 : FVec F S256x50176x1 .f32 := broadcastInDim S256x50176x1 ![0, 1] bcast_S256x50176_S256x50176x1_0_1 v10
  have v30 : FVec F S256x50176x1 .f32 := broadcastInDim S256x50176x1 ![0, 1] bcast_S256x50176_S256x50176x1_0_1 v19
  have v31 : FVec F S256x50176x1 .f32 := broadcastInDim S256x50176x1 ![0, 1] bcast_S256x50176_S256x50176x1_0_1 v27
  v28

/-- Operand 1 of the interleaving: the Legendre polynomial P1 of the normalised input, with a unit last axis. -/
noncomputable def kP0_1 (x : FVec F S256x50176 .f32) : FVec F S256x50176x1 .f32 :=
  have cst : FVec F S_ .f32 := constant S_ .f32 0x7F800000#32
  have v0 : FVec F S_ .f32 := Host.reduce FloatOps.minimumf x cst reducesTo_S256x50176_S_d0_1 h_S_
  have cst_0 : FVec F S_ .f32 := constant S_ .f32 0xFF800000#32
  have v1 : FVec F S_ .f32 := Host.reduce FloatOps.maximumf x cst_0 reducesTo_S256x50176_S_d0_1 h_S_
  have v2 : FVec F S256x50176 .f32 := broadcastInDim S256x50176 ![] bcast_S_S256x50176 v0
  have v3 : FVec F S256x50176 .f32 := subf x v2
  have cst_1 : FVec F S_ .f32 := constant S_ .f32 0x40000000#32
  have v4 : FVec F S256x50176 .f32 := broadcastInDim S256x50176 ![] bcast_S_S256x50176 cst_1
  have v5 : FVec F S256x50176 .f32 := mulf v4 v3
  have v6 : FVec F S_ .f32 := subf v1 v0
  have v7 : FVec F S256x50176 .f32 := broadcastInDim S256x50176 ![] bcast_S_S256x50176 v6
  have v8 : FVec F S256x50176 .f32 := Host.divf v5 v7
  have cst_2 : FVec F S_ .f32 := constant S_ .f32 0x3F800000#32
  have v9 : FVec F S256x50176 .f32 := broadcastInDim S256x50176 ![] bcast_S_S256x50176 cst_2
  have v10 : FVec F S256x50176 .f32 := subf v8 v9
  have cst_3 : FVec F S_ .f32 := constant S_ .f32 0x3F800000#32
  have v11 : FVec F S256x50176 .f32 := broadcastInDim S256x50176 ![] bcast_S_S256x50176 cst_3
  have cst_4 : FVec F S_ .f32 := constant S_ .f32 0x40400000#32
  have v12 : FVec F S256x50176 .f32 := broadcastInDim S256x50176 ![] bcast_S_S256x50176 cst_4
  have v13 : FVec F S256x50176 .f32 := mulf v12 v10
  have v14 : FVec F S256x50176 .f32 := mulf v13 v10
  have cst_5 : FVec F S_ .f32 := constant S_ .f32 0x3F800000#32
  have v15 : FVec F S256x50176 .f32 := broadcastInDim S256x50176 ![] bcast_S_S256x50176 cst_5
  have v16 : FVec F S256x50176 .f32 := mulf v15 v11
  have v17 : FVec F S256x50176 .f32 := subf v14 v16
  have cst_6 : FVec F S_ .f32 := constant S_ .f32 0x40000000#32
  have v18 : FVec F S256x50176 .f32 := broadcastInDim S256x50176 ![] bcast_S_S256x50176 cst_6
  have v19 : FVec F S256x50176 .f32 := Host.divf v17 v18
  have cst_7 : FVec F S_ .f32 := constant S_ .f32 0x40A00000#32
  have v20 : FVec F S256x50176 .f32 := broadcastInDim S256x50176 ![] bcast_S_S256x50176 cst_7
  have v21 : FVec F S256x50176 .f32 := mulf v20 v10
  have v22 : FVec F S256x50176 .f32 := mulf v21 v19
  have cst_8 : FVec F S_ .f32 := constant S_ .f32 0x40000000#32
  have v23 : FVec F S256x50176 .f32 := broadcastInDim S256x50176 ![] bcast_S_S256x50176 cst_8
  have v24 : FVec F S256x50176 .f32 := mulf v23 v10
  have v25 : FVec F S256x50176 .f32 := subf v22 v24
  have cst_9 : FVec F S_ .f32 := constant S_ .f32 0x40400000#32
  have v26 : FVec F S256x50176 .f32 := broadcastInDim S256x50176 ![] bcast_S_S256x50176 cst_9
  have v27 : FVec F S256x50176 .f32 := Host.divf v25 v26
  have v28 : FVec F S256x50176x1 .f32 := broadcastInDim S256x50176x1 ![0, 1] bcast_S256x50176_S256x50176x1_0_1 v11
  have v29 : FVec F S256x50176x1 .f32 := broadcastInDim S256x50176x1 ![0, 1] bcast_S256x50176_S256x50176x1_0_1 v10
  have v30 : FVec F S256x50176x1 .f32 := broadcastInDim S256x50176x1 ![0, 1] bcast_S256x50176_S256x50176x1_0_1 v19
  have v31 : FVec F S256x50176x1 .f32 := broadcastInDim S256x50176x1 ![0, 1] bcast_S256x50176_S256x50176x1_0_1 v27
  v29

/-- Operand 2 of the interleaving: the Legendre polynomial P2 of the normalised input, with a unit last axis. -/
noncomputable def kP0_2 (x : FVec F S256x50176 .f32) : FVec F S256x50176x1 .f32 :=
  have cst : FVec F S_ .f32 := constant S_ .f32 0x7F800000#32
  have v0 : FVec F S_ .f32 := Host.reduce FloatOps.minimumf x cst reducesTo_S256x50176_S_d0_1 h_S_
  have cst_0 : FVec F S_ .f32 := constant S_ .f32 0xFF800000#32
  have v1 : FVec F S_ .f32 := Host.reduce FloatOps.maximumf x cst_0 reducesTo_S256x50176_S_d0_1 h_S_
  have v2 : FVec F S256x50176 .f32 := broadcastInDim S256x50176 ![] bcast_S_S256x50176 v0
  have v3 : FVec F S256x50176 .f32 := subf x v2
  have cst_1 : FVec F S_ .f32 := constant S_ .f32 0x40000000#32
  have v4 : FVec F S256x50176 .f32 := broadcastInDim S256x50176 ![] bcast_S_S256x50176 cst_1
  have v5 : FVec F S256x50176 .f32 := mulf v4 v3
  have v6 : FVec F S_ .f32 := subf v1 v0
  have v7 : FVec F S256x50176 .f32 := broadcastInDim S256x50176 ![] bcast_S_S256x50176 v6
  have v8 : FVec F S256x50176 .f32 := Host.divf v5 v7
  have cst_2 : FVec F S_ .f32 := constant S_ .f32 0x3F800000#32
  have v9 : FVec F S256x50176 .f32 := broadcastInDim S256x50176 ![] bcast_S_S256x50176 cst_2
  have v10 : FVec F S256x50176 .f32 := subf v8 v9
  have cst_3 : FVec F S_ .f32 := constant S_ .f32 0x3F800000#32
  have v11 : FVec F S256x50176 .f32 := broadcastInDim S256x50176 ![] bcast_S_S256x50176 cst_3
  have cst_4 : FVec F S_ .f32 := constant S_ .f32 0x40400000#32
  have v12 : FVec F S256x50176 .f32 := broadcastInDim S256x50176 ![] bcast_S_S256x50176 cst_4
  have v13 : FVec F S256x50176 .f32 := mulf v12 v10
  have v14 : FVec F S256x50176 .f32 := mulf v13 v10
  have cst_5 : FVec F S_ .f32 := constant S_ .f32 0x3F800000#32
  have v15 : FVec F S256x50176 .f32 := broadcastInDim S256x50176 ![] bcast_S_S256x50176 cst_5
  have v16 : FVec F S256x50176 .f32 := mulf v15 v11
  have v17 : FVec F S256x50176 .f32 := subf v14 v16
  have cst_6 : FVec F S_ .f32 := constant S_ .f32 0x40000000#32
  have v18 : FVec F S256x50176 .f32 := broadcastInDim S256x50176 ![] bcast_S_S256x50176 cst_6
  have v19 : FVec F S256x50176 .f32 := Host.divf v17 v18
  have cst_7 : FVec F S_ .f32 := constant S_ .f32 0x40A00000#32
  have v20 : FVec F S256x50176 .f32 := broadcastInDim S256x50176 ![] bcast_S_S256x50176 cst_7
  have v21 : FVec F S256x50176 .f32 := mulf v20 v10
  have v22 : FVec F S256x50176 .f32 := mulf v21 v19
  have cst_8 : FVec F S_ .f32 := constant S_ .f32 0x40000000#32
  have v23 : FVec F S256x50176 .f32 := broadcastInDim S256x50176 ![] bcast_S_S256x50176 cst_8
  have v24 : FVec F S256x50176 .f32 := mulf v23 v10
  have v25 : FVec F S256x50176 .f32 := subf v22 v24
  have cst_9 : FVec F S_ .f32 := constant S_ .f32 0x40400000#32
  have v26 : FVec F S256x50176 .f32 := broadcastInDim S256x50176 ![] bcast_S_S256x50176 cst_9
  have v27 : FVec F S256x50176 .f32 := Host.divf v25 v26
  have v28 : FVec F S256x50176x1 .f32 := broadcastInDim S256x50176x1 ![0, 1] bcast_S256x50176_S256x50176x1_0_1 v11
  have v29 : FVec F S256x50176x1 .f32 := broadcastInDim S256x50176x1 ![0, 1] bcast_S256x50176_S256x50176x1_0_1 v10
  have v30 : FVec F S256x50176x1 .f32 := broadcastInDim S256x50176x1 ![0, 1] bcast_S256x50176_S256x50176x1_0_1 v19
  have v31 : FVec F S256x50176x1 .f32 := broadcastInDim S256x50176x1 ![0, 1] bcast_S256x50176_S256x50176x1_0_1 v27
  v30

/-- Operand 3 of the interleaving: the Legendre polynomial P3 of the normalised input, with a unit last axis. -/
noncomputable def kP0_3 (x : FVec F S256x50176 .f32) : FVec F S256x50176x1 .f32 :=
  have cst : FVec F S_ .f32 := constant S_ .f32 0x7F800000#32
  have v0 : FVec F S_ .f32 := Host.reduce FloatOps.minimumf x cst reducesTo_S256x50176_S_d0_1 h_S_
  have cst_0 : FVec F S_ .f32 := constant S_ .f32 0xFF800000#32
  have v1 : FVec F S_ .f32 := Host.reduce FloatOps.maximumf x cst_0 reducesTo_S256x50176_S_d0_1 h_S_
  have v2 : FVec F S256x50176 .f32 := broadcastInDim S256x50176 ![] bcast_S_S256x50176 v0
  have v3 : FVec F S256x50176 .f32 := subf x v2
  have cst_1 : FVec F S_ .f32 := constant S_ .f32 0x40000000#32
  have v4 : FVec F S256x50176 .f32 := broadcastInDim S256x50176 ![] bcast_S_S256x50176 cst_1
  have v5 : FVec F S256x50176 .f32 := mulf v4 v3
  have v6 : FVec F S_ .f32 := subf v1 v0
  have v7 : FVec F S256x50176 .f32 := broadcastInDim S256x50176 ![] bcast_S_S256x50176 v6
  have v8 : FVec F S256x50176 .f32 := Host.divf v5 v7
  have cst_2 : FVec F S_ .f32 := constant S_ .f32 0x3F800000#32
  have v9 : FVec F S256x50176 .f32 := broadcastInDim S256x50176 ![] bcast_S_S256x50176 cst_2
  have v10 : FVec F S256x50176 .f32 := subf v8 v9
  have cst_3 : FVec F S_ .f32 := constant S_ .f32 0x3F800000#32
  have v11 : FVec F S256x50176 .f32 := broadcastInDim S256x50176 ![] bcast_S_S256x50176 cst_3
  have cst_4 : FVec F S_ .f32 := constant S_ .f32 0x40400000#32
  have v12 : FVec F S256x50176 .f32 := broadcastInDim S256x50176 ![] bcast_S_S256x50176 cst_4
  have v13 : FVec F S256x50176 .f32 := mulf v12 v10
  have v14 : FVec F S256x50176 .f32 := mulf v13 v10
  have cst_5 : FVec F S_ .f32 := constant S_ .f32 0x3F800000#32
  have v15 : FVec F S256x50176 .f32 := broadcastInDim S256x50176 ![] bcast_S_S256x50176 cst_5
  have v16 : FVec F S256x50176 .f32 := mulf v15 v11
  have v17 : FVec F S256x50176 .f32 := subf v14 v16
  have cst_6 : FVec F S_ .f32 := constant S_ .f32 0x40000000#32
  have v18 : FVec F S256x50176 .f32 := broadcastInDim S256x50176 ![] bcast_S_S256x50176 cst_6
  have v19 : FVec F S256x50176 .f32 := Host.divf v17 v18
  have cst_7 : FVec F S_ .f32 := constant S_ .f32 0x40A00000#32
  have v20 : FVec F S256x50176 .f32 := broadcastInDim S256x50176 ![] bcast_S_S256x50176 cst_7
  have v21 : FVec F S256x50176 .f32 := mulf v20 v10
  have v22 : FVec F S256x50176 .f32 := mulf v21 v19
  have cst_8 : FVec F S_ .f32 := constant S_ .f32 0x40000000#32
  have v23 : FVec F S256x50176 .f32 := broadcastInDim S256x50176 ![] bcast_S_S256x50176 cst_8
  have v24 : FVec F S256x50176 .f32 := mulf v23 v10
  have v25 : FVec F S256x50176 .f32 := subf v22 v24
  have cst_9 : FVec F S_ .f32 := constant S_ .f32 0x40400000#32
  have v26 : FVec F S256x50176 .f32 := broadcastInDim S256x50176 ![] bcast_S_S256x50176 cst_9
  have v27 : FVec F S256x50176 .f32 := Host.divf v25 v26
  have v28 : FVec F S256x50176x1 .f32 := broadcastInDim S256x50176x1 ![0, 1] bcast_S256x50176_S256x50176x1_0_1 v11
  have v29 : FVec F S256x50176x1 .f32 := broadcastInDim S256x50176x1 ![0, 1] bcast_S256x50176_S256x50176x1_0_1 v10
  have v30 : FVec F S256x50176x1 .f32 := broadcastInDim S256x50176x1 ![0, 1] bcast_S256x50176_S256x50176x1_0_1 v19
  have v31 : FVec F S256x50176x1 .f32 := broadcastInDim S256x50176x1 ![0, 1] bcast_S256x50176_S256x50176x1_0_1 v27
  v31

/-- The four polynomials interleaved along the last axis, flattened, in the narrower format. -/
noncomputable def kTail0 (p0 p1 p2 p3 : FVec F S256x50176x1 .f32) : FVec F S256x200704 .bf16 :=
  truncf .bf16 (shapeCast S256x200704 (concatenate S256x50176x4 2 [⟨S256x50176x1, p0⟩, ⟨S256x50176x1, p1⟩, ⟨S256x50176x1, p2⟩, ⟨S256x50176x1, p3⟩] concatenates_S256x50176x1_S256x50176x1_S256x50176x1_S256x50176x1_S256x50176x4_d2) shapeCasts_S256x50176x4_S256x200704) bitsLt_bf16_f32

/-- The stretch's operations before the interleaving, and its last three. -/
abbrev pre0 : List (HloOp τ sig (Elt F)) :=
  [ StableHlo.nullary main_cst (constant S_ .f32 0x7F800000#32),
    StableHlo.binary main_arg0 main_cst main_v0 ((fun x v => Host.reduce FloatOps.minimumf x v reducesTo_S256x50176_S_d0_1 h_S_) : (⟨S256x50176, .f32⟩ : BufTy).Contents (Elt F) → (⟨S_, .f32⟩ : BufTy).Contents (Elt F) → (⟨S_, .f32⟩ : BufTy).Contents (Elt F)),
    StableHlo.nullary main_cst_0 (constant S_ .f32 0xFF800000#32),
    StableHlo.binary main_arg0 main_cst_0 main_v1 ((fun x v => Host.reduce FloatOps.maximumf x v reducesTo_S256x50176_S_d0_1 h_S_) : (⟨S256x50176, .f32⟩ : BufTy).Contents (Elt F) → (⟨S_, .f32⟩ : BufTy).Contents (Elt F) → (⟨S_, .f32⟩ : BufTy).Contents (Elt F)),
    StableHlo.unary main_v0 main_v2 (broadcastInDim S256x50176 ![] bcast_S_S256x50176 : (⟨S_, .f32⟩ : BufTy).Contents (Elt F) → (⟨S256x50176, .f32⟩ : BufTy).Contents (Elt F)),
    StableHlo.binary main_arg0 main_v2 main_v3 (subf : (⟨S256x50176, .f32⟩ : BufTy).Contents (Elt F) → (⟨S256x50176, .f32⟩ : BufTy).Contents (Elt F) → (⟨S256x50176, .f32⟩ : BufTy).Contents (Elt F)),
    StableHlo.nullary main_cst_1 (constant S_ .f32 0x40000000#32),
    StableHlo.unary main_cst_1 main_v4 (broadcastInDim S256x50176 ![] bcast_S_S256x50176 : (⟨S_, .f32⟩ : BufTy).Contents (Elt F) → (⟨S256x50176, .f32⟩ : BufTy).Contents (Elt F)),
    StableHlo.binary main_v4 main_v3 main_v5 (mulf : (⟨S256x50176, .f32⟩ : BufTy).Contents (Elt F) → (⟨S256x50176, .f32⟩ : BufTy).Contents (Elt F) → (⟨S256x50176, .f32⟩ : BufTy).Contents (Elt F)),
    StableHlo.binary main_v1 main_v0 main_v6 (subf : (⟨S_, .f32⟩ : BufTy).Contents (Elt F) → (⟨S_, .f32⟩ : BufTy).Contents (Elt F) → (⟨S_, .f32⟩ : BufTy).Contents (Elt F)),
    StableHlo.unary main_v6 main_v7 (broadcastInDim S256x50176 ![] bcast_S_S256x50176 : (⟨S_, .f32⟩ : BufTy).Contents (Elt F) → (⟨S256x50176, .f32⟩ : BufTy).Contents (Elt F)),
    StableHlo.binary main_v5 main_v7 main_v8 (Host.divf : (⟨S256x50176, .f32⟩ : BufTy).Contents (Elt F) → (⟨S256x50176, .f32⟩ : BufTy).Contents (Elt F) → (⟨S256x50176, .f32⟩ : BufTy).Contents (Elt F)),
    StableHlo.nullary main_cst_2 (constant S_ .f32 0x3F800000#32),
    StableHlo.unary main_cst_2 main_v9 (broadcastInDim S256x50176 ![] bcast_S_S256x50176 : (⟨S_, .f32⟩ : BufTy).Contents (Elt F) → (⟨S256x50176, .f32⟩ : BufTy).Contents (Elt F)),
    StableHlo.binary main_v8 main_v9 main_v10 (subf : (⟨S256x50176, .f32⟩ : BufTy).Contents (Elt F) → (⟨S256x50176, .f32⟩ : BufTy).Contents (Elt F) → (⟨S256x50176, .f32⟩ : BufTy).Contents (Elt F)),
    StableHlo.nullary main_cst_3 (constant S_ .f32 0x3F800000#32),
    StableHlo.unary main_cst_3 main_v11 (broadcastInDim S256x50176 ![] bcast_S_S256x50176 : (⟨S_, .f32⟩ : BufTy).Contents (Elt F) → (⟨S256x50176, .f32⟩ : BufTy).Contents (Elt F)),
    StableHlo.nullary main_cst_4 (constant S_ .f32 0x40400000#32),
    StableHlo.unary main_cst_4 main_v12 (broadcastInDim S256x50176 ![] bcast_S_S256x50176 : (⟨S_, .f32⟩ : BufTy).Contents (Elt F) → (⟨S256x50176, .f32⟩ : BufTy).Contents (Elt F)),
    StableHlo.binary main_v12 main_v10 main_v13 (mulf : (⟨S256x50176, .f32⟩ : BufTy).Contents (Elt F) → (⟨S256x50176, .f32⟩ : BufTy).Contents (Elt F) → (⟨S256x50176, .f32⟩ : BufTy).Contents (Elt F)),
    StableHlo.binary main_v13 main_v10 main_v14 (mulf : (⟨S256x50176, .f32⟩ : BufTy).Contents (Elt F) → (⟨S256x50176, .f32⟩ : BufTy).Contents (Elt F) → (⟨S256x50176, .f32⟩ : BufTy).Contents (Elt F)),
    StableHlo.nullary main_cst_5 (constant S_ .f32 0x3F800000#32),
    StableHlo.unary main_cst_5 main_v15 (broadcastInDim S256x50176 ![] bcast_S_S256x50176 : (⟨S_, .f32⟩ : BufTy).Contents (Elt F) → (⟨S256x50176, .f32⟩ : BufTy).Contents (Elt F)),
    StableHlo.binary main_v15 main_v11 main_v16 (mulf : (⟨S256x50176, .f32⟩ : BufTy).Contents (Elt F) → (⟨S256x50176, .f32⟩ : BufTy).Contents (Elt F) → (⟨S256x50176, .f32⟩ : BufTy).Contents (Elt F)),
    StableHlo.binary main_v14 main_v16 main_v17 (subf : (⟨S256x50176, .f32⟩ : BufTy).Contents (Elt F) → (⟨S256x50176, .f32⟩ : BufTy).Contents (Elt F) → (⟨S256x50176, .f32⟩ : BufTy).Contents (Elt F)),
    StableHlo.nullary main_cst_6 (constant S_ .f32 0x40000000#32),
    StableHlo.unary main_cst_6 main_v18 (broadcastInDim S256x50176 ![] bcast_S_S256x50176 : (⟨S_, .f32⟩ : BufTy).Contents (Elt F) → (⟨S256x50176, .f32⟩ : BufTy).Contents (Elt F)),
    StableHlo.binary main_v17 main_v18 main_v19 (Host.divf : (⟨S256x50176, .f32⟩ : BufTy).Contents (Elt F) → (⟨S256x50176, .f32⟩ : BufTy).Contents (Elt F) → (⟨S256x50176, .f32⟩ : BufTy).Contents (Elt F)),
    StableHlo.nullary main_cst_7 (constant S_ .f32 0x40A00000#32),
    StableHlo.unary main_cst_7 main_v20 (broadcastInDim S256x50176 ![] bcast_S_S256x50176 : (⟨S_, .f32⟩ : BufTy).Contents (Elt F) → (⟨S256x50176, .f32⟩ : BufTy).Contents (Elt F)),
    StableHlo.binary main_v20 main_v10 main_v21 (mulf : (⟨S256x50176, .f32⟩ : BufTy).Contents (Elt F) → (⟨S256x50176, .f32⟩ : BufTy).Contents (Elt F) → (⟨S256x50176, .f32⟩ : BufTy).Contents (Elt F)),
    StableHlo.binary main_v21 main_v19 main_v22 (mulf : (⟨S256x50176, .f32⟩ : BufTy).Contents (Elt F) → (⟨S256x50176, .f32⟩ : BufTy).Contents (Elt F) → (⟨S256x50176, .f32⟩ : BufTy).Contents (Elt F)),
    StableHlo.nullary main_cst_8 (constant S_ .f32 0x40000000#32),
    StableHlo.unary main_cst_8 main_v23 (broadcastInDim S256x50176 ![] bcast_S_S256x50176 : (⟨S_, .f32⟩ : BufTy).Contents (Elt F) → (⟨S256x50176, .f32⟩ : BufTy).Contents (Elt F)),
    StableHlo.binary main_v23 main_v10 main_v24 (mulf : (⟨S256x50176, .f32⟩ : BufTy).Contents (Elt F) → (⟨S256x50176, .f32⟩ : BufTy).Contents (Elt F) → (⟨S256x50176, .f32⟩ : BufTy).Contents (Elt F)),
    StableHlo.binary main_v22 main_v24 main_v25 (subf : (⟨S256x50176, .f32⟩ : BufTy).Contents (Elt F) → (⟨S256x50176, .f32⟩ : BufTy).Contents (Elt F) → (⟨S256x50176, .f32⟩ : BufTy).Contents (Elt F)),
    StableHlo.nullary main_cst_9 (constant S_ .f32 0x40400000#32),
    StableHlo.unary main_cst_9 main_v26 (broadcastInDim S256x50176 ![] bcast_S_S256x50176 : (⟨S_, .f32⟩ : BufTy).Contents (Elt F) → (⟨S256x50176, .f32⟩ : BufTy).Contents (Elt F)),
    StableHlo.binary main_v25 main_v26 main_v27 (Host.divf : (⟨S256x50176, .f32⟩ : BufTy).Contents (Elt F) → (⟨S256x50176, .f32⟩ : BufTy).Contents (Elt F) → (⟨S256x50176, .f32⟩ : BufTy).Contents (Elt F)),
    StableHlo.unary main_v11 main_v28 (broadcastInDim S256x50176x1 ![0, 1] bcast_S256x50176_S256x50176x1_0_1 : (⟨S256x50176, .f32⟩ : BufTy).Contents (Elt F) → (⟨S256x50176x1, .f32⟩ : BufTy).Contents (Elt F)),
    StableHlo.unary main_v10 main_v29 (broadcastInDim S256x50176x1 ![0, 1] bcast_S256x50176_S256x50176x1_0_1 : (⟨S256x50176, .f32⟩ : BufTy).Contents (Elt F) → (⟨S256x50176x1, .f32⟩ : BufTy).Contents (Elt F)),
    StableHlo.unary main_v19 main_v30 (broadcastInDim S256x50176x1 ![0, 1] bcast_S256x50176_S256x50176x1_0_1 : (⟨S256x50176, .f32⟩ : BufTy).Contents (Elt F) → (⟨S256x50176x1, .f32⟩ : BufTy).Contents (Elt F)),
    StableHlo.unary main_v27 main_v31 (broadcastInDim S256x50176x1 ![0, 1] bcast_S256x50176_S256x50176x1_0_1 : (⟨S256x50176, .f32⟩ : BufTy).Contents (Elt F) → (⟨S256x50176x1, .f32⟩ : BufTy).Contents (Elt F)) ]
abbrev tail0 : List (HloOp τ sig (Elt F)) :=
  [ StableHlo.nary ![main_v28, main_v29, main_v30, main_v31] main_v32 (fun u => concatenate S256x50176x4 2 [⟨S256x50176x1, u 0⟩, ⟨S256x50176x1, u 1⟩, ⟨S256x50176x1, u 2⟩, ⟨S256x50176x1, u 3⟩] concatenates_S256x50176x1_S256x50176x1_S256x50176x1_S256x50176x1_S256x50176x4_d2),
    StableHlo.reshape main_v32 main_v33 rfl shapeCasts_S256x50176x4_S256x200704,
    StableHlo.unary main_v33 main_v34 ((truncf .bf16 · bitsLt_bf16_f32) : (⟨S256x200704, .f32⟩ : BufTy).Contents (Elt F) → (⟨S256x200704, .bf16⟩ : BufTy).Contents (Elt F)) ]
theorem split0 : (hostOps0 : List (HloOp τ sig (Elt F))) = pre0 ++ tail0 := rfl

set_option maxRecDepth 200000 in
set_option maxHeartbeats 2000000 in
theorem pre0_0 (W : Valuation τ sig (Elt F)) :
    StableHlo.after pre0 W (Proc.devRef .tc main_v28) = kP0_0 (W (Proc.devRef .tc main_arg0)) := by
  after_results_simp
  rfl

set_option maxRecDepth 200000 in
set_option maxHeartbeats 2000000 in
theorem pre0_1 (W : Valuation τ sig (Elt F)) :
    StableHlo.after pre0 W (Proc.devRef .tc main_v29) = kP0_1 (W (Proc.devRef .tc main_arg0)) := by
  after_results_simp
  rfl

set_option maxRecDepth 200000 in
set_option maxHeartbeats 2000000 in
theorem pre0_2 (W : Valuation τ sig (Elt F)) :
    StableHlo.after pre0 W (Proc.devRef .tc main_v30) = kP0_2 (W (Proc.devRef .tc main_arg0)) := by
  after_results_simp
  rfl

set_option maxRecDepth 200000 in
set_option maxHeartbeats 2000000 in
theorem pre0_3 (W : Valuation τ sig (Elt F)) :
    StableHlo.after pre0 W (Proc.devRef .tc main_v31) = kP0_3 (W (Proc.devRef .tc main_arg0)) := by
  after_results_simp
  rfl

set_option maxRecDepth 200000 in
theorem tail0_out (G : Valuation τ sig (Elt F)) :
    StableHlo.after tail0 G (Proc.devRef .tc main_v34)
      = kTail0 (G (Proc.devRef .tc main_v28)) (G (Proc.devRef .tc main_v29)) (G (Proc.devRef .tc main_v30)) (G (Proc.devRef .tc main_v31)) := by
  host_results
  rfl

set_option maxRecDepth 200000 in
/-- The stretch's result is the reference's basis stage of its input, in the narrower format. -/
theorem kBasis0_eq (x : FVec F S256x50176 .f32) :
    kTail0 (kP0_0 x) (kP0_1 x) (kP0_2 x) (kP0_3 x) = truncf .bf16 (Cert.ReferenceIdeal.RefTerm.basisA (F := F) x) bitsLt_bf16_f32 := rfl

/-! ## The basis stretch `hostOps1_2` -/

/-- Operand 0 of the interleaving: the Legendre polynomial P0 of the normalised input, with a unit last axis. -/
noncomputable def kP2_0 (x : FVec F S256x1024 .f32) : FVec F S256x1024x1 .f32 :=
  have cst_15 : FVec F S_ .f32 := constant S_ .f32 0x7F800000#32
  have v61 : FVec F S_ .f32 := Host.reduce FloatOps.minimumf x cst_15 reducesTo_S256x1024_S_d0_1 h_S_
  have cst_16 : FVec F S_ .f32 := constant S_ .f32 0xFF800000#32
  have v62 : FVec F S_ .f32 := Host.reduce FloatOps.maximumf x cst_16 reducesTo_S256x1024_S_d0_1 h_S_
  have v63 : FVec F S256x1024 .f32 := broadcastInDim S256x1024 ![] bcast_S_S256x1024 v61
  have v64 : FVec F S256x1024 .f32 := subf x v63
  have cst_17 : FVec F S_ .f32 := constant S_ .f32 0x40000000#32
  have v65 : FVec F S256x1024 .f32 := broadcastInDim S256x1024 ![] bcast_S_S256x1024 cst_17
  have v66 : FVec F S256x1024 .f32 := mulf v65 v64
  have v67 : FVec F S_ .f32 := subf v62 v61
  have v68 : FVec F S256x1024 .f32 := broadcastInDim S256x1024 ![] bcast_S_S256x1024 v67
  have v69 : FVec F S256x1024 .f32 := Host.divf v66 v68
  have cst_18 : FVec F S_ .f32 := constant S_ .f32 0x3F800000#32
  have v70 : FVec F S256x1024 .f32 := broadcastInDim S256x1024 ![] bcast_S_S256x1024 cst_18
  have v71 : FVec F S256x1024 .f32 := subf v69 v70
  have cst_19 : FVec F S_ .f32 := constant S_ .f32 0x3F800000#32
  have v72 : FVec F S256x1024 .f32 := broadcastInDim S256x1024 ![] bcast_S_S256x1024 cst_19
  have cst_20 : FVec F S_ .f32 := constant S_ .f32 0x40400000#32
  have v73 : FVec F S256x1024 .f32 := broadcastInDim S256x1024 ![] bcast_S_S256x1024 cst_20
  have v74 : FVec F S256x1024 .f32 := mulf v73 v71
  have v75 : FVec F S256x1024 .f32 := mulf v74 v71
  have cst_21 : FVec F S_ .f32 := constant S_ .f32 0x3F800000#32
  have v76 : FVec F S256x1024 .f32 := broadcastInDim S256x1024 ![] bcast_S_S256x1024 cst_21
  have v77 : FVec F S256x1024 .f32 := mulf v76 v72
  have v78 : FVec F S256x1024 .f32 := subf v75 v77
  have cst_22 : FVec F S_ .f32 := constant S_ .f32 0x40000000#32
  have v79 : FVec F S256x1024 .f32 := broadcastInDim S256x1024 ![] bcast_S_S256x1024 cst_22
  have v80 : FVec F S256x1024 .f32 := Host.divf v78 v79
  have cst_23 : FVec F S_ .f32 := constant S_ .f32 0x40A00000#32
  have v81 : FVec F S256x1024 .f32 := broadcastInDim S256x1024 ![] bcast_S_S256x1024 cst_23
  have v82 : FVec F S256x1024 .f32 := mulf v81 v71
  have v83 : FVec F S256x1024 .f32 := mulf v82 v80
  have cst_24 : FVec F S_ .f32 := constant S_ .f32 0x40000000#32
  have v84 : FVec F S256x1024 .f32 := broadcastInDim S256x1024 ![] bcast_S_S256x1024 cst_24
  have v85 : FVec F S256x1024 .f32 := mulf v84 v71
  have v86 : FVec F S256x1024 .f32 := subf v83 v85
  have cst_25 : FVec F S_ .f32 := constant S_ .f32 0x40400000#32
  have v87 : FVec F S256x1024 .f32 := broadcastInDim S256x1024 ![] bcast_S_S256x1024 cst_25
  have v88 : FVec F S256x1024 .f32 := Host.divf v86 v87
  have v89 : FVec F S256x1024x1 .f32 := broadcastInDim S256x1024x1 ![0, 1] bcast_S256x1024_S256x1024x1_0_1 v72
  have v90 : FVec F S256x1024x1 .f32 := broadcastInDim S256x1024x1 ![0, 1] bcast_S256x1024_S256x1024x1_0_1 v71
  have v91 : FVec F S256x1024x1 .f32 := broadcastInDim S256x1024x1 ![0, 1] bcast_S256x1024_S256x1024x1_0_1 v80
  have v92 : FVec F S256x1024x1 .f32 := broadcastInDim S256x1024x1 ![0, 1] bcast_S256x1024_S256x1024x1_0_1 v88
  v89

/-- Operand 1 of the interleaving: the Legendre polynomial P1 of the normalised input, with a unit last axis. -/
noncomputable def kP2_1 (x : FVec F S256x1024 .f32) : FVec F S256x1024x1 .f32 :=
  have cst_15 : FVec F S_ .f32 := constant S_ .f32 0x7F800000#32
  have v61 : FVec F S_ .f32 := Host.reduce FloatOps.minimumf x cst_15 reducesTo_S256x1024_S_d0_1 h_S_
  have cst_16 : FVec F S_ .f32 := constant S_ .f32 0xFF800000#32
  have v62 : FVec F S_ .f32 := Host.reduce FloatOps.maximumf x cst_16 reducesTo_S256x1024_S_d0_1 h_S_
  have v63 : FVec F S256x1024 .f32 := broadcastInDim S256x1024 ![] bcast_S_S256x1024 v61
  have v64 : FVec F S256x1024 .f32 := subf x v63
  have cst_17 : FVec F S_ .f32 := constant S_ .f32 0x40000000#32
  have v65 : FVec F S256x1024 .f32 := broadcastInDim S256x1024 ![] bcast_S_S256x1024 cst_17
  have v66 : FVec F S256x1024 .f32 := mulf v65 v64
  have v67 : FVec F S_ .f32 := subf v62 v61
  have v68 : FVec F S256x1024 .f32 := broadcastInDim S256x1024 ![] bcast_S_S256x1024 v67
  have v69 : FVec F S256x1024 .f32 := Host.divf v66 v68
  have cst_18 : FVec F S_ .f32 := constant S_ .f32 0x3F800000#32
  have v70 : FVec F S256x1024 .f32 := broadcastInDim S256x1024 ![] bcast_S_S256x1024 cst_18
  have v71 : FVec F S256x1024 .f32 := subf v69 v70
  have cst_19 : FVec F S_ .f32 := constant S_ .f32 0x3F800000#32
  have v72 : FVec F S256x1024 .f32 := broadcastInDim S256x1024 ![] bcast_S_S256x1024 cst_19
  have cst_20 : FVec F S_ .f32 := constant S_ .f32 0x40400000#32
  have v73 : FVec F S256x1024 .f32 := broadcastInDim S256x1024 ![] bcast_S_S256x1024 cst_20
  have v74 : FVec F S256x1024 .f32 := mulf v73 v71
  have v75 : FVec F S256x1024 .f32 := mulf v74 v71
  have cst_21 : FVec F S_ .f32 := constant S_ .f32 0x3F800000#32
  have v76 : FVec F S256x1024 .f32 := broadcastInDim S256x1024 ![] bcast_S_S256x1024 cst_21
  have v77 : FVec F S256x1024 .f32 := mulf v76 v72
  have v78 : FVec F S256x1024 .f32 := subf v75 v77
  have cst_22 : FVec F S_ .f32 := constant S_ .f32 0x40000000#32
  have v79 : FVec F S256x1024 .f32 := broadcastInDim S256x1024 ![] bcast_S_S256x1024 cst_22
  have v80 : FVec F S256x1024 .f32 := Host.divf v78 v79
  have cst_23 : FVec F S_ .f32 := constant S_ .f32 0x40A00000#32
  have v81 : FVec F S256x1024 .f32 := broadcastInDim S256x1024 ![] bcast_S_S256x1024 cst_23
  have v82 : FVec F S256x1024 .f32 := mulf v81 v71
  have v83 : FVec F S256x1024 .f32 := mulf v82 v80
  have cst_24 : FVec F S_ .f32 := constant S_ .f32 0x40000000#32
  have v84 : FVec F S256x1024 .f32 := broadcastInDim S256x1024 ![] bcast_S_S256x1024 cst_24
  have v85 : FVec F S256x1024 .f32 := mulf v84 v71
  have v86 : FVec F S256x1024 .f32 := subf v83 v85
  have cst_25 : FVec F S_ .f32 := constant S_ .f32 0x40400000#32
  have v87 : FVec F S256x1024 .f32 := broadcastInDim S256x1024 ![] bcast_S_S256x1024 cst_25
  have v88 : FVec F S256x1024 .f32 := Host.divf v86 v87
  have v89 : FVec F S256x1024x1 .f32 := broadcastInDim S256x1024x1 ![0, 1] bcast_S256x1024_S256x1024x1_0_1 v72
  have v90 : FVec F S256x1024x1 .f32 := broadcastInDim S256x1024x1 ![0, 1] bcast_S256x1024_S256x1024x1_0_1 v71
  have v91 : FVec F S256x1024x1 .f32 := broadcastInDim S256x1024x1 ![0, 1] bcast_S256x1024_S256x1024x1_0_1 v80
  have v92 : FVec F S256x1024x1 .f32 := broadcastInDim S256x1024x1 ![0, 1] bcast_S256x1024_S256x1024x1_0_1 v88
  v90

/-- Operand 2 of the interleaving: the Legendre polynomial P2 of the normalised input, with a unit last axis. -/
noncomputable def kP2_2 (x : FVec F S256x1024 .f32) : FVec F S256x1024x1 .f32 :=
  have cst_15 : FVec F S_ .f32 := constant S_ .f32 0x7F800000#32
  have v61 : FVec F S_ .f32 := Host.reduce FloatOps.minimumf x cst_15 reducesTo_S256x1024_S_d0_1 h_S_
  have cst_16 : FVec F S_ .f32 := constant S_ .f32 0xFF800000#32
  have v62 : FVec F S_ .f32 := Host.reduce FloatOps.maximumf x cst_16 reducesTo_S256x1024_S_d0_1 h_S_
  have v63 : FVec F S256x1024 .f32 := broadcastInDim S256x1024 ![] bcast_S_S256x1024 v61
  have v64 : FVec F S256x1024 .f32 := subf x v63
  have cst_17 : FVec F S_ .f32 := constant S_ .f32 0x40000000#32
  have v65 : FVec F S256x1024 .f32 := broadcastInDim S256x1024 ![] bcast_S_S256x1024 cst_17
  have v66 : FVec F S256x1024 .f32 := mulf v65 v64
  have v67 : FVec F S_ .f32 := subf v62 v61
  have v68 : FVec F S256x1024 .f32 := broadcastInDim S256x1024 ![] bcast_S_S256x1024 v67
  have v69 : FVec F S256x1024 .f32 := Host.divf v66 v68
  have cst_18 : FVec F S_ .f32 := constant S_ .f32 0x3F800000#32
  have v70 : FVec F S256x1024 .f32 := broadcastInDim S256x1024 ![] bcast_S_S256x1024 cst_18
  have v71 : FVec F S256x1024 .f32 := subf v69 v70
  have cst_19 : FVec F S_ .f32 := constant S_ .f32 0x3F800000#32
  have v72 : FVec F S256x1024 .f32 := broadcastInDim S256x1024 ![] bcast_S_S256x1024 cst_19
  have cst_20 : FVec F S_ .f32 := constant S_ .f32 0x40400000#32
  have v73 : FVec F S256x1024 .f32 := broadcastInDim S256x1024 ![] bcast_S_S256x1024 cst_20
  have v74 : FVec F S256x1024 .f32 := mulf v73 v71
  have v75 : FVec F S256x1024 .f32 := mulf v74 v71
  have cst_21 : FVec F S_ .f32 := constant S_ .f32 0x3F800000#32
  have v76 : FVec F S256x1024 .f32 := broadcastInDim S256x1024 ![] bcast_S_S256x1024 cst_21
  have v77 : FVec F S256x1024 .f32 := mulf v76 v72
  have v78 : FVec F S256x1024 .f32 := subf v75 v77
  have cst_22 : FVec F S_ .f32 := constant S_ .f32 0x40000000#32
  have v79 : FVec F S256x1024 .f32 := broadcastInDim S256x1024 ![] bcast_S_S256x1024 cst_22
  have v80 : FVec F S256x1024 .f32 := Host.divf v78 v79
  have cst_23 : FVec F S_ .f32 := constant S_ .f32 0x40A00000#32
  have v81 : FVec F S256x1024 .f32 := broadcastInDim S256x1024 ![] bcast_S_S256x1024 cst_23
  have v82 : FVec F S256x1024 .f32 := mulf v81 v71
  have v83 : FVec F S256x1024 .f32 := mulf v82 v80
  have cst_24 : FVec F S_ .f32 := constant S_ .f32 0x40000000#32
  have v84 : FVec F S256x1024 .f32 := broadcastInDim S256x1024 ![] bcast_S_S256x1024 cst_24
  have v85 : FVec F S256x1024 .f32 := mulf v84 v71
  have v86 : FVec F S256x1024 .f32 := subf v83 v85
  have cst_25 : FVec F S_ .f32 := constant S_ .f32 0x40400000#32
  have v87 : FVec F S256x1024 .f32 := broadcastInDim S256x1024 ![] bcast_S_S256x1024 cst_25
  have v88 : FVec F S256x1024 .f32 := Host.divf v86 v87
  have v89 : FVec F S256x1024x1 .f32 := broadcastInDim S256x1024x1 ![0, 1] bcast_S256x1024_S256x1024x1_0_1 v72
  have v90 : FVec F S256x1024x1 .f32 := broadcastInDim S256x1024x1 ![0, 1] bcast_S256x1024_S256x1024x1_0_1 v71
  have v91 : FVec F S256x1024x1 .f32 := broadcastInDim S256x1024x1 ![0, 1] bcast_S256x1024_S256x1024x1_0_1 v80
  have v92 : FVec F S256x1024x1 .f32 := broadcastInDim S256x1024x1 ![0, 1] bcast_S256x1024_S256x1024x1_0_1 v88
  v91

/-- Operand 3 of the interleaving: the Legendre polynomial P3 of the normalised input, with a unit last axis. -/
noncomputable def kP2_3 (x : FVec F S256x1024 .f32) : FVec F S256x1024x1 .f32 :=
  have cst_15 : FVec F S_ .f32 := constant S_ .f32 0x7F800000#32
  have v61 : FVec F S_ .f32 := Host.reduce FloatOps.minimumf x cst_15 reducesTo_S256x1024_S_d0_1 h_S_
  have cst_16 : FVec F S_ .f32 := constant S_ .f32 0xFF800000#32
  have v62 : FVec F S_ .f32 := Host.reduce FloatOps.maximumf x cst_16 reducesTo_S256x1024_S_d0_1 h_S_
  have v63 : FVec F S256x1024 .f32 := broadcastInDim S256x1024 ![] bcast_S_S256x1024 v61
  have v64 : FVec F S256x1024 .f32 := subf x v63
  have cst_17 : FVec F S_ .f32 := constant S_ .f32 0x40000000#32
  have v65 : FVec F S256x1024 .f32 := broadcastInDim S256x1024 ![] bcast_S_S256x1024 cst_17
  have v66 : FVec F S256x1024 .f32 := mulf v65 v64
  have v67 : FVec F S_ .f32 := subf v62 v61
  have v68 : FVec F S256x1024 .f32 := broadcastInDim S256x1024 ![] bcast_S_S256x1024 v67
  have v69 : FVec F S256x1024 .f32 := Host.divf v66 v68
  have cst_18 : FVec F S_ .f32 := constant S_ .f32 0x3F800000#32
  have v70 : FVec F S256x1024 .f32 := broadcastInDim S256x1024 ![] bcast_S_S256x1024 cst_18
  have v71 : FVec F S256x1024 .f32 := subf v69 v70
  have cst_19 : FVec F S_ .f32 := constant S_ .f32 0x3F800000#32
  have v72 : FVec F S256x1024 .f32 := broadcastInDim S256x1024 ![] bcast_S_S256x1024 cst_19
  have cst_20 : FVec F S_ .f32 := constant S_ .f32 0x40400000#32
  have v73 : FVec F S256x1024 .f32 := broadcastInDim S256x1024 ![] bcast_S_S256x1024 cst_20
  have v74 : FVec F S256x1024 .f32 := mulf v73 v71
  have v75 : FVec F S256x1024 .f32 := mulf v74 v71
  have cst_21 : FVec F S_ .f32 := constant S_ .f32 0x3F800000#32
  have v76 : FVec F S256x1024 .f32 := broadcastInDim S256x1024 ![] bcast_S_S256x1024 cst_21
  have v77 : FVec F S256x1024 .f32 := mulf v76 v72
  have v78 : FVec F S256x1024 .f32 := subf v75 v77
  have cst_22 : FVec F S_ .f32 := constant S_ .f32 0x40000000#32
  have v79 : FVec F S256x1024 .f32 := broadcastInDim S256x1024 ![] bcast_S_S256x1024 cst_22
  have v80 : FVec F S256x1024 .f32 := Host.divf v78 v79
  have cst_23 : FVec F S_ .f32 := constant S_ .f32 0x40A00000#32
  have v81 : FVec F S256x1024 .f32 := broadcastInDim S256x1024 ![] bcast_S_S256x1024 cst_23
  have v82 : FVec F S256x1024 .f32 := mulf v81 v71
  have v83 : FVec F S256x1024 .f32 := mulf v82 v80
  have cst_24 : FVec F S_ .f32 := constant S_ .f32 0x40000000#32
  have v84 : FVec F S256x1024 .f32 := broadcastInDim S256x1024 ![] bcast_S_S256x1024 cst_24
  have v85 : FVec F S256x1024 .f32 := mulf v84 v71
  have v86 : FVec F S256x1024 .f32 := subf v83 v85
  have cst_25 : FVec F S_ .f32 := constant S_ .f32 0x40400000#32
  have v87 : FVec F S256x1024 .f32 := broadcastInDim S256x1024 ![] bcast_S_S256x1024 cst_25
  have v88 : FVec F S256x1024 .f32 := Host.divf v86 v87
  have v89 : FVec F S256x1024x1 .f32 := broadcastInDim S256x1024x1 ![0, 1] bcast_S256x1024_S256x1024x1_0_1 v72
  have v90 : FVec F S256x1024x1 .f32 := broadcastInDim S256x1024x1 ![0, 1] bcast_S256x1024_S256x1024x1_0_1 v71
  have v91 : FVec F S256x1024x1 .f32 := broadcastInDim S256x1024x1 ![0, 1] bcast_S256x1024_S256x1024x1_0_1 v80
  have v92 : FVec F S256x1024x1 .f32 := broadcastInDim S256x1024x1 ![0, 1] bcast_S256x1024_S256x1024x1_0_1 v88
  v92

/-- The four polynomials interleaved along the last axis, flattened, in the narrower format. -/
noncomputable def kTail2 (p0 p1 p2 p3 : FVec F S256x1024x1 .f32) : FVec F S256x4096 .bf16 :=
  truncf .bf16 (shapeCast S256x4096 (concatenate S256x1024x4 2 [⟨S256x1024x1, p0⟩, ⟨S256x1024x1, p1⟩, ⟨S256x1024x1, p2⟩, ⟨S256x1024x1, p3⟩] concatenates_S256x1024x1_S256x1024x1_S256x1024x1_S256x1024x1_S256x1024x4_d2) shapeCasts_S256x1024x4_S256x4096) bitsLt_bf16_f32

/-- The stretch's operations before the interleaving, and its last three. -/
abbrev pre2 : List (HloOp τ sig (Elt F)) :=
  [ StableHlo.nullary main_cst_15 (constant S_ .f32 0x7F800000#32),
    StableHlo.binary main_v60 main_cst_15 main_v61 ((fun x v => Host.reduce FloatOps.minimumf x v reducesTo_S256x1024_S_d0_1 h_S_) : (⟨S256x1024, .f32⟩ : BufTy).Contents (Elt F) → (⟨S_, .f32⟩ : BufTy).Contents (Elt F) → (⟨S_, .f32⟩ : BufTy).Contents (Elt F)),
    StableHlo.nullary main_cst_16 (constant S_ .f32 0xFF800000#32),
    StableHlo.binary main_v60 main_cst_16 main_v62 ((fun x v => Host.reduce FloatOps.maximumf x v reducesTo_S256x1024_S_d0_1 h_S_) : (⟨S256x1024, .f32⟩ : BufTy).Contents (Elt F) → (⟨S_, .f32⟩ : BufTy).Contents (Elt F) → (⟨S_, .f32⟩ : BufTy).Contents (Elt F)),
    StableHlo.unary main_v61 main_v63 (broadcastInDim S256x1024 ![] bcast_S_S256x1024 : (⟨S_, .f32⟩ : BufTy).Contents (Elt F) → (⟨S256x1024, .f32⟩ : BufTy).Contents (Elt F)),
    StableHlo.binary main_v60 main_v63 main_v64 (subf : (⟨S256x1024, .f32⟩ : BufTy).Contents (Elt F) → (⟨S256x1024, .f32⟩ : BufTy).Contents (Elt F) → (⟨S256x1024, .f32⟩ : BufTy).Contents (Elt F)),
    StableHlo.nullary main_cst_17 (constant S_ .f32 0x40000000#32),
    StableHlo.unary main_cst_17 main_v65 (broadcastInDim S256x1024 ![] bcast_S_S256x1024 : (⟨S_, .f32⟩ : BufTy).Contents (Elt F) → (⟨S256x1024, .f32⟩ : BufTy).Contents (Elt F)),
    StableHlo.binary main_v65 main_v64 main_v66 (mulf : (⟨S256x1024, .f32⟩ : BufTy).Contents (Elt F) → (⟨S256x1024, .f32⟩ : BufTy).Contents (Elt F) → (⟨S256x1024, .f32⟩ : BufTy).Contents (Elt F)),
    StableHlo.binary main_v62 main_v61 main_v67 (subf : (⟨S_, .f32⟩ : BufTy).Contents (Elt F) → (⟨S_, .f32⟩ : BufTy).Contents (Elt F) → (⟨S_, .f32⟩ : BufTy).Contents (Elt F)),
    StableHlo.unary main_v67 main_v68 (broadcastInDim S256x1024 ![] bcast_S_S256x1024 : (⟨S_, .f32⟩ : BufTy).Contents (Elt F) → (⟨S256x1024, .f32⟩ : BufTy).Contents (Elt F)),
    StableHlo.binary main_v66 main_v68 main_v69 (Host.divf : (⟨S256x1024, .f32⟩ : BufTy).Contents (Elt F) → (⟨S256x1024, .f32⟩ : BufTy).Contents (Elt F) → (⟨S256x1024, .f32⟩ : BufTy).Contents (Elt F)),
    StableHlo.nullary main_cst_18 (constant S_ .f32 0x3F800000#32),
    StableHlo.unary main_cst_18 main_v70 (broadcastInDim S256x1024 ![] bcast_S_S256x1024 : (⟨S_, .f32⟩ : BufTy).Contents (Elt F) → (⟨S256x1024, .f32⟩ : BufTy).Contents (Elt F)),
    StableHlo.binary main_v69 main_v70 main_v71 (subf : (⟨S256x1024, .f32⟩ : BufTy).Contents (Elt F) → (⟨S256x1024, .f32⟩ : BufTy).Contents (Elt F) → (⟨S256x1024, .f32⟩ : BufTy).Contents (Elt F)),
    StableHlo.nullary main_cst_19 (constant S_ .f32 0x3F800000#32),
    StableHlo.unary main_cst_19 main_v72 (broadcastInDim S256x1024 ![] bcast_S_S256x1024 : (⟨S_, .f32⟩ : BufTy).Contents (Elt F) → (⟨S256x1024, .f32⟩ : BufTy).Contents (Elt F)),
    StableHlo.nullary main_cst_20 (constant S_ .f32 0x40400000#32),
    StableHlo.unary main_cst_20 main_v73 (broadcastInDim S256x1024 ![] bcast_S_S256x1024 : (⟨S_, .f32⟩ : BufTy).Contents (Elt F) → (⟨S256x1024, .f32⟩ : BufTy).Contents (Elt F)),
    StableHlo.binary main_v73 main_v71 main_v74 (mulf : (⟨S256x1024, .f32⟩ : BufTy).Contents (Elt F) → (⟨S256x1024, .f32⟩ : BufTy).Contents (Elt F) → (⟨S256x1024, .f32⟩ : BufTy).Contents (Elt F)),
    StableHlo.binary main_v74 main_v71 main_v75 (mulf : (⟨S256x1024, .f32⟩ : BufTy).Contents (Elt F) → (⟨S256x1024, .f32⟩ : BufTy).Contents (Elt F) → (⟨S256x1024, .f32⟩ : BufTy).Contents (Elt F)),
    StableHlo.nullary main_cst_21 (constant S_ .f32 0x3F800000#32),
    StableHlo.unary main_cst_21 main_v76 (broadcastInDim S256x1024 ![] bcast_S_S256x1024 : (⟨S_, .f32⟩ : BufTy).Contents (Elt F) → (⟨S256x1024, .f32⟩ : BufTy).Contents (Elt F)),
    StableHlo.binary main_v76 main_v72 main_v77 (mulf : (⟨S256x1024, .f32⟩ : BufTy).Contents (Elt F) → (⟨S256x1024, .f32⟩ : BufTy).Contents (Elt F) → (⟨S256x1024, .f32⟩ : BufTy).Contents (Elt F)),
    StableHlo.binary main_v75 main_v77 main_v78 (subf : (⟨S256x1024, .f32⟩ : BufTy).Contents (Elt F) → (⟨S256x1024, .f32⟩ : BufTy).Contents (Elt F) → (⟨S256x1024, .f32⟩ : BufTy).Contents (Elt F)),
    StableHlo.nullary main_cst_22 (constant S_ .f32 0x40000000#32),
    StableHlo.unary main_cst_22 main_v79 (broadcastInDim S256x1024 ![] bcast_S_S256x1024 : (⟨S_, .f32⟩ : BufTy).Contents (Elt F) → (⟨S256x1024, .f32⟩ : BufTy).Contents (Elt F)),
    StableHlo.binary main_v78 main_v79 main_v80 (Host.divf : (⟨S256x1024, .f32⟩ : BufTy).Contents (Elt F) → (⟨S256x1024, .f32⟩ : BufTy).Contents (Elt F) → (⟨S256x1024, .f32⟩ : BufTy).Contents (Elt F)),
    StableHlo.nullary main_cst_23 (constant S_ .f32 0x40A00000#32),
    StableHlo.unary main_cst_23 main_v81 (broadcastInDim S256x1024 ![] bcast_S_S256x1024 : (⟨S_, .f32⟩ : BufTy).Contents (Elt F) → (⟨S256x1024, .f32⟩ : BufTy).Contents (Elt F)),
    StableHlo.binary main_v81 main_v71 main_v82 (mulf : (⟨S256x1024, .f32⟩ : BufTy).Contents (Elt F) → (⟨S256x1024, .f32⟩ : BufTy).Contents (Elt F) → (⟨S256x1024, .f32⟩ : BufTy).Contents (Elt F)),
    StableHlo.binary main_v82 main_v80 main_v83 (mulf : (⟨S256x1024, .f32⟩ : BufTy).Contents (Elt F) → (⟨S256x1024, .f32⟩ : BufTy).Contents (Elt F) → (⟨S256x1024, .f32⟩ : BufTy).Contents (Elt F)),
    StableHlo.nullary main_cst_24 (constant S_ .f32 0x40000000#32),
    StableHlo.unary main_cst_24 main_v84 (broadcastInDim S256x1024 ![] bcast_S_S256x1024 : (⟨S_, .f32⟩ : BufTy).Contents (Elt F) → (⟨S256x1024, .f32⟩ : BufTy).Contents (Elt F)),
    StableHlo.binary main_v84 main_v71 main_v85 (mulf : (⟨S256x1024, .f32⟩ : BufTy).Contents (Elt F) → (⟨S256x1024, .f32⟩ : BufTy).Contents (Elt F) → (⟨S256x1024, .f32⟩ : BufTy).Contents (Elt F)),
    StableHlo.binary main_v83 main_v85 main_v86 (subf : (⟨S256x1024, .f32⟩ : BufTy).Contents (Elt F) → (⟨S256x1024, .f32⟩ : BufTy).Contents (Elt F) → (⟨S256x1024, .f32⟩ : BufTy).Contents (Elt F)),
    StableHlo.nullary main_cst_25 (constant S_ .f32 0x40400000#32),
    StableHlo.unary main_cst_25 main_v87 (broadcastInDim S256x1024 ![] bcast_S_S256x1024 : (⟨S_, .f32⟩ : BufTy).Contents (Elt F) → (⟨S256x1024, .f32⟩ : BufTy).Contents (Elt F)),
    StableHlo.binary main_v86 main_v87 main_v88 (Host.divf : (⟨S256x1024, .f32⟩ : BufTy).Contents (Elt F) → (⟨S256x1024, .f32⟩ : BufTy).Contents (Elt F) → (⟨S256x1024, .f32⟩ : BufTy).Contents (Elt F)),
    StableHlo.unary main_v72 main_v89 (broadcastInDim S256x1024x1 ![0, 1] bcast_S256x1024_S256x1024x1_0_1 : (⟨S256x1024, .f32⟩ : BufTy).Contents (Elt F) → (⟨S256x1024x1, .f32⟩ : BufTy).Contents (Elt F)),
    StableHlo.unary main_v71 main_v90 (broadcastInDim S256x1024x1 ![0, 1] bcast_S256x1024_S256x1024x1_0_1 : (⟨S256x1024, .f32⟩ : BufTy).Contents (Elt F) → (⟨S256x1024x1, .f32⟩ : BufTy).Contents (Elt F)),
    StableHlo.unary main_v80 main_v91 (broadcastInDim S256x1024x1 ![0, 1] bcast_S256x1024_S256x1024x1_0_1 : (⟨S256x1024, .f32⟩ : BufTy).Contents (Elt F) → (⟨S256x1024x1, .f32⟩ : BufTy).Contents (Elt F)),
    StableHlo.unary main_v88 main_v92 (broadcastInDim S256x1024x1 ![0, 1] bcast_S256x1024_S256x1024x1_0_1 : (⟨S256x1024, .f32⟩ : BufTy).Contents (Elt F) → (⟨S256x1024x1, .f32⟩ : BufTy).Contents (Elt F)) ]
abbrev tail2 : List (HloOp τ sig (Elt F)) :=
  [ StableHlo.nary ![main_v89, main_v90, main_v91, main_v92] main_v93 (fun u => concatenate S256x1024x4 2 [⟨S256x1024x1, u 0⟩, ⟨S256x1024x1, u 1⟩, ⟨S256x1024x1, u 2⟩, ⟨S256x1024x1, u 3⟩] concatenates_S256x1024x1_S256x1024x1_S256x1024x1_S256x1024x1_S256x1024x4_d2),
    StableHlo.reshape main_v93 main_v94 rfl shapeCasts_S256x1024x4_S256x4096,
    StableHlo.unary main_v94 main_v95 ((truncf .bf16 · bitsLt_bf16_f32) : (⟨S256x4096, .f32⟩ : BufTy).Contents (Elt F) → (⟨S256x4096, .bf16⟩ : BufTy).Contents (Elt F)) ]
theorem split2 : (hostOps1_2 : List (HloOp τ sig (Elt F))) = pre2 ++ tail2 := rfl

set_option maxRecDepth 200000 in
set_option maxHeartbeats 2000000 in
theorem pre2_0 (W : Valuation τ sig (Elt F)) :
    StableHlo.after pre2 W (Proc.devRef .tc main_v89) = kP2_0 (W (Proc.devRef .tc main_v60)) := by
  after_results_simp
  rfl

set_option maxRecDepth 200000 in
set_option maxHeartbeats 2000000 in
theorem pre2_1 (W : Valuation τ sig (Elt F)) :
    StableHlo.after pre2 W (Proc.devRef .tc main_v90) = kP2_1 (W (Proc.devRef .tc main_v60)) := by
  after_results_simp
  rfl

set_option maxRecDepth 200000 in
set_option maxHeartbeats 2000000 in
theorem pre2_2 (W : Valuation τ sig (Elt F)) :
    StableHlo.after pre2 W (Proc.devRef .tc main_v91) = kP2_2 (W (Proc.devRef .tc main_v60)) := by
  after_results_simp
  rfl

set_option maxRecDepth 200000 in
set_option maxHeartbeats 2000000 in
theorem pre2_3 (W : Valuation τ sig (Elt F)) :
    StableHlo.after pre2 W (Proc.devRef .tc main_v92) = kP2_3 (W (Proc.devRef .tc main_v60)) := by
  after_results_simp
  rfl

set_option maxRecDepth 200000 in
theorem tail2_out (G : Valuation τ sig (Elt F)) :
    StableHlo.after tail2 G (Proc.devRef .tc main_v95)
      = kTail2 (G (Proc.devRef .tc main_v89)) (G (Proc.devRef .tc main_v90)) (G (Proc.devRef .tc main_v91)) (G (Proc.devRef .tc main_v92)) := by
  host_results
  rfl

set_option maxRecDepth 200000 in
/-- The stretch's result is the reference's basis stage of its input, in the narrower format. -/
theorem kBasis2_eq (x : FVec F S256x1024 .f32) :
    kTail2 (kP2_0 x) (kP2_1 x) (kP2_2 x) (kP2_3 x) = truncf .bf16 (Cert.ReferenceIdeal.RefTerm.basisB (F := F) x) bitsLt_bf16_f32 := rfl

end Cert.KernelIdeal.Hand

end
-- ==== Proof.KNorm.lean ====
/-
  The first layer's row normalisation as THIS program's host code spells it:
  `(h - mean) * rsqrt(mean((h - mean)²) + eps)`, scaled and shifted per feature — one binding per host operation,
  in program order.
-/
import proofs.«114522_j54279796687469_2_alg».proof.KernelIdeal

noncomputable section

namespace Cert.KernelIdeal.Hand

open Cert.KernelIdeal Idealize.ShloMosaic
open Cert.KernelIdeal.Facts₀ Cert.KernelIdeal.Facts

variable {F : FTy → Type} [FloatOps F] [Facts]

noncomputable def kNormA (H : FVec F S256x1024 .f32) (a3 a4 : FVec F S1024 .f32) : FVec F S256x1024 .f32 :=
  have cst_10 : FVec F S_ .f32 := constant S_ .f32 0x00000000#32
  have v36 : FVec F S256 .f32 := Host.reduceAdd H cst_10 reducesTo_S256x1024_S256_d1 h_S_
  have v37 : FVec F S256x1 .f32 := broadcastInDim S256x1 ![0] bcast_S256_S256x1_0 v36
  have cst_11 : FVec F S_ .f32 := constant S_ .f32 0x44800000#32
  have v38 : FVec F S256x1 .f32 := broadcastInDim S256x1 ![] bcast_S_S256x1 cst_11
  have v39 : FVec F S256x1 .f32 := Host.divf v37 v38
  have v40 : FVec F S256x1024 .f32 := broadcastInDim S256x1024 ![0, 1] bcast_S256x1_S256x1024_0_1 v39
  have v41 : FVec F S256x1024 .f32 := subf H v40
  have v42 : FVec F S256x1024 .f32 := mulf v41 v41
  have cst_12 : FVec F S_ .f32 := constant S_ .f32 0x00000000#32
  have v43 : FVec F S256 .f32 := Host.reduceAdd v42 cst_12 reducesTo_S256x1024_S256_d1 h_S_
  have v44 : FVec F S256x1 .f32 := broadcastInDim S256x1 ![0] bcast_S256_S256x1_0 v43
  have cst_13 : FVec F S_ .f32 := constant S_ .f32 0x44800000#32
  have v45 : FVec F S256x1 .f32 := broadcastInDim S256x1 ![] bcast_S_S256x1 cst_13
  have v46 : FVec F S256x1 .f32 := Host.divf v44 v45
  have v47 : FVec F S256x1024 .f32 := broadcastInDim S256x1024 ![0, 1] bcast_S256x1_S256x1024_0_1 v39
  have v48 : FVec F S256x1024 .f32 := subf H v47
  have cst_14 : FVec F S_ .f32 := constant S_ .f32 0x3727C5AC#32
  have v49 : FVec F S256x1 .f32 := broadcastInDim S256x1 ![] bcast_S_S256x1 cst_14
  have v50 : FVec F S256x1 .f32 := addf v46 v49
  have v51 : FVec F S256x1 .f32 := Host.rsqrt v50
  have v52 : FVec F S256x1024 .f32 := broadcastInDim S256x1024 ![0, 1] bcast_S256x1_S256x1024_0_1 v51
  have v53 : FVec F S256x1024 .f32 := mulf v48 v52
  have v54 : FVec F S1x1024 .f32 := broadcastInDim S1x1024 ![1] bcast_S1024_S1x1024_1 a3
  have v55 : FVec F S256x1024 .f32 := broadcastInDim S256x1024 ![0, 1] bcast_S1x1024_S256x1024_0_1 v54
  have v56 : FVec F S256x1024 .f32 := mulf v53 v55
  have v57 : FVec F S1x1024 .f32 := broadcastInDim S1x1024 ![1] bcast_S1024_S1x1024_1 a4
  have v58 : FVec F S256x1024 .f32 := broadcastInDim S256x1024 ![0, 1] bcast_S1x1024_S256x1024_0_1 v57
  have v59 : FVec F S256x1024 .f32 := addf v56 v58
  v59

end Cert.KernelIdeal.Hand

end
-- ==== Proof.HostStages.lean ====
/-
  What the host operations around the two regions leave in the buffers the regions read, as the reference's own
  stage functions (and, for the first layer's row normalisation, this program's own spelling of it) applied to the
  contents at the previous segment boundary.
-/
import proofs.«114522_j54279796687469_2_alg».proof.Proof.Run
import proofs.«114522_j54279796687469_2_alg».proof.Proof.HostBasis
import proofs.«114522_j54279796687469_2_alg».proof.Proof.KNorm

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.StableHlo

variable (m : (ℓ : Loc nD τ sig) → Buf (Elt F) ℓ) (ρ : Dev nD → PrngReg)

/-- Entering region 0, the basis operand holds the reference's basis stage of the input, in the narrower format. -/
theorem W1_v34 (c : Dev nD) : W1 m ρ c (Proc.devRef .tc main_v34)
    = truncf .bf16 (Cert.ReferenceIdeal.RefTerm.basisA (F := F) (m ((c : Thread nD τ).loc main_arg0))) bitsLt_bf16_f32 := by
  show StableHlo.after hostOps0 (W0 m ρ c) (Proc.devRef .tc main_v34) = truncf .bf16 (Cert.ReferenceIdeal.RefTerm.basisA (F := F) (W0 m ρ c (Proc.devRef .tc main_arg0))) bitsLt_bf16_f32
  generalize W0 m ρ c = Wb
  rw [split0, after_append', tail0_out, pre0_0, pre0_1, pre0_2, pre0_3]
  exact kBasis0_eq _

set_option maxRecDepth 200000 in
set_option maxHeartbeats 2000000 in
/-- After the first stretch behind region 0: this program's row normalisation of what region 0 wrote. -/
theorem W3_v59 (c : Dev nD) : W3 m ρ c (Proc.devRef .tc main_v59)
    = kNormA (W2 m ρ c (Proc.devRef .tc main_v35)) (W2 m ρ c (Proc.devRef .tc main_arg3)) (W2 m ρ c (Proc.devRef .tc main_arg4)) := by
  show StableHlo.after hostOps1 (W2 m ρ c) (Proc.devRef .tc main_v59) = kNormA (W2 m ρ c (Proc.devRef .tc main_v35)) (W2 m ρ c (Proc.devRef .tc main_arg3)) (W2 m ρ c (Proc.devRef .tc main_arg4))
  generalize W2 m ρ c = Wb
  after_results_simp
  rfl

set_option maxRecDepth 200000 in
/-- Then the gate, the reference's activation stage. -/
theorem W4_v60 (c : Dev nD) : W4 m ρ c (Proc.devRef .tc main_v60)
    = Cert.ReferenceIdeal.RefTerm.actA (F := F) (W3 m ρ c (Proc.devRef .tc main_v59)) := by
  show StableHlo.after hostOps1_1 (W3 m ρ c) (Proc.devRef .tc main_v60) = Cert.ReferenceIdeal.RefTerm.actA (F := F) (W3 m ρ c (Proc.devRef .tc main_v59))
  generalize W3 m ρ c = Wb
  after_results
  rfl

/-- Then the second basis, the reference's stage of the first layer's output, in the narrower format. -/
theorem W5_v95 (c : Dev nD) : W5 m ρ c (Proc.devRef .tc main_v95)
    = truncf .bf16 (Cert.ReferenceIdeal.RefTerm.basisB (F := F) (W4 m ρ c (Proc.devRef .tc main_v60))) bitsLt_bf16_f32 := by
  show StableHlo.after hostOps1_2 (W4 m ρ c) (Proc.devRef .tc main_v95) = truncf .bf16 (Cert.ReferenceIdeal.RefTerm.basisB (F := F) (W4 m ρ c (Proc.devRef .tc main_v60))) bitsLt_bf16_f32
  generalize W4 m ρ c = Wb
  rw [split2, after_append', tail2_out, pre2_0, pre2_1, pre2_2, pre2_3]
  exact kBasis2_eq _

end Cert.KernelIdeal.Hand

end
-- ==== Proof.Region1Value.lean ====
/- What region 1 of @main leaves in its output array, as a function of the region-entry contents `V`: the one grid
   point's blocks are the whole arrays, so every load reads its array, the one store leaves its payload in the whole
   staging buffer, and the one write-back covers the output array. -/
import proofs.«114522_j54279796687469_2_alg».proof.Proof.Region1
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (V : (c : Dev nD) → (b : Ref sig .tc) → Buf (Elt F) ((c : Thread nD τ).loc b))

/-- The zero offsets of a rank-2 and of a rank-1 access, as the printed program spells them. -/
theorem zeros2 : (![0, 0] : Fin 2 → Nat) = fun _ => 0 := funext fun a => by fin_cases a <;> rfl
theorem zeros1 : (![0] : Fin 1 → Nat) = fun _ => 0 := funext fun a => by fin_cases a <;> rfl

/-- The body's result on whole arrays: the payload of its store over the hidden activation (of arrays 0–5) and
    arrays 6 and 7. -/
def out1_8' (a0 : Vec F S256x1024 .f32) (a1 : Vec F S256x4096 .bf16) (a2 : Vec F S128x1024 .f32) (a3 : Vec F S128x4096 .f32)
    (a4 a5 : Vec F S128 .f32) (a6 : Vec F S2x128 .f32) (a7 : Vec F S2 .f32) : Vec F S256x2 .f32 :=
  k1_pay1 (k1_pay2 a0 a2 a1 a3 a4 a5) a6 a7

/-- Every rectangle of the body is its whole buffer at zero offsets: the loads read the buffers and the one store
    leaves its payload. -/
theorem out1_8_eq (x0 : Vec F S256x1024 .f32) (x1 : Vec F S256x4096 .bf16) (x2 : Vec F S128x1024 .f32) (x3 : Vec F S128x4096 .f32)
    (x4 x5 : Vec F S128 .f32) (x6 : Vec F S2x128 .f32) (x7 : Vec F S2 .f32) :
    out1_8 x0 x1 x2 x3 x4 x5 x6 x7 = out1_8' x0 x1 x2 x3 x4 x5 x6 x7 := by
  unfold out1_8 out1_8'
  rw [View.canon_unit_zero zeros2]
  rw [View.ld_unit_zero (S := S256x1024) zeros2, View.ld_unit_zero (S := S128x1024) zeros2, View.ld_unit_zero (S := S256x4096) zeros2,
    View.ld_unit_zero (S := S128x4096) zeros2, View.ld_unit_zero (S := S128) zeros1 _ x4, View.ld_unit_zero (S := S128) zeros1 _ x5,
    View.ld_unit_zero (S := S2x128) zeros2, View.ld_unit_zero (S := S2) zeros1]

/-! ## Each window's one block is its whole array -/

theorem off1_0 (t : Fin cfg1.N) : (fun a => win1_0.index t a * main_v60.ty.shape.size a) = fun _ => 0 := by
  obtain rfl := fin_N1 t
  exact funext fun a => by fin_cases a <;> decide
theorem off1_1 (t : Fin cfg1.N) : (fun a => win1_1.index t a * main_v95.ty.shape.size a) = fun _ => 0 := by
  obtain rfl := fin_N1 t
  exact funext fun a => by fin_cases a <;> decide
theorem off1_2 (t : Fin cfg1.N) : (fun a => win1_2.index t a * main_arg5.ty.shape.size a) = fun _ => 0 := by
  obtain rfl := fin_N1 t
  exact funext fun a => by fin_cases a <;> decide
theorem off1_3 (t : Fin cfg1.N) : (fun a => win1_3.index t a * main_arg6.ty.shape.size a) = fun _ => 0 := by
  obtain rfl := fin_N1 t
  exact funext fun a => by fin_cases a <;> decide
theorem off1_4 (t : Fin cfg1.N) : (fun a => win1_4.index t a * main_arg7.ty.shape.size a) = fun _ => 0 := by
  obtain rfl := fin_N1 t
  exact funext fun a => by fin_cases a <;> decide
theorem off1_5 (t : Fin cfg1.N) : (fun a => win1_5.index t a * main_arg8.ty.shape.size a) = fun _ => 0 := by
  obtain rfl := fin_N1 t
  exact funext fun a => by fin_cases a <;> decide
theorem off1_6 (t : Fin cfg1.N) : (fun a => win1_6.index t a * main_arg9.ty.shape.size a) = fun _ => 0 := by
  obtain rfl := fin_N1 t
  exact funext fun a => by fin_cases a <;> decide
theorem off1_7 (t : Fin cfg1.N) : (fun a => win1_7.index t a * main_arg10.ty.shape.size a) = fun _ => 0 := by
  obtain rfl := fin_N1 t
  exact funext fun a => by fin_cases a <;> decide
theorem off1_8 (t : Fin cfg1.N) : (fun a => win1_8.index t a * main_v96.ty.shape.size a) = fun _ => 0 := by
  obtain rfl := fin_N1 t
  exact funext fun a => by fin_cases a <;> decide

theorem iblk1_0_eq (c : Dev nD) (t : Fin cfg1.N) :
    (iblk1 V c 0 t : Vec F S256x1024 .f32) = (V c main_v60 : Vec F S256x1024 .f32) := by
  unfold iblk1
  exact Memref.read_access_unit_zero (Elt F) main_v60 (off1_0 t) (fun a => by rw [congrFun (off1_0 t) a]; simp) (V c main_v60)

theorem iblk1_1_eq (c : Dev nD) (t : Fin cfg1.N) :
    (iblk1 V c 1 t : Vec F S256x4096 .bf16) = (V c main_v95 : Vec F S256x4096 .bf16) := by
  unfold iblk1
  exact Memref.read_access_unit_zero (Elt F) main_v95 (off1_1 t) (fun a => by rw [congrFun (off1_1 t) a]; simp) (V c main_v95)

theorem iblk1_2_eq (c : Dev nD) (t : Fin cfg1.N) :
    (iblk1 V c 2 t : Vec F S128x1024 .f32) = (V c main_arg5 : Vec F S128x1024 .f32) := by
  unfold iblk1
  exact Memref.read_access_unit_zero (Elt F) main_arg5 (off1_2 t) (fun a => by rw [congrFun (off1_2 t) a]; simp) (V c main_arg5)

theorem iblk1_3_eq (c : Dev nD) (t : Fin cfg1.N) :
    (iblk1 V c 3 t : Vec F S128x4096 .f32) = (V c main_arg6 : Vec F S128x4096 .f32) := by
  unfold iblk1
  exact Memref.read_access_unit_zero (Elt F) main_arg6 (off1_3 t) (fun a => by rw [congrFun (off1_3 t) a]; simp) (V c main_arg6)

theorem iblk1_4_eq (c : Dev nD) (t : Fin cfg1.N) :
    (iblk1 V c 4 t : Vec F S128 .f32) = (V c main_arg7 : Vec F S128 .f32) := by
  unfold iblk1
  exact Memref.read_access_unit_zero (Elt F) main_arg7 (off1_4 t) (fun a => by rw [congrFun (off1_4 t) a]; simp) (V c main_arg7)

theorem iblk1_5_eq (c : Dev nD) (t : Fin cfg1.N) :
    (iblk1 V c 5 t : Vec F S128 .f32) = (V c main_arg8 : Vec F S128 .f32) := by
  unfold iblk1
  exact Memref.read_access_unit_zero (Elt F) main_arg8 (off1_5 t) (fun a => by rw [congrFun (off1_5 t) a]; simp) (V c main_arg8)

theorem iblk1_6_eq (c : Dev nD) (t : Fin cfg1.N) :
    (iblk1 V c 6 t : Vec F S2x128 .f32) = (V c main_arg9 : Vec F S2x128 .f32) := by
  unfold iblk1
  exact Memref.read_access_unit_zero (Elt F) main_arg9 (off1_6 t) (fun a => by rw [congrFun (off1_6 t) a]; simp) (V c main_arg9)

theorem iblk1_7_eq (c : Dev nD) (t : Fin cfg1.N) :
    (iblk1 V c 7 t : Vec F S2 .f32) = (V c main_arg10 : Vec F S2 .f32) := by
  unfold iblk1
  exact Memref.read_access_unit_zero (Elt F) main_arg10 (off1_7 t) (fun a => by rw [congrFun (off1_7 t) a]; simp) (V c main_arg10)

/-! ## The write-back and the array -/

/-- What the one point writes back is the body's result on the region-entry arrays, read through the output's block. -/
theorem flushed1_8 (c : Dev nD) (t : Fin cfg1.N) :
    (dat1 V c).flushed 8 t = ((cfg1.win 8).blk t).view.read (Elt F)
      (out1_8' (V c main_v60) (V c main_v95) (V c main_arg5) (V c main_arg6) (V c main_arg7) (V c main_arg8) (V c main_arg9) (V c main_arg10)) := by
  show (cfg1.win 8).cut (grid1.coords t) ((dat1 V c).after 8 t) = _
  rw [after1_8, out1_8_eq, iblk1_0_eq, iblk1_1_eq, iblk1_2_eq, iblk1_3_eq, iblk1_4_eq, iblk1_5_eq, iblk1_6_eq, iblk1_7_eq]
  exact (Memref.read_access_unit_zero (Elt F) main_v96 (off1_8 t) (fun a => by rw [congrFun (off1_8 t) a]; simp) _).symm

/-- The output array after the region: the body's result on the region-entry arrays (the one block covers the array). -/
theorem arrAt1_8 (c : Dev nD) : (dat1 V c).arrAt 8 cfg1.N
    = out1_8' (V c main_v60) (V c main_v95) (V c main_arg5) (V c main_arg6) (V c main_arg7) (V c main_arg8) (V c main_arg9) (V c main_arg10) :=
  (dat1 V c).arrAt_eq_of_cover 8 _ (fun t _ => flushed1_8 V c t) fun i =>
    ⟨t1_0, flush1_8 t1_0, by
      show i ∈ ((View.whole main_v96).slice (win1_8.rect t1_0)).set
      rw [View.set_slice_whole]
      exact View.mem_set_unit_zero (off1_8 t1_0) (fun a => by rw [congrFun (off1_8 t1_0) a]; simp) i⟩

end Cert.KernelIdeal.Hand

end
-- ==== Proof.Region0Value.Pieces.lean ====
/- Region 0's value, first half: what each control case of the body leaves in the running-sum scratch (and, at the
   last block of a sweep, in the output window), as the store's payload over the whole input blocks; and from these
   the recursion of the running sum over the grid points. Generic in the float model. -/
import proofs.«114522_j54279796687469_2_alg».proof.Proof.Region0
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The zero offsets of the body's rank-2 accesses, as the printed program spells them. -/
theorem r0_zeros2 : (![0, 0] : Fin 2 → Nat) = fun _ => 0 := funext fun a => by fin_cases a <;> rfl

/-! ## The pieces each case leaves, as payloads -/

/-- First block of a sweep: the scratch is zeroed, read back, and left at zero plus this block's two products. -/
theorem r0_sout_A (c : Dev nD) (i : grid0.Coords) (arg2 : Memref sig .tc .vmem S256x512 .f32) (harg2 : arg2.IsWhole) (arg3 : Memref sig .tc .vmem S256x2048 .bf16) (harg3 : arg3.IsWhole) (arg4 : Memref sig .tc .vmem S512x512 .f32) (harg4 : arg4.IsWhole) (arg5 : Memref sig .tc .vmem S512x2048 .f32) (harg5 : arg5.IsWhole) (arg6 : Memref sig .tc .vmem S256x512 .f32) (harg6 : arg6.IsWhole) (arg7 : Memref sig .tc .vmem S256x512 .f32) (harg7 : arg7.IsWhole) (hc0 : cond0_0 i) (hc1 : ¬cond0_1 i)
    (x0 : Vec F S256x512 .f32) (x1 : Vec F S256x2048 .bf16) (x2 : Vec F S512x512 .f32) (x3 : Vec F S512x2048 .f32) :
    sout0_A_0 c i arg2 harg2 arg3 harg3 arg4 harg4 arg5 harg5 arg6 harg6 arg7 harg7 hc0 hc1 x0 x1 x2 x3 = k0_pay2 x0 x2 x1 x3 (k0_pay1 (F := F)) := by
  unfold sout0_A_0
  rw [View.read_writes_eq_canon _ _ _ (scover0_A_0 c i arg2 harg2 arg3 harg3 arg4 harg4 arg5 harg5 arg6 harg6 arg7 harg7 hc0 hc1 x0 x1 x2 x3)]
  unfold kernelRun0_A
  dsimp only
  sl_unfold_words
  rw [View.canon_cons_unit_zero (S := S256x512) r0_zeros2, View.readCov_unit_zero (S := S256x512) _ r0_zeros2]
  simp only [View.readAt_eq_ld, harg2.read_unread, harg3.read_unread, harg4.read_unread, harg5.read_unread, harg7.read_unread,
    View.ld_unit_zero (S := S256x512) r0_zeros2, View.ld_unit_zero (S := S512x512) r0_zeros2, View.ld_unit_zero (S := S256x2048) r0_zeros2,
    View.ld_unit_zero (S := S512x2048) r0_zeros2]

/-- A middle block: the scratch, holding `xs0`, is left at `xs0` plus this block's two products. -/
theorem r0_sout_B (c : Dev nD) (i : grid0.Coords) (arg2 : Memref sig .tc .vmem S256x512 .f32) (harg2 : arg2.IsWhole) (arg3 : Memref sig .tc .vmem S256x2048 .bf16) (harg3 : arg3.IsWhole) (arg4 : Memref sig .tc .vmem S512x512 .f32) (harg4 : arg4.IsWhole) (arg5 : Memref sig .tc .vmem S512x2048 .f32) (harg5 : arg5.IsWhole) (arg6 : Memref sig .tc .vmem S256x512 .f32) (harg6 : arg6.IsWhole) (arg7 : Memref sig .tc .vmem S256x512 .f32) (harg7 : arg7.IsWhole) (hc0 : ¬cond0_0 i) (hc1 : ¬cond0_1 i)
    (x0 : Vec F S256x512 .f32) (x1 : Vec F S256x2048 .bf16) (x2 : Vec F S512x512 .f32) (x3 : Vec F S512x2048 .f32) (xs0 : Vec F S256x512 .f32) :
    sout0_B_0 c i arg2 harg2 arg3 harg3 arg4 harg4 arg5 harg5 arg6 harg6 arg7 harg7 hc0 hc1 x0 x1 x2 x3 xs0 = k0_pay2 x0 x2 x1 x3 xs0 := by
  unfold sout0_B_0
  rw [View.read_writes_eq_canon _ _ _ (scover0_B_0 c i arg2 harg2 arg3 harg3 arg4 harg4 arg5 harg5 arg6 harg6 arg7 harg7 hc0 hc1 x0 x1 x2 x3 xs0)]
  unfold kernelRun0_B
  dsimp only
  sl_unfold_words
  rw [View.canon_unit_zero (S := S256x512) r0_zeros2]
  simp only [View.readAt_eq_ld, harg2.read_unread, harg3.read_unread, harg4.read_unread, harg5.read_unread, harg7.read_unread,
    View.ld_unit_zero (S := S256x512) r0_zeros2, View.ld_unit_zero (S := S512x512) r0_zeros2, View.ld_unit_zero (S := S256x2048) r0_zeros2,
    View.ld_unit_zero (S := S512x2048) r0_zeros2]

/-- Last block of a sweep: the same for the scratch, -/
theorem r0_sout_C (c : Dev nD) (i : grid0.Coords) (arg2 : Memref sig .tc .vmem S256x512 .f32) (harg2 : arg2.IsWhole) (arg3 : Memref sig .tc .vmem S256x2048 .bf16) (harg3 : arg3.IsWhole) (arg4 : Memref sig .tc .vmem S512x512 .f32) (harg4 : arg4.IsWhole) (arg5 : Memref sig .tc .vmem S512x2048 .f32) (harg5 : arg5.IsWhole) (arg6 : Memref sig .tc .vmem S256x512 .f32) (harg6 : arg6.IsWhole) (arg7 : Memref sig .tc .vmem S256x512 .f32) (harg7 : arg7.IsWhole) (hc0 : ¬cond0_0 i) (hc1 : cond0_1 i)
    (x0 : Vec F S256x512 .f32) (x1 : Vec F S256x2048 .bf16) (x2 : Vec F S512x512 .f32) (x3 : Vec F S512x2048 .f32) (xs0 : Vec F S256x512 .f32) :
    sout0_C_0 c i arg2 harg2 arg3 harg3 arg4 harg4 arg5 harg5 arg6 harg6 arg7 harg7 hc0 hc1 x0 x1 x2 x3 xs0 = k0_pay2 x0 x2 x1 x3 xs0 := by
  unfold sout0_C_0
  rw [View.read_writes_eq_canon _ _ _ (scover0_C_0 c i arg2 harg2 arg3 harg3 arg4 harg4 arg5 harg5 arg6 harg6 arg7 harg7 hc0 hc1 x0 x1 x2 x3 xs0)]
  unfold kernelRun0_C
  dsimp only
  sl_unfold_words
  rw [View.canon_unit_zero (S := S256x512) r0_zeros2]
  simp only [View.readAt_eq_ld, harg2.read_unread, harg3.read_unread, harg4.read_unread, harg5.read_unread, harg7.read_unread,
    View.ld_unit_zero (S := S256x512) r0_zeros2, View.ld_unit_zero (S := S512x512) r0_zeros2, View.ld_unit_zero (S := S256x2048) r0_zeros2,
    View.ld_unit_zero (S := S512x2048) r0_zeros2]

/-- and the output window's buffer takes the scratch's new contents, read back. -/
theorem r0_out_C (c : Dev nD) (i : grid0.Coords) (arg2 : Memref sig .tc .vmem S256x512 .f32) (harg2 : arg2.IsWhole) (arg3 : Memref sig .tc .vmem S256x2048 .bf16) (harg3 : arg3.IsWhole) (arg4 : Memref sig .tc .vmem S512x512 .f32) (harg4 : arg4.IsWhole) (arg5 : Memref sig .tc .vmem S512x2048 .f32) (harg5 : arg5.IsWhole) (arg6 : Memref sig .tc .vmem S256x512 .f32) (harg6 : arg6.IsWhole) (arg7 : Memref sig .tc .vmem S256x512 .f32) (harg7 : arg7.IsWhole) (hc0 : ¬cond0_0 i) (hc1 : cond0_1 i)
    (x0 : Vec F S256x512 .f32) (x1 : Vec F S256x2048 .bf16) (x2 : Vec F S512x512 .f32) (x3 : Vec F S512x2048 .f32) (xs0 : Vec F S256x512 .f32) :
    out0_C_4 c i arg2 harg2 arg3 harg3 arg4 harg4 arg5 harg5 arg6 harg6 arg7 harg7 hc0 hc1 x0 x1 x2 x3 xs0 = k0_pay2 x0 x2 x1 x3 xs0 := by
  unfold out0_C_4
  rw [View.read_writes_eq_canon _ _ _ (cover0_C_4 c i arg2 harg2 arg3 harg3 arg4 harg4 arg5 harg5 arg6 harg6 arg7 harg7 hc0 hc1 x0 x1 x2 x3 xs0)]
  unfold kernelRun0_C
  dsimp only
  sl_unfold_words
  rw [View.canon_unit_zero (S := S256x512) r0_zeros2, View.readCov_unit_zero (S := S256x512) _ r0_zeros2]
  simp only [View.readAt_eq_ld, harg2.read_unread, harg3.read_unread, harg4.read_unread, harg5.read_unread, harg7.read_unread,
    View.ld_unit_zero (S := S256x512) r0_zeros2, View.ld_unit_zero (S := S512x512) r0_zeros2, View.ld_unit_zero (S := S256x2048) r0_zeros2,
    View.ld_unit_zero (S := S512x2048) r0_zeros2]

/-! ## The running sum over the grid points -/

section
variable (V : (c : Dev nD) → (b : Ref sig .tc) → Buf (Elt F) ((c : Thread nD τ).loc b))

/-- At the first block of a sweep the running sum restarts: zero plus this block's two products. -/
theorem r0_acc_first (c : Dev nD) (t : Fin cfg0.N) (h0 : t.val % 98 = 0) :
    (outsAt0 V c t.val t.isLt).2 = k0_pay2 (iblk0 V c 0 t) (iblk0 V c 2 t) (iblk0 V c 1 t) (iblk0 V c 3 t) (k0_pay1 (F := F)) := by
  have h1 : ¬t.val % 98 = 97 := by omega
  rw [outsAt0_A V c t h0 h1]
  dsimp only
  exact r0_sout_A c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (fun h => h1 ((hcond0_1 t).mp h)) (iblk0 V c 0 t) (iblk0 V c 1 t) (iblk0 V c 2 t) (iblk0 V c 3 t)

/-- At every later block it is extended: what the point before left plus this block's two products. -/
theorem r0_acc_next (c : Dev nD) (t : Fin cfg0.N) (h0 : ¬t.val % 98 = 0) :
    (outsAt0 V c t.val t.isLt).2 = k0_pay2 (iblk0 V c 0 t) (iblk0 V c 2 t) (iblk0 V c 1 t) (iblk0 V c 3 t) (outsAt0 V c (t.val - 1) (Nat.lt_of_le_of_lt (Nat.sub_le _ _) t.isLt)).2 := by
  by_cases h1 : t.val % 98 = 97
  · rw [outsAt0_C V c t h0 h1]
    dsimp only
    exact r0_sout_C c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk0 V c 0 t) (iblk0 V c 1 t) (iblk0 V c 2 t) (iblk0 V c 3 t) (outsAt0 V c (t.val - 1) (Nat.lt_of_le_of_lt (Nat.sub_le _ _) t.isLt)).2
  · rw [outsAt0_B V c t h0 h1]
    dsimp only
    exact r0_sout_B c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (fun h => h1 ((hcond0_1 t).mp h)) (iblk0 V c 0 t) (iblk0 V c 1 t) (iblk0 V c 2 t) (iblk0 V c 3 t) (outsAt0 V c (t.val - 1) (Nat.lt_of_le_of_lt (Nat.sub_le _ _) t.isLt)).2

/-- At the last block of a sweep the output window's buffer takes the running sum. -/
theorem r0_out_last (c : Dev nD) (t : Fin cfg0.N) (h1 : t.val % 98 = 97) :
    (outsAt0 V c t.val t.isLt).1 = (outsAt0 V c t.val t.isLt).2 := by
  have h0 : ¬t.val % 98 = 0 := by omega
  rw [outsAt0_C V c t h0 h1]
  dsimp only
  exact (r0_out_C c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk0 V c 0 t) (iblk0 V c 1 t) (iblk0 V c 2 t) (iblk0 V c 3 t) (outsAt0 V c (t.val - 1) (Nat.lt_of_le_of_lt (Nat.sub_le _ _) t.isLt)).2).trans
    (r0_sout_C c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk0 V c 0 t) (iblk0 V c 1 t) (iblk0 V c 2 t) (iblk0 V c 3 t) (outsAt0 V c (t.val - 1) (Nat.lt_of_le_of_lt (Nat.sub_le _ _) t.isLt)).2).symm

end

end Cert.KernelIdeal.Hand

end
-- ==== Proof.Region0Value.Payload.lean ====
/- Region 0's value, the arithmetic: the two payloads of the body read at an index, at the ideal values — the zero
   block, and the running sum extended by this block's two products (each a sum over the block's contracted
   coordinate), the first product's left factor being x·σ(x) of the loaded block. -/
import proofs.«114522_j54279796687469_2_alg».proof.Proof.Gen.KernelIdeal.Skeleton
import Idealize.ShloMosaic.Lib.Pipeline.Value
import Idealize.ShloMosaic.Lib.ValueIdx
import Idealize.ShloMosaic.Lib.ValueIdxCoords
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx

/-- x·σ(x) on the extended reals, σ the logistic function as the ideal values read it. -/
def r0_silu (z : EReal) : EReal := z * Ideal.logistic z

/-- The zero block reads zero everywhere. -/
theorem r0_pay1_apply (b : Fin 256) (j : Fin 512) : (k0_pay1 (F := Ideal)) (ix2 b j) = 0 := by
  unfold k0_pay1
  simp only [shapeCast_self]
  exact Ideal.ofBits_zero_f32

/-- The first product at an index: rows of both operands contracted along their second axis (512 long). -/
theorem r0_mm_base_apply (A : FVec Ideal S256x512 .bf16) (B : FVec Ideal S512x512 .bf16) (b : Fin 256) (j : Fin 512) :
    matmul dot_S256x512_S512x512_S256x512_1_1_0_0_n_n none A B (constant (F := Ideal) S256x512 .f32 0x00000000#32) (ix2 b j)
      = ∑ k : Fin 512, A (ix2 b k) * B (ix2 j k) := by
  show FloatOps.matmul dot_S256x512_S512x512_S256x512_1_1_0_0_n_n none A B (constant (F := Ideal) S256x512 .f32 0x00000000#32) (ix2 b j) = _
  rw [Ideal.matmul_constant_zero_apply, ← Equiv.sum_comp (contrEquiv1 dot_S256x512_S512x512_S256x512_1_1_0_0_n_n 512 rfl rfl).symm]
  refine Finset.sum_congr rfl fun k _ => ?_
  have ck := contrEquiv1_symm_val dot_S256x512_S512x512_S256x512_1_1_0_0_n_n 512 rfl rfl k
  have hl : dot_S256x512_S512x512_S256x512_1_1_0_0_n_n.lhsIdx (ix2 b j) ((contrEquiv1 dot_S256x512_S512x512_S256x512_1_1_0_0_n_n 512 rfl rfl).symm k) = ix2 b k := by
    funext ax; apply Fin.ext
    match ax with
    | ⟨0, _⟩ => rfl
    | ⟨1, _⟩ => exact (DotDims.lhsIdx_val_of_single dot_S256x512_S512x512_S256x512_1_1_0_0_n_n (cl := 1) rfl (ix2 b j) _).trans ck
  have hr : dot_S256x512_S512x512_S256x512_1_1_0_0_n_n.rhsIdx (ix2 b j) ((contrEquiv1 dot_S256x512_S512x512_S256x512_1_1_0_0_n_n 512 rfl rfl).symm k) = ix2 j k := by
    funext ax; apply Fin.ext
    match ax with
    | ⟨0, _⟩ => rfl
    | ⟨1, _⟩ => exact (DotDims.rhsIdx_val_of_single dot_S256x512_S512x512_S256x512_1_1_0_0_n_n (cr := 1) rfl (ix2 b j) _).trans ck
  rw [hl, hr]

/-- The second product at an index: the same contraction, 2048 long. -/
theorem r0_mm_poly_apply (A : FVec Ideal S256x2048 .bf16) (B : FVec Ideal S512x2048 .bf16) (b : Fin 256) (j : Fin 512) :
    matmul dot_S256x2048_S512x2048_S256x512_1_1_0_0_n_n none A B (constant (F := Ideal) S256x512 .f32 0x00000000#32) (ix2 b j)
      = ∑ k : Fin 2048, A (ix2 b k) * B (ix2 j k) := by
  show FloatOps.matmul dot_S256x2048_S512x2048_S256x512_1_1_0_0_n_n none A B (constant (F := Ideal) S256x512 .f32 0x00000000#32) (ix2 b j) = _
  rw [Ideal.matmul_constant_zero_apply, ← Equiv.sum_comp (contrEquiv1 dot_S256x2048_S512x2048_S256x512_1_1_0_0_n_n 2048 rfl rfl).symm]
  refine Finset.sum_congr rfl fun k _ => ?_
  have ck := contrEquiv1_symm_val dot_S256x2048_S512x2048_S256x512_1_1_0_0_n_n 2048 rfl rfl k
  have hl : dot_S256x2048_S512x2048_S256x512_1_1_0_0_n_n.lhsIdx (ix2 b j) ((contrEquiv1 dot_S256x2048_S512x2048_S256x512_1_1_0_0_n_n 2048 rfl rfl).symm k) = ix2 b k := by
    funext ax; apply Fin.ext
    match ax with
    | ⟨0, _⟩ => rfl
    | ⟨1, _⟩ => exact (DotDims.lhsIdx_val_of_single dot_S256x2048_S512x2048_S256x512_1_1_0_0_n_n (cl := 1) rfl (ix2 b j) _).trans ck
  have hr : dot_S256x2048_S512x2048_S256x512_1_1_0_0_n_n.rhsIdx (ix2 b j) ((contrEquiv1 dot_S256x2048_S512x2048_S256x512_1_1_0_0_n_n 2048 rfl rfl).symm k) = ix2 j k := by
    funext ax; apply Fin.ext
    match ax with
    | ⟨0, _⟩ => rfl
    | ⟨1, _⟩ => exact (DotDims.rhsIdx_val_of_single dot_S256x2048_S512x2048_S256x512_1_1_0_0_n_n (cr := 1) rfl (ix2 b j) _).trans ck
  rw [hl, hr]

/-- The extended running sum at an index. -/
theorem r0_pay2_apply (x0 : FVec Ideal S256x512 .f32) (x2 : FVec Ideal S512x512 .f32) (x1 : FVec Ideal S256x2048 .bf16)
    (x3 : FVec Ideal S512x2048 .f32) (acc : FVec Ideal S256x512 .f32) (b : Fin 256) (j : Fin 512) :
    k0_pay2 (F := Ideal) x0 x2 x1 x3 acc (ix2 b j)
      = acc (ix2 b j) + ((∑ k : Fin 512, r0_silu (x0 (ix2 b k)) * x2 (ix2 j k)) + ∑ k : Fin 2048, x1 (ix2 b k) * x3 (ix2 j k)) := by
  unfold k0_pay2
  simp only [shapeCast_self]
  refine (addf_apply _ _ _).trans ?_
  refine congrArg (acc (ix2 b j) + ·) ?_
  refine (addf_apply _ _ _).trans ?_
  refine congrArg₂ (· + ·) ((r0_mm_base_apply _ _ b j).trans ?_) (r0_mm_poly_apply _ _ b j)
  rfl

end Cert.KernelIdeal.Hand

end
-- ==== Proof.Region0Value.Blocks.lean ====
/- Region 0's value, the geometry: each input window's block at a grid point, read at an index, is its array read at
   the block's offset plus the index — the point t = (n, k) of the 2 × 98 grid takes column block k of the two
   activations and block (n, k) of the two weights. -/
import proofs.«114522_j54279796687469_2_alg».proof.Proof.Region0.Base
import Idealize.ShloMosaic.Lib.Pipeline.Value
import Idealize.ShloMosaic.Lib.ValueIdx
import Idealize.ShloMosaic.Lib.ValueIdxCoords

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
open Idealize.ShloMosaic.ValueIdx

/-- The printed index maps, decided once over the grid: the point's sweep is `t / 98`, its block along the contracted
    axis `t % 98`. -/
theorem r0_index_facts : ∀ t : Fin cfg0.N,
    win0_0.index t (0 : Fin 2) = 0 ∧ win0_0.index t (1 : Fin 2) = t.val % 98
    ∧ win0_1.index t (0 : Fin 2) = 0 ∧ win0_1.index t (1 : Fin 2) = t.val % 98
    ∧ win0_2.index t (0 : Fin 2) = t.val / 98 ∧ win0_2.index t (1 : Fin 2) = t.val % 98
    ∧ win0_3.index t (0 : Fin 2) = t.val / 98 ∧ win0_3.index t (1 : Fin 2) = t.val % 98
    ∧ win0_4.index t (0 : Fin 2) = 0 ∧ win0_4.index t (1 : Fin 2) = t.val / 98 :=
  (by decide +kernel : ∀ t : Fin grid0.N, _)

section
variable (V : (c : Dev nD) → (b : Ref sig .tc) → Buf (Elt F) ((c : Thread nD τ).loc b))

/-- Window 0's block at point `t`, at row `j` and column `k` of the block. -/
theorem r0_iblk_0_apply (c : Dev nD) (t : Fin cfg0.N) (j : Fin 256) (k : Fin 512)
    (hr : j.val < 256) (hc : (t.val % 98) * 512 + k.val < 50176) :
    (iblk0 V c 0 t : Vec F S256x512 .f32) (ix2 j k)
      = (V c main_arg0 : Vec F S256x50176 .f32) (ix2 ⟨j.val, hr⟩ ⟨(t.val % 98) * 512 + k.val, hc⟩) := by
  obtain ⟨e00, e01, e10, e11, e20, e21, e30, e31, -, -⟩ := r0_index_facts t
  unfold iblk0
  rw [View.read_apply]
  show V c main_arg0 _ = V c main_arg0 _
  congr 1
  funext a
  apply Fin.ext
  match a with
  | ⟨0, _⟩ => show win0_0.index t (0 : Fin 2) * 256 + 1 * j.val = j.val; omega
  | ⟨1, _⟩ => show win0_0.index t (1 : Fin 2) * 512 + 1 * k.val = (t.val % 98) * 512 + k.val; omega

/-- Window 1's block at point `t`, at row `j` and column `k` of the block. -/
theorem r0_iblk_1_apply (c : Dev nD) (t : Fin cfg0.N) (j : Fin 256) (k : Fin 2048)
    (hr : j.val < 256) (hc : (t.val % 98) * 2048 + k.val < 200704) :
    (iblk0 V c 1 t : Vec F S256x2048 .bf16) (ix2 j k)
      = (V c main_v34 : Vec F S256x200704 .bf16) (ix2 ⟨j.val, hr⟩ ⟨(t.val % 98) * 2048 + k.val, hc⟩) := by
  obtain ⟨e00, e01, e10, e11, e20, e21, e30, e31, -, -⟩ := r0_index_facts t
  unfold iblk0
  rw [View.read_apply]
  show V c main_v34 _ = V c main_v34 _
  congr 1
  funext a
  apply Fin.ext
  match a with
  | ⟨0, _⟩ => show win0_1.index t (0 : Fin 2) * 256 + 1 * j.val = j.val; omega
  | ⟨1, _⟩ => show win0_1.index t (1 : Fin 2) * 2048 + 1 * k.val = (t.val % 98) * 2048 + k.val; omega

/-- Window 2's block at point `t`, at row `j` and column `k` of the block. -/
theorem r0_iblk_2_apply (c : Dev nD) (t : Fin cfg0.N) (j : Fin 512) (k : Fin 512)
    (hr : (t.val / 98) * 512 + j.val < 1024) (hc : (t.val % 98) * 512 + k.val < 50176) :
    (iblk0 V c 2 t : Vec F S512x512 .f32) (ix2 j k)
      = (V c main_arg1 : Vec F S1024x50176 .f32) (ix2 ⟨(t.val / 98) * 512 + j.val, hr⟩ ⟨(t.val % 98) * 512 + k.val, hc⟩) := by
  obtain ⟨e00, e01, e10, e11, e20, e21, e30, e31, -, -⟩ := r0_index_facts t
  unfold iblk0
  rw [View.read_apply]
  show V c main_arg1 _ = V c main_arg1 _
  congr 1
  funext a
  apply Fin.ext
  match a with
  | ⟨0, _⟩ => show win0_2.index t (0 : Fin 2) * 512 + 1 * j.val = (t.val / 98) * 512 + j.val; omega
  | ⟨1, _⟩ => show win0_2.index t (1 : Fin 2) * 512 + 1 * k.val = (t.val % 98) * 512 + k.val; omega

/-- Window 3's block at point `t`, at row `j` and column `k` of the block. -/
theorem r0_iblk_3_apply (c : Dev nD) (t : Fin cfg0.N) (j : Fin 512) (k : Fin 2048)
    (hr : (t.val / 98) * 512 + j.val < 1024) (hc : (t.val % 98) * 2048 + k.val < 200704) :
    (iblk0 V c 3 t : Vec F S512x2048 .f32) (ix2 j k)
      = (V c main_arg2 : Vec F S1024x200704 .f32) (ix2 ⟨(t.val / 98) * 512 + j.val, hr⟩ ⟨(t.val % 98) * 2048 + k.val, hc⟩) := by
  obtain ⟨e00, e01, e10, e11, e20, e21, e30, e31, -, -⟩ := r0_index_facts t
  unfold iblk0
  rw [View.read_apply]
  show V c main_arg2 _ = V c main_arg2 _
  congr 1
  funext a
  apply Fin.ext
  match a with
  | ⟨0, _⟩ => show win0_3.index t (0 : Fin 2) * 512 + 1 * j.val = (t.val / 98) * 512 + j.val; omega
  | ⟨1, _⟩ => show win0_3.index t (1 : Fin 2) * 2048 + 1 * k.val = (t.val % 98) * 2048 + k.val; omega

end

end Cert.KernelIdeal.Hand

end
-- ==== Proof.LibERealLaws.lean ====
/- General facts about finite sums in a commutative additive monoid and about the extended reals
   `[-∞, +∞]` with the exact operations `Ideal.div`, `Ideal.sqrt` and `Ideal.rsqrt`: a sum taken tile by
   tile is the whole sum; an accumulator that adds one term (or a pair of terms) per step holds the partial
   sums; dividing by a square root is multiplying by the reciprocal square root wherever the radicand is
   positive; and a mean of squares plus a positive constant is positive. Nothing here assumes that a value
   is finite. -/
import Mathlib.Algebra.BigOperators.Fin
import Mathlib.Algebra.BigOperators.Intervals
import Idealize.ShloMosaic.PureOps.Ideal

noncomputable section

namespace Cert.LibERealLaws

open Idealize.ShloMosaic
open scoped BigOperators

/-! ### A sum taken tile by tile -/

/-- The `j`-th place of the `k`-th tile of width `b`, among `n` tiles, is a place below `n * b`. -/
theorem tile_index_lt {n b : ℕ} (k : Fin n) (j : Fin b) : k.val * b + j.val < n * b :=
  calc k.val * b + j.val < k.val * b + b := Nat.add_lt_add_left j.isLt _
    _ = (k.val + 1) * b := (Nat.succ_mul _ _).symm
    _ ≤ n * b := Nat.mul_le_mul_right b k.isLt

/-- A sum over the first `n * b` naturals is the sum over `n` tiles of the sums over each tile's `b`
    places, place `j` of tile `k` being `k * b + j`. -/
theorem sum_range_mul_tile {M : Type*} [AddCommMonoid M] (f : ℕ → M) (n b : ℕ) :
    ∑ i ∈ Finset.range (n * b), f i = ∑ k ∈ Finset.range n, ∑ j ∈ Finset.range b, f (k * b + j) := by
  induction n with
  | zero => simp
  | succ n ih => rw [Nat.succ_mul, Finset.sum_range_add, ih, Finset.sum_range_succ]

/-- A sum over `Fin (n * b)` is the sum over `n` tiles of the sums over each tile's `b` places, place `j`
    of tile `k` being `k * b + j`. -/
theorem sum_fin_mul_tile {M : Type*} [AddCommMonoid M] {n b : ℕ} (f : Fin (n * b) → M) :
    ∑ i, f i = ∑ k : Fin n, ∑ j : Fin b, f ⟨k.val * b + j.val, tile_index_lt k j⟩ := by
  rw [← Equiv.sum_comp finProdFinEquiv f, Fintype.sum_prod_type]
  refine Finset.sum_congr rfl fun k _ => Finset.sum_congr rfl fun j _ => ?_
  congr 1
  apply Fin.ext
  simp [finProdFinEquiv, Nat.mul_comm, Nat.add_comm]

/-- The same for a function of the natural index: the sum of `g i` over `i : Fin (n * b)` is the sum
    over tiles `k : Fin n` and places `j : Fin b` of `g (k * b + j)`. -/
theorem sum_fin_mul_tile_nat {M : Type*} [AddCommMonoid M] (g : ℕ → M) (n b : ℕ) :
    ∑ i : Fin (n * b), g i.val = ∑ k : Fin n, ∑ j : Fin b, g (k.val * b + j.val) :=
  sum_fin_mul_tile (fun i : Fin (n * b) => g i.val)

/-! ### An accumulator holds the partial sums -/

/-- An accumulator that starts as `0 + a 0` and adds `a (k + 1)` at step `k + 1` holds, after step `k`,
    the sum of `a 0, …, a k`. -/
theorem acc_eq_sum {M : Type*} [AddCommMonoid M] (acc a : ℕ → M) (h0 : acc 0 = 0 + a 0)
    (hs : ∀ k, acc (k + 1) = acc k + a (k + 1)) (k : ℕ) :
    acc k = ∑ i ∈ Finset.range (k + 1), a i := by
  induction k with
  | zero => simp [h0]
  | succ k ih => rw [hs, ih, Finset.sum_range_succ _ (k + 1)]

/-- An accumulator that starts as `0 + (a 0 + b 0)` and adds `a (k + 1) + b (k + 1)` at step `k + 1`
    holds, after step `k`, the sum of `a 0, …, a k` plus the sum of `b 0, …, b k`. -/
theorem acc_eq_sum_add_sum {M : Type*} [AddCommMonoid M] (acc a b : ℕ → M) (h0 : acc 0 = 0 + (a 0 + b 0))
    (hs : ∀ k, acc (k + 1) = acc k + (a (k + 1) + b (k + 1))) (k : ℕ) :
    acc k = (∑ i ∈ Finset.range (k + 1), a i) + ∑ i ∈ Finset.range (k + 1), b i := by
  induction k with
  | zero => simp [h0]
  | succ k ih =>
    rw [hs, ih, Finset.sum_range_succ _ (k + 1), Finset.sum_range_succ _ (k + 1), add_add_add_comm]

/-- An accumulator indexed by `Fin (n + 1)` that starts as `0 + a 0` and adds `a (k + 1)` at step `k + 1`
    holds, after its last step `n`, the sum of every `a i`. -/
theorem acc_fin_last_eq_sum {M : Type*} [AddCommMonoid M] {n : ℕ} (acc a : Fin (n + 1) → M)
    (h0 : acc 0 = 0 + a 0) (hs : ∀ k : Fin n, acc k.succ = acc k.castSucc + a k.succ) :
    acc (Fin.last n) = ∑ i, a i := by
  let ext : (Fin (n + 1) → M) → ℕ → M := fun f i => if h : i < n + 1 then f ⟨i, h⟩ else 0
  have hext : ∀ (f : Fin (n + 1) → M) (i : ℕ) (h : i < n + 1), ext f i = f ⟨i, h⟩ := fun f i h => dif_pos h
  have key : ∀ (k : ℕ) (h : k < n + 1), acc ⟨k, h⟩ = ∑ i ∈ Finset.range (k + 1), ext a i := by
    intro k
    induction k with
    | zero =>
      intro h
      rw [Finset.sum_range_one, hext a 0 h, ← zero_add (a _)]
      exact h0
    | succ k ih =>
      intro h
      have hk : k < n := Nat.lt_of_succ_lt_succ h
      have hstep := hs ⟨k, hk⟩
      rw [Fin.succ_mk, Fin.castSucc_mk] at hstep
      rw [hstep, ih (Nat.lt_succ_of_lt hk), Finset.sum_range_succ _ (k + 1), hext a (k + 1) h]
  have hlast := key n (Nat.lt_succ_self n)
  rw [← Fin.sum_univ_eq_sum_range] at hlast
  exact hlast.trans (Finset.sum_congr rfl fun i _ => hext a i.val i.isLt)

/-- The same accumulator indexed by `Fin (n + 1)`: it starts as `0 + (a 0 + b 0)`, adds
    `a (k + 1) + b (k + 1)` at step `k + 1`, and after its last step `n` holds the sum of every `a i` plus
    the sum of every `b i`. -/
theorem acc_fin_last_eq_sum_add_sum {M : Type*} [AddCommMonoid M] {n : ℕ} (acc a b : Fin (n + 1) → M)
    (h0 : acc 0 = 0 + (a 0 + b 0))
    (hs : ∀ k : Fin n, acc k.succ = acc k.castSucc + (a k.succ + b k.succ)) :
    acc (Fin.last n) = (∑ i, a i) + ∑ i, b i := by
  let ext : (Fin (n + 1) → M) → ℕ → M := fun f i => if h : i < n + 1 then f ⟨i, h⟩ else 0
  have hext : ∀ (f : Fin (n + 1) → M) (i : ℕ) (h : i < n + 1), ext f i = f ⟨i, h⟩ := fun f i h => dif_pos h
  have key : ∀ (k : ℕ) (h : k < n + 1), acc ⟨k, h⟩ =
      (∑ i ∈ Finset.range (k + 1), ext a i) + ∑ i ∈ Finset.range (k + 1), ext b i := by
    intro k
    induction k with
    | zero =>
      intro h
      rw [Finset.sum_range_one, Finset.sum_range_one, hext a 0 h, hext b 0 h, ← zero_add (a _ + b _)]
      exact h0
    | succ k ih =>
      intro h
      have hk : k < n := Nat.lt_of_succ_lt_succ h
      have hstep := hs ⟨k, hk⟩
      rw [Fin.succ_mk, Fin.castSucc_mk] at hstep
      rw [hstep, ih (Nat.lt_succ_of_lt hk), Finset.sum_range_succ _ (k + 1), Finset.sum_range_succ _ (k + 1),
        add_add_add_comm, hext a (k + 1) h, hext b (k + 1) h]
  have hsum : ∀ f : Fin (n + 1) → M, ∑ i ∈ Finset.range (n + 1), ext f i = ∑ i, f i := by
    intro f
    rw [← Fin.sum_univ_eq_sum_range]
    exact Finset.sum_congr rfl fun i _ => hext f i.val i.isLt
  have hlast := key n (Nat.lt_succ_self n)
  rw [hsum, hsum] at hlast
  exact hlast

/-! ### Dividing by a square root -/

/-- For a positive radicand `v`, infinite or not, `a / √v` is `a · (1 / √v)`: at `v = ⊤` both are `0`
    (`⊤⁻¹ = 0` on one side, `rsqrt ⊤ = 0` on the other), and at a positive real `v` the root is a nonzero
    real whose inverse is the reciprocal root. The identity fails at `v ≤ 0`. -/
theorem div_sqrt_eq_mul_rsqrt (a : EReal) {v : EReal} (hv : 0 < v) :
    Ideal.div a (Ideal.sqrt v) = a * Ideal.rsqrt v := by
  induction v using EReal.rec with
  | bot => exact absurd hv (by simp)
  | top =>
    rw [Ideal.sqrt_top, Ideal.rsqrt_top, Ideal.div, if_neg EReal.top_ne_zero, EReal.inv_top]
  | coe r =>
    have hr : 0 < r := by exact_mod_cast hv
    have hs : 0 < Real.sqrt r := Real.sqrt_pos.2 hr
    have hne : ((Real.sqrt r : ℝ) : EReal) ≠ 0 := by exact_mod_cast hs.ne'
    rw [Ideal.sqrt_coe, Ideal.rsqrt_coe, if_neg (not_lt.2 hr.le), if_neg (not_lt.2 hr.le), if_neg hr.ne',
      Ideal.div, if_neg hne, EReal.coe_inv]

/-- The same identity in the spelling of the float operations at the extended reals: a host quotient by a
    host square root against a product with a host reciprocal square root. -/
theorem hostDivf_sqrt_eq_mulf_hostRsqrt {φ : FTy} (a v : Ideal φ) (hv : (0 : EReal) < v) :
    FloatOps.hostDivf a (FloatOps.hostUnary .sqrt v) = FloatOps.mulf a (FloatOps.hostUnary .rsqrt v) :=
  div_sqrt_eq_mul_rsqrt a hv

/-- The same identity, the reciprocal square root being the kernel's operation. -/
theorem hostDivf_sqrt_eq_mulf_rsqrt {φ : FTy} (a v : Ideal φ) (hv : (0 : EReal) < v) :
    FloatOps.hostDivf a (FloatOps.hostUnary .sqrt v) = FloatOps.mulf a (FloatOps.rsqrt v) :=
  div_sqrt_eq_mul_rsqrt a hv

/-! ### A square is a product -/

/-- At the extended reals the float product of a value with itself, which is how a squaring operation is
    spelled, is the product `x * x`. -/
theorem mulf_self {φ : FTy} (x : Ideal φ) : FloatOps.mulf x x = (x : EReal) * x := rfl

/-! ### Positivity of a mean of squares plus a positive constant -/

/-- An extended real times itself is nonnegative, at `⊤` and `⊥` too (`⊥ * ⊥ = ⊤`). -/
theorem mul_self_nonneg (x : EReal) : 0 ≤ x * x := by
  rcases le_total 0 x with h | h
  · exact mul_nonneg h h
  · have h' : 0 ≤ -x := by simpa using EReal.neg_le_neg_iff.2 h
    have := mul_nonneg h' h'
    rwa [neg_mul_neg] at this

/-- A finite sum of squares of extended reals is nonnegative. -/
theorem sum_mul_self_nonneg {ι : Type*} (s : Finset ι) (x : ι → EReal) : 0 ≤ ∑ i ∈ s, x i * x i :=
  Finset.sum_nonneg fun i _ => mul_self_nonneg (x i)

/-- The sum over a finite type of squares of extended reals is nonnegative. -/
theorem sum_univ_mul_self_nonneg {ι : Type*} [Fintype ι] (x : ι → EReal) : 0 ≤ ∑ i, x i * x i :=
  sum_mul_self_nonneg Finset.univ x

/-- A nonnegative extended real divided by a positive real is nonnegative. -/
theorem div_coe_nonneg {s : EReal} (hs : 0 ≤ s) {N : ℝ} (hN : 0 < N) : 0 ≤ Ideal.div s (N : EReal) := by
  rw [Ideal.div_coe hN.ne']
  have h : (0 : EReal) ≤ ((1 / N : ℝ) : EReal) := by exact_mod_cast (one_div_pos.2 hN).le
  exact mul_nonneg hs h

/-- A nonnegative extended real divided by a positive real, plus a positive real, is positive. -/
theorem div_coe_add_pos {s : EReal} (hs : 0 ≤ s) {N e : ℝ} (hN : 0 < N) (he : 0 < e) :
    0 < Ideal.div s (N : EReal) + (e : EReal) := by
  have he' : (0 : EReal) < (e : EReal) := by exact_mod_cast he
  exact lt_of_lt_of_le he' (le_add_of_nonneg_left (div_coe_nonneg hs hN))

/-- The image of a finite sum of reals is the sum of the images. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

end Cert.LibERealLaws

end
-- ==== Proof.Region0Value.Step.lean ====
/- Region 0's value: what the region leaves in its output array, index by index, at the ideal values. Each sweep of
   the 98 blocks of the contracted axis carries a running sum that starts at zero and takes, block by block, the two
   products' partial sums; the last block's write-back puts the sweep's total into its half of the output columns. So
   entry (b, n) of the output is the full contraction  ∑_f silu(x[b,f])·w[n,f] + ∑_g p[b,g]·u[n,g]. -/
import proofs.«114522_j54279796687469_2_alg».proof.Proof.Region0Value.Pieces
import proofs.«114522_j54279796687469_2_alg».proof.Proof.Region0Value.Payload
import proofs.«114522_j54279796687469_2_alg».proof.Proof.Region0Value.Blocks
import proofs.«114522_j54279796687469_2_alg».proof.Proof.LibERealLaws

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx

variable (V : (c : Dev nD) → (b : Ref sig .tc) → Buf (Elt Ideal) ((c : Thread nD τ).loc b))

/-! ## The four arrays by coordinates, and the summands along the contracted axes -/

/-- The activations `x` (rows × 50176) and the first weight `w` (1024 × 50176); the second activations `p`
    (rows × 200704) and the second weight `u` (1024 × 200704), as the region finds them. -/
abbrev r0_x (c : Dev nD) (b : Fin 256) (f : Fin 50176) : EReal := (V c main_arg0 : Vec Ideal S256x50176 .f32) (ix2 b f)
abbrev r0_w (c : Dev nD) (n : Fin 1024) (f : Fin 50176) : EReal := (V c main_arg1 : Vec Ideal S1024x50176 .f32) (ix2 n f)
abbrev r0_p (c : Dev nD) (b : Fin 256) (g : Fin 200704) : EReal := (V c main_v34 : Vec Ideal S256x200704 .bf16) (ix2 b g)
abbrev r0_u (c : Dev nD) (n : Fin 1024) (g : Fin 200704) : EReal := (V c main_arg2 : Vec Ideal S1024x200704 .f32) (ix2 n g)

/-- The first product's summand at place `f` of the contracted axis (zero past its end), -/
def r0_g1 (c : Dev nD) (b : Fin 256) (n : Fin 1024) (f : ℕ) : EReal :=
  if h : f < 50176 then r0_silu (r0_x V c b ⟨f, h⟩) * r0_w V c n ⟨f, h⟩ else 0
/-- and the second's at place `g`. -/
def r0_g2 (c : Dev nD) (b : Fin 256) (n : Fin 1024) (g : ℕ) : EReal :=
  if h : g < 200704 then r0_p V c b ⟨g, h⟩ * r0_u V c n ⟨g, h⟩ else 0

theorem r0_g1_of_lt (c : Dev nD) (b : Fin 256) (n : Fin 1024) (f : ℕ) (h : f < 50176) :
    r0_g1 V c b n f = r0_silu (r0_x V c b ⟨f, h⟩) * r0_w V c n ⟨f, h⟩ := dif_pos h
theorem r0_g2_of_lt (c : Dev nD) (b : Fin 256) (n : Fin 1024) (g : ℕ) (h : g < 200704) :
    r0_g2 V c b n g = r0_p V c b ⟨g, h⟩ * r0_u V c n ⟨g, h⟩ := dif_pos h

/-- Block `k`'s partial sums of the two products. -/
def r0_a (c : Dev nD) (b : Fin 256) (n : Fin 1024) (k : ℕ) : EReal := ∑ q : Fin 512, r0_g1 V c b n (k * 512 + q.val)
def r0_b (c : Dev nD) (b : Fin 256) (n : Fin 1024) (k : ℕ) : EReal := ∑ q : Fin 2048, r0_g2 V c b n (k * 2048 + q.val)

/-- The full contractions: entry (b, n) of the region's result. -/
def r0_G (c : Dev nD) (b : Fin 256) (n : Fin 1024) : EReal :=
  (∑ f : Fin 50176, r0_silu (r0_x V c b f) * r0_w V c n f) + ∑ g : Fin 200704, r0_p V c b g * r0_u V c n g

/-! ## The grid: sweep `s`, block `k` -/

/-- The grid point of sweep `s` and block `k`. -/
def r0_pt (s : Fin 2) (k : Fin 98) : Fin cfg0.N :=
  ⟨s.val * 98 + k.val, lt_of_lt_of_eq (by have := s.isLt; have := k.isLt; omega : s.val * 98 + k.val < 196) N_0.symm⟩

theorem r0_pt_val (s : Fin 2) (k : Fin 98) : (r0_pt s k).val = s.val * 98 + k.val := rfl

/-- The output column of sweep `s` at column `j` of the block. -/
def r0_col (s : Fin 2) (j : Fin 512) : Fin 1024 := ⟨s.val * 512 + j.val, by have := s.isLt; have := j.isLt; omega⟩

/-- The running sum at two equal positions is the same. -/
theorem r0_outsAt_congr (c : Dev nD) (n n' : ℕ) (h : n < cfg0.N) (h' : n' < cfg0.N) (e : n = n') :
    outsAt0 V c n h = outsAt0 V c n' h' := by subst e; rfl

/-! ## One grid point's step, at an index -/

/-- At the point of sweep `s` and block `k` the body's sum payload, at row `b` and column `j` of the block, adds
    block `k`'s partial sums for output column `r0_col s j`. -/
theorem r0_step_apply (c : Dev nD) (s : Fin 2) (k : Fin 98) (b : Fin 256) (j : Fin 512) (acc : FVec Ideal S256x512 .f32) :
    k0_pay2 (F := Ideal) (iblk0 V c 0 (r0_pt s k)) (iblk0 V c 2 (r0_pt s k)) (iblk0 V c 1 (r0_pt s k)) (iblk0 V c 3 (r0_pt s k)) acc (ix2 b j)
      = acc (ix2 b j) + (r0_a V c b (r0_col s j) k.val + r0_b V c b (r0_col s j) k.val) := by
  have hs := s.isLt
  have hk := k.isLt
  have hj := j.isLt
  have hm : (r0_pt s k).val % 98 = k.val := by rw [r0_pt_val]; omega
  have hd : (r0_pt s k).val / 98 = s.val := by rw [r0_pt_val]; omega
  refine (r0_pay2_apply (iblk0 V c 0 (r0_pt s k)) (iblk0 V c 2 (r0_pt s k)) (iblk0 V c 1 (r0_pt s k)) (iblk0 V c 3 (r0_pt s k)) acc b j).trans ?_
  refine congrArg (acc (ix2 b j) + ·) (congrArg₂ (· + ·) (Finset.sum_congr rfl fun q _ => ?_) (Finset.sum_congr rfl fun q _ => ?_))
  · have hq := q.isLt
    have hc : ((r0_pt s k).val % 98) * 512 + q.val < 50176 := by rw [hm]; omega
    have hr : ((r0_pt s k).val / 98) * 512 + j.val < 1024 := by rw [hd]; omega
    have hc' : k.val * 512 + q.val < 50176 := by omega
    refine (congrArg₂ (fun (u v : EReal) => u * v) (congrArg r0_silu (r0_iblk_0_apply V c (r0_pt s k) b q b.isLt hc)) (r0_iblk_2_apply V c (r0_pt s k) j q hr hc)).trans ?_
    refine Eq.trans ?_ (r0_g1_of_lt V c b (r0_col s j) _ hc').symm
    have e1 : (⟨((r0_pt s k).val % 98) * 512 + q.val, hc⟩ : Fin 50176) = ⟨k.val * 512 + q.val, hc'⟩ :=
      Fin.ext (by show (r0_pt s k).val % 98 * 512 + q.val = k.val * 512 + q.val; rw [hm])
    have e2 : (⟨((r0_pt s k).val / 98) * 512 + j.val, hr⟩ : Fin 1024) = r0_col s j := Fin.ext (by show (r0_pt s k).val / 98 * 512 + j.val = s.val * 512 + j.val; rw [hd])
    rw [e1, e2]
  · have hq := q.isLt
    have hc : ((r0_pt s k).val % 98) * 2048 + q.val < 200704 := by rw [hm]; omega
    have hr : ((r0_pt s k).val / 98) * 512 + j.val < 1024 := by rw [hd]; omega
    have hc' : k.val * 2048 + q.val < 200704 := by omega
    refine (congrArg₂ (fun (u v : EReal) => u * v) (r0_iblk_1_apply V c (r0_pt s k) b q b.isLt hc) (r0_iblk_3_apply V c (r0_pt s k) j q hr hc)).trans ?_
    refine Eq.trans ?_ (r0_g2_of_lt V c b (r0_col s j) _ hc').symm
    have e1 : (⟨((r0_pt s k).val % 98) * 2048 + q.val, hc⟩ : Fin 200704) = ⟨k.val * 2048 + q.val, hc'⟩ :=
      Fin.ext (by show (r0_pt s k).val % 98 * 2048 + q.val = k.val * 2048 + q.val; rw [hm])
    have e2 : (⟨((r0_pt s k).val / 98) * 512 + j.val, hr⟩ : Fin 1024) = r0_col s j := Fin.ext (by show (r0_pt s k).val / 98 * 512 + j.val = s.val * 512 + j.val; rw [hd])
    rw [e1, e2]

end Cert.KernelIdeal.Hand

end
-- ==== Proof.Region0Value.Sweep.lean ====
/- Region 0's value, one sweep: over the 98 blocks of the contracted axis the running sum starts at zero plus the first
   block's partial sums and adds each later block's, so after the last block it holds the two full contractions. -/
import proofs.«114522_j54279796687469_2_alg».proof.Proof.Region0Value.Step

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx

variable (V : (c : Dev nD) → (b : Ref sig .tc) → Buf (Elt Ideal) ((c : Thread nD τ).loc b))

/-- The 98 blocks' partial sums of the first product make the full contraction (98 × 512 = 50176 places), -/
theorem r0_sum_a (c : Dev nD) (b : Fin 256) (n : Fin 1024) :
    ∑ i : Fin 98, r0_a V c b n i.val = ∑ f : Fin 50176, r0_silu (r0_x V c b f) * r0_w V c n f := by
  unfold r0_a
  refine (Cert.LibERealLaws.sum_fin_mul_tile_nat (r0_g1 V c b n) 98 512).symm.trans ?_
  exact Finset.sum_congr rfl fun f _ => r0_g1_of_lt V c b n f.val f.isLt

/-- and of the second (98 × 2048 = 200704 places). -/
theorem r0_sum_b (c : Dev nD) (b : Fin 256) (n : Fin 1024) :
    ∑ i : Fin 98, r0_b V c b n i.val = ∑ g : Fin 200704, r0_p V c b g * r0_u V c n g := by
  unfold r0_b
  refine (Cert.LibERealLaws.sum_fin_mul_tile_nat (r0_g2 V c b n) 98 2048).symm.trans ?_
  exact Finset.sum_congr rfl fun g _ => r0_g2_of_lt V c b n g.val g.isLt

/-- After the last block of sweep `s` the running sum, at row `b` and column `j` of the block, is entry
    (b, r0_col s j) of the result. -/
theorem r0_sweep (c : Dev nD) (s : Fin 2) (b : Fin 256) (j : Fin 512) :
    (outsAt0 V c (r0_pt s (Fin.last 97)).val (r0_pt s (Fin.last 97)).isLt).2 (ix2 b j) = r0_G V c b (r0_col s j) := by
  have hs := s.isLt
  refine (Cert.LibERealLaws.acc_fin_last_eq_sum_add_sum (n := 97)
    (fun k : Fin 98 => (outsAt0 V c (r0_pt s k).val (r0_pt s k).isLt).2 (ix2 b j))
    (fun k : Fin 98 => r0_a V c b (r0_col s j) k.val)
    (fun k : Fin 98 => r0_b V c b (r0_col s j) k.val) ?_ ?_).trans ?_
  · -- the first block: zero plus its partial sums
    have hfirst : (r0_pt s 0).val % 98 = 0 := by rw [r0_pt_val]; show (s.val * 98 + 0) % 98 = 0; omega
    show (outsAt0 V c (r0_pt s 0).val (r0_pt s 0).isLt).2 (ix2 b j)
      = 0 + (r0_a V c b (r0_col s j) (0 : Fin 98).val + r0_b V c b (r0_col s j) (0 : Fin 98).val)
    rw [r0_acc_first V c (r0_pt s 0) hfirst]
    refine (r0_step_apply V c s 0 b j (k0_pay1 (F := Ideal))).trans ?_
    rw [r0_pay1_apply b j]
  · -- a later block: what the block before left plus its partial sums
    intro k
    have hk := k.isLt
    have hne : ¬(r0_pt s k.succ).val % 98 = 0 := by rw [r0_pt_val, Fin.val_succ]; omega
    show (outsAt0 V c (r0_pt s k.succ).val (r0_pt s k.succ).isLt).2 (ix2 b j)
      = (outsAt0 V c (r0_pt s k.castSucc).val (r0_pt s k.castSucc).isLt).2 (ix2 b j)
        + (r0_a V c b (r0_col s j) k.succ.val + r0_b V c b (r0_col s j) k.succ.val)
    rw [r0_acc_next V c (r0_pt s k.succ) hne]
    refine (r0_step_apply V c s k.succ b j _).trans ?_
    refine congrArg (· + _) ?_
    exact congrFun (congrArg Prod.snd (r0_outsAt_congr V c _ _ _ _ (by
      rw [r0_pt_val, r0_pt_val, Fin.val_succ, Fin.coe_castSucc]; omega))) (ix2 b j)
  · show (∑ i : Fin 98, r0_a V c b (r0_col s j) i.val) + ∑ i : Fin 98, r0_b V c b (r0_col s j) i.val = r0_G V c b (r0_col s j)
    rw [r0_sum_a, r0_sum_b]
    rfl

end Cert.KernelIdeal.Hand

end
-- ==== Proof.Region0Value.lean ====
/- Region 0's value, assembled: the last block of each sweep writes the sweep's running sum back into its half of the
   output's columns, the two write-backs cover the output array, and so entry (b, n) of the array the region leaves is
   the full contraction  ∑_f silu(x[b,f])·w[n,f] + ∑_g p[b,g]·u[n,g]  of the arrays it found. -/
import proofs.«114522_j54279796687469_2_alg».proof.Proof.Region0Value.Sweep

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx

variable (V : (c : Dev nD) → (b : Ref sig .tc) → Buf (Elt Ideal) ((c : Thread nD τ).loc b))

/-- The result as contents of the output array. -/
def r0_Garr (c : Dev nD) : Vec Ideal S256x1024 .f32 := fun i => r0_G V c (i 0) (i 1)

theorem r0_Garr_apply (c : Dev nD) (b : Fin 256) (n : Fin 1024) : r0_Garr V c (ix2 b n) = r0_G V c b n := rfl

/-- What a last block writes back is its block of the result: the running sum after the sweep, placed at the sweep's
    columns. -/
theorem r0_flushed (c : Dev nD) (t : Fin cfg0.N) (hf : (cfg0.win 4).flush t = true) :
    (dat0 V c).flushed 4 t = ((cfg0.win 4).blk t).view.read (Elt Ideal) (r0_Garr V c) := by
  have h97 : t.val % 98 = 97 := (flush0_4 t).mp hf
  have hN : t.val < 196 := lt_of_lt_of_eq t.isLt N_0
  obtain ⟨-, -, -, -, -, -, -, -, e40, e41⟩ := r0_index_facts t
  show (cfg0.win 4).cut (grid0.coords t) ((dat0 V c).after 4 t) = _
  rw [after0_4, r0_out_last V c t h97]
  funext y
  obtain ⟨b, j, rfl⟩ : ∃ (b : Fin 256) (j : Fin 512), y = ix2 b j := ⟨y 0, y 1, eq_ix2 y⟩
  have hj := j.isLt
  have hs : t.val / 98 < 2 := by omega
  have e : (outsAt0 V c t.val t.isLt).2
      = (outsAt0 V c (r0_pt ⟨t.val / 98, hs⟩ (Fin.last 97)).val (r0_pt ⟨t.val / 98, hs⟩ (Fin.last 97)).isLt).2 :=
    congrArg Prod.snd (r0_outsAt_congr V c _ _ _ _ (by
      rw [r0_pt_val]; show t.val = t.val / 98 * 98 + 97; omega))
  have hemb : ((cfg0.win 4).blk t).view.emb (ix2 b j) = ix2 b (r0_col ⟨t.val / 98, hs⟩ j) := by
    funext a; apply Fin.ext
    match a with
    | ⟨0, _⟩ => show win0_4.index t (0 : Fin 2) * 256 + 1 * b.val = b.val; omega
    | ⟨1, _⟩ => show win0_4.index t (1 : Fin 2) * 512 + 1 * j.val = t.val / 98 * 512 + j.val; omega
  show (outsAt0 V c t.val t.isLt).2 (ix2 b j) = r0_Garr V c (((cfg0.win 4).blk t).view.emb (ix2 b j))
  rw [e, r0_sweep V c ⟨t.val / 98, hs⟩ b j, hemb, r0_Garr_apply]

/-- The output array after the region: the result, everywhere (the two last blocks' write-backs cover it). -/
theorem r0_arrAt (c : Dev nD) : (dat0 V c).arrAt 4 cfg0.N = r0_Garr V c :=
  (dat0 V c).arrAt_eq_of_cover 4 (r0_Garr V c) (fun t hf => r0_flushed V c t hf) fun i => by
    have h0 : (i 0 : ℕ) < 256 := (i 0).isLt
    have h1 : (i 1 : ℕ) < 1024 := (i 1).isLt
    have hs : (i 1 : ℕ) / 512 < 2 := by omega
    have htv : (r0_pt ⟨(i 1 : ℕ) / 512, hs⟩ (Fin.last 97)).val = (i 1 : ℕ) / 512 * 98 + 97 := rfl
    obtain ⟨-, -, -, -, -, -, -, -, e40, e41⟩ := r0_index_facts (r0_pt ⟨(i 1 : ℕ) / 512, hs⟩ (Fin.last 97))
    refine ⟨r0_pt ⟨(i 1 : ℕ) / 512, hs⟩ (Fin.last 97), (flush0_4 _).mpr (by rw [htv]; omega), ?_⟩
    show i ∈ ((View.whole main_v35).slice (win0_4.rect (r0_pt ⟨(i 1 : ℕ) / 512, hs⟩ (Fin.last 97)))).set
    rw [View.set_slice_whole, Rect.mem_set_unit]
    intro a
    match a with
    | ⟨0, _⟩ =>
      show win0_4.index (r0_pt ⟨(i 1 : ℕ) / 512, hs⟩ (Fin.last 97)) (0 : Fin 2) * 256 ≤ (i 0 : ℕ)
        ∧ (i 0 : ℕ) < win0_4.index (r0_pt ⟨(i 1 : ℕ) / 512, hs⟩ (Fin.last 97)) (0 : Fin 2) * 256 + 256
      omega
    | ⟨1, _⟩ =>
      show win0_4.index (r0_pt ⟨(i 1 : ℕ) / 512, hs⟩ (Fin.last 97)) (1 : Fin 2) * 512 ≤ (i 1 : ℕ)
        ∧ (i 1 : ℕ) < win0_4.index (r0_pt ⟨(i 1 : ℕ) / 512, hs⟩ (Fin.last 97)) (1 : Fin 2) * 512 + 512
      rw [e41, htv]; omega

/-- Entry (b, n) of the array region 0 leaves: the two full contractions of the arrays it found. -/
theorem arrAt0_4_apply (c : Dev nD) (b : Fin 256) (n : Fin 1024) :
    (dat0 V c).arrAt 4 cfg0.N (ix2 b n)
      = (∑ f : Fin 50176, r0_silu (r0_x V c b f) * r0_w V c n f) + ∑ g : Fin 200704, r0_p V c b g * r0_u V c n g :=
  (congrFun (r0_arrAt V c) (ix2 b n)).trans ((r0_Garr_apply V c b n).trans rfl)

end Cert.KernelIdeal.Hand

end
-- ==== Proof.Layer1Bridge.Spec.lean ====
/- The second layer's arithmetic on one row, as functions on the extended reals: the row mean and variance
   with divisor `N`, the row normalisation written with a quotient by a square root and written with a product
   by a reciprocal square root, and their agreement when `N` and the added constant are positive reals; the
   gate `y · 1 / (1 + exp (-y))`; and the row softmax. No value is assumed finite. -/
import proofs.«114522_j54279796687469_2_alg».proof.Proof.LibERealLaws

noncomputable section

namespace Cert.Bridge

open Idealize.ShloMosaic
open scoped BigOperators

/-- The mean of a row: its sum divided by `N`. -/
def rowMean {C : ℕ} (N : EReal) (x : Fin C → EReal) : EReal := Ideal.div (∑ k, x k) N

/-- The variance of a row: the sum of the squared deviations from the row mean, divided by `N`. -/
def rowVar {C : ℕ} (N : EReal) (x : Fin C → EReal) : EReal :=
  Ideal.div (∑ k, (x k - rowMean N x) * (x k - rowMean N x)) N

/-- The row normalisation as a quotient: `(x j - mean) / √(var + e) · g j + β j`. -/
def lnDiv {C : ℕ} (N e : EReal) (x g β : Fin C → EReal) (j : Fin C) : EReal :=
  Ideal.div (x j - rowMean N x) (Ideal.sqrt (rowVar N x + e)) * g j + β j

/-- The row normalisation as a product: `(x j - mean) · rsqrt (var + e) · g j + β j`. -/
def lnMul {C : ℕ} (N e : EReal) (x g β : Fin C → EReal) (j : Fin C) : EReal :=
  (x j - rowMean N x) * Ideal.rsqrt (rowVar N x + e) * g j + β j

/-- With a positive real divisor and a positive real added constant the radicand is positive, whatever the row. -/
theorem rowVar_add_pos {C : ℕ} {n ε : ℝ} (hn : 0 < n) (hε : 0 < ε) (x : Fin C → EReal) :
    0 < rowVar (n : EReal) x + (ε : EReal) :=
  LibERealLaws.div_coe_add_pos (LibERealLaws.sum_univ_mul_self_nonneg _) hn hε

/-- So the two ways of writing the row normalisation agree, at infinite entries too. -/
theorem lnDiv_eq_lnMul {C : ℕ} {n ε : ℝ} (hn : 0 < n) (hε : 0 < ε) (x g β : Fin C → EReal) (j : Fin C) :
    lnDiv (n : EReal) (ε : EReal) x g β j = lnMul (n : EReal) (ε : EReal) x g β j := by
  unfold lnDiv lnMul
  rw [LibERealLaws.div_sqrt_eq_mul_rsqrt _ (rowVar_add_pos hn hε x)]

/-- The gate `y · (1 / (1 + exp (-y)))`. -/
def gate (y : EReal) : EReal := y * Ideal.div 1 (1 + Ideal.exp (-y))

/-- The softmax of a row from the floor `m₀`: with `m = max m₀ (max over the row from m₀)`, the entry
    `exp (z j - m)` divided by the sum of the `exp (z k - m)`. -/
def softmaxRow {C : ℕ} (m₀ : EReal) (z : Fin C → EReal) (j : Fin C) : EReal :=
  Ideal.div (Ideal.exp (z j - max m₀ ((Finset.univ : Finset (Fin C)).fold max m₀ z)))
    (∑ k, Ideal.exp (z k - max m₀ ((Finset.univ : Finset (Fin C)).fold max m₀ z)))

end Cert.Bridge

end
-- ==== Proof.Bridge0.lean ====
/- Region 0's output array is the reference's first-layer sums of the arguments: entry (b, n) of what the region
   leaves is  ∑_f gate(x[b,f])·w[n,f] + ∑_g basis(x)[b,g]·u[n,g], the region's second activation operand being the
   reference's basis stage of the input (narrowed, which the ideal values do not see) and its other operands the
   arguments as launched; and that two-sum formula is the reference's stage at the same index. -/
import proofs.«114522_j54279796687469_2_alg».proof.Proof.Run
import proofs.«114522_j54279796687469_2_alg».proof.Proof.Region0Value
import proofs.«114522_j54279796687469_2_alg».proof.Proof.RefTerm
import proofs.«114522_j54279796687469_2_alg».proof.Proof.Gen.ReferenceIdeal
import proofs.«114522_j54279796687469_2_alg».proof.Proof.Layer1Bridge.Spec

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx

/-- x·σ(x) as the region's value states it is the gate. -/
theorem r0_silu_eq_gate (z : EReal) : r0_silu z = Cert.Bridge.gate z := rfl

section Args
variable {F : FTy → Type} [FloatOps F]
variable (m : (ℓ : Loc nD τ sig) → Buf (Elt F) ℓ) (ρ : Dev nD → PrngReg)

/-- Entering region 0 the three weight and input arguments are as launched: the host operations before it write none. -/
theorem V1_main_arg0 (c : Dev nD) : V1 m ρ c main_arg0 = (m ((c : Thread nD τ).loc main_arg0)) :=
  (StableHlo.after_of_writes_sub hostOps0 _ hostOps0_writes (by decide)).trans rfl
theorem V1_main_arg1 (c : Dev nD) : V1 m ρ c main_arg1 = (m ((c : Thread nD τ).loc main_arg1)) :=
  (StableHlo.after_of_writes_sub hostOps0 _ hostOps0_writes (by decide)).trans rfl
theorem V1_main_arg2 (c : Dev nD) : V1 m ρ c main_arg2 = (m ((c : Thread nD τ).loc main_arg2)) :=
  (StableHlo.after_of_writes_sub hostOps0 _ hostOps0_writes (by decide)).trans rfl
end Args

section Bridge
variable (m : (ℓ : Loc nD τ sig) → Buf (Elt Ideal) ℓ) (ρ : Dev nD → PrngReg)

-- the reference's first-layer sums at an index (the reference side's lemma, taken here as given)
variable (hpre : ∀ (a0 : FVec Ideal S256x50176 .f32) (a1 : FVec Ideal S1024x50176 .f32)
    (a2 : FVec Ideal S1024x200704 .f32) (bs : FVec Ideal S256x200704 .f32) (b : Fin 256) (n : Fin 1024),
    Cert.ReferenceIdeal.RefTerm.preA a2 bs (Cert.ReferenceIdeal.RefTerm.baseA a1 (Cert.ReferenceIdeal.RefTerm.siluA a0)) (ix2 b n)
      = (∑ f : Fin 50176, Cert.Bridge.gate (a0 (ix2 b f)) * a1 (ix2 n f)) + ∑ g : Fin 200704, bs (ix2 b g) * a2 (ix2 n g))
-- entering region 0 the basis operand holds the reference's basis stage of the input, narrowed (taken here as given)
variable (hv34 : ∀ c : Dev nD, W1 m ρ c (Proc.devRef .tc main_v34)
    = truncf .bf16 (Cert.ReferenceIdeal.RefTerm.basisA (F := Ideal) (m ((c : Thread nD τ).loc main_arg0))) bitsLt_bf16_f32)

include hpre hv34 in
/-- Region 0 leaves in its output array the reference's first-layer sums of the arguments. -/
theorem W2_v35_eq (c : Dev nD) : W2 m ρ c (Proc.devRef .tc main_v35)
    = Cert.ReferenceIdeal.RefTerm.preA (F := Ideal) (m ((c : Thread nD τ).loc main_arg2))
        (Cert.ReferenceIdeal.RefTerm.basisA (m ((c : Thread nD τ).loc main_arg0)))
        (Cert.ReferenceIdeal.RefTerm.baseA (m ((c : Thread nD τ).loc main_arg1)) (Cert.ReferenceIdeal.RefTerm.siluA (m ((c : Thread nD τ).loc main_arg0)))) := by
  refine (W2_arr m ρ c 4).trans ?_
  funext i
  obtain ⟨b, n, rfl⟩ : ∃ (b : Fin 256) (n : Fin 1024), i = ix2 b n := ⟨i 0, i 1, eq_ix2 i⟩
  refine (arrAt0_4_apply (V1 m ρ) c b n).trans ?_
  refine Eq.trans ?_ (hpre (m ((c : Thread nD τ).loc main_arg0)) (m ((c : Thread nD τ).loc main_arg1)) (m ((c : Thread nD τ).loc main_arg2))
    (Cert.ReferenceIdeal.RefTerm.basisA (m ((c : Thread nD τ).loc main_arg0))) b n).symm
  refine congrArg₂ (· + ·) (Finset.sum_congr rfl fun f _ => ?_) (Finset.sum_congr rfl fun g _ => ?_)
  · unfold r0_x r0_w
    rw [V1_main_arg0, V1_main_arg1, r0_silu_eq_gate]
  · unfold r0_p r0_u
    rw [V1_main_arg2, show V1 m ρ c main_v34 = _ from hv34 c]
    rfl

end Bridge

end Cert.KernelIdeal.Hand

end
-- ==== Proof.LibConsts.lean ====
/- The float constants the two programs spell, as the extended reals their IEEE-754 single-precision
   patterns denote (`Ideal.ofBits`): sign bit, eight exponent bits with bias 127, twenty-three fraction
   bits. All of them are stated in this one module, which alone unfolds the pattern reader. -/
import Idealize.ShloMosaic.PureOps.Ideal

noncomputable section

namespace Cert.LibConsts

open Idealize.ShloMosaic

/-- The pattern of `+0.0` denotes `0`. -/
theorem ofBits_zero : Ideal.ofBits .f32 0x00000000#32 = 0 := by
  simp [Ideal.ofBits, Ideal.ieee]

/-- The pattern of `1.0` (exponent field 127, fraction 0) denotes `1`. -/
theorem ofBits_one : Ideal.ofBits .f32 0x3F800000#32 = ((1 : ℝ) : EReal) := by
  simp [Ideal.ofBits, Ideal.ieee, -EReal.coe_mul]; norm_num

/-- The pattern of `2.0` (exponent field 128, fraction 0) denotes `2`. -/
theorem ofBits_two : Ideal.ofBits .f32 0x40000000#32 = ((2 : ℝ) : EReal) := by
  simp [Ideal.ofBits, Ideal.ieee, -EReal.coe_mul]; norm_num

/-- The pattern of `3.0` (exponent field 128, fraction `2^22`) denotes `3`. -/
theorem ofBits_three : Ideal.ofBits .f32 0x40400000#32 = ((3 : ℝ) : EReal) := by
  simp [Ideal.ofBits, Ideal.ieee, -EReal.coe_mul]; norm_num

/-- The pattern of `5.0` (exponent field 129, fraction `2^21`) denotes `5`. -/
theorem ofBits_five : Ideal.ofBits .f32 0x40A00000#32 = ((5 : ℝ) : EReal) := by
  simp [Ideal.ofBits, Ideal.ieee, -EReal.coe_mul]; norm_num

/-- The pattern of `128.0` (exponent field 134, fraction 0) denotes `128`. -/
theorem ofBits_128 : Ideal.ofBits .f32 0x43000000#32 = ((128 : ℝ) : EReal) := by
  simp [Ideal.ofBits, Ideal.ieee, -EReal.coe_mul]; norm_num

/-- The pattern of `1024.0` (exponent field 137, fraction 0) denotes `1024`. -/
theorem ofBits_1024 : Ideal.ofBits .f32 0x44800000#32 = ((1024 : ℝ) : EReal) := by
  simp [Ideal.ofBits, Ideal.ieee, -EReal.coe_mul]; norm_num

/-- The pattern with sign 0, exponent field all ones and fraction 0 denotes `+∞`. -/
theorem ofBits_pos_inf : Ideal.ofBits .f32 0x7F800000#32 = ⊤ := by
  simp [Ideal.ofBits, Ideal.ieee]

/-- The pattern with sign 1, exponent field all ones and fraction 0 denotes `-∞`. -/
theorem ofBits_neg_inf : Ideal.ofBits .f32 0xFF800000#32 = ⊥ := by
  simp [Ideal.ofBits, Ideal.ieee]

/-- The pattern `0x3727C5AC` (the single-precision number nearest `10⁻⁵`: exponent field 110, fraction
    2606508) denotes the real `(2^23 + 2606508) · 2^(110 - 127 - 23)`. -/
theorem ofBits_eps_eq :
    Ideal.ofBits .f32 0x3727C5AC#32 = (((10995116 : ℝ) * (2 : ℝ) ^ (-40 : ℤ) : ℝ) : EReal) := by
  simp [Ideal.ofBits, Ideal.ieee, -EReal.coe_mul]

/-- The pattern `0x3727C5AC` denotes a positive real. -/
theorem ofBits_eps : ∃ e : ℝ, 0 < e ∧ Ideal.ofBits .f32 0x3727C5AC#32 = (e : EReal) :=
  ⟨(10995116 : ℝ) * (2 : ℝ) ^ (-40 : ℤ), by positivity, ofBits_eps_eq⟩

end Cert.LibConsts

end
-- ==== Proof.LibDense.lean ====
/-
  General lemmas for dense (fully connected) layers, over variable extents, at the extended reals.

  * `plain_sum`: for the plain dimension numbers "M×K by K×N" (contract the left operand's axis 1 with the
    right operand's axis 0, no batch axis), the sum over the contraction index of the operands' products at the
    result index (i, j) is `∑ k : Fin K, l (i, k) * r (k, j)`.
  * `matmul_zero_plain` / `dotGeneral_plain`: hence a vector-unit matrix product into a zero accumulator, and the
    host's `dot_general`, read at (i, j), are both that sum.
  * `concat_cols_apply`: two matrices [n, a] and [n, b] laid side by side along axis 1, read at (r, k): the first at
    (r, k) when k < a, the second at (r, k − a) otherwise.
  * `spread_col_apply`: an [a, 1] column spread over b columns, read at (p, c), is the column at p.
  * `dense_apply`: a matrix product into the zero accumulator plus a [1, N] bias row spread down the rows, read at
    (r, j), is  (∑ k, l (r, k) * w (k, j)) + bias (0, j).
-/
import Idealize.ShloMosaic.Lib.ValueIdx
import Idealize.ShloMosaic.Lib.Pipeline.Value
import Idealize.ShloMosaic.Lib.ValueLayout
import Idealize.ShloMosaic.PureOps.Ideal.Laws

noncomputable section

namespace Cert.LibDense

open Idealize.ShloMosaic Idealize.ShloMosaic.ValueIdx

/-- The plain dimension numbers `<[1], [0], [0], [1], [], []>` over any well-formedness witness: two records with these
    axis lists differ only in that witness, so every printed record of this kind is one of these by unfolding. -/
abbrev plainOf {M K N : Nat}
    (wf : DotDims.WF (⟨2, ![M, K]⟩ : Shape) ⟨2, ![K, N]⟩ ⟨2, ![M, N]⟩ [1] [0] [0] [1] [] []) :
    DotDims (⟨2, ![M, K]⟩ : Shape) ⟨2, ![K, N]⟩ ⟨2, ![M, N]⟩ :=
  { lhsContracting := [1], rhsContracting := [0], lhsNonContracting := [0], rhsNonContracting := [1],
    lhsBatch := [], rhsBatch := [], wf := wf }

section Plain
variable {M K N : Nat} (wf : DotDims.WF (⟨2, ![M, K]⟩ : Shape) ⟨2, ![K, N]⟩ ⟨2, ![M, N]⟩ [1] [0] [0] [1] [] [])

/-- The left operand's row is the result's row. -/
theorem lhs_row (i : (⟨2, ![M, N]⟩ : Shape).Idx) (q : (plainOf wf).contr.Idx) :
    ((plainOf wf).lhsIdx i q 0).val = (i 0).val := by
  unfold DotDims.lhsIdx
  rw [dif_neg (show ¬(0 : Fin 2) ∈ (plainOf wf).lhsBatch from List.not_mem_nil),
    dif_pos (show (0 : Fin 2) ∈ (plainOf wf).lhsNonContracting from List.mem_singleton.mpr rfl)]
  rfl

/-- The right operand's column is the result's column. -/
theorem rhs_col (i : (⟨2, ![M, N]⟩ : Shape).Idx) (q : (plainOf wf).contr.Idx) :
    ((plainOf wf).rhsIdx i q 1).val = (i 1).val := by
  unfold DotDims.rhsIdx
  rw [dif_neg (show ¬(1 : Fin 2) ∈ (plainOf wf).rhsBatch from List.not_mem_nil),
    dif_pos (show (1 : Fin 2) ∈ (plainOf wf).rhsNonContracting from List.mem_singleton.mpr rfl)]
  rfl

/-- The contraction sum of a plain product at (i, j), re-indexed by the one contracted coordinate. -/
theorem plain_sum (l : (⟨2, ![M, K]⟩ : Shape).Idx → EReal) (r : (⟨2, ![K, N]⟩ : Shape).Idx → EReal)
    (i : Fin M) (j : Fin N) :
    ∑ q : (plainOf wf).contr.Idx, l ((plainOf wf).lhsIdx (ix2 i j) q) * r ((plainOf wf).rhsIdx (ix2 i j) q)
      = ∑ k : Fin K, l (ix2 i k) * r (ix2 k j) := by
  rw [← Equiv.sum_comp (contrEquiv1 (plainOf wf) K rfl rfl).symm]
  refine Finset.sum_congr rfl fun k _ => ?_
  have hk := contrEquiv1_symm_val (plainOf wf) K rfl rfl k
  have el : (plainOf wf).lhsIdx (ix2 i j) ((contrEquiv1 (plainOf wf) K rfl rfl).symm k) = ix2 i k :=
    funext fun a => Fin.ext (by
      match a with
      | ⟨0, _⟩ => exact lhs_row wf _ _
      | ⟨1, _⟩ => exact ((plainOf wf).lhsIdx_val_of_single rfl _ _).trans hk)
  have er : (plainOf wf).rhsIdx (ix2 i j) ((contrEquiv1 (plainOf wf) K rfl rfl).symm k) = ix2 k j :=
    funext fun a => Fin.ext (by
      match a with
      | ⟨0, _⟩ => exact ((plainOf wf).rhsIdx_val_of_single rfl _ _).trans hk
      | ⟨1, _⟩ => exact rhs_col wf _ _)
  rw [el, er]

/-- A matrix product on the vector unit into the zero accumulator, read at (i, j): the plain sum. -/
theorem matmul_zero_plain {φ₁ φ₂ : FTy} (prec : Option ContractPrecision)
    (l : FVec Ideal (⟨2, ![M, K]⟩ : Shape) φ₁) (r : FVec Ideal (⟨2, ![K, N]⟩ : Shape) φ₂) (i : Fin M) (j : Fin N) :
    FloatOps.matmul (plainOf wf) prec l r (constant (⟨2, ![M, N]⟩ : Shape) .f32 0x00000000#32) (ix2 i j)
      = ∑ k : Fin K, l (ix2 i k) * r (ix2 k j) :=
  (Ideal.matmul_constant_zero_apply (plainOf wf) prec l r (ix2 i j)).trans (plain_sum wf l r i j)

/-- The host's `dot_general` with the plain dimension numbers, read at (i, j): the same sum. -/
theorem dotGeneral_plain {φ₁ φ₂ : FTy} (prec : Option ContractPrecision) (sched : HostSchedule)
    (l : FVec Ideal (⟨2, ![M, K]⟩ : Shape) φ₁) (r : FVec Ideal (⟨2, ![K, N]⟩ : Shape) φ₂) (i : Fin M) (j : Fin N) :
    FloatOps.dotGeneral (plainOf wf) prec sched l r (ix2 i j) = ∑ k : Fin K, l (ix2 i k) * r (ix2 k j) :=
  (Ideal.dotGeneral_apply (plainOf wf) prec sched l r (ix2 i j)).trans (plain_sum wf l r i j)

end Plain

section Layout
variable {α : Type}

/-- Two matrices side by side along axis 1, read at (r, k). -/
theorem concat_cols_apply {n a b c : Nat} (hc : a + b = c)
    (x : (⟨2, ![n, a]⟩ : Shape).Idx → α) (y : (⟨2, ![n, b]⟩ : Shape).Idx → α)
    (h : Shape.Concatenates [(⟨2, ![n, a]⟩ : Shape), ⟨2, ![n, b]⟩] ⟨2, ![n, c]⟩ 1) (r : Fin n) (k : Fin c) :
    concatenate (⟨2, ![n, c]⟩ : Shape) 1 [⟨⟨2, ![n, a]⟩, x⟩, ⟨⟨2, ![n, b]⟩, y⟩] h (ix2 r k)
      = if hk : k.val < a then x (ix2 r ⟨k.val, hk⟩) else y (ix2 r ⟨k.val - a, by have := k.isLt; omega⟩) := by
  by_cases hk : k.val < a
  · rw [dif_pos hk]
    exact concatenate_pair_apply_left 1 x y h (ix2 r k) rfl (ix2 r ⟨k.val, hk⟩)
      (fun d => by match d with | ⟨0, _⟩ => rfl | ⟨1, _⟩ => rfl)
  · rw [dif_neg hk]
    refine concatenate_pair_apply_right 1 x y h (ix2 r k) rfl rfl (ix2 r ⟨k.val - a, by have := k.isLt; omega⟩)
      (fun d hd => by
        match d with
        | ⟨0, _⟩ => rfl
        | ⟨1, _⟩ => exact absurd rfl hd) ?_
    show k.val - a + a = k.val
    omega

/-- An [a, 1] column spread over b columns, read at (p, c): the column's entry of row p. -/
theorem spread_col_apply {a b : Nat} (v : (⟨2, ![a, 1]⟩ : Shape).Idx → α)
    (h : (⟨2, ![a, 1]⟩ : Shape).Broadcasts ⟨2, ![a, b]⟩) (p : Fin a) (c : Fin b) :
    broadcastTo (⟨2, ![a, b]⟩ : Shape) v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-- A dense layer on the vector unit read at (r, j): the product into the zero accumulator is the plain sum, the bias
    row spread down the rows is the bias at column j. -/
theorem dense_apply {n K N : Nat}
    (wf : DotDims.WF (⟨2, ![n, K]⟩ : Shape) ⟨2, ![K, N]⟩ ⟨2, ![n, N]⟩ [1] [0] [0] [1] [] []) {φ₁ φ₂ : FTy}
    (l : FVec Ideal (⟨2, ![n, K]⟩ : Shape) φ₁) (w : FVec Ideal (⟨2, ![K, N]⟩ : Shape) φ₂)
    (bias : FVec Ideal (⟨2, ![1, N]⟩ : Shape) .f32) (hbc : (⟨2, ![1, N]⟩ : Shape).Broadcasts ⟨2, ![n, N]⟩)
    (r : Fin n) (j : Fin N) :
    addf (matmul (plainOf wf) none l w (constant (⟨2, ![n, N]⟩ : Shape) .f32 0x00000000#32))
        (broadcastTo (⟨2, ![n, N]⟩ : Shape) bias hbc) (ix2 r j)
      = (∑ k : Fin K, l (ix2 r k) * w (ix2 k j)) + bias (ix2 (0 : Fin 1) j) :=
  congrArg₂ (· + ·) (matmul_zero_plain wf none l w r j) (broadcastTo_1b_ab_apply bias hbc r j)

end Cert.LibDense

end
-- ==== Proof.Layer1Bridge.Ops.lean ====
/- Index lemmas over variable extents, at the extended reals: a matrix product that contracts the second
   axis of both operands ("rows times rows"), read at (i, j); the keepdims column forms — a vector [a] seen
   as a column [a, 1], a column spread over b columns, a vector [b] seen as a row [1, b] and spread down a
   rows, a scalar spread over any shape; and a row sum or row maximum read at its row. -/
import Idealize.ShloMosaic.Lib.ValueIdx
import Idealize.ShloMosaic.Lib.Pipeline.Value
import Idealize.ShloMosaic.Lib.ValueLayout
import Idealize.ShloMosaic.PureOps.Ideal.Laws
import proofs.«114522_j54279796687469_2_alg».proof.Proof.LibDense

noncomputable section

namespace Cert.Bridge

open Idealize.ShloMosaic Idealize.ShloMosaic.ValueIdx
open scoped BigOperators

/-! ### A product of rows with rows -/

/-- The dimension numbers `<[1], [1], [0], [0], [], []>` (contract axis 1 of both operands, no batch axis) over
    any well-formedness witness. -/
abbrev ntOf {M K N : Nat}
    (wf : DotDims.WF (⟨2, ![M, K]⟩ : Shape) ⟨2, ![N, K]⟩ ⟨2, ![M, N]⟩ [1] [1] [0] [0] [] []) :
    DotDims (⟨2, ![M, K]⟩ : Shape) ⟨2, ![N, K]⟩ ⟨2, ![M, N]⟩ :=
  { lhsContracting := [1], rhsContracting := [1], lhsNonContracting := [0], rhsNonContracting := [0],
    lhsBatch := [], rhsBatch := [], wf := wf }

section NT
variable {M K N : Nat} (wf : DotDims.WF (⟨2, ![M, K]⟩ : Shape) ⟨2, ![N, K]⟩ ⟨2, ![M, N]⟩ [1] [1] [0] [0] [] [])

/-- The left operand's row is the result's row. -/
theorem nt_lhs_row (i : (⟨2, ![M, N]⟩ : Shape).Idx) (q : (ntOf wf).contr.Idx) :
    ((ntOf wf).lhsIdx i q 0).val = (i 0).val := by
  unfold DotDims.lhsIdx
  rw [dif_neg (show ¬(0 : Fin 2) ∈ (ntOf wf).lhsBatch from List.not_mem_nil),
    dif_pos (show (0 : Fin 2) ∈ (ntOf wf).lhsNonContracting from List.mem_singleton.mpr rfl)]
  rfl

/-- The right operand's row is the result's column. -/
theorem nt_rhs_row (i : (⟨2, ![M, N]⟩ : Shape).Idx) (q : (ntOf wf).contr.Idx) :
    ((ntOf wf).rhsIdx i q 0).val = (i 1).val := by
  unfold DotDims.rhsIdx
  rw [dif_neg (show ¬(0 : Fin 2) ∈ (ntOf wf).rhsBatch from List.not_mem_nil),
    dif_pos (show (0 : Fin 2) ∈ (ntOf wf).rhsNonContracting from List.mem_singleton.mpr rfl)]
  rfl

/-- The contraction sum of a rows-with-rows product at (i, j), re-indexed by the one contracted coordinate. -/
theorem nt_sum (l : (⟨2, ![M, K]⟩ : Shape).Idx → EReal) (r : (⟨2, ![N, K]⟩ : Shape).Idx → EReal)
    (i : Fin M) (j : Fin N) :
    ∑ q : (ntOf wf).contr.Idx, l ((ntOf wf).lhsIdx (ix2 i j) q) * r ((ntOf wf).rhsIdx (ix2 i j) q)
      = ∑ k : Fin K, l (ix2 i k) * r (ix2 j k) := by
  rw [← Equiv.sum_comp (contrEquiv1 (ntOf wf) K rfl rfl).symm]
  refine Finset.sum_congr rfl fun k _ => ?_
  have hk := contrEquiv1_symm_val (ntOf wf) K rfl rfl k
  have el : (ntOf wf).lhsIdx (ix2 i j) ((contrEquiv1 (ntOf wf) K rfl rfl).symm k) = ix2 i k :=
    funext fun a => Fin.ext (by
      match a with
      | ⟨0, _⟩ => exact nt_lhs_row wf _ _
      | ⟨1, _⟩ => exact ((ntOf wf).lhsIdx_val_of_single rfl _ _).trans hk)
  have er : (ntOf wf).rhsIdx (ix2 i j) ((contrEquiv1 (ntOf wf) K rfl rfl).symm k) = ix2 j k :=
    funext fun a => Fin.ext (by
      match a with
      | ⟨0, _⟩ => exact nt_rhs_row wf _ _
      | ⟨1, _⟩ => exact ((ntOf wf).rhsIdx_val_of_single rfl _ _).trans hk)
  rw [el, er]

/-- A rows-with-rows product on the vector unit into the zero accumulator, read at (i, j). -/
theorem matmul_zero_nt {φ₁ φ₂ : FTy} (prec : Option ContractPrecision)
    (l : FVec Ideal (⟨2, ![M, K]⟩ : Shape) φ₁) (r : FVec Ideal (⟨2, ![N, K]⟩ : Shape) φ₂) (i : Fin M) (j : Fin N) :
    FloatOps.matmul (ntOf wf) prec l r (constant (⟨2, ![M, N]⟩ : Shape) .f32 0x00000000#32) (ix2 i j)
      = ∑ k : Fin K, l (ix2 i k) * r (ix2 j k) :=
  (Ideal.matmul_constant_zero_apply (ntOf wf) prec l r (ix2 i j)).trans (nt_sum wf l r i j)

end NT

/-! ### Columns, rows and scalars spread over a matrix -/

section Layout
variable {α : Type}

/-- An `[a]` array cast to a column `[a, 1]` reads, at `(p, u)`, the operand at `p`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- An `[a]` array broadcast in dimension 0 to a column `[a, 1]` reads, at `(p, u)`, the operand at `p`. -/
theorem bcastInDim_a_a1_apply {a : ℕ} (x : (⟨1, ![a]⟩ : Shape).Idx → α)
    (h : (⟨1, ![a]⟩ : Shape).BroadcastsInDim ⟨2, ![a, 1]⟩ ![0]) (p : Fin a) (u : Fin 1) :
    broadcastInDim ⟨2, ![a, 1]⟩ ![0] h x (ix2 p u) = x (ix1 p) := by
  refine broadcastInDim_apply ![0] h x (ix2 p u) (ix1 p) fun ax => ?_
  match ax with
  | ⟨0, _⟩ =>
    show p.val = if a = 1 then 0 else p.val
    split
    · have := p.isLt; omega
    · rfl

/-- A column `[a, 1]` broadcast in dimensions (0, 1) to `[a, b]` reads, at `(p, c)`, the column's entry of row `p`. -/
theorem bcastInDim_a1_ab_apply {a b : ℕ} (x : (⟨2, ![a, 1]⟩ : Shape).Idx → α)
    (h : (⟨2, ![a, 1]⟩ : Shape).BroadcastsInDim ⟨2, ![a, b]⟩ ![0, 1]) (p : Fin a) (c : Fin b) :
    broadcastInDim ⟨2, ![a, b]⟩ ![0, 1] h x (ix2 p c) = x (ix2 p (0 : Fin 1)) := by
  refine broadcastInDim_apply ![0, 1] h x (ix2 p c) (ix2 p (0 : Fin 1)) fun ax => ?_
  match ax with
  | ⟨0, _⟩ =>
    show p.val = if a = 1 then 0 else p.val
    split
    · have := p.isLt; omega
    · rfl
  | ⟨1, _⟩ => rfl

/-- A `[b]` array broadcast in dimension 1 to a row `[1, b]` reads, at `(u, c)`, the operand at `c`. -/
theorem bcastInDim_b_1b_apply {b : ℕ} (x : (⟨1, ![b]⟩ : Shape).Idx → α)
    (h : (⟨1, ![b]⟩ : Shape).BroadcastsInDim ⟨2, ![1, b]⟩ ![1]) (u : Fin 1) (c : Fin b) :
    broadcastInDim ⟨2, ![1, b]⟩ ![1] h x (ix2 u c) = x (ix1 c) := by
  refine broadcastInDim_apply ![1] h x (ix2 u c) (ix1 c) fun ax => ?_
  match ax with
  | ⟨0, _⟩ =>
    show c.val = if b = 1 then 0 else c.val
    split
    · have := c.isLt; omega
    · rfl

/-- A row `[1, b]` broadcast in dimensions (0, 1) to `[a, b]` reads, at `(p, c)`, the row's entry of column `c`. -/
theorem bcastInDim_1b_ab_apply {a b : ℕ} (x : (⟨2, ![1, b]⟩ : Shape).Idx → α)
    (h : (⟨2, ![1, b]⟩ : Shape).BroadcastsInDim ⟨2, ![a, b]⟩ ![0, 1]) (p : Fin a) (c : Fin b) :
    broadcastInDim ⟨2, ![a, b]⟩ ![0, 1] h x (ix2 p c) = x (ix2 (0 : Fin 1) c) := by
  refine broadcastInDim_apply ![0, 1] h x (ix2 p c) (ix2 (0 : Fin 1) c) fun ax => ?_
  match ax with
  | ⟨0, _⟩ => rfl
  | ⟨1, _⟩ =>
    show c.val = if b = 1 then 0 else c.val
    split
    · have := c.isLt; omega
    · rfl

/-- A rank-zero array broadcast to any shape reads, everywhere, its one entry. -/
theorem bcastInDim_scalar_apply {t : Shape} (x : (⟨0, ![]⟩ : Shape).Idx → α)
    (h : (⟨0, ![]⟩ : Shape).BroadcastsInDim t ![]) (j : t.Idx) :
    broadcastInDim t ![] h x j = x ix0 :=
  broadcastInDim_apply ![] h x j ix0 fun ax => ax.elim0

end Layout

/-! ### A row sum and a row maximum, read at the row -/

section Rows
variable {a b : ℕ} {φ : FTy}

/-- The index a reduction over axis 1 of `[a, b]` inserts coordinate `k` into, at row `p`, is `(p, k)`. -/
theorem lift_row (h : Shape.Reduces (⟨2, ![a, b]⟩ : Shape) [1] ⟨1, ![a]⟩) (p : Fin a) (k : Fin b) :
    h.lift (ix1 p) k = ix2 p k :=
  funext fun d => Fin.ext (by
    match d with
    | ⟨0, _⟩ => rfl
    | ⟨1, _⟩ => rfl)

/-- A vector-unit sum over the columns of `[a, b]`, read at row `p`: the sum over `k` of the entries `(p, k)`. -/
theorem rowSum_multiReduction (src : FVec Ideal (⟨2, ![a, b]⟩ : Shape) φ) (acc : BitVec φ.bits)
    (h : Shape.Reduces (⟨2, ![a, b]⟩ : Shape) [1] ⟨1, ![a]⟩) (hφ : FKind.Formats φ) (hacc : acc = FKind.add.neutral φ hφ)
    (p : Fin a) :
    multiReduction .add [1] ⟨1, ![a]⟩ src acc h hφ hacc (ix1 p) = ∑ k : Fin b, src (ix2 p k) := by
  rw [Ideal.multiReduction_add_single]
  exact Finset.sum_congr rfl fun k _ => congrArg src (lift_row h p k)

/-- A vector-unit maximum over the columns of `[a, b]`, read at row `p`: the fold of `max` from the
    accumulator's value over the entries `(p, k)`. -/
theorem rowMax_multiReduction (src : FVec Ideal (⟨2, ![a, b]⟩ : Shape) φ) (acc : BitVec φ.bits)
    (h : Shape.Reduces (⟨2, ![a, b]⟩ : Shape) [1] ⟨1, ![a]⟩) (hφ : FKind.Formats φ)
    (hacc : acc = FKind.maximumf.neutral φ hφ) (p : Fin a) :
    multiReduction .maximumf [1] ⟨1, ![a]⟩ src acc h hφ hacc (ix1 p)
      = (Finset.univ : Finset (Fin b)).fold max (Ideal.ofBits φ acc) (fun k => src (ix2 p k)) := by
  have e : (src ∘ h.lift (ix1 p)) = fun k => src (ix2 p k) := funext fun k => congrArg src (lift_row h p k)
  rw [Ideal.multiReduction_maximumf_single, e]
  rfl

/-- The host's sum over the columns of `[a, b]` from a rank-zero initial value, read at row `p`: that value
    plus the sum over `k` of the entries `(p, k)`. -/
theorem rowSum_host (src : FVec Ideal (⟨2, ![a, b]⟩ : Shape) φ) (init : (⟨0, ![]⟩ : Shape).Idx → Ideal φ)
    (h' : Shape.ReducesTo (⟨2, ![a, b]⟩ : Shape) [1] ⟨1, ![a]⟩) (hu : 0 < (⟨0, ![]⟩ : Shape).numel)
    (h : Shape.Reduces (⟨2, ![a, b]⟩ : Shape) [1] ⟨1, ![a]⟩) (p : Fin a) :
    Host.reduceAdd (F := Ideal) src init h' hu (ix1 p) = init (Shape.Idx.first hu) + ∑ k : Fin b, src (ix2 p k) := by
  show Ideal.hostReduceAdd h' src (init (Shape.Idx.first hu)) (ix1 p) = _
  rw [Ideal.hostReduceAdd_single h' h]
  exact congrArg _ (Finset.sum_congr rfl fun k _ => congrArg src (lift_row h p k))

/-- The host's maximum over the columns of `[a, b]` from a rank-zero initial value, read at row `p`: the fold
    of `max` from that value over the entries `(p, k)`. -/
theorem rowMax_host (src : FVec Ideal (⟨2, ![a, b]⟩ : Shape) φ) (init : (⟨0, ![]⟩ : Shape).Idx → Ideal φ)
    (h' : Shape.ReducesTo (⟨2, ![a, b]⟩ : Shape) [1] ⟨1, ![a]⟩) (hu : 0 < (⟨0, ![]⟩ : Shape).numel)
    (h : Shape.Reduces (⟨2, ![a, b]⟩ : Shape) [1] ⟨1, ![a]⟩) (p : Fin a) :
    Host.reduce (FloatOps.maximumf (F := Ideal) (φ := φ)) src init h' hu (ix1 p)
      = (Finset.univ : Finset (Fin b)).fold max (init (Shape.Idx.first hu)) (fun k => src (ix2 p k)) := by
  have e : (src ∘ h.lift (ix1 p)) = fun k => src (ix2 p k) := funext fun k => congrArg src (lift_row h p k)
  rw [Host.reduce_eq_fold_single _ src init h' h hu, e]
  rfl

end Rows

end Cert.Bridge

end
-- ==== Proof.Layer0Norm.lean ====
/- The first layer's row normalisation as the reference writes it, for an ARBITRARY pre-normalisation array
   `hh : [256, 1024]`: at row `b` and feature `j`, `(hh (b, j) - mean) / √(var + e) · g j + β j` with the row mean and the
   row variance of divisor 1024 and `e` the small positive constant. The chain is cut into row sums, columns, spreads
   and rows, each read at an index. -/
import proofs.«114522_j54279796687469_2_alg».proof.Proof.RefTerm
import proofs.«114522_j54279796687469_2_alg».proof.Proof.LibConsts
import proofs.«114522_j54279796687469_2_alg».proof.Proof.Layer1Bridge.Ops
import proofs.«114522_j54279796687469_2_alg».proof.Proof.Layer1Bridge.Spec

noncomputable section

namespace Cert.Bridge

open Idealize.ShloMosaic Idealize.ShloMosaic.ValueIdx
open scoped BigOperators

/-- A sum over the second axis of `[256, 1024]` leaves `[256]`. -/
theorem reduces_S256x1024_S256 : Shape.Reduces (⟨2, ![256, 1024]⟩ : Shape) [1] ⟨1, ![256]⟩ := by decide

/-! ### The reference's chain -/

section Reference
open Cert.ReferenceIdeal Cert.ReferenceIdeal.Facts₀ Cert.ReferenceIdeal.Facts
variable [Cert.ReferenceIdeal.Facts]

/-- The host's sum along each row of `[256, 1024]`, from the initial value zero. -/
def rRowSum1024 (x : FVec Ideal S256x1024 .f32) : FVec Ideal S256 .f32 :=
  Host.reduceAdd (F := Ideal) x (constant (F := Ideal) S_ .f32 0x00000000#32) reducesTo_S256x1024_S256_d1 h_S_

theorem rRowSum1024_apply (x : FVec Ideal S256x1024 .f32) (b : Fin 256) :
    rRowSum1024 x (ix1 b) = ∑ k : Fin 1024, x (ix2 b k) := by
  unfold rRowSum1024
  refine (rowSum_host x _ _ _ reduces_S256x1024_S256 b).trans ?_
  show Ideal.ofBits .f32 0x00000000#32 + _ = _
  rw [Ideal.ofBits_zero_f32, zero_add]

/-- A vector `[256]` seen as a column `[256, 1]`. -/
def rColA (v : FVec Ideal S256 .f32) : FVec Ideal S256x1 .f32 := broadcastInDim S256x1 ![0] bcast_S256_S256x1_0 v

theorem rColA_apply (v : FVec Ideal S256 .f32) (b : Fin 256) (u : Fin 1) : rColA v (ix2 b u) = v (ix1 b) :=
  bcastInDim_a_a1_apply v _ b u

/-- A column `[256, 1]` spread over 1024 columns. -/
def rSpreadA (c : FVec Ideal S256x1 .f32) : FVec Ideal S256x1024 .f32 :=
  broadcastInDim S256x1024 ![0, 1] bcast_S256x1_S256x1024_0_1 c

theorem rSpreadA_apply (c : FVec Ideal S256x1 .f32) (b : Fin 256) (j : Fin 1024) :
    rSpreadA c (ix2 b j) = c (ix2 b (0 : Fin 1)) :=
  bcastInDim_a1_ab_apply c _ b j

/-- A vector `[1024]` seen as a row and spread down 256 rows. -/
def rRowA (g : FVec Ideal S1024 .f32) : FVec Ideal S256x1024 .f32 :=
  broadcastInDim S256x1024 ![0, 1] bcast_S1x1024_S256x1024_0_1 (broadcastInDim S1x1024 ![1] bcast_S1024_S1x1024_1 g)

theorem rRowA_apply (g : FVec Ideal S1024 .f32) (b : Fin 256) (j : Fin 1024) : rRowA g (ix2 b j) = g (ix1 j) :=
  (bcastInDim_1b_ab_apply _ _ b j).trans (bcastInDim_b_1b_apply g _ 0 j)

/-- The reference's column of row means, read at a row. -/
theorem meanA_apply (hh : FVec Ideal S256x1024 .f32) (b : Fin 256) (u : Fin 1) :
    RefTerm.meanA hh (ix2 b u) = rowMean (Ideal.ofBits .f32 0x44800000#32) (fun k => hh (ix2 b k)) := by
  show Ideal.div (rColA (rRowSum1024 hh) (ix2 b u)) (Ideal.ofBits .f32 0x44800000#32) = _
  rw [rColA_apply, rRowSum1024_apply]
  rfl

/-- The reference's deviations from the row mean. -/
def rDevA (hh : FVec Ideal S256x1024 .f32) : FVec Ideal S256x1024 .f32 := subf hh (rSpreadA (RefTerm.meanA hh))

theorem rDevA_apply (hh : FVec Ideal S256x1024 .f32) (b : Fin 256) (j : Fin 1024) :
    rDevA hh (ix2 b j) = hh (ix2 b j) - rowMean (Ideal.ofBits .f32 0x44800000#32) (fun k => hh (ix2 b k)) := by
  show hh (ix2 b j) - rSpreadA (RefTerm.meanA hh) (ix2 b j) = _
  rw [rSpreadA_apply, meanA_apply]

/-- The divisor the reference's variance spells, `1024 - 0` with the zero converted from an integer, is 1024. -/
theorem divisorA_eq :
    Ideal.ofBits .f32 0x44800000#32 - (((0#32 : BitVec 32).toInt : ℝ) : EReal) = Ideal.ofBits .f32 0x44800000#32 := by
  simp

/-- That divisor is greater than zero, so the reference's guard selects the quotient. -/
theorem guardA_eq :
    Ideal.cmp .ogt (Ideal.ofBits .f32 0x44800000#32) (Ideal.ofBits .f32 0x00000000#32) = 1#1 := by
  rw [Ideal.ofBits_zero_f32, LibConsts.ofBits_1024]
  have h : (0 : EReal) < ((1024 : ℝ) : EReal) := by exact_mod_cast (by norm_num : (0 : ℝ) < 1024)
  simp [Ideal.cmp, h]

/-- The reference's column of row variances, read at a row. -/
theorem varA_apply (hh : FVec Ideal S256x1024 .f32) (b : Fin 256) (u : Fin 1) :
    RefTerm.varA hh (ix2 b u) = rowVar (Ideal.ofBits .f32 0x44800000#32) (fun k => hh (ix2 b k)) := by
  show Scalar.select
      (Ideal.cmp .ogt (Ideal.ofBits .f32 0x44800000#32 - (((0#32 : BitVec 32).toInt : ℝ) : EReal))
        (Ideal.ofBits .f32 0x00000000#32))
      (Ideal.div (rColA (rRowSum1024 (mulf (rDevA hh) (rDevA hh))) (ix2 b u))
        (Ideal.ofBits .f32 0x44800000#32 - (((0#32 : BitVec 32).toInt : ℝ) : EReal)))
      (Ideal.ofBits .f32 0x7FC00000#32) = _
  rw [divisorA_eq, guardA_eq, select_one, rColA_apply, rRowSum1024_apply]
  simp only [mulf_apply, rDevA_apply]
  rfl

/-- The reference's normalisation for given columns of means and variances, read at an index. -/
theorem normA_apply (m v : FVec Ideal S256x1 .f32) (hh : FVec Ideal S256x1024 .f32) (g β : FVec Ideal S1024 .f32)
    (b : Fin 256) (j : Fin 1024) :
    RefTerm.normA m hh v g β (ix2 b j)
      = Ideal.div (hh (ix2 b j) - m (ix2 b (0 : Fin 1)))
          (Ideal.sqrt (v (ix2 b (0 : Fin 1)) + Ideal.ofBits .f32 0x3727C5AC#32)) * g (ix1 j) + β (ix1 j) := by
  show Ideal.div (hh (ix2 b j) - rSpreadA m (ix2 b j))
        (rSpreadA (Host.sqrt (F := Ideal) (addf v
          (broadcastInDim S256x1 ![] bcast_S_S256x1 (constant (F := Ideal) S_ .f32 0x3727C5AC#32)))) (ix2 b j))
        * rRowA g (ix2 b j) + rRowA β (ix2 b j) = _
  rw [rSpreadA_apply, rSpreadA_apply, rRowA_apply, rRowA_apply]
  rfl

/-- The reference's normalised rows from its own means and variances: the quotient form on the row. -/
theorem normA_full_apply (hh : FVec Ideal S256x1024 .f32) (g β : FVec Ideal S1024 .f32) (b : Fin 256) (j : Fin 1024) :
    RefTerm.normA (RefTerm.meanA hh) hh (RefTerm.varA hh) g β (ix2 b j)
      = lnDiv (Ideal.ofBits .f32 0x44800000#32) (Ideal.ofBits .f32 0x3727C5AC#32) (fun k => hh (ix2 b k))
          (fun k => g (ix1 k)) (fun k => β (ix1 k)) j := by
  rw [normA_apply, meanA_apply, varA_apply]
  rfl

end Reference

end Cert.Bridge

end
-- ==== Proof.Layer0Bridge.lean ====
/- The first layer's row normalisation, both programs, for an ARBITRARY pre-normalisation array `H : [256, 1024]`:
   the kernel program's host code computes `(H (b, j) - mean) · rsqrt (var + e) · g j + β j` with the variance taken as
   the mean of the squared deviations, the reference `(H (b, j) - mean) / √(var + e) · g j + β j`; the divisor is 1024
   and `e` the small positive constant, so the radicand is positive and the two agree. -/
import proofs.«114522_j54279796687469_2_alg».proof.Proof.KNorm
import proofs.«114522_j54279796687469_2_alg».proof.Proof.Layer0Norm

noncomputable section

namespace Cert.Bridge

open Idealize.ShloMosaic Idealize.ShloMosaic.ValueIdx
open scoped BigOperators

section Host
open Cert.ReferenceIdeal Cert.ReferenceIdeal.Facts₀ Cert.ReferenceIdeal.Facts
variable [Cert.ReferenceIdeal.Facts]

/-- The column of row variances taken as the row mean of the squared deviations. -/
def hostVarColA (H : FVec Ideal S256x1024 .f32) : FVec Ideal S256x1 .f32 :=
  Host.divf (F := Ideal) (rColA (rRowSum1024 (mulf (rDevA H) (rDevA H))))
    (broadcastInDim S256x1 ![] bcast_S_S256x1 (constant (F := Ideal) S_ .f32 0x44800000#32))

theorem hostVarColA_apply (H : FVec Ideal S256x1024 .f32) (b : Fin 256) (u : Fin 1) :
    hostVarColA H (ix2 b u) = rowVar (Ideal.ofBits .f32 0x44800000#32) (fun k => H (ix2 b k)) := by
  show Ideal.div (rColA (rRowSum1024 (mulf (rDevA H) (rDevA H))) (ix2 b u)) (Ideal.ofBits .f32 0x44800000#32) = _
  rw [rColA_apply, rRowSum1024_apply]
  simp only [mulf_apply, rDevA_apply]
  rfl

/-- The host code's normalised, scaled and shifted rows, read at an index: the product form on the row. -/
theorem kNormA_apply [Cert.KernelIdeal.Facts] (H : FVec Ideal S256x1024 .f32) (a3 a4 : FVec Ideal S1024 .f32)
    (b : Fin 256) (j : Fin 1024) :
    Cert.KernelIdeal.Hand.kNormA (F := Ideal) H a3 a4 (ix2 b j)
      = lnMul (Ideal.ofBits .f32 0x44800000#32) (Ideal.ofBits .f32 0x3727C5AC#32) (fun k => H (ix2 b k))
          (fun k => a3 (ix1 k)) (fun k => a4 (ix1 k)) j := by
  show rDevA H (ix2 b j)
        * rSpreadA (Host.rsqrt (F := Ideal) (addf (hostVarColA H)
            (broadcastInDim S256x1 ![] bcast_S_S256x1 (constant (F := Ideal) S_ .f32 0x3727C5AC#32)))) (ix2 b j)
        * rRowA a3 (ix2 b j) + rRowA a4 (ix2 b j) = _
  rw [rSpreadA_apply, rRowA_apply, rRowA_apply, rDevA_apply]
  show _ * Ideal.rsqrt (hostVarColA H (ix2 b (0 : Fin 1)) + Ideal.ofBits .f32 0x3727C5AC#32) * _ + _ = _
  rw [hostVarColA_apply]
  rfl

end Host

/-- For any pre-normalisation array the host code's normalised rows are the reference's. -/
theorem norm0_eq [Cert.KernelIdeal.Facts] [Cert.ReferenceIdeal.Facts] (H : FVec Ideal Cert.KernelIdeal.S256x1024 .f32)
    (a3 a4 : FVec Ideal Cert.KernelIdeal.S1024 .f32) :
    Cert.KernelIdeal.Hand.kNormA (F := Ideal) H a3 a4
      = Cert.ReferenceIdeal.RefTerm.normA (Cert.ReferenceIdeal.RefTerm.meanA H) H
          (Cert.ReferenceIdeal.RefTerm.varA H) a3 a4 := by
  funext idx
  obtain ⟨b, j, rfl⟩ : ∃ (b : Fin 256) (j : Fin 1024), idx = ix2 b j := ⟨idx 0, idx 1, eq_ix2 idx⟩
  rw [kNormA_apply, normA_full_apply]
  obtain ⟨ε, hε, he⟩ := LibConsts.ofBits_eps
  rw [LibConsts.ofBits_1024, he]
  exact (lnDiv_eq_lnMul (by norm_num) hε _ _ _ j).symm

end Cert.Bridge

end
-- ==== Proof.Layer1Bridge.Silu.lean ====
/- The gate `y · 1 / (1 + exp (-y))` in its two spellings — the vector unit's logistic against the host's
   negate, exponential, add-one and divide — at every index of any shape. -/
import Idealize.ShloMosaic.Lib.ValueIdx
import Idealize.ShloMosaic.Lib.Pipeline.Value
import proofs.«114522_j54279796687469_2_alg».proof.Proof.LibConsts
import proofs.«114522_j54279796687469_2_alg».proof.Proof.Layer1Bridge.Spec

noncomputable section

namespace Cert.Bridge

open Idealize.ShloMosaic Idealize.ShloMosaic.ValueIdx

/-- The vector unit's gate at an index. -/
theorem gate_kernel_apply {s : Shape} (x : FVec Ideal s .f32) (i : s.Idx) :
    mulf x (logistic x) i = gate (x i) := rfl

/-- The host's gate at an index: the two splats of the pattern of `1.0` are the number one. -/
theorem gate_host_apply {s : Shape} (bc : (⟨0, ![]⟩ : Shape).BroadcastsInDim s ![]) (x : FVec Ideal s .f32) (i : s.Idx) :
    mulf x (Host.divf (F := Ideal)
        (broadcastInDim s ![] bc (constant (F := Ideal) ⟨0, ![]⟩ .f32 0x3F800000#32))
        (addf (broadcastInDim s ![] bc (constant (F := Ideal) ⟨0, ![]⟩ .f32 0x3F800000#32))
          (Host.exp (F := Ideal) (Host.negf (F := Ideal) x)))) i
      = gate (x i) := by
  show x i * Ideal.div (Ideal.ofBits .f32 0x3F800000#32) (Ideal.ofBits .f32 0x3F800000#32 + Ideal.exp (-(x i))) = _
  rw [LibConsts.ofBits_one, EReal.coe_one]
  rfl

/-- The two spellings of the gate are one array. -/
theorem gate_eq {s : Shape} (bc : (⟨0, ![]⟩ : Shape).BroadcastsInDim s ![]) (x : FVec Ideal s .f32) :
    mulf x (logistic x)
      = mulf x (Host.divf (F := Ideal)
          (broadcastInDim s ![] bc (constant (F := Ideal) ⟨0, ![]⟩ .f32 0x3F800000#32))
          (addf (broadcastInDim s ![] bc (constant (F := Ideal) ⟨0, ![]⟩ .f32 0x3F800000#32))
            (Host.exp (F := Ideal) (Host.negf (F := Ideal) x)))) :=
  funext fun i => (gate_kernel_apply x i).trans (gate_host_apply bc x i).symm

end Cert.Bridge

end
-- ==== Proof.Layer0Pre.lean ====
/- The reference's first layer before its normalisation, read at row `b` and feature `n`:
   `(∑ f, gate (x (b, f)) · bw (n, f)) + ∑ g, basis (b, g) · pw (n, g)` — the host transposes each weight matrix
   and contracts plainly. -/
import proofs.«114522_j54279796687469_2_alg».proof.Proof.RefTerm
import proofs.«114522_j54279796687469_2_alg».proof.Proof.Layer1Bridge.Ops
import proofs.«114522_j54279796687469_2_alg».proof.Proof.Layer1Bridge.Silu

noncomputable section

namespace Cert.Bridge

open Idealize.ShloMosaic Idealize.ShloMosaic.ValueIdx
open scoped BigOperators

section Reference
open Cert.ReferenceIdeal Cert.ReferenceIdeal.Facts₀ Cert.ReferenceIdeal.Facts
variable [Cert.ReferenceIdeal.Facts]

/-- The reference's first-layer sums at an index. -/
theorem pre0_apply (a0 : FVec Ideal S256x50176 .f32) (a1 : FVec Ideal S1024x50176 .f32)
    (a2 : FVec Ideal S1024x200704 .f32) (bs : FVec Ideal S256x200704 .f32) (b : Fin 256) (n : Fin 1024) :
    RefTerm.preA a2 bs (RefTerm.baseA a1 (RefTerm.siluA a0)) (ix2 b n)
      = (∑ f : Fin 50176, gate (a0 (ix2 b f)) * a1 (ix2 n f)) + ∑ g : Fin 200704, bs (ix2 b g) * a2 (ix2 n g) := by
  show Host.dotGeneral (F := Ideal) dot_S256x50176_S50176x1024_S256x1024_1_0_0_1_n_n none (RefTerm.siluA a0)
        (transpose S50176x1024 [1, 0] a1 transposes_S1024x50176_S50176x1024_1_0) (ix2 b n)
      + Host.dotGeneral (F := Ideal) dot_S256x200704_S200704x1024_S256x1024_1_0_0_1_n_n none bs
        (transpose S200704x1024 [1, 0] a2 transposes_S1024x200704_S200704x1024_1_0) (ix2 b n) = _
  refine congrArg₂ (· + ·) ?_ ?_
  · refine (LibDense.dotGeneral_plain _ none .single (RefTerm.siluA a0)
      (transpose S50176x1024 [1, 0] a1 transposes_S1024x50176_S50176x1024_1_0) b n).trans ?_
    exact Finset.sum_congr rfl fun f _ =>
      congrArg₂ (· * ·) (gate_host_apply bcast_S_S256x50176 a0 (ix2 b f)) (transpose_ix2_apply a1 _ f n)
  · refine (LibDense.dotGeneral_plain _ none .single bs
      (transpose S200704x1024 [1, 0] a2 transposes_S1024x200704_S200704x1024_1_0) b n).trans ?_
    exact Finset.sum_congr rfl fun g _ => congrArg (bs (ix2 b g) * ·) (transpose_ix2_apply a2 _ g n)

end Reference

end Cert.Bridge

end
-- ==== Proof.Layer1Bridge.Pre.lean ====
/- The second layer before its normalisation, both programs: at row `b` and feature `j`,
   `(∑ k, gate (h (b, k)) · bw (j, k)) + ∑ k, basis (b, k) · pw (j, k)`. The kernel contracts the second axis of both
   operands on the vector unit into a zero accumulator; the reference transposes the weights and contracts plainly
   on the host; the format changes on the way are the identity on the extended reals. -/
import proofs.«114522_j54279796687469_2_alg».proof.Proof.Gen.KernelIdeal.Skeleton
import proofs.«114522_j54279796687469_2_alg».proof.Proof.RefTerm
import proofs.«114522_j54279796687469_2_alg».proof.Proof.Layer1Bridge.Ops
import proofs.«114522_j54279796687469_2_alg».proof.Proof.Layer1Bridge.Silu

noncomputable section

namespace Cert.Bridge

open Idealize.ShloMosaic Idealize.ShloMosaic.ValueIdx
open scoped BigOperators

section Kernel
open Cert.KernelIdeal Cert.KernelIdeal.Gen

/-- The kernel's sum of the two products. -/
def kPre (v0 : FVec Ideal S256x1024 .f32) (v5 : FVec Ideal S128x1024 .f32) (v8 : FVec Ideal S256x4096 .bf16)
    (v10 : FVec Ideal S128x4096 .f32) : FVec Ideal S256x128 .f32 :=
  addf
    (matmul dot_S256x1024_S128x1024_S256x128_1_1_0_0_n_n none
      (truncf .bf16 (mulf (shapeCast S256x1024 v0 shapeCasts_S256x1024_S256x1024)
        (logistic (shapeCast S256x1024 v0 shapeCasts_S256x1024_S256x1024))) bitsLt_bf16_f32)
      (truncf .bf16 v5 bitsLt_bf16_f32) (constant S256x128 .f32 0x00000000#32))
    (matmul dot_S256x4096_S128x4096_S256x128_1_1_0_0_n_n none
      (shapeCast S256x4096 v8 shapeCasts_S256x4096_S256x4096)
      (truncf .bf16 v10 bitsLt_bf16_f32) (constant S256x128 .f32 0x00000000#32))

theorem kPre_apply (v0 : FVec Ideal S256x1024 .f32) (v5 : FVec Ideal S128x1024 .f32) (v8 : FVec Ideal S256x4096 .bf16)
    (v10 : FVec Ideal S128x4096 .f32) (b : Fin 256) (j : Fin 128) :
    kPre v0 v5 v8 v10 (ix2 b j)
      = (∑ k : Fin 1024, gate (v0 (ix2 b k)) * v5 (ix2 j k)) + ∑ k : Fin 4096, v8 (ix2 b k) * v10 (ix2 j k) := by
  unfold kPre
  rw [shapeCast_self, shapeCast_self, addf_apply]
  refine congrArg₂ (· + ·) ?_ ?_
  · exact matmul_zero_nt _ none (truncf .bf16 (mulf v0 (logistic v0)) bitsLt_bf16_f32)
      (truncf .bf16 v5 bitsLt_bf16_f32) b j
  · exact matmul_zero_nt _ none v8 (truncf .bf16 v10 bitsLt_bf16_f32) b j

end Kernel

section Reference
open Cert.ReferenceIdeal Cert.ReferenceIdeal.Facts₀ Cert.ReferenceIdeal.Facts
variable [Cert.ReferenceIdeal.Facts]

theorem rPre_apply (h : FVec Ideal S256x1024 .f32) (a5 : FVec Ideal S128x1024 .f32) (bs : FVec Ideal S256x4096 .f32)
    (a6 : FVec Ideal S128x4096 .f32) (b : Fin 256) (j : Fin 128) :
    RefTerm.preB a6 bs (RefTerm.baseB a5 (RefTerm.siluB h)) (ix2 b j)
      = (∑ k : Fin 1024, gate (h (ix2 b k)) * a5 (ix2 j k)) + ∑ k : Fin 4096, bs (ix2 b k) * a6 (ix2 j k) := by
  show Host.dotGeneral (F := Ideal) dot_S256x1024_S1024x128_S256x128_1_0_0_1_n_n none (RefTerm.siluB h)
        (transpose S1024x128 [1, 0] a5 transposes_S128x1024_S1024x128_1_0) (ix2 b j)
      + Host.dotGeneral (F := Ideal) dot_S256x4096_S4096x128_S256x128_1_0_0_1_n_n none bs
        (transpose S4096x128 [1, 0] a6 transposes_S128x4096_S4096x128_1_0) (ix2 b j) = _
  refine congrArg₂ (· + ·) ?_ ?_
  · refine (LibDense.dotGeneral_plain _ none .single (RefTerm.siluB h)
      (transpose S1024x128 [1, 0] a5 transposes_S128x1024_S1024x128_1_0) b j).trans ?_
    exact Finset.sum_congr rfl fun k _ =>
      congrArg₂ (· * ·) (gate_host_apply bcast_S_S256x1024 h (ix2 b k)) (transpose_ix2_apply a5 _ k j)
  · refine (LibDense.dotGeneral_plain _ none .single bs
      (transpose S4096x128 [1, 0] a6 transposes_S128x4096_S4096x128_1_0) b j).trans ?_
    exact Finset.sum_congr rfl fun k _ => congrArg (bs (ix2 b k) * ·) (transpose_ix2_apply a6 _ k j)

end Reference

/-- The kernel's pre-normalisation array is the reference's, when the two programs' basis arrays agree entry
    by entry (the kernel holds it in a narrower format, which changes nothing here). -/
theorem pre_eq [Cert.ReferenceIdeal.Facts] (h : FVec Ideal Cert.KernelIdeal.S256x1024 .f32)
    (a5 : FVec Ideal Cert.KernelIdeal.S128x1024 .f32) (bsK : FVec Ideal Cert.KernelIdeal.S256x4096 .bf16)
    (bsR : FVec Ideal Cert.KernelIdeal.S256x4096 .f32) (hbs : ∀ i, bsK i = bsR i)
    (a6 : FVec Ideal Cert.KernelIdeal.S128x4096 .f32) :
    kPre h a5 bsK a6
      = Cert.ReferenceIdeal.RefTerm.preB a6 bsR
          (Cert.ReferenceIdeal.RefTerm.baseB a5 (Cert.ReferenceIdeal.RefTerm.siluB h)) := by
  funext idx
  obtain ⟨b, j, rfl⟩ : ∃ (b : Fin 256) (j : Fin 128), idx = ix2 b j := ⟨idx 0, idx 1, eq_ix2 idx⟩
  rw [kPre_apply, rPre_apply]
  exact congrArg _ (Finset.sum_congr rfl fun k _ => congrArg (· * a6 (ix2 j k)) (hbs (ix2 b k)))

end Cert.Bridge

end
-- ==== Proof.Layer1Bridge.Norm.lean ====
/- The second layer's row normalisation, both programs, for an ARBITRARY pre-normalisation array `hh : [256, 128]`:
   at row `b` and feature `j` the kernel computes `(hh (b, j) - mean) · rsqrt (var + e) · g j + β j` and the reference
   `(hh (b, j) - mean) / √(var + e) · g j + β j`, with the row mean and the row variance of divisor 128 and `e` the
   small positive constant; the two agree because the radicand is positive. Each program's chain is cut into row
   sums, columns, spreads and rows, each read at an index. -/
import proofs.«114522_j54279796687469_2_alg».proof.Proof.Gen.KernelIdeal.Skeleton
import proofs.«114522_j54279796687469_2_alg».proof.Proof.RefTerm
import proofs.«114522_j54279796687469_2_alg».proof.Proof.LibConsts
import proofs.«114522_j54279796687469_2_alg».proof.Proof.Layer1Bridge.Ops
import proofs.«114522_j54279796687469_2_alg».proof.Proof.Layer1Bridge.Spec

noncomputable section

namespace Cert.Bridge

open Idealize.ShloMosaic Idealize.ShloMosaic.ValueIdx
open scoped BigOperators

/-! ### The kernel's chain -/

section Kernel
open Cert.KernelIdeal Cert.KernelIdeal.Gen

/-- The vector unit's sum along each row of `[256, 128]`. -/
def kRowSum128 (x : FVec Ideal S256x128 .f32) : FVec Ideal S256 .f32 :=
  multiReduction .add [1] S256 x 0x00000000#32 reduces_S256x128_S256 (.inl rfl) rfl

theorem kRowSum128_apply (x : FVec Ideal S256x128 .f32) (b : Fin 256) :
    kRowSum128 x (ix1 b) = ∑ k : Fin 128, x (ix2 b k) :=
  rowSum_multiReduction x _ _ _ _ b

/-- A vector `[256]` seen as a column `[256, 1]`. -/
def kCol (v : FVec Ideal S256 .f32) : FVec Ideal S256x1 .f32 := shapeCast S256x1 v shapeCasts_S256_S256x1

theorem kCol_apply (v : FVec Ideal S256 .f32) (b : Fin 256) (u : Fin 1) : kCol v (ix2 b u) = v (ix1 b) :=
  shapeCast_a_a1_apply v _ b u

/-- A column `[256, 1]` spread over 128 columns. -/
def kSpread (c : FVec Ideal S256x1 .f32) : FVec Ideal S256x128 .f32 :=
  broadcastTo S256x128 c broadcasts_S256x1_S256x128

theorem kSpread_apply (c : FVec Ideal S256x1 .f32) (b : Fin 256) (j : Fin 128) :
    kSpread c (ix2 b j) = c (ix2 b (0 : Fin 1)) :=
  LibDense.spread_col_apply c _ b j

/-- A vector `[128]` seen as a row and spread down 256 rows. -/
def kRow (g : FVec Ideal S128 .f32) : FVec Ideal S256x128 .f32 :=
  broadcastTo S256x128 (shapeCast S1x128 g shapeCasts_S128_S1x128) broadcasts_S1x128_S256x128

theorem kRow_apply (g : FVec Ideal S128 .f32) (b : Fin 256) (j : Fin 128) : kRow g (ix2 b j) = g (ix1 j) :=
  (broadcastTo_1b_ab_apply _ _ b j).trans (shapeCast_a_1a_apply g _ 0 j)

/-- The kernel's column of row means. -/
def kMeanCol (hh : FVec Ideal S256x128 .f32) : FVec Ideal S256x1 .f32 :=
  divf (kCol (kRowSum128 hh)) (broadcast S256x1 (Scalar.ofBits (F := Ideal) .f32 0x43000000#32))

theorem kMeanCol_apply (hh : FVec Ideal S256x128 .f32) (b : Fin 256) (u : Fin 1) :
    kMeanCol hh (ix2 b u) = rowMean (Ideal.ofBits .f32 0x43000000#32) (fun k => hh (ix2 b k)) := by
  show Ideal.div (kCol (kRowSum128 hh) (ix2 b u)) (Ideal.ofBits .f32 0x43000000#32) = _
  rw [kCol_apply, kRowSum128_apply]
  rfl

/-- The kernel's deviations from the row mean. -/
def kDev (hh : FVec Ideal S256x128 .f32) : FVec Ideal S256x128 .f32 := subf hh (kSpread (kMeanCol hh))

theorem kDev_apply (hh : FVec Ideal S256x128 .f32) (b : Fin 256) (j : Fin 128) :
    kDev hh (ix2 b j) = hh (ix2 b j) - rowMean (Ideal.ofBits .f32 0x43000000#32) (fun k => hh (ix2 b k)) := by
  show hh (ix2 b j) - kSpread (kMeanCol hh) (ix2 b j) = _
  rw [kSpread_apply, kMeanCol_apply]

/-- The kernel's column of row variances. -/
def kVarCol (hh : FVec Ideal S256x128 .f32) : FVec Ideal S256x1 .f32 :=
  divf (kCol (kRowSum128 (mulf (kDev hh) (kDev hh))))
    (broadcast S256x1 (Scalar.ofBits (F := Ideal) .f32 0x43000000#32))

theorem kVarCol_apply (hh : FVec Ideal S256x128 .f32) (b : Fin 256) (u : Fin 1) :
    kVarCol hh (ix2 b u) = rowVar (Ideal.ofBits .f32 0x43000000#32) (fun k => hh (ix2 b k)) := by
  show Ideal.div (kCol (kRowSum128 (mulf (kDev hh) (kDev hh))) (ix2 b u)) (Ideal.ofBits .f32 0x43000000#32) = _
  rw [kCol_apply, kRowSum128_apply]
  simp only [mulf_apply, kDev_apply]
  rfl

/-- The kernel's normalised, scaled and shifted rows. -/
def kNorm (hh : FVec Ideal S256x128 .f32) (g β : FVec Ideal S128 .f32) : FVec Ideal S256x128 .f32 :=
  addf (mulf (mulf (kDev hh)
      (kSpread (rsqrt (addf (kVarCol hh) (broadcast S256x1 (Scalar.ofBits (F := Ideal) .f32 0x3727C5AC#32))))))
    (kRow g)) (kRow β)

theorem kNorm_apply (hh : FVec Ideal S256x128 .f32) (g β : FVec Ideal S128 .f32) (b : Fin 256) (j : Fin 128) :
    kNorm hh g β (ix2 b j)
      = lnMul (Ideal.ofBits .f32 0x43000000#32) (Ideal.ofBits .f32 0x3727C5AC#32) (fun k => hh (ix2 b k))
          (fun k => g (ix1 k)) (fun k => β (ix1 k)) j := by
  show kDev hh (ix2 b j)
        * kSpread (rsqrt (addf (kVarCol hh) (broadcast S256x1 (Scalar.ofBits (F := Ideal) .f32 0x3727C5AC#32)))) (ix2 b j)
        * kRow g (ix2 b j) + kRow β (ix2 b j) = _
  rw [kSpread_apply, kRow_apply, kRow_apply, kDev_apply]
  show _ * Ideal.rsqrt (kVarCol hh (ix2 b (0 : Fin 1)) + Ideal.ofBits .f32 0x3727C5AC#32) * _ + _ = _
  rw [kVarCol_apply]
  rfl

end Kernel

/-! ### The reference's chain -/

section Reference
open Cert.ReferenceIdeal Cert.ReferenceIdeal.Facts₀ Cert.ReferenceIdeal.Facts
variable [Cert.ReferenceIdeal.Facts]

/-- The host's sum along each row of `[256, 128]`, from the initial value zero. -/
def rRowSum128 (x : FVec Ideal S256x128 .f32) : FVec Ideal S256 .f32 :=
  Host.reduceAdd (F := Ideal) x (constant (F := Ideal) S_ .f32 0x00000000#32) reducesTo_S256x128_S256_d1 h_S_

theorem rRowSum128_apply (x : FVec Ideal S256x128 .f32) (b : Fin 256) :
    rRowSum128 x (ix1 b) = ∑ k : Fin 128, x (ix2 b k) := by
  unfold rRowSum128
  refine (rowSum_host x _ _ _ Cert.KernelIdeal.Gen.reduces_S256x128_S256 b).trans ?_
  show Ideal.ofBits .f32 0x00000000#32 + _ = _
  rw [Ideal.ofBits_zero_f32, zero_add]

/-- A vector `[256]` seen as a column `[256, 1]`. -/
def rCol (v : FVec Ideal S256 .f32) : FVec Ideal S256x1 .f32 := broadcastInDim S256x1 ![0] bcast_S256_S256x1_0 v

theorem rCol_apply (v : FVec Ideal S256 .f32) (b : Fin 256) (u : Fin 1) : rCol v (ix2 b u) = v (ix1 b) :=
  bcastInDim_a_a1_apply v _ b u

/-- A column `[256, 1]` spread over 128 columns. -/
def rSpread (c : FVec Ideal S256x1 .f32) : FVec Ideal S256x128 .f32 :=
  broadcastInDim S256x128 ![0, 1] bcast_S256x1_S256x128_0_1 c

theorem rSpread_apply (c : FVec Ideal S256x1 .f32) (b : Fin 256) (j : Fin 128) :
    rSpread c (ix2 b j) = c (ix2 b (0 : Fin 1)) :=
  bcastInDim_a1_ab_apply c _ b j

/-- A vector `[128]` seen as a row and spread down 256 rows. -/
def rRow (g : FVec Ideal S128 .f32) : FVec Ideal S256x128 .f32 :=
  broadcastInDim S256x128 ![0, 1] bcast_S1x128_S256x128_0_1 (broadcastInDim S1x128 ![1] bcast_S128_S1x128_1 g)

theorem rRow_apply (g : FVec Ideal S128 .f32) (b : Fin 256) (j : Fin 128) : rRow g (ix2 b j) = g (ix1 j) :=
  (bcastInDim_1b_ab_apply _ _ b j).trans (bcastInDim_b_1b_apply g _ 0 j)

/-- The reference's column of row means, read at a row. -/
theorem meanB_apply (hh : FVec Ideal S256x128 .f32) (b : Fin 256) (u : Fin 1) :
    RefTerm.meanB hh (ix2 b u) = rowMean (Ideal.ofBits .f32 0x43000000#32) (fun k => hh (ix2 b k)) := by
  show Ideal.div (rCol (rRowSum128 hh) (ix2 b u)) (Ideal.ofBits .f32 0x43000000#32) = _
  rw [rCol_apply, rRowSum128_apply]
  rfl

/-- The reference's deviations from the row mean. -/
def rDev (hh : FVec Ideal S256x128 .f32) : FVec Ideal S256x128 .f32 := subf hh (rSpread (RefTerm.meanB hh))

theorem rDev_apply (hh : FVec Ideal S256x128 .f32) (b : Fin 256) (j : Fin 128) :
    rDev hh (ix2 b j) = hh (ix2 b j) - rowMean (Ideal.ofBits .f32 0x43000000#32) (fun k => hh (ix2 b k)) := by
  show hh (ix2 b j) - rSpread (RefTerm.meanB hh) (ix2 b j) = _
  rw [rSpread_apply, meanB_apply]

/-- The divisor the reference's variance spells, `128 - 0` with the zero converted from an integer, is 128. -/
theorem divisor_eq :
    Ideal.ofBits .f32 0x43000000#32 - (((0#32 : BitVec 32).toInt : ℝ) : EReal) = Ideal.ofBits .f32 0x43000000#32 := by
  simp

/-- That divisor is greater than zero, so the reference's guard selects the quotient. -/
theorem guard_eq :
    Ideal.cmp .ogt (Ideal.ofBits .f32 0x43000000#32) (Ideal.ofBits .f32 0x00000000#32) = 1#1 := by
  rw [Ideal.ofBits_zero_f32, LibConsts.ofBits_128]
  have h : (0 : EReal) < ((128 : ℝ) : EReal) := by exact_mod_cast (by norm_num : (0 : ℝ) < 128)
  simp [Ideal.cmp, h]

/-- The reference's column of row variances, read at a row. -/
theorem varB_apply (hh : FVec Ideal S256x128 .f32) (b : Fin 256) (u : Fin 1) :
    RefTerm.varB hh (ix2 b u) = rowVar (Ideal.ofBits .f32 0x43000000#32) (fun k => hh (ix2 b k)) := by
  show Scalar.select
      (Ideal.cmp .ogt (Ideal.ofBits .f32 0x43000000#32 - (((0#32 : BitVec 32).toInt : ℝ) : EReal))
        (Ideal.ofBits .f32 0x00000000#32))
      (Ideal.div (rCol (rRowSum128 (mulf (rDev hh) (rDev hh))) (ix2 b u))
        (Ideal.ofBits .f32 0x43000000#32 - (((0#32 : BitVec 32).toInt : ℝ) : EReal)))
      (Ideal.ofBits .f32 0x7FC00000#32) = _
  rw [divisor_eq, guard_eq, select_one, rCol_apply, rRowSum128_apply]
  simp only [mulf_apply, rDev_apply]
  rfl

/-- The reference's normalisation for given columns of means and variances, read at an index. -/
theorem normB_apply (m v : FVec Ideal S256x1 .f32) (hh : FVec Ideal S256x128 .f32) (g β : FVec Ideal S128 .f32)
    (b : Fin 256) (j : Fin 128) :
    RefTerm.normB m hh v g β (ix2 b j)
      = Ideal.div (hh (ix2 b j) - m (ix2 b (0 : Fin 1)))
          (Ideal.sqrt (v (ix2 b (0 : Fin 1)) + Ideal.ofBits .f32 0x3727C5AC#32)) * g (ix1 j) + β (ix1 j) := by
  show Ideal.div (hh (ix2 b j) - rSpread m (ix2 b j))
        (rSpread (Host.sqrt (F := Ideal) (addf v
          (broadcastInDim S256x1 ![] bcast_S_S256x1 (constant (F := Ideal) S_ .f32 0x3727C5AC#32)))) (ix2 b j))
        * rRow g (ix2 b j) + rRow β (ix2 b j) = _
  rw [rSpread_apply, rSpread_apply, rRow_apply, rRow_apply]
  rfl

/-- The reference's normalised rows from its own means and variances: the quotient form on the row. -/
theorem normB_full_apply (hh : FVec Ideal S256x128 .f32) (g β : FVec Ideal S128 .f32) (b : Fin 256) (j : Fin 128) :
    RefTerm.normB (RefTerm.meanB hh) hh (RefTerm.varB hh) g β (ix2 b j)
      = lnDiv (Ideal.ofBits .f32 0x43000000#32) (Ideal.ofBits .f32 0x3727C5AC#32) (fun k => hh (ix2 b k))
          (fun k => g (ix1 k)) (fun k => β (ix1 k)) j := by
  rw [normB_apply, meanB_apply, varB_apply]
  rfl

end Reference

/-! ### The two chains agree -/

/-- For any pre-normalisation array the kernel's normalised rows are the reference's. -/
theorem norm_eq [Cert.ReferenceIdeal.Facts] (hh : FVec Ideal Cert.KernelIdeal.S256x128 .f32)
    (g β : FVec Ideal Cert.KernelIdeal.S128 .f32) :
    kNorm hh g β
      = Cert.ReferenceIdeal.RefTerm.normB (Cert.ReferenceIdeal.RefTerm.meanB hh) hh
          (Cert.ReferenceIdeal.RefTerm.varB hh) g β := by
  funext idx
  obtain ⟨b, j, rfl⟩ : ∃ (b : Fin 256) (j : Fin 128), idx = ix2 b j := ⟨idx 0, idx 1, eq_ix2 idx⟩
  rw [kNorm_apply, normB_full_apply]
  obtain ⟨ε, hε, he⟩ := LibConsts.ofBits_eps
  rw [LibConsts.ofBits_128, he]
  exact (lnDiv_eq_lnMul (by norm_num) hε _ _ _ j).symm

end Cert.Bridge

end
-- ==== Proof.Layer1Bridge.Head.lean ====
/- The output layer and the row softmax, both programs: the logits `(∑ k, y (b, k) · w (c, k)) + bias c` and,
   with `m` the row maximum from the floor `-∞`, the entries `exp (z c - m) / ∑ exp (z k - m)`. Each program's
   chain is cut into the logits, the row maximum, the exponentials, the row sum and the quotient; each piece is
   read at an index; the two chains are then the same function of the same arrays. -/
import proofs.«114522_j54279796687469_2_alg».proof.Proof.Gen.KernelIdeal.Skeleton
import proofs.«114522_j54279796687469_2_alg».proof.Proof.RefTerm
import proofs.«114522_j54279796687469_2_alg».proof.Proof.Layer1Bridge.Ops
import proofs.«114522_j54279796687469_2_alg».proof.Proof.Layer1Bridge.Spec

noncomputable section

namespace Cert.Bridge

open Idealize.ShloMosaic Idealize.ShloMosaic.ValueIdx
open scoped BigOperators

/-! ### The kernel's chain -/

section Kernel
open Cert.KernelIdeal Cert.KernelIdeal.Gen

/-- A vector `[256]` seen as a column and spread over the two columns of `[256, 2]`. -/
def kKeep2 (v : FVec Ideal S256 .f32) : FVec Ideal S256x2 .f32 :=
  broadcastTo S256x2 (shapeCast S256x1 v shapeCasts_S256_S256x1) broadcasts_S256x1_S256x2

theorem kKeep2_apply (v : FVec Ideal S256 .f32) (b : Fin 256) (c : Fin 2) : kKeep2 v (ix2 b c) = v (ix1 b) :=
  (LibDense.spread_col_apply _ _ b c).trans (shapeCast_a_a1_apply v _ b 0)

/-- The kernel's logits. -/
def kLogits (v41 : FVec Ideal S256x128 .f32) (v43 : FVec Ideal S2x128 .f32) (v46 : FVec Ideal S2 .f32) :
    FVec Ideal S256x2 .f32 :=
  addf (matmul dot_S256x128_S2x128_S256x2_1_1_0_0_n_n none (truncf .bf16 v41 bitsLt_bf16_f32)
      (truncf .bf16 v43 bitsLt_bf16_f32) (constant S256x2 .f32 0x00000000#32))
    (broadcastTo S256x2 (shapeCast S1x2 v46 shapeCasts_S2_S1x2) broadcasts_S1x2_S256x2)

theorem kLogits_apply (v41 : FVec Ideal S256x128 .f32) (v43 : FVec Ideal S2x128 .f32) (v46 : FVec Ideal S2 .f32)
    (b : Fin 256) (c : Fin 2) :
    kLogits v41 v43 v46 (ix2 b c) = (∑ k : Fin 128, v41 (ix2 b k) * v43 (ix2 c k)) + v46 (ix1 c) := by
  unfold kLogits
  rw [addf_apply]
  refine congrArg₂ (· + ·) ?_ ?_
  · exact matmul_zero_nt _ none (truncf .bf16 v41 bitsLt_bf16_f32) (truncf .bf16 v43 bitsLt_bf16_f32) b c
  · exact (broadcastTo_1b_ab_apply _ _ b c).trans (shapeCast_a_1a_apply v46 _ 0 c)

/-- The kernel's row maximum from the floor. -/
def kRowMax (z : FVec Ideal S256x2 .f32) : FVec Ideal S256 .f32 :=
  maximumf (broadcast S256 (Scalar.ofBits (F := Ideal) .f32 0xFF800000#32))
    (multiReduction .maximumf [1] S256 z 0xFF800000#32 reduces_S256x2_S256 (.inl rfl) rfl)

theorem kRowMax_apply (z : FVec Ideal S256x2 .f32) (b : Fin 256) :
    kRowMax z (ix1 b) = max (Ideal.ofBits .f32 0xFF800000#32)
      ((Finset.univ : Finset (Fin 2)).fold max (Ideal.ofBits .f32 0xFF800000#32) (fun k => z (ix2 b k))) := by
  unfold kRowMax
  exact congrArg (max (Ideal.ofBits .f32 0xFF800000#32)) (rowMax_multiReduction z _ _ _ _ b)

/-- The kernel's exponentials of the row-shifted logits. -/
def kExp (z : FVec Ideal S256x2 .f32) : FVec Ideal S256x2 .f32 := exp (subf z (kKeep2 (kRowMax z)))

theorem kExp_apply (z : FVec Ideal S256x2 .f32) (b : Fin 256) (c : Fin 2) :
    kExp z (ix2 b c) = Ideal.exp (z (ix2 b c) - max (Ideal.ofBits .f32 0xFF800000#32)
      ((Finset.univ : Finset (Fin 2)).fold max (Ideal.ofBits .f32 0xFF800000#32) (fun k => z (ix2 b k)))) := by
  show Ideal.exp (z (ix2 b c) - kKeep2 (kRowMax z) (ix2 b c)) = _
  rw [kKeep2_apply, kRowMax_apply]

/-- The kernel's row sum. -/
def kRowSum (e : FVec Ideal S256x2 .f32) : FVec Ideal S256 .f32 :=
  multiReduction .add [1] S256 e 0x00000000#32 reduces_S256x2_S256 (.inl rfl) rfl

theorem kRowSum_apply (e : FVec Ideal S256x2 .f32) (b : Fin 256) : kRowSum e (ix1 b) = ∑ k : Fin 2, e (ix2 b k) :=
  rowSum_multiReduction e _ _ _ _ b

/-- The kernel's softmax of given logits. -/
def kSoftmax (z : FVec Ideal S256x2 .f32) : FVec Ideal S256x2 .f32 := divf (kExp z) (kKeep2 (kRowSum (kExp z)))

theorem kSoftmax_apply (z : FVec Ideal S256x2 .f32) (b : Fin 256) (c : Fin 2) :
    kSoftmax z (ix2 b c) = softmaxRow (Ideal.ofBits .f32 0xFF800000#32) (fun k => z (ix2 b k)) c := by
  show Ideal.div (kExp z (ix2 b c)) (kKeep2 (kRowSum (kExp z)) (ix2 b c)) = _
  rw [kKeep2_apply, kRowSum_apply]
  simp only [kExp_apply]
  rfl

/-- The kernel's stored value is its softmax of its logits. -/
theorem k1_pay1_eq (v41 : FVec Ideal S256x128 .f32) (v43 : FVec Ideal S2x128 .f32) (v46 : FVec Ideal S2 .f32) :
    k1_pay1 (F := Ideal) v41 v43 v46 = kSoftmax (kLogits v41 v43 v46) := rfl

end Kernel

/-! ### The reference's chain -/

section Reference
open Cert.ReferenceIdeal Cert.ReferenceIdeal.Facts₀ Cert.ReferenceIdeal.Facts
variable [Cert.ReferenceIdeal.Facts]

/-- A vector `[256]` seen as a column and spread over the two columns of `[256, 2]`. -/
def rKeep2 (v : FVec Ideal S256 .f32) : FVec Ideal S256x2 .f32 :=
  broadcastInDim S256x2 ![0, 1] bcast_S256x1_S256x2_0_1 (broadcastInDim S256x1 ![0] bcast_S256_S256x1_0 v)

theorem rKeep2_apply (v : FVec Ideal S256 .f32) (b : Fin 256) (c : Fin 2) : rKeep2 v (ix2 b c) = v (ix1 b) :=
  (bcastInDim_a1_ab_apply _ _ b c).trans (bcastInDim_a_a1_apply v _ b 0)

/-- The reference's logits. -/
def rLogits (a9 : FVec Ideal S2x128 .f32) (v117 : FVec Ideal S256x128 .f32) (a10 : FVec Ideal S2 .f32) :
    FVec Ideal S256x2 .f32 :=
  addf (Host.dotGeneral dot_S256x128_S128x2_S256x2_1_0_0_1_n_n none v117
      (transpose S128x2 [1, 0] a9 transposes_S2x128_S128x2_1_0))
    (broadcastInDim S256x2 ![0, 1] bcast_S1x2_S256x2_0_1 (broadcastInDim S1x2 ![1] bcast_S2_S1x2_1 a10))

theorem rLogits_apply (a9 : FVec Ideal S2x128 .f32) (v117 : FVec Ideal S256x128 .f32) (a10 : FVec Ideal S2 .f32)
    (b : Fin 256) (c : Fin 2) :
    rLogits a9 v117 a10 (ix2 b c) = (∑ k : Fin 128, v117 (ix2 b k) * a9 (ix2 c k)) + a10 (ix1 c) := by
  unfold rLogits
  rw [addf_apply]
  refine congrArg₂ (· + ·) ?_ ?_
  · refine (LibDense.dotGeneral_plain _ none .single v117
      (transpose S128x2 [1, 0] a9 transposes_S2x128_S128x2_1_0) b c).trans ?_
    exact Finset.sum_congr rfl fun k _ => congrArg (v117 (ix2 b k) * ·) (transpose_ix2_apply a9 _ k c)
  · exact (bcastInDim_1b_ab_apply _ _ b c).trans (bcastInDim_b_1b_apply a10 _ 0 c)

/-- The reference's row maximum from the floor. -/
def rRowMax (z : FVec Ideal S256x2 .f32) : FVec Ideal S256 .f32 :=
  maximumf (broadcastInDim S256 ![] bcast_S_S256 (constant (F := Ideal) S_ .f32 0xFF800000#32))
    (Host.reduce FloatOps.maximumf z (constant (F := Ideal) S_ .f32 0xFF800000#32) reducesTo_S256x2_S256_d1 h_S_)

theorem rRowMax_apply (z : FVec Ideal S256x2 .f32) (b : Fin 256) :
    rRowMax z (ix1 b) = max (Ideal.ofBits .f32 0xFF800000#32)
      ((Finset.univ : Finset (Fin 2)).fold max (Ideal.ofBits .f32 0xFF800000#32) (fun k => z (ix2 b k))) := by
  unfold rRowMax
  exact congrArg (max (Ideal.ofBits .f32 0xFF800000#32))
    (rowMax_host z _ _ _ Cert.KernelIdeal.Gen.reduces_S256x2_S256 b)

/-- The reference's exponentials of the row-shifted logits. -/
def rExp (z : FVec Ideal S256x2 .f32) : FVec Ideal S256x2 .f32 :=
  Host.exp (F := Ideal) (subf z (rKeep2 (rRowMax z)))

theorem rExp_apply (z : FVec Ideal S256x2 .f32) (b : Fin 256) (c : Fin 2) :
    rExp z (ix2 b c) = Ideal.exp (z (ix2 b c) - max (Ideal.ofBits .f32 0xFF800000#32)
      ((Finset.univ : Finset (Fin 2)).fold max (Ideal.ofBits .f32 0xFF800000#32) (fun k => z (ix2 b k)))) := by
  show Ideal.exp (z (ix2 b c) - rKeep2 (rRowMax z) (ix2 b c)) = _
  rw [rKeep2_apply, rRowMax_apply]

/-- The reference's row sum, from the initial value zero. -/
def rRowSum (e : FVec Ideal S256x2 .f32) : FVec Ideal S256 .f32 :=
  Host.reduceAdd (F := Ideal) e (constant (F := Ideal) S_ .f32 0x00000000#32) reducesTo_S256x2_S256_d1 h_S_

theorem rRowSum_apply (e : FVec Ideal S256x2 .f32) (b : Fin 256) : rRowSum e (ix1 b) = ∑ k : Fin 2, e (ix2 b k) := by
  unfold rRowSum
  refine (rowSum_host e _ _ _ Cert.KernelIdeal.Gen.reduces_S256x2_S256 b).trans ?_
  show Ideal.ofBits .f32 0x00000000#32 + _ = _
  rw [Ideal.ofBits_zero_f32, zero_add]

/-- The reference's softmax of given logits. -/
def rSoftmax (z : FVec Ideal S256x2 .f32) : FVec Ideal S256x2 .f32 :=
  Host.divf (F := Ideal) (rExp z) (rKeep2 (rRowSum (rExp z)))

theorem rSoftmax_apply (z : FVec Ideal S256x2 .f32) (b : Fin 256) (c : Fin 2) :
    rSoftmax z (ix2 b c) = softmaxRow (Ideal.ofBits .f32 0xFF800000#32) (fun k => z (ix2 b k)) c := by
  show Ideal.div (rExp z (ix2 b c)) (rKeep2 (rRowSum (rExp z)) (ix2 b c)) = _
  rw [rKeep2_apply, rRowSum_apply]
  simp only [rExp_apply]
  rfl

/-- The reference's last stage is its softmax of its logits. -/
theorem head_ref_eq (a9 : FVec Ideal S2x128 .f32) (v117 : FVec Ideal S256x128 .f32) (a10 : FVec Ideal S2 .f32) :
    RefTerm.head a9 v117 a10 = rSoftmax (rLogits a9 v117 a10) := rfl

end Reference

/-! ### The two chains agree -/

/-- The kernel's output layer and softmax, and the reference's, are one function of the hidden rows, the output
    weights and the output bias. -/
theorem head_eq [Cert.ReferenceIdeal.Facts] (v41 : FVec Ideal Cert.KernelIdeal.S256x128 .f32)
    (a9 : FVec Ideal Cert.KernelIdeal.S2x128 .f32) (a10 : FVec Ideal Cert.KernelIdeal.S2 .f32) :
    Cert.KernelIdeal.Gen.k1_pay1 (F := Ideal) v41 a9 a10 = Cert.ReferenceIdeal.RefTerm.head a9 v41 a10 := by
  rw [k1_pay1_eq, head_ref_eq]
  funext idx
  obtain ⟨b, c, rfl⟩ : ∃ (b : Fin 256) (c : Fin 2), idx = ix2 b c := ⟨idx 0, idx 1, eq_ix2 idx⟩
  rw [kSoftmax_apply, rSoftmax_apply]
  refine congrArg (fun z => softmaxRow (Ideal.ofBits .f32 0xFF800000#32) z c) (funext fun k => ?_)
  rw [kLogits_apply, rLogits_apply]

end Cert.Bridge

end
-- ==== Proof.Layer1Bridge.lean ====
/- The second region's kernel body against the reference's second layer, output layer and softmax, as functions
   of the same arrays: the kernel's stored rows are the gate of the normalised pre-normalisation sums, then the
   softmax of the logits; stage by stage — the sums, the row normalisation, the gate, the output layer — the two
   programs compute one function on the extended reals. -/
import proofs.«114522_j54279796687469_2_alg».proof.Proof.Layer1Bridge.Silu
import proofs.«114522_j54279796687469_2_alg».proof.Proof.Layer1Bridge.Pre
import proofs.«114522_j54279796687469_2_alg».proof.Proof.Layer1Bridge.Norm
import proofs.«114522_j54279796687469_2_alg».proof.Proof.Layer1Bridge.Head

noncomputable section

namespace Cert.Bridge

open Idealize.ShloMosaic Idealize.ShloMosaic.ValueIdx

/-- The kernel's second-layer rows are the gate of its normalised sums. -/
theorem k1_pay2_eq (v0 : FVec Ideal Cert.KernelIdeal.S256x1024 .f32) (v5 : FVec Ideal Cert.KernelIdeal.S128x1024 .f32)
    (v8 : FVec Ideal Cert.KernelIdeal.S256x4096 .bf16) (v10 : FVec Ideal Cert.KernelIdeal.S128x4096 .f32)
    (v32 v36 : FVec Ideal Cert.KernelIdeal.S128 .f32) :
    Cert.KernelIdeal.Gen.k1_pay2 (F := Ideal) v0 v5 v8 v10 v32 v36
      = mulf (kNorm (kPre v0 v5 v8 v10) v32 v36) (logistic (kNorm (kPre v0 v5 v8 v10) v32 v36)) := rfl

/-- The reference's gate on the normalised rows is the vector unit's. -/
theorem actB_eq [Cert.ReferenceIdeal.Facts] (y : FVec Ideal Cert.KernelIdeal.S256x128 .f32) :
    mulf y (logistic y) = Cert.ReferenceIdeal.RefTerm.actB y :=
  gate_eq Cert.ReferenceIdeal.Facts₀.bcast_S_S256x128 y

/-- The second region's kernel body is the reference's second layer, output layer and softmax. -/
theorem layer1_eq [Cert.ReferenceIdeal.Facts] (h : FVec Ideal Cert.KernelIdeal.S256x1024 .f32)
    (bsK : FVec Ideal Cert.KernelIdeal.S256x4096 .bf16) (bsR : FVec Ideal Cert.KernelIdeal.S256x4096 .f32)
    (hbs : ∀ i, bsK i = bsR i)
    (a5 : FVec Ideal Cert.KernelIdeal.S128x1024 .f32) (a6 : FVec Ideal Cert.KernelIdeal.S128x4096 .f32)
    (a7 a8 : FVec Ideal Cert.KernelIdeal.S128 .f32) (a9 : FVec Ideal Cert.KernelIdeal.S2x128 .f32)
    (a10 : FVec Ideal Cert.KernelIdeal.S2 .f32) :
    Cert.KernelIdeal.Gen.k1_pay1 (F := Ideal) (Cert.KernelIdeal.Gen.k1_pay2 (F := Ideal) h a5 bsK a6 a7 a8) a9 a10
      = Cert.ReferenceIdeal.RefTerm.head a9
          (Cert.ReferenceIdeal.RefTerm.actB
            (Cert.ReferenceIdeal.RefTerm.normB
              (Cert.ReferenceIdeal.RefTerm.meanB
                (Cert.ReferenceIdeal.RefTerm.preB a6 bsR
                  (Cert.ReferenceIdeal.RefTerm.baseB a5 (Cert.ReferenceIdeal.RefTerm.siluB h))))
              (Cert.ReferenceIdeal.RefTerm.preB a6 bsR
                (Cert.ReferenceIdeal.RefTerm.baseB a5 (Cert.ReferenceIdeal.RefTerm.siluB h)))
              (Cert.ReferenceIdeal.RefTerm.varB
                (Cert.ReferenceIdeal.RefTerm.preB a6 bsR
                  (Cert.ReferenceIdeal.RefTerm.baseB a5 (Cert.ReferenceIdeal.RefTerm.siluB h))))
              a7 a8)) a10 := by
  rw [head_eq, k1_pay2_eq, pre_eq h a5 bsK bsR hbs a6, norm_eq, actB_eq]

end Cert.Bridge

end
-- ==== Proof.Bridge.lean ====
/-
  The value of the whole program at the exact instance: the result buffer ends at the reference's network function
  of the eleven arguments. Region 1's one write-back is its body's payload of the contents it was entered with; the
  first layer's output among them is the reference's activation of the row normalisation of what region 0 wrote — which
  is the reference's pre-activation sums —, the second basis the reference's basis stage of it, and the payload itself is
  the reference's second layer, output layer and softmax.
-/
import proofs.«114522_j54279796687469_2_alg».proof.Proof.HostStages
import proofs.«114522_j54279796687469_2_alg».proof.Proof.Region1Value
import proofs.«114522_j54279796687469_2_alg».proof.Proof.Bridge0
import proofs.«114522_j54279796687469_2_alg».proof.Proof.Layer0Bridge
import proofs.«114522_j54279796687469_2_alg».proof.Proof.Layer0Pre
import proofs.«114522_j54279796687469_2_alg».proof.Proof.Layer1Bridge

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (m : (ℓ : Loc nD τ sig) → Buf (Elt Ideal) ℓ) (ρ : Dev nD → PrngReg)

/-! ## The arguments at the boundaries the regions and the host stretches read them at -/

theorem W2_main_arg3 (c : Dev nD) : W2 m ρ c (Proc.devRef .tc main_arg3) = m ((c : Thread nD τ).loc main_arg3) :=
  calc W2 m ρ c (Proc.devRef .tc main_arg3)
    _ = W1 m ρ c (Proc.devRef .tc main_arg3) := W2_of_ne m ρ c main_arg3 (by decide)
    _ = W0 m ρ c (Proc.devRef .tc main_arg3) := StableHlo.after_of_writes_sub hostOps0 _ hostOps0_writes (by decide)
    _ = m ((c : Thread nD τ).loc main_arg3) := rfl

theorem W2_main_arg4 (c : Dev nD) : W2 m ρ c (Proc.devRef .tc main_arg4) = m ((c : Thread nD τ).loc main_arg4) :=
  calc W2 m ρ c (Proc.devRef .tc main_arg4)
    _ = W1 m ρ c (Proc.devRef .tc main_arg4) := W2_of_ne m ρ c main_arg4 (by decide)
    _ = W0 m ρ c (Proc.devRef .tc main_arg4) := StableHlo.after_of_writes_sub hostOps0 _ hostOps0_writes (by decide)
    _ = m ((c : Thread nD τ).loc main_arg4) := rfl

theorem W5_main_arg5 (c : Dev nD) : W5 m ρ c (Proc.devRef .tc main_arg5) = m ((c : Thread nD τ).loc main_arg5) :=
  calc W5 m ρ c (Proc.devRef .tc main_arg5)
    _ = W4 m ρ c (Proc.devRef .tc main_arg5) := StableHlo.after_of_writes_sub hostOps1_2 _ hostOps1_2_writes (by decide)
    _ = W3 m ρ c (Proc.devRef .tc main_arg5) := StableHlo.after_of_writes_sub hostOps1_1 _ hostOps1_1_writes (by decide)
    _ = W2 m ρ c (Proc.devRef .tc main_arg5) := StableHlo.after_of_writes_sub hostOps1 _ hostOps1_writes (by decide)
    _ = W1 m ρ c (Proc.devRef .tc main_arg5) := W2_of_ne m ρ c main_arg5 (by decide)
    _ = W0 m ρ c (Proc.devRef .tc main_arg5) := StableHlo.after_of_writes_sub hostOps0 _ hostOps0_writes (by decide)
    _ = m ((c : Thread nD τ).loc main_arg5) := rfl

theorem W5_main_arg6 (c : Dev nD) : W5 m ρ c (Proc.devRef .tc main_arg6) = m ((c : Thread nD τ).loc main_arg6) :=
  calc W5 m ρ c (Proc.devRef .tc main_arg6)
    _ = W4 m ρ c (Proc.devRef .tc main_arg6) := StableHlo.after_of_writes_sub hostOps1_2 _ hostOps1_2_writes (by decide)
    _ = W3 m ρ c (Proc.devRef .tc main_arg6) := StableHlo.after_of_writes_sub hostOps1_1 _ hostOps1_1_writes (by decide)
    _ = W2 m ρ c (Proc.devRef .tc main_arg6) := StableHlo.after_of_writes_sub hostOps1 _ hostOps1_writes (by decide)
    _ = W1 m ρ c (Proc.devRef .tc main_arg6) := W2_of_ne m ρ c main_arg6 (by decide)
    _ = W0 m ρ c (Proc.devRef .tc main_arg6) := StableHlo.after_of_writes_sub hostOps0 _ hostOps0_writes (by decide)
    _ = m ((c : Thread nD τ).loc main_arg6) := rfl

theorem W5_main_arg7 (c : Dev nD) : W5 m ρ c (Proc.devRef .tc main_arg7) = m ((c : Thread nD τ).loc main_arg7) :=
  calc W5 m ρ c (Proc.devRef .tc main_arg7)
    _ = W4 m ρ c (Proc.devRef .tc main_arg7) := StableHlo.after_of_writes_sub hostOps1_2 _ hostOps1_2_writes (by decide)
    _ = W3 m ρ c (Proc.devRef .tc main_arg7) := StableHlo.after_of_writes_sub hostOps1_1 _ hostOps1_1_writes (by decide)
    _ = W2 m ρ c (Proc.devRef .tc main_arg7) := StableHlo.after_of_writes_sub hostOps1 _ hostOps1_writes (by decide)
    _ = W1 m ρ c (Proc.devRef .tc main_arg7) := W2_of_ne m ρ c main_arg7 (by decide)
    _ = W0 m ρ c (Proc.devRef .tc main_arg7) := StableHlo.after_of_writes_sub hostOps0 _ hostOps0_writes (by decide)
    _ = m ((c : Thread nD τ).loc main_arg7) := rfl

theorem W5_main_arg8 (c : Dev nD) : W5 m ρ c (Proc.devRef .tc main_arg8) = m ((c : Thread nD τ).loc main_arg8) :=
  calc W5 m ρ c (Proc.devRef .tc main_arg8)
    _ = W4 m ρ c (Proc.devRef .tc main_arg8) := StableHlo.after_of_writes_sub hostOps1_2 _ hostOps1_2_writes (by decide)
    _ = W3 m ρ c (Proc.devRef .tc main_arg8) := StableHlo.after_of_writes_sub hostOps1_1 _ hostOps1_1_writes (by decide)
    _ = W2 m ρ c (Proc.devRef .tc main_arg8) := StableHlo.after_of_writes_sub hostOps1 _ hostOps1_writes (by decide)
    _ = W1 m ρ c (Proc.devRef .tc main_arg8) := W2_of_ne m ρ c main_arg8 (by decide)
    _ = W0 m ρ c (Proc.devRef .tc main_arg8) := StableHlo.after_of_writes_sub hostOps0 _ hostOps0_writes (by decide)
    _ = m ((c : Thread nD τ).loc main_arg8) := rfl

theorem W5_main_arg9 (c : Dev nD) : W5 m ρ c (Proc.devRef .tc main_arg9) = m ((c : Thread nD τ).loc main_arg9) :=
  calc W5 m ρ c (Proc.devRef .tc main_arg9)
    _ = W4 m ρ c (Proc.devRef .tc main_arg9) := StableHlo.after_of_writes_sub hostOps1_2 _ hostOps1_2_writes (by decide)
    _ = W3 m ρ c (Proc.devRef .tc main_arg9) := StableHlo.after_of_writes_sub hostOps1_1 _ hostOps1_1_writes (by decide)
    _ = W2 m ρ c (Proc.devRef .tc main_arg9) := StableHlo.after_of_writes_sub hostOps1 _ hostOps1_writes (by decide)
    _ = W1 m ρ c (Proc.devRef .tc main_arg9) := W2_of_ne m ρ c main_arg9 (by decide)
    _ = W0 m ρ c (Proc.devRef .tc main_arg9) := StableHlo.after_of_writes_sub hostOps0 _ hostOps0_writes (by decide)
    _ = m ((c : Thread nD τ).loc main_arg9) := rfl

theorem W5_main_arg10 (c : Dev nD) : W5 m ρ c (Proc.devRef .tc main_arg10) = m ((c : Thread nD τ).loc main_arg10) :=
  calc W5 m ρ c (Proc.devRef .tc main_arg10)
    _ = W4 m ρ c (Proc.devRef .tc main_arg10) := StableHlo.after_of_writes_sub hostOps1_2 _ hostOps1_2_writes (by decide)
    _ = W3 m ρ c (Proc.devRef .tc main_arg10) := StableHlo.after_of_writes_sub hostOps1_1 _ hostOps1_1_writes (by decide)
    _ = W2 m ρ c (Proc.devRef .tc main_arg10) := StableHlo.after_of_writes_sub hostOps1 _ hostOps1_writes (by decide)
    _ = W1 m ρ c (Proc.devRef .tc main_arg10) := W2_of_ne m ρ c main_arg10 (by decide)
    _ = W0 m ρ c (Proc.devRef .tc main_arg10) := StableHlo.after_of_writes_sub hostOps0 _ hostOps0_writes (by decide)
    _ = m ((c : Thread nD τ).loc main_arg10) := rfl

/-- The last host stretch does not write the first layer's output. -/
theorem W5_v60 (c : Dev nD) : W5 m ρ c (Proc.devRef .tc main_v60) = W4 m ρ c (Proc.devRef .tc main_v60) :=
  StableHlo.after_of_writes_sub hostOps1_2 _ hostOps1_2_writes (by decide)

/-! ## The first layer -/

/-- The reference's first-layer pre-activation sums of the arguments. -/
abbrev refPre0 (c : Dev nD) : FVec Ideal S256x1024 .f32 :=
  Cert.ReferenceIdeal.RefTerm.preA (F := Ideal) (m ((c : Thread nD τ).loc main_arg2)) (Cert.ReferenceIdeal.RefTerm.basisA (m ((c : Thread nD τ).loc main_arg0))) (Cert.ReferenceIdeal.RefTerm.baseA (m ((c : Thread nD τ).loc main_arg1)) (Cert.ReferenceIdeal.RefTerm.siluA (m ((c : Thread nD τ).loc main_arg0))))

/-- The reference's first-layer output of the arguments. -/
abbrev refOut0 (c : Dev nD) : FVec Ideal S256x1024 .f32 :=
  Cert.ReferenceIdeal.RefTerm.actA (F := Ideal) (Cert.ReferenceIdeal.RefTerm.normA (Cert.ReferenceIdeal.RefTerm.meanA (refPre0 m c)) (refPre0 m c) (Cert.ReferenceIdeal.RefTerm.varA (refPre0 m c)) (m ((c : Thread nD τ).loc main_arg3)) (m ((c : Thread nD τ).loc main_arg4)))

/-- Entering region 1, the first operand holds the reference's first-layer output. -/
theorem W5_v60_eq (c : Dev nD) : W5 m ρ c (Proc.devRef .tc main_v60) = refOut0 m c := by
  rw [W5_v60, W4_v60, W3_v59, W2_v35_eq m ρ (fun a0 a1 a2 bs b n => Cert.Bridge.pre0_apply a0 a1 a2 bs b n) (W1_v34 m ρ) c, W2_main_arg3, W2_main_arg4]
  exact congrArg (Cert.ReferenceIdeal.RefTerm.actA (F := Ideal)) (Cert.Bridge.norm0_eq _ _ _)

/-- and the second the reference's basis stage of it, narrowed. -/
theorem W5_v95_eq (c : Dev nD) : W5 m ρ c (Proc.devRef .tc main_v95)
    = truncf .bf16 (Cert.ReferenceIdeal.RefTerm.basisB (F := Ideal) (refOut0 m c)) bitsLt_bf16_f32 := by
  rw [W5_v95, ← W5_v60, W5_v60_eq]

/-! ## The whole network -/

/-- The result array after the run is the reference's network function of the arguments. -/
theorem value_eq (c : Dev nD) : (dat1 (V5 m ρ) c).arrAt 8 cfg1.N
    = Cert.ReferenceIdeal.RefTerm.refNet (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  rw [arrAt1_8]
  show out1_8' (W5 m ρ c (Proc.devRef .tc main_v60)) (W5 m ρ c (Proc.devRef .tc main_v95)) (W5 m ρ c (Proc.devRef .tc main_arg5)) (W5 m ρ c (Proc.devRef .tc main_arg6)) (W5 m ρ c (Proc.devRef .tc main_arg7)) (W5 m ρ c (Proc.devRef .tc main_arg8)) (W5 m ρ c (Proc.devRef .tc main_arg9)) (W5 m ρ c (Proc.devRef .tc main_arg10)) = _
  rw [W5_v60_eq, W5_v95_eq, W5_main_arg5, W5_main_arg6, W5_main_arg7, W5_main_arg8, W5_main_arg9, W5_main_arg10]
  unfold out1_8'
  refine (Cert.Bridge.layer1_eq (refOut0 m c) _ (Cert.ReferenceIdeal.RefTerm.basisB (F := Ideal) (refOut0 m c)) (fun _ => rfl) _ _ _ _ _ _).trans ?_
  rfl

end Cert.KernelIdeal.Hand

end
-- ==== Proof.RefRun.Lemmas.lean ====
import Idealize.ShloMosaic.Lib.StableHlo.Run

noncomputable section

namespace Cert.ReferenceIdeal.RefRun

open Idealize.ShloMosaic Idealize.ShloMosaic.StableHlo

variable {τ : Topo} {sig : RefSig} {Val : EltTy → Type}

/-- The singleton of a listed reference lies in the list's set of device buffers. -/
theorem writes_sub_of_mem {W : List (Ref sig .tc)} {y : Ref sig .tc} (h : y ∈ W) :
    ({Proc.devRef (τ := τ) .tc y} : Finset (DevRef τ sig)) ⊆ (W.map (Proc.devRef (τ := τ) .tc)).toFinset :=
  Finset.singleton_subset_iff.mpr (List.mem_toFinset.mpr (List.mem_map_of_mem h))

/-- A property of every member of two lists holds of every member of their concatenation. -/
theorem forall_mem_append {α : Type} {P : α → Prop} {l₁ l₂ : List α} (h₁ : ∀ a ∈ l₁, P a) (h₂ : ∀ a ∈ l₂, P a) :
    ∀ a ∈ l₁ ++ l₂, P a := fun a h => (List.mem_append.mp h).elim (h₁ a) (h₂ a)

/-- A line of operations leaves a reference outside the list of those it writes as it was (the reference
    un-indexed, so that the equation fires at any reference). -/
theorem after_frame {W : List (Ref sig .tc)} (ops : List (HloOp τ sig Val))
    (hW : ops.Forall fun op => op.writes ⊆ (W.map (Proc.devRef (τ := τ) .tc)).toFinset)
    (V : Valuation τ sig Val) {r : Ref sig .tc} (hr : r ∉ W) :
    after ops V (no_index (Proc.devRef .tc r)) = V (Proc.devRef .tc r) :=
  after_of_writes_sub ops V hW hr

end Cert.ReferenceIdeal.RefRun

end
-- ==== Proof.RefRun.Ops0.lean ====
import proofs.«114522_j54279796687469_2_alg».proof.Proof.Gen.ReferenceIdeal
import proofs.«114522_j54279796687469_2_alg».proof.Proof.RefRun.Lemmas
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The operations of siluA, in program order. -/
abbrev ops_siluA : List (HloOp τ sig (Elt F)) :=
  [
    TRef.unary (.of main_arg0) main_call0.v0 Host.negf,
    TRef.unary main_call0.v0 main_call0.v1 Host.exp,
    TRef.nullary main_call0.cst (constant S_ .f32 0x3F800000#32),
    TRef.unary main_call0.cst main_call0.v2 (broadcastInDim S256x50176 ![] bcast_S_S256x50176),
    TRef.binary main_call0.v2 main_call0.v1 main_call0.v3 addf,
    TRef.nullary main_call0.cst_0 (constant S_ .f32 0x3F800000#32),
    TRef.unary main_call0.cst_0 main_call0.v4 (broadcastInDim S256x50176 ![] bcast_S_S256x50176),
    TRef.binary main_call0.v4 main_call0.v3 main_call0.v5 Host.divf,
    TRef.binary (.of main_arg0) main_call0.v5 main_call0.v6 mulf ]

theorem ops_siluA_sub : ∀ op ∈ (ops_siluA : List (HloOp τ sig (Elt F))), op.bufs ⊆ tcRefs τ sig :=
  List.forall_iff_forall_mem.mp ⟨unary_bufs_sub .., unary_bufs_sub .., nullary_bufs_sub .., unary_bufs_sub .., binary_bufs_sub .., nullary_bufs_sub .., unary_bufs_sub .., binary_bufs_sub .., binary_bufs_sub ..⟩

theorem ops_siluA_fresh : ∀ op ∈ (ops_siluA : List (HloOp τ sig (Elt F))), op.fresh = ∅ := by
  intro _ h; (repeat (cases h with | head => rfl | tail _ h => ?_)); exact nomatch h

/-- These operations leave every reference they do not write as it was. -/
theorem ops_siluA_frame (V : Valuation τ sig (Elt F)) {r : Ref sig .tc}
    (hr : r ∉ ([main_call0_v0, main_call0_v1, main_call0_cst, main_call0_v2, main_call0_v3, main_call0_cst_0, main_call0_v4, main_call0_v5, main_v0] : List (Ref sig .tc))) :
    after ops_siluA V (no_index (Proc.devRef .tc r)) = V (Proc.devRef .tc r) :=
  after_frame (W := ([main_call0_v0, main_call0_v1, main_call0_cst, main_call0_v2, main_call0_v3, main_call0_cst_0, main_call0_v4, main_call0_v5, main_v0] : List (Ref sig .tc))) ops_siluA ⟨writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide)⟩ V hr

/-- The operations of baseA, in program order. -/
abbrev ops_baseA : List (HloOp τ sig (Elt F)) :=
  [
    unary main_arg1 main_v1 ((transpose S50176x1024 [1, 0] · transposes_S1024x50176_S50176x1024_1_0) : (⟨S1024x50176, .f32⟩ : BufTy).Contents (Elt F) → (⟨S50176x1024, .f32⟩ : BufTy).Contents (Elt F)),
    binary main_v0 main_v1 main_v2 ((fun l r => Host.dotGeneral dot_S256x50176_S50176x1024_S256x1024_1_0_0_1_n_n none l r) : (⟨S256x50176, .f32⟩ : BufTy).Contents (Elt F) → (⟨S50176x1024, .f32⟩ : BufTy).Contents (Elt F) → (⟨S256x1024, .f32⟩ : BufTy).Contents (Elt F)) ]

theorem ops_baseA_sub : ∀ op ∈ (ops_baseA : List (HloOp τ sig (Elt F))), op.bufs ⊆ tcRefs τ sig :=
  List.forall_iff_forall_mem.mp ⟨unary_bufs_sub .., binary_bufs_sub ..⟩

theorem ops_baseA_fresh : ∀ op ∈ (ops_baseA : List (HloOp τ sig (Elt F))), op.fresh = ∅ := by
  intro _ h; (repeat (cases h with | head => rfl | tail _ h => ?_)); exact nomatch h

/-- These operations leave every reference they do not write as it was. -/
theorem ops_baseA_frame (V : Valuation τ sig (Elt F)) {r : Ref sig .tc}
    (hr : r ∉ ([main_v1, main_v2] : List (Ref sig .tc))) :
    after ops_baseA V (no_index (Proc.devRef .tc r)) = V (Proc.devRef .tc r) :=
  after_frame (W := ([main_v1, main_v2] : List (Ref sig .tc))) ops_baseA ⟨writes_sub_of_mem (by decide), writes_sub_of_mem (by decide)⟩ V hr

/-- The operations of basisA (a piece), in program order. -/
abbrev ops_basisA0 : List (HloOp τ sig (Elt F)) :=
  [
    nullary main_cst (constant S_ .f32 0x7F800000#32),
    binary main_arg0 main_cst main_v3 ((fun x v => Host.reduce FloatOps.minimumf x v reducesTo_S256x50176_S_d0_1 h_S_) : (⟨S256x50176, .f32⟩ : BufTy).Contents (Elt F) → (⟨S_, .f32⟩ : BufTy).Contents (Elt F) → (⟨S_, .f32⟩ : BufTy).Contents (Elt F)),
    nullary main_cst_0 (constant S_ .f32 0xFF800000#32),
    binary main_arg0 main_cst_0 main_v4 ((fun x v => Host.reduce FloatOps.maximumf x v reducesTo_S256x50176_S_d0_1 h_S_) : (⟨S256x50176, .f32⟩ : BufTy).Contents (Elt F) → (⟨S_, .f32⟩ : BufTy).Contents (Elt F) → (⟨S_, .f32⟩ : BufTy).Contents (Elt F)),
    unary main_v3 main_v5 (broadcastInDim S256x50176 ![] bcast_S_S256x50176 : (⟨S_, .f32⟩ : BufTy).Contents (Elt F) → (⟨S256x50176, .f32⟩ : BufTy).Contents (Elt F)),
    binary main_arg0 main_v5 main_v6 (subf : (⟨S256x50176, .f32⟩ : BufTy).Contents (Elt F) → (⟨S256x50176, .f32⟩ : BufTy).Contents (Elt F) → (⟨S256x50176, .f32⟩ : BufTy).Contents (Elt F)),
    nullary main_cst_1 (constant S_ .f32 0x40000000#32),
    unary main_cst_1 main_v7 (broadcastInDim S256x50176 ![] bcast_S_S256x50176 : (⟨S_, .f32⟩ : BufTy).Contents (Elt F) → (⟨S256x50176, .f32⟩ : BufTy).Contents (Elt F)),
    binary main_v7 main_v6 main_v8 (mulf : (⟨S256x50176, .f32⟩ : BufTy).Contents (Elt F) → (⟨S256x50176, .f32⟩ : BufTy).Contents (Elt F) → (⟨S256x50176, .f32⟩ : BufTy).Contents (Elt F)),
    binary main_v4 main_v3 main_v9 (subf : (⟨S_, .f32⟩ : BufTy).Contents (Elt F) → (⟨S_, .f32⟩ : BufTy).Contents (Elt F) → (⟨S_, .f32⟩ : BufTy).Contents (Elt F)),
    unary main_v9 main_v10 (broadcastInDim S256x50176 ![] bcast_S_S256x50176 : (⟨S_, .f32⟩ : BufTy).Contents (Elt F) → (⟨S256x50176, .f32⟩ : BufTy).Contents (Elt F)),
    binary main_v8 main_v10 main_v11 (Host.divf : (⟨S256x50176, .f32⟩ : BufTy).Contents (Elt F) → (⟨S256x50176, .f32⟩ : BufTy).Contents (Elt F) → (⟨S256x50176, .f32⟩ : BufTy).Contents (Elt F)),
    nullary main_cst_2 (constant S_ .f32 0x3F800000#32),
    unary main_cst_2 main_v12 (broadcastInDim S256x50176 ![] bcast_S_S256x50176 : (⟨S_, .f32⟩ : BufTy).Contents (Elt F) → (⟨S256x50176, .f32⟩ : BufTy).Contents (Elt F)),
    binary main_v11 main_v12 main_v13 (subf : (⟨S256x50176, .f32⟩ : BufTy).Contents (Elt F) → (⟨S256x50176, .f32⟩ : BufTy).Contents (Elt F) → (⟨S256x50176, .f32⟩ : BufTy).Contents (Elt F)),
    nullary main_cst_3 (constant S_ .f32 0x3F800000#32),
    unary main_cst_3 main_v14 (broadcastInDim S256x50176 ![] bcast_S_S256x50176 : (⟨S_, .f32⟩ : BufTy).Contents (Elt F) → (⟨S256x50176, .f32⟩ : BufTy).Contents (Elt F)),
    nullary main_cst_4 (constant S_ .f32 0x40400000#32),
    unary main_cst_4 main_v15 (broadcastInDim S256x50176 ![] bcast_S_S256x50176 : (⟨S_, .f32⟩ : BufTy).Contents (Elt F) → (⟨S256x50176, .f32⟩ : BufTy).Contents (Elt F)),
    binary main_v15 main_v13 main_v16 (mulf : (⟨S256x50176, .f32⟩ : BufTy).Contents (Elt F) → (⟨S256x50176, .f32⟩ : BufTy).Contents (Elt F) → (⟨S256x50176, .f32⟩ : BufTy).Contents (Elt F)),
    binary main_v16 main_v13 main_v17 (mulf : (⟨S256x50176, .f32⟩ : BufTy).Contents (Elt F) → (⟨S256x50176, .f32⟩ : BufTy).Contents (Elt F) → (⟨S256x50176, .f32⟩ : BufTy).Contents (Elt F)),
    nullary main_cst_5 (constant S_ .f32 0x3F800000#32),
    unary main_cst_5 main_v18 (broadcastInDim S256x50176 ![] bcast_S_S256x50176 : (⟨S_, .f32⟩ : BufTy).Contents (Elt F) → (⟨S256x50176, .f32⟩ : BufTy).Contents (Elt F)),
    binary main_v18 main_v14 main_v19 (mulf : (⟨S256x50176, .f32⟩ : BufTy).Contents (Elt F) → (⟨S256x50176, .f32⟩ : BufTy).Contents (Elt F) → (⟨S256x50176, .f32⟩ : BufTy).Contents (Elt F)),
    binary main_v17 main_v19 main_v20 (subf : (⟨S256x50176, .f32⟩ : BufTy).Contents (Elt F) → (⟨S256x50176, .f32⟩ : BufTy).Contents (Elt F) → (⟨S256x50176, .f32⟩ : BufTy).Contents (Elt F)),
    nullary main_cst_6 (constant S_ .f32 0x40000000#32),
    unary main_cst_6 main_v21 (broadcastInDim S256x50176 ![] bcast_S_S256x50176 : (⟨S_, .f32⟩ : BufTy).Contents (Elt F) → (⟨S256x50176, .f32⟩ : BufTy).Contents (Elt F)),
    binary main_v20 main_v21 main_v22 (Host.divf : (⟨S256x50176, .f32⟩ : BufTy).Contents (Elt F) → (⟨S256x50176, .f32⟩ : BufTy).Contents (Elt F) → (⟨S256x50176, .f32⟩ : BufTy).Contents (Elt F)),
    nullary main_cst_7 (constant S_ .f32 0x40A00000#32),
    unary main_cst_7 main_v23 (broadcastInDim S256x50176 ![] bcast_S_S256x50176 : (⟨S_, .f32⟩ : BufTy).Contents (Elt F) → (⟨S256x50176, .f32⟩ : BufTy).Contents (Elt F)),
    binary main_v23 main_v13 main_v24 (mulf : (⟨S256x50176, .f32⟩ : BufTy).Contents (Elt F) → (⟨S256x50176, .f32⟩ : BufTy).Contents (Elt F) → (⟨S256x50176, .f32⟩ : BufTy).Contents (Elt F)),
    binary main_v24 main_v22 main_v25 (mulf : (⟨S256x50176, .f32⟩ : BufTy).Contents (Elt F) → (⟨S256x50176, .f32⟩ : BufTy).Contents (Elt F) → (⟨S256x50176, .f32⟩ : BufTy).Contents (Elt F)),
    nullary main_cst_8 (constant S_ .f32 0x40000000#32),
    unary main_cst_8 main_v26 (broadcastInDim S256x50176 ![] bcast_S_S256x50176 : (⟨S_, .f32⟩ : BufTy).Contents (Elt F) → (⟨S256x50176, .f32⟩ : BufTy).Contents (Elt F)),
    binary main_v26 main_v13 main_v27 (mulf : (⟨S256x50176, .f32⟩ : BufTy).Contents (Elt F) → (⟨S256x50176, .f32⟩ : BufTy).Contents (Elt F) → (⟨S256x50176, .f32⟩ : BufTy).Contents (Elt F)),
    binary main_v25 main_v27 main_v28 (subf : (⟨S256x50176, .f32⟩ : BufTy).Contents (Elt F) → (⟨S256x50176, .f32⟩ : BufTy).Contents (Elt F) → (⟨S256x50176, .f32⟩ : BufTy).Contents (Elt F)),
    nullary main_cst_9 (constant S_ .f32 0x40400000#32),
    unary main_cst_9 main_v29 (broadcastInDim S256x50176 ![] bcast_S_S256x50176 : (⟨S_, .f32⟩ : BufTy).Contents (Elt F) → (⟨S256x50176, .f32⟩ : BufTy).Contents (Elt F)),
    binary main_v28 main_v29 main_v30 (Host.divf : (⟨S256x50176, .f32⟩ : BufTy).Contents (Elt F) → (⟨S256x50176, .f32⟩ : BufTy).Contents (Elt F) → (⟨S256x50176, .f32⟩ : BufTy).Contents (Elt F)),
    unary main_v14 main_v31 (broadcastInDim S256x50176x1 ![0, 1] bcast_S256x50176_S256x50176x1_0_1 : (⟨S256x50176, .f32⟩ : BufTy).Contents (Elt F) → (⟨S256x50176x1, .f32⟩ : BufTy).Contents (Elt F)),
    unary main_v13 main_v32 (broadcastInDim S256x50176x1 ![0, 1] bcast_S256x50176_S256x50176x1_0_1 : (⟨S256x50176, .f32⟩ : BufTy).Contents (Elt F) → (⟨S256x50176x1, .f32⟩ : BufTy).Contents (Elt F)),
    unary main_v22 main_v33 (broadcastInDim S256x50176x1 ![0, 1] bcast_S256x50176_S256x50176x1_0_1 : (⟨S256x50176, .f32⟩ : BufTy).Contents (Elt F) → (⟨S256x50176x1, .f32⟩ : BufTy).Contents (Elt F)),
    unary main_v30 main_v34 (broadcastInDim S256x50176x1 ![0, 1] bcast_S256x50176_S256x50176x1_0_1 : (⟨S256x50176, .f32⟩ : BufTy).Contents (Elt F) → (⟨S256x50176x1, .f32⟩ : BufTy).Contents (Elt F)) ]

theorem ops_basisA0_sub : ∀ op ∈ (ops_basisA0 : List (HloOp τ sig (Elt F))), op.bufs ⊆ tcRefs τ sig :=
  List.forall_iff_forall_mem.mp ⟨nullary_bufs_sub .., binary_bufs_sub .., nullary_bufs_sub .., binary_bufs_sub .., unary_bufs_sub .., binary_bufs_sub .., nullary_bufs_sub .., unary_bufs_sub .., binary_bufs_sub .., binary_bufs_sub .., unary_bufs_sub .., binary_bufs_sub .., nullary_bufs_sub .., unary_bufs_sub .., binary_bufs_sub .., nullary_bufs_sub .., unary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., unary_bufs_sub .., unary_bufs_sub .., unary_bufs_sub .., unary_bufs_sub ..⟩

theorem ops_basisA0_fresh : ∀ op ∈ (ops_basisA0 : List (HloOp τ sig (Elt F))), op.fresh = ∅ := by
  intro _ h; (repeat (cases h with | head => rfl | tail _ h => ?_)); exact nomatch h

/-- These operations leave every reference they do not write as it was. -/
theorem ops_basisA0_frame (V : Valuation τ sig (Elt F)) {r : Ref sig .tc}
    (hr : r ∉ ([main_cst, main_v3, main_cst_0, main_v4, main_v5, main_v6, main_cst_1, main_v7, main_v8, main_v9, main_v10, main_v11, main_cst_2, main_v12, main_v13, main_cst_3, main_v14, main_cst_4, main_v15, main_v16, main_v17, main_cst_5, main_v18, main_v19, main_v20, main_cst_6, main_v21, main_v22, main_cst_7, main_v23, main_v24, main_v25, main_cst_8, main_v26, main_v27, main_v28, main_cst_9, main_v29, main_v30, main_v31, main_v32, main_v33, main_v34] : List (Ref sig .tc))) :
    after ops_basisA0 V (no_index (Proc.devRef .tc r)) = V (Proc.devRef .tc r) :=
  after_frame (W := ([main_cst, main_v3, main_cst_0, main_v4, main_v5, main_v6, main_cst_1, main_v7, main_v8, main_v9, main_v10, main_v11, main_cst_2, main_v12, main_v13, main_cst_3, main_v14, main_cst_4, main_v15, main_v16, main_v17, main_cst_5, main_v18, main_v19, main_v20, main_cst_6, main_v21, main_v22, main_cst_7, main_v23, main_v24, main_v25, main_cst_8, main_v26, main_v27, main_v28, main_cst_9, main_v29, main_v30, main_v31, main_v32, main_v33, main_v34] : List (Ref sig .tc))) ops_basisA0 ⟨writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide)⟩ V hr

/-- The operations of basisA (a piece), in program order. -/
abbrev ops_basisA1 : List (HloOp τ sig (Elt F)) :=
  [
    nary ![main_v31, main_v32, main_v33, main_v34] main_v35 (fun u => concatenate S256x50176x4 2 [⟨S256x50176x1, u 0⟩, ⟨S256x50176x1, u 1⟩, ⟨S256x50176x1, u 2⟩, ⟨S256x50176x1, u 3⟩] concatenates_S256x50176x1_S256x50176x1_S256x50176x1_S256x50176x1_S256x50176x4_d2),
    reshape main_v35 main_v36 rfl shapeCasts_S256x50176x4_S256x200704 ]

theorem ops_basisA1_sub : ∀ op ∈ (ops_basisA1 : List (HloOp τ sig (Elt F))), op.bufs ⊆ tcRefs τ sig :=
  List.forall_iff_forall_mem.mp ⟨nary_bufs_sub .., reshape_bufs_sub ..⟩

theorem ops_basisA1_fresh : ∀ op ∈ (ops_basisA1 : List (HloOp τ sig (Elt F))), op.fresh = ∅ := by
  intro _ h; (repeat (cases h with | head => rfl | tail _ h => ?_)); exact nomatch h

/-- These operations leave every reference they do not write as it was. -/
theorem ops_basisA1_frame (V : Valuation τ sig (Elt F)) {r : Ref sig .tc}
    (hr : r ∉ ([main_v35, main_v36] : List (Ref sig .tc))) :
    after ops_basisA1 V (no_index (Proc.devRef .tc r)) = V (Proc.devRef .tc r) :=
  after_frame (W := ([main_v35, main_v36] : List (Ref sig .tc))) ops_basisA1 ⟨writes_sub_of_mem (by decide), writes_sub_of_mem (by decide)⟩ V hr

/-- The operations of preA, in program order. -/
abbrev ops_preA : List (HloOp τ sig (Elt F)) :=
  [
    unary main_arg2 main_v37 ((transpose S200704x1024 [1, 0] · transposes_S1024x200704_S200704x1024_1_0) : (⟨S1024x200704, .f32⟩ : BufTy).Contents (Elt F) → (⟨S200704x1024, .f32⟩ : BufTy).Contents (Elt F)),
    binary main_v36 main_v37 main_v38 ((fun l r => Host.dotGeneral dot_S256x200704_S200704x1024_S256x1024_1_0_0_1_n_n none l r) : (⟨S256x200704, .f32⟩ : BufTy).Contents (Elt F) → (⟨S200704x1024, .f32⟩ : BufTy).Contents (Elt F) → (⟨S256x1024, .f32⟩ : BufTy).Contents (Elt F)),
    binary main_v2 main_v38 main_v39 (addf : (⟨S256x1024, .f32⟩ : BufTy).Contents (Elt F) → (⟨S256x1024, .f32⟩ : BufTy).Contents (Elt F) → (⟨S256x1024, .f32⟩ : BufTy).Contents (Elt F)) ]

theorem ops_preA_sub : ∀ op ∈ (ops_preA : List (HloOp τ sig (Elt F))), op.bufs ⊆ tcRefs τ sig :=
  List.forall_iff_forall_mem.mp ⟨unary_bufs_sub .., binary_bufs_sub .., binary_bufs_sub ..⟩

theorem ops_preA_fresh : ∀ op ∈ (ops_preA : List (HloOp τ sig (Elt F))), op.fresh = ∅ := by
  intro _ h; (repeat (cases h with | head => rfl | tail _ h => ?_)); exact nomatch h

/-- These operations leave every reference they do not write as it was. -/
theorem ops_preA_frame (V : Valuation τ sig (Elt F)) {r : Ref sig .tc}
    (hr : r ∉ ([main_v37, main_v38, main_v39] : List (Ref sig .tc))) :
    after ops_preA V (no_index (Proc.devRef .tc r)) = V (Proc.devRef .tc r) :=
  after_frame (W := ([main_v37, main_v38, main_v39] : List (Ref sig .tc))) ops_preA ⟨writes_sub_of_mem (by decide), writes_sub_of_mem (by decide), writes_sub_of_mem (by decide)⟩ V hr

/-- The operations of meanA, in program order. -/
abbrev ops_meanA : List (HloOp τ sig (Elt F)) :=
  [
    nullary main_cst_10 (constant S_ .f32 0x00000000#32),
    binary main_v39 main_cst_10 main_v40 ((fun x v => Host.reduceAdd x v reducesTo_S256x1024_S256_d1 h_S_) : (⟨S256x1024, .f32⟩ : BufTy).Contents (Elt F) → (⟨S_, .f32⟩ : BufTy).Contents (Elt F) → (⟨S256, .f32⟩ : BufTy).Contents (Elt F)),
    unary main_v40 main_v41 (broadcastInDim S256x1 ![0] bcast_S256_S256x1_0 : (⟨S256, .f32⟩ : BufTy).Contents (Elt F) → (⟨S256x1, .f32⟩ : BufTy).Contents (Elt F)),
    nullary main_cst_11 (constant S_ .f32 0x44800000#32),
    unary main_cst_11 main_v42 (broadcastInDim S256x1 ![] bcast_S_S256x1 : (⟨S_, .f32⟩ : BufTy).Contents (Elt F) → (⟨S256x1, .f32⟩ : BufTy).Contents (Elt F)),
    binary main_v41 main_v42 main_v43 (Host.divf : (⟨S256x1, .f32⟩ : BufTy).Contents (Elt F) → (⟨S256x1, .f32⟩ : BufTy).Contents (Elt F) → (⟨S256x1, .f32⟩ : BufTy).Contents (Elt F)) ]

theorem ops_meanA_sub : ∀ op ∈ (ops_meanA : List (HloOp τ sig (Elt F))), op.bufs ⊆ tcRefs τ sig :=
  List.forall_iff_forall_mem.mp ⟨nullary_bufs_sub .., binary_bufs_sub .., unary_bufs_sub .., nullary_bufs_sub .., unary_bufs_sub .., binary_bufs_sub ..⟩

theorem ops_meanA_fresh : ∀ op ∈ (ops_meanA : List (HloOp τ sig (Elt F))), op.fresh = ∅ := by
  intro _ h; (repeat (cases h with | head => rfl | tail _ h => ?_)); exact nomatch h

/-- These operations leave every reference they do not write as it was. -/
theorem ops_meanA_frame (V : Valuation τ sig (Elt F)) {r : Ref sig .tc}
    (hr : r ∉ ([main_cst_10, main_v40, main_v41, main_cst_11, main_v42, main_v43] : List (Ref sig .tc))) :
    after ops_meanA V (no_index (Proc.devRef .tc r)) = V (Proc.devRef .tc r) :=
  after_frame (W := ([main_cst_10, main_v40, main_v41, main_cst_11, main_v42, main_v43] : List (Ref sig .tc))) ops_meanA ⟨writes_sub_of_mem (by decide), writes_sub_of_mem (by decide), writes_sub_of_mem (by decide), writes_sub_of_mem (by decide), writes_sub_of_mem (by decide), writes_sub_of_mem (by decide)⟩ V hr

/-- The operations of varA, in program order. -/
abbrev ops_varA : List (HloOp τ sig (Elt F)) :=
  [
    nullary main_c (constantI S_ 32 0#32),
    TRef.nullary main_call1.cst (constant S_ .f32 0x00000000#32),
    TRef.binary (.of main_v39) main_call1.cst main_call1.v0 (fun x v => Host.reduceAdd x v reducesTo_S256x1024_S256_d1 h_S_),
    TRef.unary main_call1.v0 main_call1.v1 (broadcastInDim S256x1 ![0] bcast_S256_S256x1_0),
    TRef.nullary main_call1.cst_0 (constant S_ .f32 0x44800000#32),
    TRef.unary main_call1.cst_0 main_call1.v2 (broadcastInDim S256x1 ![] bcast_S_S256x1),
    TRef.binary main_call1.v1 main_call1.v2 main_call1.v3 Host.divf,
    TRef.unary main_call1.v3 main_call1.v4 (broadcastInDim S256x1024 ![0, 1] bcast_S256x1_S256x1024_0_1),
    TRef.binary (.of main_v39) main_call1.v4 main_call1.v5 subf,
    TRef.binary main_call1.v5 main_call1.v5 main_call1.v6 mulf,
    TRef.unary (.of main_c) main_call1.v7 (sitofp .f32),
    TRef.nullary main_call1.cst_1 (constant S_ .f32 0x44800000#32),
    TRef.binary main_call1.cst_1 main_call1.v7 main_call1.v8 subf,
    TRef.nullary main_call1.cst_2 (constant S_ .f32 0x00000000#32),
    TRef.binary main_call1.v6 main_call1.cst_2 main_call1.v9 (fun x v => Host.reduceAdd x v reducesTo_S256x1024_S256_d1 h_S_),
    TRef.unary main_call1.v9 main_call1.v10 (broadcastInDim S256x1 ![0] bcast_S256_S256x1_0),
    TRef.unary main_call1.v8 main_call1.v11 (broadcastInDim S256x1 ![] bcast_S_S256x1),
    TRef.binary main_call1.v10 main_call1.v11 main_call1.v12 Host.divf,
    TRef.nullary main_call1.cst_3 (constant S_ .f32 0x00000000#32),
    TRef.binary main_call1.v8 main_call1.cst_3 main_call1.v13 (cmpf .ogt),
    TRef.nullary main_call1.cst_4 (constant S_ .f32 0x7FC00000#32),
    TRef.unary main_call1.cst_4 main_call1.call0.v0 id,
    TRef.unary main_call1.call0.v0 main_call1.call0.v1 (broadcastInDim S256x1 ![] bcast_S_S256x1),
    TRef.ternary main_call1.v13 main_call1.v12 main_call1.call0.v1 main_call1.call0.v2 (fun p a b => select (broadcastInDim S256x1 ![] bcast_S_S256x1 p) a b) ]

theorem ops_varA_sub : ∀ op ∈ (ops_varA : List (HloOp τ sig (Elt F))), op.bufs ⊆ tcRefs τ sig :=
  List.forall_iff_forall_mem.mp ⟨nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., unary_bufs_sub .., binary_bufs_sub .., nullary_bufs_sub .., binary_bufs_sub .., nullary_bufs_sub .., unary_bufs_sub .., unary_bufs_sub .., ternary_bufs_sub ..⟩

theorem ops_varA_fresh : ∀ op ∈ (ops_varA : List (HloOp τ sig (Elt F))), op.fresh = ∅ := by
  intro _ h; (repeat (cases h with | head => rfl | tail _ h => ?_)); exact nomatch h

/-- These operations leave every reference they do not write as it was. -/
theorem ops_varA_frame (V : Valuation τ sig (Elt F)) {r : Ref sig .tc}
    (hr : r ∉ ([main_c, main_call1_cst, main_call1_v0, main_call1_v1, main_call1_cst_0, main_call1_v2, main_call1_v3, main_call1_v4, main_call1_v5, main_call1_v6, main_call1_v7, main_call1_cst_1, main_call1_v8, main_call1_cst_2, main_call1_v9, main_call1_v10, main_call1_v11, main_call1_v12, main_call1_cst_3, main_call1_v13, main_call1_cst_4, main_call1_call0_v0, main_call1_call0_v1, main_v44] : List (Ref sig .tc))) :
    after ops_varA V (no_index (Proc.devRef .tc r)) = V (Proc.devRef .tc r) :=
  after_frame (W := ([main_c, main_call1_cst, main_call1_v0, main_call1_v1, main_call1_cst_0, main_call1_v2, main_call1_v3, main_call1_v4, main_call1_v5, main_call1_v6, main_call1_v7, main_call1_cst_1, main_call1_v8, main_call1_cst_2, main_call1_v9, main_call1_v10, main_call1_v11, main_call1_v12, main_call1_cst_3, main_call1_v13, main_call1_cst_4, main_call1_call0_v0, main_call1_call0_v1, main_v44] : List (Ref sig .tc))) ops_varA ⟨writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide)⟩ V hr

/-- The operations of normA (a piece), in program order. -/
abbrev ops_normA0 : List (HloOp τ sig (Elt F)) :=
  [
    unary main_v43 main_v45 (broadcastInDim S256x1024 ![0, 1] bcast_S256x1_S256x1024_0_1 : (⟨S256x1, .f32⟩ : BufTy).Contents (Elt F) → (⟨S256x1024, .f32⟩ : BufTy).Contents (Elt F)) ]

theorem ops_normA0_sub : ∀ op ∈ (ops_normA0 : List (HloOp τ sig (Elt F))), op.bufs ⊆ tcRefs τ sig :=
  List.forall_iff_forall_mem.mp (unary_bufs_sub ..)

theorem ops_normA0_fresh : ∀ op ∈ (ops_normA0 : List (HloOp τ sig (Elt F))), op.fresh = ∅ := by
  intro _ h; (repeat (cases h with | head => rfl | tail _ h => ?_)); exact nomatch h

/-- These operations leave every reference they do not write as it was. -/
theorem ops_normA0_frame (V : Valuation τ sig (Elt F)) {r : Ref sig .tc}
    (hr : r ∉ ([main_v45] : List (Ref sig .tc))) :
    after ops_normA0 V (no_index (Proc.devRef .tc r)) = V (Proc.devRef .tc r) :=
  after_frame (W := ([main_v45] : List (Ref sig .tc))) ops_normA0 (writes_sub_of_mem (by decide)) V hr

/-- This window's operations. -/
abbrev opsP0 : List (HloOp τ sig (Elt F)) :=
  ops_siluA ++ ops_baseA ++ ops_basisA0 ++ ops_basisA1 ++ ops_preA ++ ops_meanA ++ ops_varA ++ ops_normA0

set_option maxRecDepth 16384 in
set_option maxHeartbeats 4000000 in
/-- This window of @main is the straight line of its operations: the callees' definitions unfolded at their
    calls, sequencing reassociated. -/
theorem part0_eq (c : Dev nD) : main_part0 (F := F) c = seq opsP0 := by
  simp only [main_part0, fn_silu.body, fn_var.body, fn_where.body, fn_silu_0.body, fn_var_1.body, fn_silu_2.body, ops_siluA, ops_baseA, ops_basisA0, ops_basisA1, ops_preA, ops_meanA, ops_varA, ops_normA0, opsP0, List.cons_append, List.nil_append, seq, bind_assoc, pure_bind] <;> rfl

end Cert.ReferenceIdeal.RefRun

end
-- ==== Proof.RefRun.Ops1.lean ====
import proofs.«114522_j54279796687469_2_alg».proof.Proof.Gen.ReferenceIdeal
import proofs.«114522_j54279796687469_2_alg».proof.Proof.RefRun.Lemmas
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The operations of normA (a piece), in program order. -/
abbrev ops_normA1 : List (HloOp τ sig (Elt F)) :=
  [
    binary main_v39 main_v45 main_v46 (subf : (⟨S256x1024, .f32⟩ : BufTy).Contents (Elt F) → (⟨S256x1024, .f32⟩ : BufTy).Contents (Elt F) → (⟨S256x1024, .f32⟩ : BufTy).Contents (Elt F)),
    nullary main_cst_12 (constant S_ .f32 0x3727C5AC#32),
    unary main_cst_12 main_v47 (broadcastInDim S256x1 ![] bcast_S_S256x1 : (⟨S_, .f32⟩ : BufTy).Contents (Elt F) → (⟨S256x1, .f32⟩ : BufTy).Contents (Elt F)),
    binary main_v44 main_v47 main_v48 (addf : (⟨S256x1, .f32⟩ : BufTy).Contents (Elt F) → (⟨S256x1, .f32⟩ : BufTy).Contents (Elt F) → (⟨S256x1, .f32⟩ : BufTy).Contents (Elt F)),
    unary main_v48 main_v49 (Host.sqrt : (⟨S256x1, .f32⟩ : BufTy).Contents (Elt F) → (⟨S256x1, .f32⟩ : BufTy).Contents (Elt F)),
    unary main_v49 main_v50 (broadcastInDim S256x1024 ![0, 1] bcast_S256x1_S256x1024_0_1 : (⟨S256x1, .f32⟩ : BufTy).Contents (Elt F) → (⟨S256x1024, .f32⟩ : BufTy).Contents (Elt F)),
    binary main_v46 main_v50 main_v51 (Host.divf : (⟨S256x1024, .f32⟩ : BufTy).Contents (Elt F) → (⟨S256x1024, .f32⟩ : BufTy).Contents (Elt F) → (⟨S256x1024, .f32⟩ : BufTy).Contents (Elt F)),
    unary main_arg3 main_v52 (broadcastInDim S1x1024 ![1] bcast_S1024_S1x1024_1 : (⟨S1024, .f32⟩ : BufTy).Contents (Elt F) → (⟨S1x1024, .f32⟩ : BufTy).Contents (Elt F)),
    unary main_v52 main_v53 (broadcastInDim S256x1024 ![0, 1] bcast_S1x1024_S256x1024_0_1 : (⟨S1x1024, .f32⟩ : BufTy).Contents (Elt F) → (⟨S256x1024, .f32⟩ : BufTy).Contents (Elt F)),
    binary main_v51 main_v53 main_v54 (mulf : (⟨S256x1024, .f32⟩ : BufTy).Contents (Elt F) → (⟨S256x1024, .f32⟩ : BufTy).Contents (Elt F) → (⟨S256x1024, .f32⟩ : BufTy).Contents (Elt F)),
    unary main_arg4 main_v55 (broadcastInDim S1x1024 ![1] bcast_S1024_S1x1024_1 : (⟨S1024, .f32⟩ : BufTy).Contents (Elt F) → (⟨S1x1024, .f32⟩ : BufTy).Contents (Elt F)),
    unary main_v55 main_v56 (broadcastInDim S256x1024 ![0, 1] bcast_S1x1024_S256x1024_0_1 : (⟨S1x1024, .f32⟩ : BufTy).Contents (Elt F) → (⟨S256x1024, .f32⟩ : BufTy).Contents (Elt F)),
    binary main_v54 main_v56 main_v57 (addf : (⟨S256x1024, .f32⟩ : BufTy).Contents (Elt F) → (⟨S256x1024, .f32⟩ : BufTy).Contents (Elt F) → (⟨S256x1024, .f32⟩ : BufTy).Contents (Elt F)) ]

theorem ops_normA1_sub : ∀ op ∈ (ops_normA1 : List (HloOp τ sig (Elt F))), op.bufs ⊆ tcRefs τ sig :=
  List.forall_iff_forall_mem.mp ⟨binary_bufs_sub .., nullary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub ..⟩

theorem ops_normA1_fresh : ∀ op ∈ (ops_normA1 : List (HloOp τ sig (Elt F))), op.fresh = ∅ := by
  intro _ h; (repeat (cases h with | head => rfl | tail _ h => ?_)); exact nomatch h

/-- These operations leave every reference they do not write as it was. -/
theorem ops_normA1_frame (V : Valuation τ sig (Elt F)) {r : Ref sig .tc}
    (hr : r ∉ ([main_v46, main_cst_12, main_v47, main_v48, main_v49, main_v50, main_v51, main_v52, main_v53, main_v54, main_v55, main_v56, main_v57] : List (Ref sig .tc))) :
    after ops_normA1 V (no_index (Proc.devRef .tc r)) = V (Proc.devRef .tc r) :=
  after_frame (W := ([main_v46, main_cst_12, main_v47, main_v48, main_v49, main_v50, main_v51, main_v52, main_v53, main_v54, main_v55, main_v56, main_v57] : List (Ref sig .tc))) ops_normA1 ⟨writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide)⟩ V hr

/-- The operations of actA, in program order. -/
abbrev ops_actA : List (HloOp τ sig (Elt F)) :=
  [
    TRef.unary (.of main_v57) main_call2.v0 Host.negf,
    TRef.unary main_call2.v0 main_call2.v1 Host.exp,
    TRef.nullary main_call2.cst (constant S_ .f32 0x3F800000#32),
    TRef.unary main_call2.cst main_call2.v2 (broadcastInDim S256x1024 ![] bcast_S_S256x1024),
    TRef.binary main_call2.v2 main_call2.v1 main_call2.v3 addf,
    TRef.nullary main_call2.cst_0 (constant S_ .f32 0x3F800000#32),
    TRef.unary main_call2.cst_0 main_call2.v4 (broadcastInDim S256x1024 ![] bcast_S_S256x1024),
    TRef.binary main_call2.v4 main_call2.v3 main_call2.v5 Host.divf,
    TRef.binary (.of main_v57) main_call2.v5 main_call2.v6 mulf ]

theorem ops_actA_sub : ∀ op ∈ (ops_actA : List (HloOp τ sig (Elt F))), op.bufs ⊆ tcRefs τ sig :=
  List.forall_iff_forall_mem.mp ⟨unary_bufs_sub .., unary_bufs_sub .., nullary_bufs_sub .., unary_bufs_sub .., binary_bufs_sub .., nullary_bufs_sub .., unary_bufs_sub .., binary_bufs_sub .., binary_bufs_sub ..⟩

theorem ops_actA_fresh : ∀ op ∈ (ops_actA : List (HloOp τ sig (Elt F))), op.fresh = ∅ := by
  intro _ h; (repeat (cases h with | head => rfl | tail _ h => ?_)); exact nomatch h

/-- These operations leave every reference they do not write as it was. -/
theorem ops_actA_frame (V : Valuation τ sig (Elt F)) {r : Ref sig .tc}
    (hr : r ∉ ([main_call2_v0, main_call2_v1, main_call2_cst, main_call2_v2, main_call2_v3, main_call2_cst_0, main_call2_v4, main_call2_v5, main_v58] : List (Ref sig .tc))) :
    after ops_actA V (no_index (Proc.devRef .tc r)) = V (Proc.devRef .tc r) :=
  after_frame (W := ([main_call2_v0, main_call2_v1, main_call2_cst, main_call2_v2, main_call2_v3, main_call2_cst_0, main_call2_v4, main_call2_v5, main_v58] : List (Ref sig .tc))) ops_actA ⟨writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide)⟩ V hr

/-- The operations of siluB, in program order. -/
abbrev ops_siluB : List (HloOp τ sig (Elt F)) :=
  [
    TRef.unary (.of main_v58) main_call3.v0 Host.negf,
    TRef.unary main_call3.v0 main_call3.v1 Host.exp,
    TRef.nullary main_call3.cst (constant S_ .f32 0x3F800000#32),
    TRef.unary main_call3.cst main_call3.v2 (broadcastInDim S256x1024 ![] bcast_S_S256x1024),
    TRef.binary main_call3.v2 main_call3.v1 main_call3.v3 addf,
    TRef.nullary main_call3.cst_0 (constant S_ .f32 0x3F800000#32),
    TRef.unary main_call3.cst_0 main_call3.v4 (broadcastInDim S256x1024 ![] bcast_S_S256x1024),
    TRef.binary main_call3.v4 main_call3.v3 main_call3.v5 Host.divf,
    TRef.binary (.of main_v58) main_call3.v5 main_call3.v6 mulf ]

theorem ops_siluB_sub : ∀ op ∈ (ops_siluB : List (HloOp τ sig (Elt F))), op.bufs ⊆ tcRefs τ sig :=
  List.forall_iff_forall_mem.mp ⟨unary_bufs_sub .., unary_bufs_sub .., nullary_bufs_sub .., unary_bufs_sub .., binary_bufs_sub .., nullary_bufs_sub .., unary_bufs_sub .., binary_bufs_sub .., binary_bufs_sub ..⟩

theorem ops_siluB_fresh : ∀ op ∈ (ops_siluB : List (HloOp τ sig (Elt F))), op.fresh = ∅ := by
  intro _ h; (repeat (cases h with | head => rfl | tail _ h => ?_)); exact nomatch h

/-- These operations leave every reference they do not write as it was. -/
theorem ops_siluB_frame (V : Valuation τ sig (Elt F)) {r : Ref sig .tc}
    (hr : r ∉ ([main_call3_v0, main_call3_v1, main_call3_cst, main_call3_v2, main_call3_v3, main_call3_cst_0, main_call3_v4, main_call3_v5, main_v59] : List (Ref sig .tc))) :
    after ops_siluB V (no_index (Proc.devRef .tc r)) = V (Proc.devRef .tc r) :=
  after_frame (W := ([main_call3_v0, main_call3_v1, main_call3_cst, main_call3_v2, main_call3_v3, main_call3_cst_0, main_call3_v4, main_call3_v5, main_v59] : List (Ref sig .tc))) ops_siluB ⟨writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide)⟩ V hr

/-- The operations of baseB, in program order. -/
abbrev ops_baseB : List (HloOp τ sig (Elt F)) :=
  [
    unary main_arg5 main_v60 ((transpose S1024x128 [1, 0] · transposes_S128x1024_S1024x128_1_0) : (⟨S128x1024, .f32⟩ : BufTy).Contents (Elt F) → (⟨S1024x128, .f32⟩ : BufTy).Contents (Elt F)),
    binary main_v59 main_v60 main_v61 ((fun l r => Host.dotGeneral dot_S256x1024_S1024x128_S256x128_1_0_0_1_n_n none l r) : (⟨S256x1024, .f32⟩ : BufTy).Contents (Elt F) → (⟨S1024x128, .f32⟩ : BufTy).Contents (Elt F) → (⟨S256x128, .f32⟩ : BufTy).Contents (Elt F)) ]

theorem ops_baseB_sub : ∀ op ∈ (ops_baseB : List (HloOp τ sig (Elt F))), op.bufs ⊆ tcRefs τ sig :=
  List.forall_iff_forall_mem.mp ⟨unary_bufs_sub .., binary_bufs_sub ..⟩

theorem ops_baseB_fresh : ∀ op ∈ (ops_baseB : List (HloOp τ sig (Elt F))), op.fresh = ∅ := by
  intro _ h; (repeat (cases h with | head => rfl | tail _ h => ?_)); exact nomatch h

/-- These operations leave every reference they do not write as it was. -/
theorem ops_baseB_frame (V : Valuation τ sig (Elt F)) {r : Ref sig .tc}
    (hr : r ∉ ([main_v60, main_v61] : List (Ref sig .tc))) :
    after ops_baseB V (no_index (Proc.devRef .tc r)) = V (Proc.devRef .tc r) :=
  after_frame (W := ([main_v60, main_v61] : List (Ref sig .tc))) ops_baseB ⟨writes_sub_of_mem (by decide), writes_sub_of_mem (by decide)⟩ V hr

/-- The operations of basisB (a piece), in program order. -/
abbrev ops_basisB0 : List (HloOp τ sig (Elt F)) :=
  [
    nullary main_cst_13 (constant S_ .f32 0x7F800000#32),
    binary main_v58 main_cst_13 main_v62 ((fun x v => Host.reduce FloatOps.minimumf x v reducesTo_S256x1024_S_d0_1 h_S_) : (⟨S256x1024, .f32⟩ : BufTy).Contents (Elt F) → (⟨S_, .f32⟩ : BufTy).Contents (Elt F) → (⟨S_, .f32⟩ : BufTy).Contents (Elt F)),
    nullary main_cst_14 (constant S_ .f32 0xFF800000#32),
    binary main_v58 main_cst_14 main_v63 ((fun x v => Host.reduce FloatOps.maximumf x v reducesTo_S256x1024_S_d0_1 h_S_) : (⟨S256x1024, .f32⟩ : BufTy).Contents (Elt F) → (⟨S_, .f32⟩ : BufTy).Contents (Elt F) → (⟨S_, .f32⟩ : BufTy).Contents (Elt F)),
    unary main_v62 main_v64 (broadcastInDim S256x1024 ![] bcast_S_S256x1024 : (⟨S_, .f32⟩ : BufTy).Contents (Elt F) → (⟨S256x1024, .f32⟩ : BufTy).Contents (Elt F)),
    binary main_v58 main_v64 main_v65 (subf : (⟨S256x1024, .f32⟩ : BufTy).Contents (Elt F) → (⟨S256x1024, .f32⟩ : BufTy).Contents (Elt F) → (⟨S256x1024, .f32⟩ : BufTy).Contents (Elt F)),
    nullary main_cst_15 (constant S_ .f32 0x40000000#32),
    unary main_cst_15 main_v66 (broadcastInDim S256x1024 ![] bcast_S_S256x1024 : (⟨S_, .f32⟩ : BufTy).Contents (Elt F) → (⟨S256x1024, .f32⟩ : BufTy).Contents (Elt F)),
    binary main_v66 main_v65 main_v67 (mulf : (⟨S256x1024, .f32⟩ : BufTy).Contents (Elt F) → (⟨S256x1024, .f32⟩ : BufTy).Contents (Elt F) → (⟨S256x1024, .f32⟩ : BufTy).Contents (Elt F)),
    binary main_v63 main_v62 main_v68 (subf : (⟨S_, .f32⟩ : BufTy).Contents (Elt F) → (⟨S_, .f32⟩ : BufTy).Contents (Elt F) → (⟨S_, .f32⟩ : BufTy).Contents (Elt F)),
    unary main_v68 main_v69 (broadcastInDim S256x1024 ![] bcast_S_S256x1024 : (⟨S_, .f32⟩ : BufTy).Contents (Elt F) → (⟨S256x1024, .f32⟩ : BufTy).Contents (Elt F)),
    binary main_v67 main_v69 main_v70 (Host.divf : (⟨S256x1024, .f32⟩ : BufTy).Contents (Elt F) → (⟨S256x1024, .f32⟩ : BufTy).Contents (Elt F) → (⟨S256x1024, .f32⟩ : BufTy).Contents (Elt F)),
    nullary main_cst_16 (constant S_ .f32 0x3F800000#32),
    unary main_cst_16 main_v71 (broadcastInDim S256x1024 ![] bcast_S_S256x1024 : (⟨S_, .f32⟩ : BufTy).Contents (Elt F) → (⟨S256x1024, .f32⟩ : BufTy).Contents (Elt F)),
    binary main_v70 main_v71 main_v72 (subf : (⟨S256x1024, .f32⟩ : BufTy).Contents (Elt F) → (⟨S256x1024, .f32⟩ : BufTy).Contents (Elt F) → (⟨S256x1024, .f32⟩ : BufTy).Contents (Elt F)),
    nullary main_cst_17 (constant S_ .f32 0x3F800000#32),
    unary main_cst_17 main_v73 (broadcastInDim S256x1024 ![] bcast_S_S256x1024 : (⟨S_, .f32⟩ : BufTy).Contents (Elt F) → (⟨S256x1024, .f32⟩ : BufTy).Contents (Elt F)),
    nullary main_cst_18 (constant S_ .f32 0x40400000#32),
    unary main_cst_18 main_v74 (broadcastInDim S256x1024 ![] bcast_S_S256x1024 : (⟨S_, .f32⟩ : BufTy).Contents (Elt F) → (⟨S256x1024, .f32⟩ : BufTy).Contents (Elt F)),
    binary main_v74 main_v72 main_v75 (mulf : (⟨S256x1024, .f32⟩ : BufTy).Contents (Elt F) → (⟨S256x1024, .f32⟩ : BufTy).Contents (Elt F) → (⟨S256x1024, .f32⟩ : BufTy).Contents (Elt F)),
    binary main_v75 main_v72 main_v76 (mulf : (⟨S256x1024, .f32⟩ : BufTy).Contents (Elt F) → (⟨S256x1024, .f32⟩ : BufTy).Contents (Elt F) → (⟨S256x1024, .f32⟩ : BufTy).Contents (Elt F)),
    nullary main_cst_19 (constant S_ .f32 0x3F800000#32),
    unary main_cst_19 main_v77 (broadcastInDim S256x1024 ![] bcast_S_S256x1024 : (⟨S_, .f32⟩ : BufTy).Contents (Elt F) → (⟨S256x1024, .f32⟩ : BufTy).Contents (Elt F)),
    binary main_v77 main_v73 main_v78 (mulf : (⟨S256x1024, .f32⟩ : BufTy).Contents (Elt F) → (⟨S256x1024, .f32⟩ : BufTy).Contents (Elt F) → (⟨S256x1024, .f32⟩ : BufTy).Contents (Elt F)),
    binary main_v76 main_v78 main_v79 (subf : (⟨S256x1024, .f32⟩ : BufTy).Contents (Elt F) → (⟨S256x1024, .f32⟩ : BufTy).Contents (Elt F) → (⟨S256x1024, .f32⟩ : BufTy).Contents (Elt F)),
    nullary main_cst_20 (constant S_ .f32 0x40000000#32),
    unary main_cst_20 main_v80 (broadcastInDim S256x1024 ![] bcast_S_S256x1024 : (⟨S_, .f32⟩ : BufTy).Contents (Elt F) → (⟨S256x1024, .f32⟩ : BufTy).Contents (Elt F)),
    binary main_v79 main_v80 main_v81 (Host.divf : (⟨S256x1024, .f32⟩ : BufTy).Contents (Elt F) → (⟨S256x1024, .f32⟩ : BufTy).Contents (Elt F) → (⟨S256x1024, .f32⟩ : BufTy).Contents (Elt F)),
    nullary main_cst_21 (constant S_ .f32 0x40A00000#32),
    unary main_cst_21 main_v82 (broadcastInDim S256x1024 ![] bcast_S_S256x1024 : (⟨S_, .f32⟩ : BufTy).Contents (Elt F) → (⟨S256x1024, .f32⟩ : BufTy).Contents (Elt F)),
    binary main_v82 main_v72 main_v83 (mulf : (⟨S256x1024, .f32⟩ : BufTy).Contents (Elt F) → (⟨S256x1024, .f32⟩ : BufTy).Contents (Elt F) → (⟨S256x1024, .f32⟩ : BufTy).Contents (Elt F)),
    binary main_v83 main_v81 main_v84 (mulf : (⟨S256x1024, .f32⟩ : BufTy).Contents (Elt F) → (⟨S256x1024, .f32⟩ : BufTy).Contents (Elt F) → (⟨S256x1024, .f32⟩ : BufTy).Contents (Elt F)),
    nullary main_cst_22 (constant S_ .f32 0x40000000#32),
    unary main_cst_22 main_v85 (broadcastInDim S256x1024 ![] bcast_S_S256x1024 : (⟨S_, .f32⟩ : BufTy).Contents (Elt F) → (⟨S256x1024, .f32⟩ : BufTy).Contents (Elt F)),
    binary main_v85 main_v72 main_v86 (mulf : (⟨S256x1024, .f32⟩ : BufTy).Contents (Elt F) → (⟨S256x1024, .f32⟩ : BufTy).Contents (Elt F) → (⟨S256x1024, .f32⟩ : BufTy).Contents (Elt F)),
    binary main_v84 main_v86 main_v87 (subf : (⟨S256x1024, .f32⟩ : BufTy).Contents (Elt F) → (⟨S256x1024, .f32⟩ : BufTy).Contents (Elt F) → (⟨S256x1024, .f32⟩ : BufTy).Contents (Elt F)),
    nullary main_cst_23 (constant S_ .f32 0x40400000#32),
    unary main_cst_23 main_v88 (broadcastInDim S256x1024 ![] bcast_S_S256x1024 : (⟨S_, .f32⟩ : BufTy).Contents (Elt F) → (⟨S256x1024, .f32⟩ : BufTy).Contents (Elt F)),
    binary main_v87 main_v88 main_v89 (Host.divf : (⟨S256x1024, .f32⟩ : BufTy).Contents (Elt F) → (⟨S256x1024, .f32⟩ : BufTy).Contents (Elt F) → (⟨S256x1024, .f32⟩ : BufTy).Contents (Elt F)),
    unary main_v73 main_v90 (broadcastInDim S256x1024x1 ![0, 1] bcast_S256x1024_S256x1024x1_0_1 : (⟨S256x1024, .f32⟩ : BufTy).Contents (Elt F) → (⟨S256x1024x1, .f32⟩ : BufTy).Contents (Elt F)),
    unary main_v72 main_v91 (broadcastInDim S256x1024x1 ![0, 1] bcast_S256x1024_S256x1024x1_0_1 : (⟨S256x1024, .f32⟩ : BufTy).Contents (Elt F) → (⟨S256x1024x1, .f32⟩ : BufTy).Contents (Elt F)),
    unary main_v81 main_v92 (broadcastInDim S256x1024x1 ![0, 1] bcast_S256x1024_S256x1024x1_0_1 : (⟨S256x1024, .f32⟩ : BufTy).Contents (Elt F) → (⟨S256x1024x1, .f32⟩ : BufTy).Contents (Elt F)),
    unary main_v89 main_v93 (broadcastInDim S256x1024x1 ![0, 1] bcast_S256x1024_S256x1024x1_0_1 : (⟨S256x1024, .f32⟩ : BufTy).Contents (Elt F) → (⟨S256x1024x1, .f32⟩ : BufTy).Contents (Elt F)) ]

theorem ops_basisB0_sub : ∀ op ∈ (ops_basisB0 : List (HloOp τ sig (Elt F))), op.bufs ⊆ tcRefs τ sig :=
  List.forall_iff_forall_mem.mp ⟨nullary_bufs_sub .., binary_bufs_sub .., nullary_bufs_sub .., binary_bufs_sub .., unary_bufs_sub .., binary_bufs_sub .., nullary_bufs_sub .., unary_bufs_sub .., binary_bufs_sub .., binary_bufs_sub .., unary_bufs_sub .., binary_bufs_sub .., nullary_bufs_sub .., unary_bufs_sub .., binary_bufs_sub .., nullary_bufs_sub .., unary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., unary_bufs_sub .., unary_bufs_sub .., unary_bufs_sub .., unary_bufs_sub ..⟩

theorem ops_basisB0_fresh : ∀ op ∈ (ops_basisB0 : List (HloOp τ sig (Elt F))), op.fresh = ∅ := by
  intro _ h; (repeat (cases h with | head => rfl | tail _ h => ?_)); exact nomatch h

/-- These operations leave every reference they do not write as it was. -/
theorem ops_basisB0_frame (V : Valuation τ sig (Elt F)) {r : Ref sig .tc}
    (hr : r ∉ ([main_cst_13, main_v62, main_cst_14, main_v63, main_v64, main_v65, main_cst_15, main_v66, main_v67, main_v68, main_v69, main_v70, main_cst_16, main_v71, main_v72, main_cst_17, main_v73, main_cst_18, main_v74, main_v75, main_v76, main_cst_19, main_v77, main_v78, main_v79, main_cst_20, main_v80, main_v81, main_cst_21, main_v82, main_v83, main_v84, main_cst_22, main_v85, main_v86, main_v87, main_cst_23, main_v88, main_v89, main_v90, main_v91, main_v92, main_v93] : List (Ref sig .tc))) :
    after ops_basisB0 V (no_index (Proc.devRef .tc r)) = V (Proc.devRef .tc r) :=
  after_frame (W := ([main_cst_13, main_v62, main_cst_14, main_v63, main_v64, main_v65, main_cst_15, main_v66, main_v67, main_v68, main_v69, main_v70, main_cst_16, main_v71, main_v72, main_cst_17, main_v73, main_cst_18, main_v74, main_v75, main_v76, main_cst_19, main_v77, main_v78, main_v79, main_cst_20, main_v80, main_v81, main_cst_21, main_v82, main_v83, main_v84, main_cst_22, main_v85, main_v86, main_v87, main_cst_23, main_v88, main_v89, main_v90, main_v91, main_v92, main_v93] : List (Ref sig .tc))) ops_basisB0 ⟨writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide)⟩ V hr

/-- This window's operations. -/
abbrev opsP1 : List (HloOp τ sig (Elt F)) :=
  ops_normA1 ++ ops_actA ++ ops_siluB ++ ops_baseB ++ ops_basisB0

set_option maxRecDepth 16384 in
set_option maxHeartbeats 4000000 in
/-- This window of @main is the straight line of its operations: the callees' definitions unfolded at their
    calls, sequencing reassociated. -/
theorem part1_eq (c : Dev nD) : main_part1 (F := F) c = seq opsP1 := by
  simp only [main_part1, fn_silu.body, fn_var.body, fn_where.body, fn_silu_0.body, fn_var_1.body, fn_silu_2.body, ops_normA1, ops_actA, ops_siluB, ops_baseB, ops_basisB0, opsP1, List.cons_append, List.nil_append, seq, bind_assoc, pure_bind] <;> rfl

end Cert.ReferenceIdeal.RefRun

end
-- ==== Proof.RefRun.Ops2.lean ====
import proofs.«114522_j54279796687469_2_alg».proof.Proof.Gen.ReferenceIdeal
import proofs.«114522_j54279796687469_2_alg».proof.Proof.RefRun.Lemmas
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The operations of basisB (a piece), in program order. -/
abbrev ops_basisB1 : List (HloOp τ sig (Elt F)) :=
  [
    nary ![main_v90, main_v91, main_v92, main_v93] main_v94 (fun u => concatenate S256x1024x4 2 [⟨S256x1024x1, u 0⟩, ⟨S256x1024x1, u 1⟩, ⟨S256x1024x1, u 2⟩, ⟨S256x1024x1, u 3⟩] concatenates_S256x1024x1_S256x1024x1_S256x1024x1_S256x1024x1_S256x1024x4_d2),
    reshape main_v94 main_v95 rfl shapeCasts_S256x1024x4_S256x4096 ]

theorem ops_basisB1_sub : ∀ op ∈ (ops_basisB1 : List (HloOp τ sig (Elt F))), op.bufs ⊆ tcRefs τ sig :=
  List.forall_iff_forall_mem.mp ⟨nary_bufs_sub .., reshape_bufs_sub ..⟩

theorem ops_basisB1_fresh : ∀ op ∈ (ops_basisB1 : List (HloOp τ sig (Elt F))), op.fresh = ∅ := by
  intro _ h; (repeat (cases h with | head => rfl | tail _ h => ?_)); exact nomatch h

/-- These operations leave every reference they do not write as it was. -/
theorem ops_basisB1_frame (V : Valuation τ sig (Elt F)) {r : Ref sig .tc}
    (hr : r ∉ ([main_v94, main_v95] : List (Ref sig .tc))) :
    after ops_basisB1 V (no_index (Proc.devRef .tc r)) = V (Proc.devRef .tc r) :=
  after_frame (W := ([main_v94, main_v95] : List (Ref sig .tc))) ops_basisB1 ⟨writes_sub_of_mem (by decide), writes_sub_of_mem (by decide)⟩ V hr

/-- The operations of preB, in program order. -/
abbrev ops_preB : List (HloOp τ sig (Elt F)) :=
  [
    unary main_arg6 main_v96 ((transpose S4096x128 [1, 0] · transposes_S128x4096_S4096x128_1_0) : (⟨S128x4096, .f32⟩ : BufTy).Contents (Elt F) → (⟨S4096x128, .f32⟩ : BufTy).Contents (Elt F)),
    binary main_v95 main_v96 main_v97 ((fun l r => Host.dotGeneral dot_S256x4096_S4096x128_S256x128_1_0_0_1_n_n none l r) : (⟨S256x4096, .f32⟩ : BufTy).Contents (Elt F) → (⟨S4096x128, .f32⟩ : BufTy).Contents (Elt F) → (⟨S256x128, .f32⟩ : BufTy).Contents (Elt F)),
    binary main_v61 main_v97 main_v98 (addf : (⟨S256x128, .f32⟩ : BufTy).Contents (Elt F) → (⟨S256x128, .f32⟩ : BufTy).Contents (Elt F) → (⟨S256x128, .f32⟩ : BufTy).Contents (Elt F)) ]

theorem ops_preB_sub : ∀ op ∈ (ops_preB : List (HloOp τ sig (Elt F))), op.bufs ⊆ tcRefs τ sig :=
  List.forall_iff_forall_mem.mp ⟨unary_bufs_sub .., binary_bufs_sub .., binary_bufs_sub ..⟩

theorem ops_preB_fresh : ∀ op ∈ (ops_preB : List (HloOp τ sig (Elt F))), op.fresh = ∅ := by
  intro _ h; (repeat (cases h with | head => rfl | tail _ h => ?_)); exact nomatch h

/-- These operations leave every reference they do not write as it was. -/
theorem ops_preB_frame (V : Valuation τ sig (Elt F)) {r : Ref sig .tc}
    (hr : r ∉ ([main_v96, main_v97, main_v98] : List (Ref sig .tc))) :
    after ops_preB V (no_index (Proc.devRef .tc r)) = V (Proc.devRef .tc r) :=
  after_frame (W := ([main_v96, main_v97, main_v98] : List (Ref sig .tc))) ops_preB ⟨writes_sub_of_mem (by decide), writes_sub_of_mem (by decide), writes_sub_of_mem (by decide)⟩ V hr

/-- The operations of meanB, in program order. -/
abbrev ops_meanB : List (HloOp τ sig (Elt F)) :=
  [
    nullary main_cst_24 (constant S_ .f32 0x00000000#32),
    binary main_v98 main_cst_24 main_v99 ((fun x v => Host.reduceAdd x v reducesTo_S256x128_S256_d1 h_S_) : (⟨S256x128, .f32⟩ : BufTy).Contents (Elt F) → (⟨S_, .f32⟩ : BufTy).Contents (Elt F) → (⟨S256, .f32⟩ : BufTy).Contents (Elt F)),
    unary main_v99 main_v100 (broadcastInDim S256x1 ![0] bcast_S256_S256x1_0 : (⟨S256, .f32⟩ : BufTy).Contents (Elt F) → (⟨S256x1, .f32⟩ : BufTy).Contents (Elt F)),
    nullary main_cst_25 (constant S_ .f32 0x43000000#32),
    unary main_cst_25 main_v101 (broadcastInDim S256x1 ![] bcast_S_S256x1 : (⟨S_, .f32⟩ : BufTy).Contents (Elt F) → (⟨S256x1, .f32⟩ : BufTy).Contents (Elt F)),
    binary main_v100 main_v101 main_v102 (Host.divf : (⟨S256x1, .f32⟩ : BufTy).Contents (Elt F) → (⟨S256x1, .f32⟩ : BufTy).Contents (Elt F) → (⟨S256x1, .f32⟩ : BufTy).Contents (Elt F)) ]

theorem ops_meanB_sub : ∀ op ∈ (ops_meanB : List (HloOp τ sig (Elt F))), op.bufs ⊆ tcRefs τ sig :=
  List.forall_iff_forall_mem.mp ⟨nullary_bufs_sub .., binary_bufs_sub .., unary_bufs_sub .., nullary_bufs_sub .., unary_bufs_sub .., binary_bufs_sub ..⟩

theorem ops_meanB_fresh : ∀ op ∈ (ops_meanB : List (HloOp τ sig (Elt F))), op.fresh = ∅ := by
  intro _ h; (repeat (cases h with | head => rfl | tail _ h => ?_)); exact nomatch h

/-- These operations leave every reference they do not write as it was. -/
theorem ops_meanB_frame (V : Valuation τ sig (Elt F)) {r : Ref sig .tc}
    (hr : r ∉ ([main_cst_24, main_v99, main_v100, main_cst_25, main_v101, main_v102] : List (Ref sig .tc))) :
    after ops_meanB V (no_index (Proc.devRef .tc r)) = V (Proc.devRef .tc r) :=
  after_frame (W := ([main_cst_24, main_v99, main_v100, main_cst_25, main_v101, main_v102] : List (Ref sig .tc))) ops_meanB ⟨writes_sub_of_mem (by decide), writes_sub_of_mem (by decide), writes_sub_of_mem (by decide), writes_sub_of_mem (by decide), writes_sub_of_mem (by decide), writes_sub_of_mem (by decide)⟩ V hr

/-- The operations of varB, in program order. -/
abbrev ops_varB : List (HloOp τ sig (Elt F)) :=
  [
    nullary main_c_26 (constantI S_ 32 0#32),
    TRef.nullary main_call4.cst (constant S_ .f32 0x00000000#32),
    TRef.binary (.of main_v98) main_call4.cst main_call4.v0 (fun x v => Host.reduceAdd x v reducesTo_S256x128_S256_d1 h_S_),
    TRef.unary main_call4.v0 main_call4.v1 (broadcastInDim S256x1 ![0] bcast_S256_S256x1_0),
    TRef.nullary main_call4.cst_0 (constant S_ .f32 0x43000000#32),
    TRef.unary main_call4.cst_0 main_call4.v2 (broadcastInDim S256x1 ![] bcast_S_S256x1),
    TRef.binary main_call4.v1 main_call4.v2 main_call4.v3 Host.divf,
    TRef.unary main_call4.v3 main_call4.v4 (broadcastInDim S256x128 ![0, 1] bcast_S256x1_S256x128_0_1),
    TRef.binary (.of main_v98) main_call4.v4 main_call4.v5 subf,
    TRef.binary main_call4.v5 main_call4.v5 main_call4.v6 mulf,
    TRef.unary (.of main_c_26) main_call4.v7 (sitofp .f32),
    TRef.nullary main_call4.cst_1 (constant S_ .f32 0x43000000#32),
    TRef.binary main_call4.cst_1 main_call4.v7 main_call4.v8 subf,
    TRef.nullary main_call4.cst_2 (constant S_ .f32 0x00000000#32),
    TRef.binary main_call4.v6 main_call4.cst_2 main_call4.v9 (fun x v => Host.reduceAdd x v reducesTo_S256x128_S256_d1 h_S_),
    TRef.unary main_call4.v9 main_call4.v10 (broadcastInDim S256x1 ![0] bcast_S256_S256x1_0),
    TRef.unary main_call4.v8 main_call4.v11 (broadcastInDim S256x1 ![] bcast_S_S256x1),
    TRef.binary main_call4.v10 main_call4.v11 main_call4.v12 Host.divf,
    TRef.nullary main_call4.cst_3 (constant S_ .f32 0x00000000#32),
    TRef.binary main_call4.v8 main_call4.cst_3 main_call4.v13 (cmpf .ogt),
    TRef.nullary main_call4.cst_4 (constant S_ .f32 0x7FC00000#32),
    TRef.unary main_call4.cst_4 main_call4.call0.v0 id,
    TRef.unary main_call4.call0.v0 main_call4.call0.v1 (broadcastInDim S256x1 ![] bcast_S_S256x1),
    TRef.ternary main_call4.v13 main_call4.v12 main_call4.call0.v1 main_call4.call0.v2 (fun p a b => select (broadcastInDim S256x1 ![] bcast_S_S256x1 p) a b) ]

theorem ops_varB_sub : ∀ op ∈ (ops_varB : List (HloOp τ sig (Elt F))), op.bufs ⊆ tcRefs τ sig :=
  List.forall_iff_forall_mem.mp ⟨nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., unary_bufs_sub .., binary_bufs_sub .., nullary_bufs_sub .., binary_bufs_sub .., nullary_bufs_sub .., unary_bufs_sub .., unary_bufs_sub .., ternary_bufs_sub ..⟩

theorem ops_varB_fresh : ∀ op ∈ (ops_varB : List (HloOp τ sig (Elt F))), op.fresh = ∅ := by
  intro _ h; (repeat (cases h with | head => rfl | tail _ h => ?_)); exact nomatch h

/-- These operations leave every reference they do not write as it was. -/
theorem ops_varB_frame (V : Valuation τ sig (Elt F)) {r : Ref sig .tc}
    (hr : r ∉ ([main_c_26, main_call4_cst, main_call4_v0, main_call4_v1, main_call4_cst_0, main_call4_v2, main_call4_v3, main_call4_v4, main_call4_v5, main_call4_v6, main_call4_v7, main_call4_cst_1, main_call4_v8, main_call4_cst_2, main_call4_v9, main_call4_v10, main_call4_v11, main_call4_v12, main_call4_cst_3, main_call4_v13, main_call4_cst_4, main_call4_call0_v0, main_call4_call0_v1, main_v103] : List (Ref sig .tc))) :
    after ops_varB V (no_index (Proc.devRef .tc r)) = V (Proc.devRef .tc r) :=
  after_frame (W := ([main_c_26, main_call4_cst, main_call4_v0, main_call4_v1, main_call4_cst_0, main_call4_v2, main_call4_v3, main_call4_v4, main_call4_v5, main_call4_v6, main_call4_v7, main_call4_cst_1, main_call4_v8, main_call4_cst_2, main_call4_v9, main_call4_v10, main_call4_v11, main_call4_v12, main_call4_cst_3, main_call4_v13, main_call4_cst_4, main_call4_call0_v0, main_call4_call0_v1, main_v103] : List (Ref sig .tc))) ops_varB ⟨writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide)⟩ V hr

/-- The operations of normB, in program order. -/
abbrev ops_normB : List (HloOp τ sig (Elt F)) :=
  [
    unary main_v102 main_v104 (broadcastInDim S256x128 ![0, 1] bcast_S256x1_S256x128_0_1 : (⟨S256x1, .f32⟩ : BufTy).Contents (Elt F) → (⟨S256x128, .f32⟩ : BufTy).Contents (Elt F)),
    binary main_v98 main_v104 main_v105 (subf : (⟨S256x128, .f32⟩ : BufTy).Contents (Elt F) → (⟨S256x128, .f32⟩ : BufTy).Contents (Elt F) → (⟨S256x128, .f32⟩ : BufTy).Contents (Elt F)),
    nullary main_cst_27 (constant S_ .f32 0x3727C5AC#32),
    unary main_cst_27 main_v106 (broadcastInDim S256x1 ![] bcast_S_S256x1 : (⟨S_, .f32⟩ : BufTy).Contents (Elt F) → (⟨S256x1, .f32⟩ : BufTy).Contents (Elt F)),
    binary main_v103 main_v106 main_v107 (addf : (⟨S256x1, .f32⟩ : BufTy).Contents (Elt F) → (⟨S256x1, .f32⟩ : BufTy).Contents (Elt F) → (⟨S256x1, .f32⟩ : BufTy).Contents (Elt F)),
    unary main_v107 main_v108 (Host.sqrt : (⟨S256x1, .f32⟩ : BufTy).Contents (Elt F) → (⟨S256x1, .f32⟩ : BufTy).Contents (Elt F)),
    unary main_v108 main_v109 (broadcastInDim S256x128 ![0, 1] bcast_S256x1_S256x128_0_1 : (⟨S256x1, .f32⟩ : BufTy).Contents (Elt F) → (⟨S256x128, .f32⟩ : BufTy).Contents (Elt F)),
    binary main_v105 main_v109 main_v110 (Host.divf : (⟨S256x128, .f32⟩ : BufTy).Contents (Elt F) → (⟨S256x128, .f32⟩ : BufTy).Contents (Elt F) → (⟨S256x128, .f32⟩ : BufTy).Contents (Elt F)),
    unary main_arg7 main_v111 (broadcastInDim S1x128 ![1] bcast_S128_S1x128_1 : (⟨S128, .f32⟩ : BufTy).Contents (Elt F) → (⟨S1x128, .f32⟩ : BufTy).Contents (Elt F)),
    unary main_v111 main_v112 (broadcastInDim S256x128 ![0, 1] bcast_S1x128_S256x128_0_1 : (⟨S1x128, .f32⟩ : BufTy).Contents (Elt F) → (⟨S256x128, .f32⟩ : BufTy).Contents (Elt F)),
    binary main_v110 main_v112 main_v113 (mulf : (⟨S256x128, .f32⟩ : BufTy).Contents (Elt F) → (⟨S256x128, .f32⟩ : BufTy).Contents (Elt F) → (⟨S256x128, .f32⟩ : BufTy).Contents (Elt F)),
    unary main_arg8 main_v114 (broadcastInDim S1x128 ![1] bcast_S128_S1x128_1 : (⟨S128, .f32⟩ : BufTy).Contents (Elt F) → (⟨S1x128, .f32⟩ : BufTy).Contents (Elt F)),
    unary main_v114 main_v115 (broadcastInDim S256x128 ![0, 1] bcast_S1x128_S256x128_0_1 : (⟨S1x128, .f32⟩ : BufTy).Contents (Elt F) → (⟨S256x128, .f32⟩ : BufTy).Contents (Elt F)),
    binary main_v113 main_v115 main_v116 (addf : (⟨S256x128, .f32⟩ : BufTy).Contents (Elt F) → (⟨S256x128, .f32⟩ : BufTy).Contents (Elt F) → (⟨S256x128, .f32⟩ : BufTy).Contents (Elt F)) ]

theorem ops_normB_sub : ∀ op ∈ (ops_normB : List (HloOp τ sig (Elt F))), op.bufs ⊆ tcRefs τ sig :=
  List.forall_iff_forall_mem.mp ⟨unary_bufs_sub .., binary_bufs_sub .., nullary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub ..⟩

theorem ops_normB_fresh : ∀ op ∈ (ops_normB : List (HloOp τ sig (Elt F))), op.fresh = ∅ := by
  intro _ h; (repeat (cases h with | head => rfl | tail _ h => ?_)); exact nomatch h

/-- These operations leave every reference they do not write as it was. -/
theorem ops_normB_frame (V : Valuation τ sig (Elt F)) {r : Ref sig .tc}
    (hr : r ∉ ([main_v104, main_v105, main_cst_27, main_v106, main_v107, main_v108, main_v109, main_v110, main_v111, main_v112, main_v113, main_v114, main_v115, main_v116] : List (Ref sig .tc))) :
    after ops_normB V (no_index (Proc.devRef .tc r)) = V (Proc.devRef .tc r) :=
  after_frame (W := ([main_v104, main_v105, main_cst_27, main_v106, main_v107, main_v108, main_v109, main_v110, main_v111, main_v112, main_v113, main_v114, main_v115, main_v116] : List (Ref sig .tc))) ops_normB ⟨writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide)⟩ V hr

/-- The operations of actB, in program order. -/
abbrev ops_actB : List (HloOp τ sig (Elt F)) :=
  [
    TRef.unary (.of main_v116) main_call5.v0 Host.negf,
    TRef.unary main_call5.v0 main_call5.v1 Host.exp,
    TRef.nullary main_call5.cst (constant S_ .f32 0x3F800000#32),
    TRef.unary main_call5.cst main_call5.v2 (broadcastInDim S256x128 ![] bcast_S_S256x128),
    TRef.binary main_call5.v2 main_call5.v1 main_call5.v3 addf,
    TRef.nullary main_call5.cst_0 (constant S_ .f32 0x3F800000#32),
    TRef.unary main_call5.cst_0 main_call5.v4 (broadcastInDim S256x128 ![] bcast_S_S256x128),
    TRef.binary main_call5.v4 main_call5.v3 main_call5.v5 Host.divf,
    TRef.binary (.of main_v116) main_call5.v5 main_call5.v6 mulf ]

theorem ops_actB_sub : ∀ op ∈ (ops_actB : List (HloOp τ sig (Elt F))), op.bufs ⊆ tcRefs τ sig :=
  List.forall_iff_forall_mem.mp ⟨unary_bufs_sub .., unary_bufs_sub .., nullary_bufs_sub .., unary_bufs_sub .., binary_bufs_sub .., nullary_bufs_sub .., unary_bufs_sub .., binary_bufs_sub .., binary_bufs_sub ..⟩

theorem ops_actB_fresh : ∀ op ∈ (ops_actB : List (HloOp τ sig (Elt F))), op.fresh = ∅ := by
  intro _ h; (repeat (cases h with | head => rfl | tail _ h => ?_)); exact nomatch h

/-- These operations leave every reference they do not write as it was. -/
theorem ops_actB_frame (V : Valuation τ sig (Elt F)) {r : Ref sig .tc}
    (hr : r ∉ ([main_call5_v0, main_call5_v1, main_call5_cst, main_call5_v2, main_call5_v3, main_call5_cst_0, main_call5_v4, main_call5_v5, main_v117] : List (Ref sig .tc))) :
    after ops_actB V (no_index (Proc.devRef .tc r)) = V (Proc.devRef .tc r) :=
  after_frame (W := ([main_call5_v0, main_call5_v1, main_call5_cst, main_call5_v2, main_call5_v3, main_call5_cst_0, main_call5_v4, main_call5_v5, main_v117] : List (Ref sig .tc))) ops_actB ⟨writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide)⟩ V hr

/-- The operations of head, in program order. -/
abbrev ops_head : List (HloOp τ sig (Elt F)) :=
  [
    unary main_arg9 main_v118 ((transpose S128x2 [1, 0] · transposes_S2x128_S128x2_1_0) : (⟨S2x128, .f32⟩ : BufTy).Contents (Elt F) → (⟨S128x2, .f32⟩ : BufTy).Contents (Elt F)),
    binary main_v117 main_v118 main_v119 ((fun l r => Host.dotGeneral dot_S256x128_S128x2_S256x2_1_0_0_1_n_n none l r) : (⟨S256x128, .f32⟩ : BufTy).Contents (Elt F) → (⟨S128x2, .f32⟩ : BufTy).Contents (Elt F) → (⟨S256x2, .f32⟩ : BufTy).Contents (Elt F)),
    unary main_arg10 main_v120 (broadcastInDim S1x2 ![1] bcast_S2_S1x2_1 : (⟨S2, .f32⟩ : BufTy).Contents (Elt F) → (⟨S1x2, .f32⟩ : BufTy).Contents (Elt F)),
    unary main_v120 main_v121 (broadcastInDim S256x2 ![0, 1] bcast_S1x2_S256x2_0_1 : (⟨S1x2, .f32⟩ : BufTy).Contents (Elt F) → (⟨S256x2, .f32⟩ : BufTy).Contents (Elt F)),
    binary main_v119 main_v121 main_v122 (addf : (⟨S256x2, .f32⟩ : BufTy).Contents (Elt F) → (⟨S256x2, .f32⟩ : BufTy).Contents (Elt F) → (⟨S256x2, .f32⟩ : BufTy).Contents (Elt F)),
    nullary main_cst_28 (constant S_ .f32 0xFF800000#32),
    binary main_v122 main_cst_28 main_v123 ((fun x v => Host.reduce FloatOps.maximumf x v reducesTo_S256x2_S256_d1 h_S_) : (⟨S256x2, .f32⟩ : BufTy).Contents (Elt F) → (⟨S_, .f32⟩ : BufTy).Contents (Elt F) → (⟨S256, .f32⟩ : BufTy).Contents (Elt F)),
    nullary main_cst_29 (constant S_ .f32 0xFF800000#32),
    unary main_cst_29 main_v124 (broadcastInDim S256 ![] bcast_S_S256 : (⟨S_, .f32⟩ : BufTy).Contents (Elt F) → (⟨S256, .f32⟩ : BufTy).Contents (Elt F)),
    binary main_v124 main_v123 main_v125 (maximumf : (⟨S256, .f32⟩ : BufTy).Contents (Elt F) → (⟨S256, .f32⟩ : BufTy).Contents (Elt F) → (⟨S256, .f32⟩ : BufTy).Contents (Elt F)),
    unary main_v125 main_v126 (broadcastInDim S256x1 ![0] bcast_S256_S256x1_0 : (⟨S256, .f32⟩ : BufTy).Contents (Elt F) → (⟨S256x1, .f32⟩ : BufTy).Contents (Elt F)),
    unary main_v126 main_v127 (broadcastInDim S256x2 ![0, 1] bcast_S256x1_S256x2_0_1 : (⟨S256x1, .f32⟩ : BufTy).Contents (Elt F) → (⟨S256x2, .f32⟩ : BufTy).Contents (Elt F)),
    binary main_v122 main_v127 main_v128 (subf : (⟨S256x2, .f32⟩ : BufTy).Contents (Elt F) → (⟨S256x2, .f32⟩ : BufTy).Contents (Elt F) → (⟨S256x2, .f32⟩ : BufTy).Contents (Elt F)),
    unary main_v128 main_v129 (Host.exp : (⟨S256x2, .f32⟩ : BufTy).Contents (Elt F) → (⟨S256x2, .f32⟩ : BufTy).Contents (Elt F)),
    nullary main_cst_30 (constant S_ .f32 0x00000000#32),
    binary main_v129 main_cst_30 main_v130 ((fun x v => Host.reduceAdd x v reducesTo_S256x2_S256_d1 h_S_) : (⟨S256x2, .f32⟩ : BufTy).Contents (Elt F) → (⟨S_, .f32⟩ : BufTy).Contents (Elt F) → (⟨S256, .f32⟩ : BufTy).Contents (Elt F)),
    unary main_v130 main_v131 (broadcastInDim S256x1 ![0] bcast_S256_S256x1_0 : (⟨S256, .f32⟩ : BufTy).Contents (Elt F) → (⟨S256x1, .f32⟩ : BufTy).Contents (Elt F)),
    unary main_v131 main_v132 (broadcastInDim S256x2 ![0, 1] bcast_S256x1_S256x2_0_1 : (⟨S256x1, .f32⟩ : BufTy).Contents (Elt F) → (⟨S256x2, .f32⟩ : BufTy).Contents (Elt F)),
    binary main_v129 main_v132 main_v133 (Host.divf : (⟨S256x2, .f32⟩ : BufTy).Contents (Elt F) → (⟨S256x2, .f32⟩ : BufTy).Contents (Elt F) → (⟨S256x2, .f32⟩ : BufTy).Contents (Elt F)) ]

theorem ops_head_sub : ∀ op ∈ (ops_head : List (HloOp τ sig (Elt F))), op.bufs ⊆ tcRefs τ sig :=
  List.forall_iff_forall_mem.mp ⟨unary_bufs_sub .., binary_bufs_sub .., unary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub ..⟩

theorem ops_head_fresh : ∀ op ∈ (ops_head : List (HloOp τ sig (Elt F))), op.fresh = ∅ := by
  intro _ h; (repeat (cases h with | head => rfl | tail _ h => ?_)); exact nomatch h

/-- These operations leave every reference they do not write as it was. -/
theorem ops_head_frame (V : Valuation τ sig (Elt F)) {r : Ref sig .tc}
    (hr : r ∉ ([main_v118, main_v119, main_v120, main_v121, main_v122, main_cst_28, main_v123, main_cst_29, main_v124, main_v125, main_v126, main_v127, main_v128, main_v129, main_cst_30, main_v130, main_v131, main_v132, main_v133] : List (Ref sig .tc))) :
    after ops_head V (no_index (Proc.devRef .tc r)) = V (Proc.devRef .tc r) :=
  after_frame (W := ([main_v118, main_v119, main_v120, main_v121, main_v122, main_cst_28, main_v123, main_cst_29, main_v124, main_v125, main_v126, main_v127, main_v128, main_v129, main_cst_30, main_v130, main_v131, main_v132, main_v133] : List (Ref sig .tc))) ops_head ⟨writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide)⟩ V hr

/-- This window's operations. -/
abbrev opsP2 : List (HloOp τ sig (Elt F)) :=
  ops_basisB1 ++ ops_preB ++ ops_meanB ++ ops_varB ++ ops_normB ++ ops_actB ++ ops_head

set_option maxRecDepth 16384 in
set_option maxHeartbeats 4000000 in
/-- This window of @main is the straight line of its operations: the callees' definitions unfolded at their
    calls, sequencing reassociated. -/
theorem part2_eq (c : Dev nD) : main_part2 (F := F) c = seq opsP2 := by
  simp only [main_part2, fn_silu.body, fn_var.body, fn_where.body, fn_silu_0.body, fn_var_1.body, fn_silu_2.body, ops_basisB1, ops_preB, ops_meanB, ops_varB, ops_normB, ops_actB, ops_head, opsP2, List.cons_append, List.nil_append, seq, bind_assoc, pure_bind] <;> rfl

end Cert.ReferenceIdeal.RefRun

end
-- ==== Proof.RefRun.OutA.lean ====
import proofs.«114522_j54279796687469_2_alg».proof.Proof.Gen.ReferenceIdeal
import proofs.«114522_j54279796687469_2_alg».proof.Proof.RefTerm
import proofs.«114522_j54279796687469_2_alg».proof.Proof.RefRun.Ops0
import proofs.«114522_j54279796687469_2_alg».proof.Proof.RefRun.Ops1
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

set_option maxRecDepth 65536 in
set_option maxHeartbeats 2000000 in
/-- After these operations the result buffer holds the stage's function of what its operand buffers held. -/
theorem siluA_out (V : Valuation τ sig (Elt F)) :
    after ops_siluA V (main_v0 : DevRef τ sig)
      = RefTerm.siluA (V (main_arg0 : DevRef τ sig)) := by
  after_results_simp
  rfl

set_option maxRecDepth 65536 in
set_option maxHeartbeats 2000000 in
/-- After these operations the result buffer holds the stage's function of what its operand buffers held. -/
theorem baseA_out (V : Valuation τ sig (Elt F)) :
    after ops_baseA V (main_v2 : DevRef τ sig)
      = RefTerm.baseA (V (main_arg1 : DevRef τ sig)) (V (main_v0 : DevRef τ sig)) := by
  after_results_simp
  rfl

section

/-- The operand `v31` of the interleaving, as a function of the stage's input: the bindings it depends on, in program order. -/
noncomputable def basisA_v31 (a0 : FVec F S256x50176 .f32) : FVec F S256x50176x1 .f32 :=
  have cst_3 : FVec F S_ .f32 := constant S_ .f32 0x3F800000#32
  have v14 : FVec F S256x50176 .f32 := broadcastInDim S256x50176 ![] bcast_S_S256x50176 cst_3
  have v31 : FVec F S256x50176x1 .f32 := broadcastInDim S256x50176x1 ![0, 1] bcast_S256x50176_S256x50176x1_0_1 v14
  v31

/-- The operand `v32` of the interleaving, as a function of the stage's input: the bindings it depends on, in program order. -/
noncomputable def basisA_v32 (a0 : FVec F S256x50176 .f32) : FVec F S256x50176x1 .f32 :=
  have cst : FVec F S_ .f32 := constant S_ .f32 0x7F800000#32
  have v3 : FVec F S_ .f32 := Host.reduce FloatOps.minimumf a0 cst reducesTo_S256x50176_S_d0_1 h_S_
  have cst_0 : FVec F S_ .f32 := constant S_ .f32 0xFF800000#32
  have v4 : FVec F S_ .f32 := Host.reduce FloatOps.maximumf a0 cst_0 reducesTo_S256x50176_S_d0_1 h_S_
  have v5 : FVec F S256x50176 .f32 := broadcastInDim S256x50176 ![] bcast_S_S256x50176 v3
  have v6 : FVec F S256x50176 .f32 := subf a0 v5
  have cst_1 : FVec F S_ .f32 := constant S_ .f32 0x40000000#32
  have v7 : FVec F S256x50176 .f32 := broadcastInDim S256x50176 ![] bcast_S_S256x50176 cst_1
  have v8 : FVec F S256x50176 .f32 := mulf v7 v6
  have v9 : FVec F S_ .f32 := subf v4 v3
  have v10 : FVec F S256x50176 .f32 := broadcastInDim S256x50176 ![] bcast_S_S256x50176 v9
  have v11 : FVec F S256x50176 .f32 := Host.divf v8 v10
  have cst_2 : FVec F S_ .f32 := constant S_ .f32 0x3F800000#32
  have v12 : FVec F S256x50176 .f32 := broadcastInDim S256x50176 ![] bcast_S_S256x50176 cst_2
  have v13 : FVec F S256x50176 .f32 := subf v11 v12
  have v32 : FVec F S256x50176x1 .f32 := broadcastInDim S256x50176x1 ![0, 1] bcast_S256x50176_S256x50176x1_0_1 v13
  v32

/-- The operand `v33` of the interleaving, as a function of the stage's input: the bindings it depends on, in program order. -/
noncomputable def basisA_v33 (a0 : FVec F S256x50176 .f32) : FVec F S256x50176x1 .f32 :=
  have cst : FVec F S_ .f32 := constant S_ .f32 0x7F800000#32
  have v3 : FVec F S_ .f32 := Host.reduce FloatOps.minimumf a0 cst reducesTo_S256x50176_S_d0_1 h_S_
  have cst_0 : FVec F S_ .f32 := constant S_ .f32 0xFF800000#32
  have v4 : FVec F S_ .f32 := Host.reduce FloatOps.maximumf a0 cst_0 reducesTo_S256x50176_S_d0_1 h_S_
  have v5 : FVec F S256x50176 .f32 := broadcastInDim S256x50176 ![] bcast_S_S256x50176 v3
  have v6 : FVec F S256x50176 .f32 := subf a0 v5
  have cst_1 : FVec F S_ .f32 := constant S_ .f32 0x40000000#32
  have v7 : FVec F S256x50176 .f32 := broadcastInDim S256x50176 ![] bcast_S_S256x50176 cst_1
  have v8 : FVec F S256x50176 .f32 := mulf v7 v6
  have v9 : FVec F S_ .f32 := subf v4 v3
  have v10 : FVec F S256x50176 .f32 := broadcastInDim S256x50176 ![] bcast_S_S256x50176 v9
  have v11 : FVec F S256x50176 .f32 := Host.divf v8 v10
  have cst_2 : FVec F S_ .f32 := constant S_ .f32 0x3F800000#32
  have v12 : FVec F S256x50176 .f32 := broadcastInDim S256x50176 ![] bcast_S_S256x50176 cst_2
  have v13 : FVec F S256x50176 .f32 := subf v11 v12
  have cst_3 : FVec F S_ .f32 := constant S_ .f32 0x3F800000#32
  have v14 : FVec F S256x50176 .f32 := broadcastInDim S256x50176 ![] bcast_S_S256x50176 cst_3
  have cst_4 : FVec F S_ .f32 := constant S_ .f32 0x40400000#32
  have v15 : FVec F S256x50176 .f32 := broadcastInDim S256x50176 ![] bcast_S_S256x50176 cst_4
  have v16 : FVec F S256x50176 .f32 := mulf v15 v13
  have v17 : FVec F S256x50176 .f32 := mulf v16 v13
  have cst_5 : FVec F S_ .f32 := constant S_ .f32 0x3F800000#32
  have v18 : FVec F S256x50176 .f32 := broadcastInDim S256x50176 ![] bcast_S_S256x50176 cst_5
  have v19 : FVec F S256x50176 .f32 := mulf v18 v14
  have v20 : FVec F S256x50176 .f32 := subf v17 v19
  have cst_6 : FVec F S_ .f32 := constant S_ .f32 0x40000000#32
  have v21 : FVec F S256x50176 .f32 := broadcastInDim S256x50176 ![] bcast_S_S256x50176 cst_6
  have v22 : FVec F S256x50176 .f32 := Host.divf v20 v21
  have v33 : FVec F S256x50176x1 .f32 := broadcastInDim S256x50176x1 ![0, 1] bcast_S256x50176_S256x50176x1_0_1 v22
  v33

/-- The operand `v34` of the interleaving, as a function of the stage's input: the bindings it depends on, in program order. -/
noncomputable def basisA_v34 (a0 : FVec F S256x50176 .f32) : FVec F S256x50176x1 .f32 :=
  have cst : FVec F S_ .f32 := constant S_ .f32 0x7F800000#32
  have v3 : FVec F S_ .f32 := Host.reduce FloatOps.minimumf a0 cst reducesTo_S256x50176_S_d0_1 h_S_
  have cst_0 : FVec F S_ .f32 := constant S_ .f32 0xFF800000#32
  have v4 : FVec F S_ .f32 := Host.reduce FloatOps.maximumf a0 cst_0 reducesTo_S256x50176_S_d0_1 h_S_
  have v5 : FVec F S256x50176 .f32 := broadcastInDim S256x50176 ![] bcast_S_S256x50176 v3
  have v6 : FVec F S256x50176 .f32 := subf a0 v5
  have cst_1 : FVec F S_ .f32 := constant S_ .f32 0x40000000#32
  have v7 : FVec F S256x50176 .f32 := broadcastInDim S256x50176 ![] bcast_S_S256x50176 cst_1
  have v8 : FVec F S256x50176 .f32 := mulf v7 v6
  have v9 : FVec F S_ .f32 := subf v4 v3
  have v10 : FVec F S256x50176 .f32 := broadcastInDim S256x50176 ![] bcast_S_S256x50176 v9
  have v11 : FVec F S256x50176 .f32 := Host.divf v8 v10
  have cst_2 : FVec F S_ .f32 := constant S_ .f32 0x3F800000#32
  have v12 : FVec F S256x50176 .f32 := broadcastInDim S256x50176 ![] bcast_S_S256x50176 cst_2
  have v13 : FVec F S256x50176 .f32 := subf v11 v12
  have cst_3 : FVec F S_ .f32 := constant S_ .f32 0x3F800000#32
  have v14 : FVec F S256x50176 .f32 := broadcastInDim S256x50176 ![] bcast_S_S256x50176 cst_3
  have cst_4 : FVec F S_ .f32 := constant S_ .f32 0x40400000#32
  have v15 : FVec F S256x50176 .f32 := broadcastInDim S256x50176 ![] bcast_S_S256x50176 cst_4
  have v16 : FVec F S256x50176 .f32 := mulf v15 v13
  have v17 : FVec F S256x50176 .f32 := mulf v16 v13
  have cst_5 : FVec F S_ .f32 := constant S_ .f32 0x3F800000#32
  have v18 : FVec F S256x50176 .f32 := broadcastInDim S256x50176 ![] bcast_S_S256x50176 cst_5
  have v19 : FVec F S256x50176 .f32 := mulf v18 v14
  have v20 : FVec F S256x50176 .f32 := subf v17 v19
  have cst_6 : FVec F S_ .f32 := constant S_ .f32 0x40000000#32
  have v21 : FVec F S256x50176 .f32 := broadcastInDim S256x50176 ![] bcast_S_S256x50176 cst_6
  have v22 : FVec F S256x50176 .f32 := Host.divf v20 v21
  have cst_7 : FVec F S_ .f32 := constant S_ .f32 0x40A00000#32
  have v23 : FVec F S256x50176 .f32 := broadcastInDim S256x50176 ![] bcast_S_S256x50176 cst_7
  have v24 : FVec F S256x50176 .f32 := mulf v23 v13
  have v25 : FVec F S256x50176 .f32 := mulf v24 v22
  have cst_8 : FVec F S_ .f32 := constant S_ .f32 0x40000000#32
  have v26 : FVec F S256x50176 .f32 := broadcastInDim S256x50176 ![] bcast_S_S256x50176 cst_8
  have v27 : FVec F S256x50176 .f32 := mulf v26 v13
  have v28 : FVec F S256x50176 .f32 := subf v25 v27
  have cst_9 : FVec F S_ .f32 := constant S_ .f32 0x40400000#32
  have v29 : FVec F S256x50176 .f32 := broadcastInDim S256x50176 ![] bcast_S_S256x50176 cst_9
  have v30 : FVec F S256x50176 .f32 := Host.divf v28 v29
  have v34 : FVec F S256x50176x1 .f32 := broadcastInDim S256x50176x1 ![0, 1] bcast_S256x50176_S256x50176x1_0_1 v30
  v34

set_option maxRecDepth 65536 in
set_option maxHeartbeats 2000000 in
theorem basisA_v31_out (V : Valuation τ sig (Elt F)) :
    after ops_basisA0 V (main_v31 : DevRef τ sig) = basisA_v31 (V (main_arg0 : DevRef τ sig)) := by
  simp (disch := decide) only [after_cons, after_nil, nullary_result', unary_result', binary_result', ternary_result', reshape_result', nary4_result', nullary_result_ne', unary_result_ne', binary_result_ne', ternary_result_ne', reshape_result_ne', nary_result_ne']
  rfl

set_option maxRecDepth 65536 in
set_option maxHeartbeats 2000000 in
theorem basisA_v32_out (V : Valuation τ sig (Elt F)) :
    after ops_basisA0 V (main_v32 : DevRef τ sig) = basisA_v32 (V (main_arg0 : DevRef τ sig)) := by
  simp (disch := decide) only [after_cons, after_nil, nullary_result', unary_result', binary_result', ternary_result', reshape_result', nary4_result', nullary_result_ne', unary_result_ne', binary_result_ne', ternary_result_ne', reshape_result_ne', nary_result_ne']
  rfl

set_option maxRecDepth 65536 in
set_option maxHeartbeats 2000000 in
theorem basisA_v33_out (V : Valuation τ sig (Elt F)) :
    after ops_basisA0 V (main_v33 : DevRef τ sig) = basisA_v33 (V (main_arg0 : DevRef τ sig)) := by
  simp (disch := decide) only [after_cons, after_nil, nullary_result', unary_result', binary_result', ternary_result', reshape_result', nary4_result', nullary_result_ne', unary_result_ne', binary_result_ne', ternary_result_ne', reshape_result_ne', nary_result_ne']
  rfl

set_option maxRecDepth 65536 in
set_option maxHeartbeats 2000000 in
theorem basisA_v34_out (V : Valuation τ sig (Elt F)) :
    after ops_basisA0 V (main_v34 : DevRef τ sig) = basisA_v34 (V (main_arg0 : DevRef τ sig)) := by
  simp (disch := decide) only [after_cons, after_nil, nullary_result', unary_result', binary_result', ternary_result', reshape_result', nary4_result', nullary_result_ne', unary_result_ne', binary_result_ne', ternary_result_ne', reshape_result_ne', nary_result_ne']
  rfl

set_option maxRecDepth 65536 in
/-- The interleaving and flattening, from any contents. -/
theorem basisA_post (W : Valuation τ sig (Elt F)) :
    after ops_basisA1 W (main_v36 : DevRef τ sig)
      = shapeCast S256x200704 (concatenate S256x50176x4 2 [⟨S256x50176x1, W (main_v31 : DevRef τ sig)⟩, ⟨S256x50176x1, W (main_v32 : DevRef τ sig)⟩, ⟨S256x50176x1, W (main_v33 : DevRef τ sig)⟩, ⟨S256x50176x1, W (main_v34 : DevRef τ sig)⟩] concatenates_S256x50176x1_S256x50176x1_S256x50176x1_S256x50176x1_S256x50176x4_d2) shapeCasts_S256x50176x4_S256x200704 := by
  simp (disch := decide) only [after_cons, after_nil, nullary_result', unary_result', binary_result', ternary_result', reshape_result', nary4_result', nullary_result_ne', unary_result_ne', binary_result_ne', ternary_result_ne', reshape_result_ne', nary_result_ne']
  rfl

set_option maxRecDepth 65536 in
/-- The stage is the interleaving of its four operands, each a function of the stage's input. -/
theorem basisA_split (a0 : FVec F S256x50176 .f32) :
    RefTerm.basisA a0
      = shapeCast S256x200704 (concatenate S256x50176x4 2 [⟨S256x50176x1, (basisA_v31 a0)⟩, ⟨S256x50176x1, (basisA_v32 a0)⟩, ⟨S256x50176x1, (basisA_v33 a0)⟩, ⟨S256x50176x1, (basisA_v34 a0)⟩] concatenates_S256x50176x1_S256x50176x1_S256x50176x1_S256x50176x1_S256x50176x4_d2) shapeCasts_S256x50176x4_S256x200704 := rfl

/-- After these operations the result buffer holds the stage's function of what its operand buffer held. -/
theorem basisA_out (V : Valuation τ sig (Elt F)) :
    after ops_basisA1 (after ops_basisA0 V) (main_v36 : DevRef τ sig)
      = RefTerm.basisA (V (main_arg0 : DevRef τ sig)) := by
  rw [basisA_post, basisA_v31_out, basisA_v32_out, basisA_v33_out, basisA_v34_out, basisA_split]

end

set_option maxRecDepth 65536 in
set_option maxHeartbeats 2000000 in
/-- After these operations the result buffer holds the stage's function of what its operand buffers held. -/
theorem preA_out (V : Valuation τ sig (Elt F)) :
    after ops_preA V (main_v39 : DevRef τ sig)
      = RefTerm.preA (V (main_arg2 : DevRef τ sig)) (V (main_v36 : DevRef τ sig)) (V (main_v2 : DevRef τ sig)) := by
  after_results_simp
  rfl

set_option maxRecDepth 65536 in
set_option maxHeartbeats 2000000 in
/-- After these operations the result buffer holds the stage's function of what its operand buffers held. -/
theorem meanA_out (V : Valuation τ sig (Elt F)) :
    after ops_meanA V (main_v43 : DevRef τ sig)
      = RefTerm.meanA (V (main_v39 : DevRef τ sig)) := by
  after_results_simp
  rfl

set_option maxRecDepth 65536 in
set_option maxHeartbeats 2000000 in
/-- After these operations the result buffer holds the stage's function of what its operand buffers held. -/
theorem varA_out (V : Valuation τ sig (Elt F)) :
    after ops_varA V (main_v44 : DevRef τ sig)
      = RefTerm.varA (V (main_v39 : DevRef τ sig)) := by
  after_results_simp
  rfl

set_option maxRecDepth 65536 in
set_option maxHeartbeats 2000000 in
/-- After these operations the result buffer holds the stage's function of what its operand buffers held. -/
theorem normA_out (V : Valuation τ sig (Elt F)) :
    after ops_normA1 (after ops_normA0 V) (main_v57 : DevRef τ sig)
      = RefTerm.normA (V (main_v43 : DevRef τ sig)) (V (main_v39 : DevRef τ sig)) (V (main_v44 : DevRef τ sig)) (V (main_arg3 : DevRef τ sig)) (V (main_arg4 : DevRef τ sig)) := by
  after_results_simp
  rfl

set_option maxRecDepth 65536 in
set_option maxHeartbeats 2000000 in
/-- After these operations the result buffer holds the stage's function of what its operand buffers held. -/
theorem actA_out (V : Valuation τ sig (Elt F)) :
    after ops_actA V (main_v58 : DevRef τ sig)
      = RefTerm.actA (V (main_v57 : DevRef τ sig)) := by
  after_results_simp
  rfl

end Cert.ReferenceIdeal.RefRun

end
-- ==== Proof.RefRun.OutB.lean ====
import proofs.«114522_j54279796687469_2_alg».proof.Proof.Gen.ReferenceIdeal
import proofs.«114522_j54279796687469_2_alg».proof.Proof.RefTerm
import proofs.«114522_j54279796687469_2_alg».proof.Proof.RefRun.Ops1
import proofs.«114522_j54279796687469_2_alg».proof.Proof.RefRun.Ops2
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

set_option maxRecDepth 65536 in
set_option maxHeartbeats 2000000 in
/-- After these operations the result buffer holds the stage's function of what its operand buffers held. -/
theorem siluB_out (V : Valuation τ sig (Elt F)) :
    after ops_siluB V (main_v59 : DevRef τ sig)
      = RefTerm.siluB (V (main_v58 : DevRef τ sig)) := by
  after_results_simp
  rfl

set_option maxRecDepth 65536 in
set_option maxHeartbeats 2000000 in
/-- After these operations the result buffer holds the stage's function of what its operand buffers held. -/
theorem baseB_out (V : Valuation τ sig (Elt F)) :
    after ops_baseB V (main_v61 : DevRef τ sig)
      = RefTerm.baseB (V (main_arg5 : DevRef τ sig)) (V (main_v59 : DevRef τ sig)) := by
  after_results_simp
  rfl

section

/-- The operand `v90` of the interleaving, as a function of the stage's input: the bindings it depends on, in program order. -/
noncomputable def basisB_v90 (v58 : FVec F S256x1024 .f32) : FVec F S256x1024x1 .f32 :=
  have cst_17 : FVec F S_ .f32 := constant S_ .f32 0x3F800000#32
  have v73 : FVec F S256x1024 .f32 := broadcastInDim S256x1024 ![] bcast_S_S256x1024 cst_17
  have v90 : FVec F S256x1024x1 .f32 := broadcastInDim S256x1024x1 ![0, 1] bcast_S256x1024_S256x1024x1_0_1 v73
  v90

/-- The operand `v91` of the interleaving, as a function of the stage's input: the bindings it depends on, in program order. -/
noncomputable def basisB_v91 (v58 : FVec F S256x1024 .f32) : FVec F S256x1024x1 .f32 :=
  have cst_13 : FVec F S_ .f32 := constant S_ .f32 0x7F800000#32
  have v62 : FVec F S_ .f32 := Host.reduce FloatOps.minimumf v58 cst_13 reducesTo_S256x1024_S_d0_1 h_S_
  have cst_14 : FVec F S_ .f32 := constant S_ .f32 0xFF800000#32
  have v63 : FVec F S_ .f32 := Host.reduce FloatOps.maximumf v58 cst_14 reducesTo_S256x1024_S_d0_1 h_S_
  have v64 : FVec F S256x1024 .f32 := broadcastInDim S256x1024 ![] bcast_S_S256x1024 v62
  have v65 : FVec F S256x1024 .f32 := subf v58 v64
  have cst_15 : FVec F S_ .f32 := constant S_ .f32 0x40000000#32
  have v66 : FVec F S256x1024 .f32 := broadcastInDim S256x1024 ![] bcast_S_S256x1024 cst_15
  have v67 : FVec F S256x1024 .f32 := mulf v66 v65
  have v68 : FVec F S_ .f32 := subf v63 v62
  have v69 : FVec F S256x1024 .f32 := broadcastInDim S256x1024 ![] bcast_S_S256x1024 v68
  have v70 : FVec F S256x1024 .f32 := Host.divf v67 v69
  have cst_16 : FVec F S_ .f32 := constant S_ .f32 0x3F800000#32
  have v71 : FVec F S256x1024 .f32 := broadcastInDim S256x1024 ![] bcast_S_S256x1024 cst_16
  have v72 : FVec F S256x1024 .f32 := subf v70 v71
  have v91 : FVec F S256x1024x1 .f32 := broadcastInDim S256x1024x1 ![0, 1] bcast_S256x1024_S256x1024x1_0_1 v72
  v91

/-- The operand `v92` of the interleaving, as a function of the stage's input: the bindings it depends on, in program order. -/
noncomputable def basisB_v92 (v58 : FVec F S256x1024 .f32) : FVec F S256x1024x1 .f32 :=
  have cst_13 : FVec F S_ .f32 := constant S_ .f32 0x7F800000#32
  have v62 : FVec F S_ .f32 := Host.reduce FloatOps.minimumf v58 cst_13 reducesTo_S256x1024_S_d0_1 h_S_
  have cst_14 : FVec F S_ .f32 := constant S_ .f32 0xFF800000#32
  have v63 : FVec F S_ .f32 := Host.reduce FloatOps.maximumf v58 cst_14 reducesTo_S256x1024_S_d0_1 h_S_
  have v64 : FVec F S256x1024 .f32 := broadcastInDim S256x1024 ![] bcast_S_S256x1024 v62
  have v65 : FVec F S256x1024 .f32 := subf v58 v64
  have cst_15 : FVec F S_ .f32 := constant S_ .f32 0x40000000#32
  have v66 : FVec F S256x1024 .f32 := broadcastInDim S256x1024 ![] bcast_S_S256x1024 cst_15
  have v67 : FVec F S256x1024 .f32 := mulf v66 v65
  have v68 : FVec F S_ .f32 := subf v63 v62
  have v69 : FVec F S256x1024 .f32 := broadcastInDim S256x1024 ![] bcast_S_S256x1024 v68
  have v70 : FVec F S256x1024 .f32 := Host.divf v67 v69
  have cst_16 : FVec F S_ .f32 := constant S_ .f32 0x3F800000#32
  have v71 : FVec F S256x1024 .f32 := broadcastInDim S256x1024 ![] bcast_S_S256x1024 cst_16
  have v72 : FVec F S256x1024 .f32 := subf v70 v71
  have cst_17 : FVec F S_ .f32 := constant S_ .f32 0x3F800000#32
  have v73 : FVec F S256x1024 .f32 := broadcastInDim S256x1024 ![] bcast_S_S256x1024 cst_17
  have cst_18 : FVec F S_ .f32 := constant S_ .f32 0x40400000#32
  have v74 : FVec F S256x1024 .f32 := broadcastInDim S256x1024 ![] bcast_S_S256x1024 cst_18
  have v75 : FVec F S256x1024 .f32 := mulf v74 v72
  have v76 : FVec F S256x1024 .f32 := mulf v75 v72
  have cst_19 : FVec F S_ .f32 := constant S_ .f32 0x3F800000#32
  have v77 : FVec F S256x1024 .f32 := broadcastInDim S256x1024 ![] bcast_S_S256x1024 cst_19
  have v78 : FVec F S256x1024 .f32 := mulf v77 v73
  have v79 : FVec F S256x1024 .f32 := subf v76 v78
  have cst_20 : FVec F S_ .f32 := constant S_ .f32 0x40000000#32
  have v80 : FVec F S256x1024 .f32 := broadcastInDim S256x1024 ![] bcast_S_S256x1024 cst_20
  have v81 : FVec F S256x1024 .f32 := Host.divf v79 v80
  have v92 : FVec F S256x1024x1 .f32 := broadcastInDim S256x1024x1 ![0, 1] bcast_S256x1024_S256x1024x1_0_1 v81
  v92

/-- The operand `v93` of the interleaving, as a function of the stage's input: the bindings it depends on, in program order. -/
noncomputable def basisB_v93 (v58 : FVec F S256x1024 .f32) : FVec F S256x1024x1 .f32 :=
  have cst_13 : FVec F S_ .f32 := constant S_ .f32 0x7F800000#32
  have v62 : FVec F S_ .f32 := Host.reduce FloatOps.minimumf v58 cst_13 reducesTo_S256x1024_S_d0_1 h_S_
  have cst_14 : FVec F S_ .f32 := constant S_ .f32 0xFF800000#32
  have v63 : FVec F S_ .f32 := Host.reduce FloatOps.maximumf v58 cst_14 reducesTo_S256x1024_S_d0_1 h_S_
  have v64 : FVec F S256x1024 .f32 := broadcastInDim S256x1024 ![] bcast_S_S256x1024 v62
  have v65 : FVec F S256x1024 .f32 := subf v58 v64
  have cst_15 : FVec F S_ .f32 := constant S_ .f32 0x40000000#32
  have v66 : FVec F S256x1024 .f32 := broadcastInDim S256x1024 ![] bcast_S_S256x1024 cst_15
  have v67 : FVec F S256x1024 .f32 := mulf v66 v65
  have v68 : FVec F S_ .f32 := subf v63 v62
  have v69 : FVec F S256x1024 .f32 := broadcastInDim S256x1024 ![] bcast_S_S256x1024 v68
  have v70 : FVec F S256x1024 .f32 := Host.divf v67 v69
  have cst_16 : FVec F S_ .f32 := constant S_ .f32 0x3F800000#32
  have v71 : FVec F S256x1024 .f32 := broadcastInDim S256x1024 ![] bcast_S_S256x1024 cst_16
  have v72 : FVec F S256x1024 .f32 := subf v70 v71
  have cst_17 : FVec F S_ .f32 := constant S_ .f32 0x3F800000#32
  have v73 : FVec F S256x1024 .f32 := broadcastInDim S256x1024 ![] bcast_S_S256x1024 cst_17
  have cst_18 : FVec F S_ .f32 := constant S_ .f32 0x40400000#32
  have v74 : FVec F S256x1024 .f32 := broadcastInDim S256x1024 ![] bcast_S_S256x1024 cst_18
  have v75 : FVec F S256x1024 .f32 := mulf v74 v72
  have v76 : FVec F S256x1024 .f32 := mulf v75 v72
  have cst_19 : FVec F S_ .f32 := constant S_ .f32 0x3F800000#32
  have v77 : FVec F S256x1024 .f32 := broadcastInDim S256x1024 ![] bcast_S_S256x1024 cst_19
  have v78 : FVec F S256x1024 .f32 := mulf v77 v73
  have v79 : FVec F S256x1024 .f32 := subf v76 v78
  have cst_20 : FVec F S_ .f32 := constant S_ .f32 0x40000000#32
  have v80 : FVec F S256x1024 .f32 := broadcastInDim S256x1024 ![] bcast_S_S256x1024 cst_20
  have v81 : FVec F S256x1024 .f32 := Host.divf v79 v80
  have cst_21 : FVec F S_ .f32 := constant S_ .f32 0x40A00000#32
  have v82 : FVec F S256x1024 .f32 := broadcastInDim S256x1024 ![] bcast_S_S256x1024 cst_21
  have v83 : FVec F S256x1024 .f32 := mulf v82 v72
  have v84 : FVec F S256x1024 .f32 := mulf v83 v81
  have cst_22 : FVec F S_ .f32 := constant S_ .f32 0x40000000#32
  have v85 : FVec F S256x1024 .f32 := broadcastInDim S256x1024 ![] bcast_S_S256x1024 cst_22
  have v86 : FVec F S256x1024 .f32 := mulf v85 v72
  have v87 : FVec F S256x1024 .f32 := subf v84 v86
  have cst_23 : FVec F S_ .f32 := constant S_ .f32 0x40400000#32
  have v88 : FVec F S256x1024 .f32 := broadcastInDim S256x1024 ![] bcast_S_S256x1024 cst_23
  have v89 : FVec F S256x1024 .f32 := Host.divf v87 v88
  have v93 : FVec F S256x1024x1 .f32 := broadcastInDim S256x1024x1 ![0, 1] bcast_S256x1024_S256x1024x1_0_1 v89
  v93

set_option maxRecDepth 65536 in
set_option maxHeartbeats 2000000 in
theorem basisB_v90_out (V : Valuation τ sig (Elt F)) :
    after ops_basisB0 V (main_v90 : DevRef τ sig) = basisB_v90 (V (main_v58 : DevRef τ sig)) := by
  simp (disch := decide) only [after_cons, after_nil, nullary_result', unary_result', binary_result', ternary_result', reshape_result', nary4_result', nullary_result_ne', unary_result_ne', binary_result_ne', ternary_result_ne', reshape_result_ne', nary_result_ne']
  rfl

set_option maxRecDepth 65536 in
set_option maxHeartbeats 2000000 in
theorem basisB_v91_out (V : Valuation τ sig (Elt F)) :
    after ops_basisB0 V (main_v91 : DevRef τ sig) = basisB_v91 (V (main_v58 : DevRef τ sig)) := by
  simp (disch := decide) only [after_cons, after_nil, nullary_result', unary_result', binary_result', ternary_result', reshape_result', nary4_result', nullary_result_ne', unary_result_ne', binary_result_ne', ternary_result_ne', reshape_result_ne', nary_result_ne']
  rfl

set_option maxRecDepth 65536 in
set_option maxHeartbeats 2000000 in
theorem basisB_v92_out (V : Valuation τ sig (Elt F)) :
    after ops_basisB0 V (main_v92 : DevRef τ sig) = basisB_v92 (V (main_v58 : DevRef τ sig)) := by
  simp (disch := decide) only [after_cons, after_nil, nullary_result', unary_result', binary_result', ternary_result', reshape_result', nary4_result', nullary_result_ne', unary_result_ne', binary_result_ne', ternary_result_ne', reshape_result_ne', nary_result_ne']
  rfl

set_option maxRecDepth 65536 in
set_option maxHeartbeats 2000000 in
theorem basisB_v93_out (V : Valuation τ sig (Elt F)) :
    after ops_basisB0 V (main_v93 : DevRef τ sig) = basisB_v93 (V (main_v58 : DevRef τ sig)) := by
  simp (disch := decide) only [after_cons, after_nil, nullary_result', unary_result', binary_result', ternary_result', reshape_result', nary4_result', nullary_result_ne', unary_result_ne', binary_result_ne', ternary_result_ne', reshape_result_ne', nary_result_ne']
  rfl

set_option maxRecDepth 65536 in
/-- The interleaving and flattening, from any contents. -/
theorem basisB_post (W : Valuation τ sig (Elt F)) :
    after ops_basisB1 W (main_v95 : DevRef τ sig)
      = shapeCast S256x4096 (concatenate S256x1024x4 2 [⟨S256x1024x1, W (main_v90 : DevRef τ sig)⟩, ⟨S256x1024x1, W (main_v91 : DevRef τ sig)⟩, ⟨S256x1024x1, W (main_v92 : DevRef τ sig)⟩, ⟨S256x1024x1, W (main_v93 : DevRef τ sig)⟩] concatenates_S256x1024x1_S256x1024x1_S256x1024x1_S256x1024x1_S256x1024x4_d2) shapeCasts_S256x1024x4_S256x4096 := by
  simp (disch := decide) only [after_cons, after_nil, nullary_result', unary_result', binary_result', ternary_result', reshape_result', nary4_result', nullary_result_ne', unary_result_ne', binary_result_ne', ternary_result_ne', reshape_result_ne', nary_result_ne']
  rfl

set_option maxRecDepth 65536 in
/-- The stage is the interleaving of its four operands, each a function of the stage's input. -/
theorem basisB_split (v58 : FVec F S256x1024 .f32) :
    RefTerm.basisB v58
      = shapeCast S256x4096 (concatenate S256x1024x4 2 [⟨S256x1024x1, (basisB_v90 v58)⟩, ⟨S256x1024x1, (basisB_v91 v58)⟩, ⟨S256x1024x1, (basisB_v92 v58)⟩, ⟨S256x1024x1, (basisB_v93 v58)⟩] concatenates_S256x1024x1_S256x1024x1_S256x1024x1_S256x1024x1_S256x1024x4_d2) shapeCasts_S256x1024x4_S256x4096 := rfl

/-- After these operations the result buffer holds the stage's function of what its operand buffer held. -/
theorem basisB_out (V : Valuation τ sig (Elt F)) :
    after ops_basisB1 (after ops_basisB0 V) (main_v95 : DevRef τ sig)
      = RefTerm.basisB (V (main_v58 : DevRef τ sig)) := by
  rw [basisB_post, basisB_v90_out, basisB_v91_out, basisB_v92_out, basisB_v93_out, basisB_split]

end

set_option maxRecDepth 65536 in
set_option maxHeartbeats 2000000 in
/-- After these operations the result buffer holds the stage's function of what its operand buffers held. -/
theorem preB_out (V : Valuation τ sig (Elt F)) :
    after ops_preB V (main_v98 : DevRef τ sig)
      = RefTerm.preB (V (main_arg6 : DevRef τ sig)) (V (main_v95 : DevRef τ sig)) (V (main_v61 : DevRef τ sig)) := by
  after_results_simp
  rfl

set_option maxRecDepth 65536 in
set_option maxHeartbeats 2000000 in
/-- After these operations the result buffer holds the stage's function of what its operand buffers held. -/
theorem meanB_out (V : Valuation τ sig (Elt F)) :
    after ops_meanB V (main_v102 : DevRef τ sig)
      = RefTerm.meanB (V (main_v98 : DevRef τ sig)) := by
  after_results_simp
  rfl

set_option maxRecDepth 65536 in
set_option maxHeartbeats 2000000 in
/-- After these operations the result buffer holds the stage's function of what its operand buffers held. -/
theorem varB_out (V : Valuation τ sig (Elt F)) :
    after ops_varB V (main_v103 : DevRef τ sig)
      = RefTerm.varB (V (main_v98 : DevRef τ sig)) := by
  after_results_simp
  rfl

set_option maxRecDepth 65536 in
set_option maxHeartbeats 2000000 in
/-- After these operations the result buffer holds the stage's function of what its operand buffers held. -/
theorem normB_out (V : Valuation τ sig (Elt F)) :
    after ops_normB V (main_v116 : DevRef τ sig)
      = RefTerm.normB (V (main_v102 : DevRef τ sig)) (V (main_v98 : DevRef τ sig)) (V (main_v103 : DevRef τ sig)) (V (main_arg7 : DevRef τ sig)) (V (main_arg8 : DevRef τ sig)) := by
  after_results_simp
  rfl

set_option maxRecDepth 65536 in
set_option maxHeartbeats 2000000 in
/-- After these operations the result buffer holds the stage's function of what its operand buffers held. -/
theorem actB_out (V : Valuation τ sig (Elt F)) :
    after ops_actB V (main_v117 : DevRef τ sig)
      = RefTerm.actB (V (main_v116 : DevRef τ sig)) := by
  after_results_simp
  rfl

set_option maxRecDepth 65536 in
set_option maxHeartbeats 2000000 in
/-- After these operations the result buffer holds the stage's function of what its operand buffers held. -/
theorem head_out (V : Valuation τ sig (Elt F)) :
    after ops_head V (main_v133 : DevRef τ sig)
      = RefTerm.head (V (main_arg9 : DevRef τ sig)) (V (main_v117 : DevRef τ sig)) (V (main_arg10 : DevRef τ sig)) := by
  after_results_simp
  rfl

end Cert.ReferenceIdeal.RefRun

end
-- ==== Proof.RefRun.lean ====
import proofs.«114522_j54279796687469_2_alg».proof.Proof.Gen.ReferenceIdeal
import proofs.«114522_j54279796687469_2_alg».proof.Proof.RefTerm
import proofs.«114522_j54279796687469_2_alg».proof.Proof.RefRun.Lemmas
import proofs.«114522_j54279796687469_2_alg».proof.Proof.RefRun.Ops0
import proofs.«114522_j54279796687469_2_alg».proof.Proof.RefRun.Ops1
import proofs.«114522_j54279796687469_2_alg».proof.Proof.RefRun.Ops2
import proofs.«114522_j54279796687469_2_alg».proof.Proof.RefRun.OutA
import proofs.«114522_j54279796687469_2_alg».proof.Proof.RefRun.OutB
import Idealize.ShloMosaic.Lib.StableHlo.Run
import Idealize.ShloMosaic.Lib.Pipeline.Frame

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- @main's operations in order, the callees' operations inline at their calls over the calls' buffer
    records: the three windows' lines one after the other. -/
abbrev ops : List (HloOp τ sig (Elt F)) := opsP0 ++ (opsP1 ++ opsP2)

/-- @main is that straight line: its three windows in order, each the line of its own operations. -/
theorem main_eq (c : Dev nD) : main (F := F) c = seq ops := by
  simp only [main, ops, seq_append, part0_eq, part1_eq, part2_eq]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  List.forall_iff_forall_mem.mpr (forall_mem_append (forall_mem_append (forall_mem_append (forall_mem_append (forall_mem_append (forall_mem_append (forall_mem_append (forall_mem_append ops_siluA_sub ops_baseA_sub) ops_basisA0_sub) ops_basisA1_sub) ops_preA_sub) ops_meanA_sub) ops_varA_sub) ops_normA0_sub) (forall_mem_append (forall_mem_append (forall_mem_append (forall_mem_append (forall_mem_append ops_normA1_sub ops_actA_sub) ops_siluB_sub) ops_baseB_sub) ops_basisB0_sub) (forall_mem_append (forall_mem_append (forall_mem_append (forall_mem_append (forall_mem_append (forall_mem_append ops_basisB1_sub ops_preB_sub) ops_meanB_sub) ops_varB_sub) ops_normB_sub) ops_actB_sub) ops_head_sub)))

theorem ops_fresh : ∀ op ∈ (ops : List (HloOp τ sig (Elt F))), op.fresh = ∅ :=
  forall_mem_append (forall_mem_append (forall_mem_append (forall_mem_append (forall_mem_append (forall_mem_append (forall_mem_append (forall_mem_append ops_siluA_fresh ops_baseA_fresh) ops_basisA0_fresh) ops_basisA1_fresh) ops_preA_fresh) ops_meanA_fresh) ops_varA_fresh) ops_normA0_fresh) (forall_mem_append (forall_mem_append (forall_mem_append (forall_mem_append (forall_mem_append ops_normA1_fresh ops_actA_fresh) ops_siluB_fresh) ops_baseB_fresh) ops_basisB0_fresh) (forall_mem_append (forall_mem_append (forall_mem_append (forall_mem_append (forall_mem_append (forall_mem_append ops_basisB1_fresh ops_preB_fresh) ops_meanB_fresh) ops_varB_fresh) ops_normB_fresh) ops_actB_fresh) ops_head_fresh))

/-! The stage lemmas restated for rewriting at any reference (the reference un-indexed). -/

theorem siluA_out' (V : Valuation τ sig (Elt F)) :
    after ops_siluA V (no_index (main_v0 : DevRef τ sig))
      = RefTerm.siluA (V (main_arg0 : DevRef τ sig)) := siluA_out V

theorem baseA_out' (V : Valuation τ sig (Elt F)) :
    after ops_baseA V (no_index (main_v2 : DevRef τ sig))
      = RefTerm.baseA (V (main_arg1 : DevRef τ sig)) (V (main_v0 : DevRef τ sig)) := baseA_out V

theorem basisA_out' (V : Valuation τ sig (Elt F)) :
    after ops_basisA1 (after ops_basisA0 V) (no_index (main_v36 : DevRef τ sig))
      = RefTerm.basisA (V (main_arg0 : DevRef τ sig)) := basisA_out V

theorem preA_out' (V : Valuation τ sig (Elt F)) :
    after ops_preA V (no_index (main_v39 : DevRef τ sig))
      = RefTerm.preA (V (main_arg2 : DevRef τ sig)) (V (main_v36 : DevRef τ sig)) (V (main_v2 : DevRef τ sig)) := preA_out V

theorem meanA_out' (V : Valuation τ sig (Elt F)) :
    after ops_meanA V (no_index (main_v43 : DevRef τ sig))
      = RefTerm.meanA (V (main_v39 : DevRef τ sig)) := meanA_out V

theorem varA_out' (V : Valuation τ sig (Elt F)) :
    after ops_varA V (no_index (main_v44 : DevRef τ sig))
      = RefTerm.varA (V (main_v39 : DevRef τ sig)) := varA_out V

theorem normA_out' (V : Valuation τ sig (Elt F)) :
    after ops_normA1 (after ops_normA0 V) (no_index (main_v57 : DevRef τ sig))
      = RefTerm.normA (V (main_v43 : DevRef τ sig)) (V (main_v39 : DevRef τ sig)) (V (main_v44 : DevRef τ sig)) (V (main_arg3 : DevRef τ sig)) (V (main_arg4 : DevRef τ sig)) := normA_out V

theorem actA_out' (V : Valuation τ sig (Elt F)) :
    after ops_actA V (no_index (main_v58 : DevRef τ sig))
      = RefTerm.actA (V (main_v57 : DevRef τ sig)) := actA_out V

theorem siluB_out' (V : Valuation τ sig (Elt F)) :
    after ops_siluB V (no_index (main_v59 : DevRef τ sig))
      = RefTerm.siluB (V (main_v58 : DevRef τ sig)) := siluB_out V

theorem baseB_out' (V : Valuation τ sig (Elt F)) :
    after ops_baseB V (no_index (main_v61 : DevRef τ sig))
      = RefTerm.baseB (V (main_arg5 : DevRef τ sig)) (V (main_v59 : DevRef τ sig)) := baseB_out V

theorem basisB_out' (V : Valuation τ sig (Elt F)) :
    after ops_basisB1 (after ops_basisB0 V) (no_index (main_v95 : DevRef τ sig))
      = RefTerm.basisB (V (main_v58 : DevRef τ sig)) := basisB_out V

theorem preB_out' (V : Valuation τ sig (Elt F)) :
    after ops_preB V (no_index (main_v98 : DevRef τ sig))
      = RefTerm.preB (V (main_arg6 : DevRef τ sig)) (V (main_v95 : DevRef τ sig)) (V (main_v61 : DevRef τ sig)) := preB_out V

theorem meanB_out' (V : Valuation τ sig (Elt F)) :
    after ops_meanB V (no_index (main_v102 : DevRef τ sig))
      = RefTerm.meanB (V (main_v98 : DevRef τ sig)) := meanB_out V

theorem varB_out' (V : Valuation τ sig (Elt F)) :
    after ops_varB V (no_index (main_v103 : DevRef τ sig))
      = RefTerm.varB (V (main_v98 : DevRef τ sig)) := varB_out V

theorem normB_out' (V : Valuation τ sig (Elt F)) :
    after ops_normB V (no_index (main_v116 : DevRef τ sig))
      = RefTerm.normB (V (main_v102 : DevRef τ sig)) (V (main_v98 : DevRef τ sig)) (V (main_v103 : DevRef τ sig)) (V (main_arg7 : DevRef τ sig)) (V (main_arg8 : DevRef τ sig)) := normB_out V

theorem actB_out' (V : Valuation τ sig (Elt F)) :
    after ops_actB V (no_index (main_v117 : DevRef τ sig))
      = RefTerm.actB (V (main_v116 : DevRef τ sig)) := actB_out V

theorem head_out' (V : Valuation τ sig (Elt F)) :
    after ops_head V (no_index (main_v133 : DevRef τ sig))
      = RefTerm.head (V (main_arg9 : DevRef τ sig)) (V (main_v117 : DevRef τ sig)) (V (main_arg10 : DevRef τ sig)) := head_out V

set_option maxRecDepth 16384 in
set_option maxHeartbeats 4000000 in
/-- After the whole line the result buffer holds the network's function of what the argument buffers held: each
    stage's result at its stage function of its operands, an operand read through the lines in between, which do
    not write it. -/
theorem out_eq (V : Valuation τ sig (Elt F)) :
    after ops V (main_v133 : DevRef τ sig) = RefTerm.refNet (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) := by
  simp (disch := decide) only [ops, opsP0, opsP1, opsP2, Idealize.ShloMosaic.StableHlo.after_append, siluA_out', baseA_out', basisA_out', preA_out', meanA_out', varA_out', normA_out', actA_out', siluB_out', baseB_out', basisB_out', preB_out', meanB_out', varB_out', normB_out', actB_out', head_out', ops_siluA_frame, ops_baseA_frame, ops_basisA0_frame, ops_basisA1_frame, ops_preA_frame, ops_meanA_frame, ops_varA_frame, ops_normA0_frame, ops_normA1_frame, ops_actA_frame, ops_siluB_frame, ops_baseB_frame, ops_basisB0_frame, ops_basisB1_frame, ops_preB_frame, ops_meanB_frame, ops_varB_frame, ops_normB_frame, ops_actB_frame, ops_head_frame]
  rfl

set_option maxRecDepth 16384 in
/-- The line writes no argument buffer. -/
theorem arg0_eq (V : Valuation τ sig (Elt F)) : after ops V (main_arg0 : DevRef τ sig) = V (main_arg0 : DevRef τ sig) := by
  simp (disch := decide) only [ops, opsP0, opsP1, opsP2, Idealize.ShloMosaic.StableHlo.after_append, ops_siluA_frame, ops_baseA_frame, ops_basisA0_frame, ops_basisA1_frame, ops_preA_frame, ops_meanA_frame, ops_varA_frame, ops_normA0_frame, ops_normA1_frame, ops_actA_frame, ops_siluB_frame, ops_baseB_frame, ops_basisB0_frame, ops_basisB1_frame, ops_preB_frame, ops_meanB_frame, ops_varB_frame, ops_normB_frame, ops_actB_frame, ops_head_frame]

set_option maxRecDepth 16384 in
/-- The line writes no argument buffer. -/
theorem arg1_eq (V : Valuation τ sig (Elt F)) : after ops V (main_arg1 : DevRef τ sig) = V (main_arg1 : DevRef τ sig) := by
  simp (disch := decide) only [ops, opsP0, opsP1, opsP2, Idealize.ShloMosaic.StableHlo.after_append, ops_siluA_frame, ops_baseA_frame, ops_basisA0_frame, ops_basisA1_frame, ops_preA_frame, ops_meanA_frame, ops_varA_frame, ops_normA0_frame, ops_normA1_frame, ops_actA_frame, ops_siluB_frame, ops_baseB_frame, ops_basisB0_frame, ops_basisB1_frame, ops_preB_frame, ops_meanB_frame, ops_varB_frame, ops_normB_frame, ops_actB_frame, ops_head_frame]

set_option maxRecDepth 16384 in
/-- The line writes no argument buffer. -/
theorem arg2_eq (V : Valuation τ sig (Elt F)) : after ops V (main_arg2 : DevRef τ sig) = V (main_arg2 : DevRef τ sig) := by
  simp (disch := decide) only [ops, opsP0, opsP1, opsP2, Idealize.ShloMosaic.StableHlo.after_append, ops_siluA_frame, ops_baseA_frame, ops_basisA0_frame, ops_basisA1_frame, ops_preA_frame, ops_meanA_frame, ops_varA_frame, ops_normA0_frame, ops_normA1_frame, ops_actA_frame, ops_siluB_frame, ops_baseB_frame, ops_basisB0_frame, ops_basisB1_frame, ops_preB_frame, ops_meanB_frame, ops_varB_frame, ops_normB_frame, ops_actB_frame, ops_head_frame]

set_option maxRecDepth 16384 in
/-- The line writes no argument buffer. -/
theorem arg3_eq (V : Valuation τ sig (Elt F)) : after ops V (main_arg3 : DevRef τ sig) = V (main_arg3 : DevRef τ sig) := by
  simp (disch := decide) only [ops, opsP0, opsP1, opsP2, Idealize.ShloMosaic.StableHlo.after_append, ops_siluA_frame, ops_baseA_frame, ops_basisA0_frame, ops_basisA1_frame, ops_preA_frame, ops_meanA_frame, ops_varA_frame, ops_normA0_frame, ops_normA1_frame, ops_actA_frame, ops_siluB_frame, ops_baseB_frame, ops_basisB0_frame, ops_basisB1_frame, ops_preB_frame, ops_meanB_frame, ops_varB_frame, ops_normB_frame, ops_actB_frame, ops_head_frame]

set_option maxRecDepth 16384 in
/-- The line writes no argument buffer. -/
theorem arg4_eq (V : Valuation τ sig (Elt F)) : after ops V (main_arg4 : DevRef τ sig) = V (main_arg4 : DevRef τ sig) := by
  simp (disch := decide) only [ops, opsP0, opsP1, opsP2, Idealize.ShloMosaic.StableHlo.after_append, ops_siluA_frame, ops_baseA_frame, ops_basisA0_frame, ops_basisA1_frame, ops_preA_frame, ops_meanA_frame, ops_varA_frame, ops_normA0_frame, ops_normA1_frame, ops_actA_frame, ops_siluB_frame, ops_baseB_frame, ops_basisB0_frame, ops_basisB1_frame, ops_preB_frame, ops_meanB_frame, ops_varB_frame, ops_normB_frame, ops_actB_frame, ops_head_frame]

set_option maxRecDepth 16384 in
/-- The line writes no argument buffer. -/
theorem arg5_eq (V : Valuation τ sig (Elt F)) : after ops V (main_arg5 : DevRef τ sig) = V (main_arg5 : DevRef τ sig) := by
  simp (disch := decide) only [ops, opsP0, opsP1, opsP2, Idealize.ShloMosaic.StableHlo.after_append, ops_siluA_frame, ops_baseA_frame, ops_basisA0_frame, ops_basisA1_frame, ops_preA_frame, ops_meanA_frame, ops_varA_frame, ops_normA0_frame, ops_normA1_frame, ops_actA_frame, ops_siluB_frame, ops_baseB_frame, ops_basisB0_frame, ops_basisB1_frame, ops_preB_frame, ops_meanB_frame, ops_varB_frame, ops_normB_frame, ops_actB_frame, ops_head_frame]

set_option maxRecDepth 16384 in
/-- The line writes no argument buffer. -/
theorem arg6_eq (V : Valuation τ sig (Elt F)) : after ops V (main_arg6 : DevRef τ sig) = V (main_arg6 : DevRef τ sig) := by
  simp (disch := decide) only [ops, opsP0, opsP1, opsP2, Idealize.ShloMosaic.StableHlo.after_append, ops_siluA_frame, ops_baseA_frame, ops_basisA0_frame, ops_basisA1_frame, ops_preA_frame, ops_meanA_frame, ops_varA_frame, ops_normA0_frame, ops_normA1_frame, ops_actA_frame, ops_siluB_frame, ops_baseB_frame, ops_basisB0_frame, ops_basisB1_frame, ops_preB_frame, ops_meanB_frame, ops_varB_frame, ops_normB_frame, ops_actB_frame, ops_head_frame]

set_option maxRecDepth 16384 in
/-- The line writes no argument buffer. -/
theorem arg7_eq (V : Valuation τ sig (Elt F)) : after ops V (main_arg7 : DevRef τ sig) = V (main_arg7 : DevRef τ sig) := by
  simp (disch := decide) only [ops, opsP0, opsP1, opsP2, Idealize.ShloMosaic.StableHlo.after_append, ops_siluA_frame, ops_baseA_frame, ops_basisA0_frame, ops_basisA1_frame, ops_preA_frame, ops_meanA_frame, ops_varA_frame, ops_normA0_frame, ops_normA1_frame, ops_actA_frame, ops_siluB_frame, ops_baseB_frame, ops_basisB0_frame, ops_basisB1_frame, ops_preB_frame, ops_meanB_frame, ops_varB_frame, ops_normB_frame, ops_actB_frame, ops_head_frame]

set_option maxRecDepth 16384 in
/-- The line writes no argument buffer. -/
theorem arg8_eq (V : Valuation τ sig (Elt F)) : after ops V (main_arg8 : DevRef τ sig) = V (main_arg8 : DevRef τ sig) := by
  simp (disch := decide) only [ops, opsP0, opsP1, opsP2, Idealize.ShloMosaic.StableHlo.after_append, ops_siluA_frame, ops_baseA_frame, ops_basisA0_frame, ops_basisA1_frame, ops_preA_frame, ops_meanA_frame, ops_varA_frame, ops_normA0_frame, ops_normA1_frame, ops_actA_frame, ops_siluB_frame, ops_baseB_frame, ops_basisB0_frame, ops_basisB1_frame, ops_preB_frame, ops_meanB_frame, ops_varB_frame, ops_normB_frame, ops_actB_frame, ops_head_frame]

set_option maxRecDepth 16384 in
/-- The line writes no argument buffer. -/
theorem arg9_eq (V : Valuation τ sig (Elt F)) : after ops V (main_arg9 : DevRef τ sig) = V (main_arg9 : DevRef τ sig) := by
  simp (disch := decide) only [ops, opsP0, opsP1, opsP2, Idealize.ShloMosaic.StableHlo.after_append, ops_siluA_frame, ops_baseA_frame, ops_basisA0_frame, ops_basisA1_frame, ops_preA_frame, ops_meanA_frame, ops_varA_frame, ops_normA0_frame, ops_normA1_frame, ops_actA_frame, ops_siluB_frame, ops_baseB_frame, ops_basisB0_frame, ops_basisB1_frame, ops_preB_frame, ops_meanB_frame, ops_varB_frame, ops_normB_frame, ops_actB_frame, ops_head_frame]

set_option maxRecDepth 16384 in
/-- The line writes no argument buffer. -/
theorem arg10_eq (V : Valuation τ sig (Elt F)) : after ops V (main_arg10 : DevRef τ sig) = V (main_arg10 : DevRef τ sig) := by
  simp (disch := decide) only [ops, opsP0, opsP1, opsP2, Idealize.ShloMosaic.StableHlo.after_append, ops_siluA_frame, ops_baseA_frame, ops_basisA0_frame, ops_basisA1_frame, ops_preA_frame, ops_meanA_frame, ops_varA_frame, ops_normA0_frame, ops_normA1_frame, ops_actA_frame, ops_siluB_frame, ops_baseB_frame, ops_basisB0_frame, ops_basisB1_frame, ops_preB_frame, ops_meanB_frame, ops_varB_frame, ops_normB_frame, ops_actB_frame, ops_head_frame]

/-- On every device, for any float values, from any memory with zero counters: every weakly fair execution of
    @main terminates with the result buffer at the network's function of the arguments' launch contents, the
    arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v133) = RefTerm.refNet (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  (θ_run defs _ _).mono (fun _ h c => ⟨(h c main_v133).trans (out_eq _),
      (h c main_arg0).trans (arg0_eq _),
      (h c main_arg1).trans (arg1_eq _),
      (h c main_arg2).trans (arg2_eq _),
      (h c main_arg3).trans (arg3_eq _),
      (h c main_arg4).trans (arg4_eq _),
      (h c main_arg5).trans (arg5_eq _),
      (h c main_arg6).trans (arg6_eq _),
      (h c main_arg7).trans (arg7_eq _),
      (h c main_arg8).trans (arg8_eq _),
      (h c main_arg9).trans (arg9_eq _),
      (h c main_arg10).trans (arg10_eq _)⟩)
    (run_seq scopedRefs_eq scopedSems_eq defs main (fun _ => ops) main_eq (fun _ => ops_sub) m ρ (fun _ => ops_fresh))

end Cert.ReferenceIdeal.RefRun

end
-- ==== Proof.lean ====
/-
  The certificate's five claims.
  The two kernel programs' frames: @main is six segments (host operations, the first layer's accumulating region,
  three more stretches of host operations, the second layer's region); every weakly fair execution runs through them and
  leaves each argument array as launched. The reference's frame is its run with the result dropped. The idealised
  kernel is the kernel's own text read at the exact instance, so nothing is owed for it. At the exact instance the two
  programs end with equal results: the kernel's result array is the reference's network function of the arguments —
  the first layer's sums accumulated block by block over the contracted axis are the reference's whole sums (sums of
  extended reals regroup freely); a row normalisation that multiplies by the reciprocal square root of variance + eps
  is the one that divides by its square root, because a mean of squares plus a positive eps is positive; everything
  else is the same operations on the same values.
-/
import proofs.«114522_j54279796687469_2_alg».proof.Defs
import proofs.«114522_j54279796687469_2_alg».proof.Proof.Gen.Kernel
import proofs.«114522_j54279796687469_2_alg».proof.Proof.Gen.KernelIdeal
import proofs.«114522_j54279796687469_2_alg».proof.Proof.Gen.ReferenceIdeal
import proofs.«114522_j54279796687469_2_alg».proof.Proof.Gen.Pre_finite_inputs
import proofs.«114522_j54279796687469_2_alg».proof.Proof.RunK
import proofs.«114522_j54279796687469_2_alg».proof.Proof.Bridge
import proofs.«114522_j54279796687469_2_alg».proof.Proof.RefRun
import Idealize.ShloMosaic.Adequacy
import Idealize.ShloMosaic.Init

noncomputable section

namespace Cert.Proof

open Idealize.ShloMosaic Idealize.SL.Sem

theorem frame_k : Cert.frame_Kernel (hKernel := Cert.Kernel.Gen.facts) (hPre_finite_inputs := Cert.Pre_finite_inputs.Gen.facts) :=
  fun m ρ _ => Cert.Kernel.Hand.frame m ρ

theorem frame_ki : Cert.frame_KernelIdeal (hKernelIdeal := Cert.KernelIdeal.Gen.facts) (hPre_finite_inputs := Cert.Pre_finite_inputs.Gen.facts) :=
  fun m ρ _ => Cert.KernelIdeal.Hand.frame m ρ

theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.RefRun.run (F := Ideal) m ρ)

/-- Both programs end at the reference's network function of the (agreeing) arguments. -/
theorem algebraic : Cert.algebraic_KernelIdeal_ReferenceIdeal (hKernelIdeal := Cert.KernelIdeal.Gen.facts) (hReferenceIdeal := Cert.ReferenceIdeal.Gen.facts) (hPre_finite_inputs := Cert.Pre_finite_inputs.Gen.facts) := by
  intro m ρ m' ρ' _ hagree
  refine ⟨fun c => (Cert.KernelIdeal.Hand.dat1 (Cert.KernelIdeal.Hand.V5 m ρ) c).arrAt 8 Cert.KernelIdeal.cfg1.N, Cert.KernelIdeal.Hand.run_value m ρ, ?_⟩
  refine (θ_run Cert.ReferenceIdeal.defs _ _).mono (fun _ h c => ⟨(h c).1.trans ?_, (h c).2⟩)
    (Cert.ReferenceIdeal.RefRun.run (F := Ideal) m' ρ')
  obtain ⟨h0, h1, h2, h3, h4, h5, h6, h7, h8, h9, h10⟩ := hagree c
  rw [h0, h1, h2, h3, h4, h5, h6, h7, h8, h9, h10]
  exact (Cert.KernelIdeal.Hand.value_eq m ρ c).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
